-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x262144x16 : Shape := ⟨3, ![32, 262144, 16]⟩
abbrev S32x262144 : Shape := ⟨2, ![32, 262144]⟩
abbrev S_ : Shape := ⟨0, ![]⟩

class Facts : Prop where
  bcast_S_S32x262144x16 : S_.BroadcastsInDim S32x262144x16 (![] : Fin 0 → Fin S32x262144x16.rank)
  reducesTo_S32x262144x16_S_d0_1_2 : S32x262144x16.ReducesTo [0, 1, 2] S_
  h_S_ : 0 < S_.numel
  bcast_S_S32x262144 : S_.BroadcastsInDim S32x262144 (![] : Fin 0 → Fin S32x262144.rank)
  reducesTo_S32x262144_S_d0_1 : S32x262144.ReducesTo [0, 1] S_

variable [Facts]

def fn {F : FTy → Type} [FloatOps F] (main_arg0 : FVec F S32x262144x16 .f32) (main_arg1 : FVec F S32x262144 .f32) : IVec S_ 1 :=
  let main_v0 : FVec F S32x262144x16 .f32 := Host.absf main_arg0
  let main_cst : FVec F S_ .f32 := constant S_ .f32 0x7F800000#32
  let main_v1 : FVec F S32x262144x16 .f32 := broadcastInDim S32x262144x16 ![] bcast_S_S32x262144x16 main_cst
  let main_v2 : IVec S32x262144x16 1 := cmpf .olt main_v0 main_v1
  let main_c : IVec S_ 1 := constantI S_ 1 1#1
  let main_v3 : IVec S_ 1 := (fun x v => Host.reduce IntOp.andi x v reducesTo_S32x262144x16_S_d0_1_2 h_S_) main_v2 main_c
  let main_v4 : FVec F S32x262144 .f32 := Host.absf main_arg1
  let main_cst_0 : FVec F S_ .f32 := constant S_ .f32 0x7F800000#32
  let main_v5 : FVec F S32x262144 .f32 := broadcastInDim S32x262144 ![] bcast_S_S32x262144 main_cst_0
  let main_v6 : IVec S32x262144 1 := cmpf .olt main_v4 main_v5
  let main_c_1 : IVec S_ 1 := constantI S_ 1 1#1
  let main_v7 : IVec S_ 1 := (fun x v => Host.reduce IntOp.andi x v reducesTo_S32x262144_S_d0_1 h_S_) main_v6 main_c_1
  let main_v8 : IVec S_ 1 := andi main_v3 main_v7
  main_v8
-- ==== Kernel.lean ====
abbrev S32x262144x16 : Shape := ⟨3, ![32, 262144, 16]⟩
abbrev S32x262144 : Shape := ⟨2, ![32, 262144]⟩
abbrev S_ : Shape := ⟨0, ![]⟩
abbrev S32 : Shape := ⟨1, ![32]⟩
abbrev S2048 : Shape := ⟨1, ![2048]⟩
abbrev S1x2048 : Shape := ⟨2, ![1, 2048]⟩
abbrev S32x1 : Shape := ⟨2, ![32, 1]⟩
abbrev S32x2048 : Shape := ⟨2, ![32, 2048]⟩
abbrev S32x2048x1 : Shape := ⟨3, ![32, 2048, 1]⟩
abbrev S1 : Shape := ⟨1, ![1]⟩
abbrev S1x1x1 : Shape := ⟨3, ![1, 1, 1]⟩
abbrev S32x2048x16 : Shape := ⟨3, ![32, 2048, 16]⟩
abbrev S1x32x16 : Shape := ⟨3, ![1, 32, 16]⟩
abbrev S32x16 : Shape := ⟨2, ![32, 16]⟩
abbrev S1x1 : Shape := ⟨2, ![1, 1]⟩
abbrev S1x16 : Shape := ⟨2, ![1, 16]⟩
abbrev S16 : Shape := ⟨1, ![16]⟩
abbrev S1x1x16 : Shape := ⟨3, ![1, 1, 16]⟩

abbrev nBuf : Space → Nat
  | .hbm => 77
  | .vmem => 3
  | .smem => 1
  | _ => 0

abbrev bufTy : (tb : Table) → Fin (tcTables nBuf tb) → BufTy
  | .hbm, ⟨0, _⟩ => ⟨S32x262144x16, .f32⟩
  | .hbm, ⟨1, _⟩ => ⟨S32x262144, .f32⟩
  | .hbm, ⟨2, _⟩ => ⟨S_, .f32⟩
  | .hbm, ⟨3, _⟩ => ⟨S32x262144, .f32⟩
  | .hbm, ⟨4, _⟩ => ⟨S32x262144, .i1⟩
  | .hbm, ⟨5, _⟩ => ⟨S_, .i32⟩
  | .hbm, ⟨6, _⟩ => ⟨S_, .i32⟩
  | .hbm, ⟨7, _⟩ => ⟨S32x262144, .i32⟩
  | .hbm, ⟨8, _⟩ => ⟨S32x262144, .i32⟩
  | .hbm, ⟨9, _⟩ => ⟨S32x262144, .i32⟩
  | .hbm, ⟨10, _⟩ => ⟨S32x262144, .i32⟩
  | .hbm, ⟨11, _⟩ => ⟨S32x262144, .i32⟩
  | .hbm, ⟨12, _⟩ => ⟨S32x262144, .i32⟩
  | .hbm, ⟨13, _⟩ => ⟨S32x262144, .i32⟩
  | .hbm, ⟨14, _⟩ => ⟨S_, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S2048, .i32⟩
  | .hbm, ⟨20, _⟩ => ⟨S1x2048, .i32⟩
  | .hbm, ⟨21, _⟩ => ⟨S32x1, .i32⟩
  | .hbm, ⟨22, _⟩ => ⟨S_, .i32⟩
  | .hbm, ⟨23, _⟩ => ⟨S32x1, .i32⟩
  | .hbm, ⟨24, _⟩ => ⟨S32x1, .i1⟩
  | .hbm, ⟨25, _⟩ => ⟨S_, .i32⟩
  | .hbm, ⟨26, _⟩ => ⟨S32x1, .i32⟩
  | .hbm, ⟨27, _⟩ => ⟨S32x1, .i32⟩
  | .hbm, ⟨28, _⟩ => ⟨S32x2048, .i32⟩
  | .hbm, ⟨29, _⟩ => ⟨S32x2048, .i32⟩
  | .hbm, ⟨30, _⟩ => ⟨S32x2048, .i32⟩
  | .hbm, ⟨31, _⟩ => ⟨S_, .i32⟩
  | .hbm, ⟨32, _⟩ => ⟨S32x2048, .i32⟩
  | .hbm, ⟨33, _⟩ => ⟨S32x2048, .i1⟩
  | .hbm, ⟨34, _⟩ => ⟨S_, .i32⟩
  | .hbm, ⟨35, _⟩ => ⟨S32x2048, .i32⟩
  | .hbm, ⟨36, _⟩ => ⟨S32x2048, .i1⟩
  | .hbm, ⟨37, _⟩ => ⟨S_, .i32⟩
  | .hbm, ⟨38, _⟩ => ⟨S32x1, .i32⟩
  | .hbm, ⟨39, _⟩ => ⟨S32x1, .i1⟩
  | .hbm, ⟨40, _⟩ => ⟨S32x2048, .i1⟩
  | .hbm, ⟨41, _⟩ => ⟨S32x2048, .i1⟩
  | .hbm, ⟨42, _⟩ => ⟨S32x2048, .i1⟩
  | .hbm, ⟨43, _⟩ => ⟨S32x2048, .i32⟩
  | .hbm, ⟨44, _⟩ => ⟨S32x2048, .i32⟩
  | .hbm, ⟨45, _⟩ => ⟨S32x2048, .i32⟩
  | .hbm, ⟨46, _⟩ => ⟨S_, .i32⟩
  | .hbm, ⟨47, _⟩ => ⟨S32x2048, .i32⟩
  | .hbm, ⟨48, _⟩ => ⟨S32x2048, .i1⟩
  | .hbm, ⟨49, _⟩ => ⟨S_, .i32⟩
  | .hbm, ⟨50, _⟩ => ⟨S32x2048, .i32⟩
  | .hbm, ⟨51, _⟩ => ⟨S32x2048, .i32⟩
  | .hbm, ⟨52, _⟩ => ⟨S32x2048, .i32⟩
  | .hbm, ⟨53, _⟩ => ⟨S32x2048x1, .i32⟩
  | .hbm, ⟨54, _⟩ => ⟨S1, .i32⟩
  | .hbm, ⟨55, _⟩ => ⟨S_, .i32⟩
  | .hbm, ⟨56, _⟩ => ⟨S32x2048x1, .i32⟩
  | .hbm, ⟨57, _⟩ => ⟨S32x2048x1, .i1⟩
  | .hbm, ⟨58, _⟩ => ⟨S1x1x1, .i32⟩
  | .hbm, ⟨59, _⟩ => ⟨S32x2048x1, .i32⟩
  | .hbm, ⟨60, _⟩ => ⟨S32x2048x1, .i1⟩
  | .hbm, ⟨61, _⟩ => ⟨S32x2048x1, .i1⟩
  | .hbm, ⟨62, _⟩ => ⟨S_, .i1⟩
  | .hbm, ⟨63, _⟩ => ⟨S32x2048, .i1⟩
  | .hbm, ⟨64, _⟩ => ⟨S32x2048, .i32⟩
  | .hbm, ⟨65, _⟩ => ⟨S_, .i32⟩
  | .hbm, ⟨66, _⟩ => ⟨S32x2048, .i32⟩
  | .hbm, ⟨67, _⟩ => ⟨S32x2048, .i32⟩
  | .hbm, ⟨68, _⟩ => ⟨S32x1, .i32⟩
  | .hbm, ⟨69, _⟩ => ⟨S_, .i32⟩
  | .hbm, ⟨70, _⟩ => ⟨S32x1, .i32⟩
  | .hbm, ⟨71, _⟩ => ⟨S32x1, .i1⟩
  | .hbm, ⟨72, _⟩ => ⟨S_, .i32⟩
  | .hbm, ⟨73, _⟩ => ⟨S_, .i32⟩
  | .hbm, ⟨74, _⟩ => ⟨S32x2048, .i1⟩
  | .hbm, ⟨75, _⟩ => ⟨S32x2048, .i32⟩
  | .hbm, ⟨76, _⟩ => ⟨S32x2048x16, .f32⟩
  | .local _ .vmem, ⟨0, _⟩ => ⟨S1x32x16, .f32⟩
  | .local _ .vmem, ⟨1, _⟩ => ⟨S1x32x16, .f32⟩
  | .local _ .vmem, ⟨2, _⟩ => ⟨S32x16, .f32⟩
  | .local _ .smem, ⟨0, _⟩ => ⟨S32x2048, .i32⟩
  | _, _ => ⟨S32x262144x16, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_call1_v0 : Ref sig .tc := ⟨.hbm, 10, rfl⟩
abbrev main_call1_v1_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call2_c : Ref sig .tc := ⟨.hbm, 22, rfl⟩
abbrev main_call2_v0 : Ref sig .tc := ⟨.hbm, 23, rfl⟩
abbrev main_call2_v1 : Ref sig .tc := ⟨.hbm, 24, rfl⟩
abbrev main_call2_c_0 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_v5 : Ref sig .tc := ⟨.hbm, 29, rfl⟩
abbrev main_call2_v6 : Ref sig .tc := ⟨.hbm, 30, rfl⟩
abbrev main_call2_c_1 : Ref sig .tc := ⟨.hbm, 31, rfl⟩
abbrev main_call2_v7 : Ref sig .tc := ⟨.hbm, 32, rfl⟩
abbrev main_call2_v8 : Ref sig .tc := ⟨.hbm, 33, rfl⟩
abbrev main_call2_c_2 : Ref sig .tc := ⟨.hbm, 34, rfl⟩
abbrev main_call2_v9 : Ref sig .tc := ⟨.hbm, 35, rfl⟩
abbrev main_call2_v10 : Ref sig .tc := ⟨.hbm, 36, rfl⟩
abbrev main_call2_c_3 : Ref sig .tc := ⟨.hbm, 37, rfl⟩
abbrev main_call2_v11 : Ref sig .tc := ⟨.hbm, 38, rfl⟩
abbrev main_call2_v12 : Ref sig .tc := ⟨.hbm, 39, rfl⟩
abbrev main_call2_v13 : Ref sig .tc := ⟨.hbm, 40, rfl⟩
abbrev main_call2_v14 : Ref sig .tc := ⟨.hbm, 41, rfl⟩
abbrev main_call2_v15 : Ref sig .tc := ⟨.hbm, 42, rfl⟩
abbrev main_call2_v16 : Ref sig .tc := ⟨.hbm, 43, rfl⟩
abbrev main_call2_v17 : Ref sig .tc := ⟨.hbm, 44, rfl⟩
abbrev main_v11 : Ref sig .tc := ⟨.hbm, 45, rfl⟩
abbrev main_call3_c : Ref sig .tc := ⟨.hbm, 46, rfl⟩
abbrev main_call3_v0 : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_c_1 : Ref sig .tc := ⟨.hbm, 54, rfl⟩
abbrev main_call3_c_2 : Ref sig .tc := ⟨.hbm, 55, rfl⟩
abbrev main_call3_v6 : Ref sig .tc := ⟨.hbm, 56, rfl⟩
abbrev main_call3_v7 : Ref sig .tc := ⟨.hbm, 57, rfl⟩
abbrev main_call3_v8 : Ref sig .tc := ⟨.hbm, 58, rfl⟩
abbrev main_call3_v9 : Ref sig .tc := ⟨.hbm, 59, rfl⟩
abbrev main_call3_v10 : Ref sig .tc := ⟨.hbm, 60, rfl⟩
abbrev main_call3_v11 : Ref sig .tc := ⟨.hbm, 61, rfl⟩
abbrev main_call3_c_3 : Ref sig .tc := ⟨.hbm, 62, rfl⟩
abbrev main_call3_v12 : Ref sig .tc := ⟨.hbm, 63, rfl⟩
abbrev main_call3_v13 : Ref sig .tc := ⟨.hbm, 64, rfl⟩
abbrev main_call3_c_4 : Ref sig .tc := ⟨.hbm, 65, rfl⟩
abbrev main_call3_v14 : Ref sig .tc := ⟨.hbm, 66, rfl⟩
abbrev main_v12 : Ref sig .tc := ⟨.hbm, 67, rfl⟩
abbrev main_v13 : Ref sig .tc := ⟨.hbm, 68, rfl⟩
abbrev main_c_3 : Ref sig .tc := ⟨.hbm, 69, rfl⟩
abbrev main_v14 : Ref sig .tc := ⟨.hbm, 70, rfl⟩
abbrev main_v15 : Ref sig .tc := ⟨.hbm, 71, rfl⟩
abbrev main_c_4 : Ref sig .tc := ⟨.hbm, 72, rfl⟩
abbrev main_call4_v0 : Ref sig .tc := ⟨.hbm, 73, rfl⟩
abbrev main_call4_v1 : Ref sig .tc := ⟨.hbm, 74, rfl⟩
abbrev main_call4_v2 : Ref sig .tc := ⟨.hbm, 75, rfl⟩
abbrev main_v17 : Ref sig .tc := ⟨.hbm, 76, rfl⟩
abbrev main_v16 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨2, ![32, 64], ![false, false]⟩

abbrev pre0 : Pipeline.Prefetch sig := ⟨1, ![main_v16.idx], fun | 0 => main_v16.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v2 : Index := Scalar.indexCast arg0
  let arg1 : BitVec 32 := BitVec.ofNat 32 (i 1).val
  let c32_i32 : BitVec 32 := 32#32
  let v0 : BitVec 32 := Scalar.muli arg1 c32_i32
  let c0_i32 : BitVec 32 := 0#32
  let v1 : BitVec 32 := Scalar.addi v0 c0_i32
  let v3 : Index := Scalar.indexCast v1
  ![v2.toNat, v3.toNat]
def k0_off2 (i : grid0.Coords) (v4 : BitVec 32) : Fin 3 → Nat :=
  let arg0 : BitVec 32 := BitVec.ofNat 32 (i 0).val
  let c0_i32_3 : BitVec 32 := 0#32
  ![arg0.toNat, v4.toNat, 0]

def k0_off3 (i : grid0.Coords) : Fin 2 → Nat :=
  let arg0 : BitVec 32 := BitVec.ofNat 32 (i 0).val
  let v12 : Index := Scalar.indexCast arg0
  let arg1 : BitVec 32 := BitVec.ofNat 32 (i 1).val
  let c32_i32 : BitVec 32 := 32#32
  let v0 : BitVec 32 := Scalar.muli arg1 c32_i32
  let c1_i32 : BitVec 32 := 1#32
  let v11 : BitVec 32 := Scalar.addi v0 c1_i32
  let v13 : Index := Scalar.indexCast v11
  ![v12.toNat, v13.toNat]
def k0_off4 (i : grid0.Coords) (v14 : BitVec 32) : Fin 3 → Nat :=
  let arg0 : BitVec 32 := BitVec.ofNat 32 (i 0).val
  let c0_i32_7 : BitVec 32 := 0#32
  ![arg0.toNat, v14.toNat, 0]

def k0_off5 (i : grid0.Coords) : Fin 2 → Nat :=
  let arg0 : BitVec 32 := BitVec.ofNat 32 (i 0).val
  let v22 : Index := Scalar.indexCast arg0
  let arg1 : BitVec 32 := BitVec.ofNat 32 (i 1).val
  let c32_i32 : BitVec 32 := 32#32
  let v0 : BitVec 32 := Scalar.muli arg1 c32_i32
  let c2_i32 : BitVec 32 := 2#32
  let v21 : BitVec 32 := Scalar.addi v0 c2_i32
  let v23 : Index := Scalar.indexCast v21
  ![v22.toNat, v23.toNat]
def k0_off6 (i : grid0.Coords) (v24 : BitVec 32) : Fin 3 → Nat :=
  let arg0 : BitVec 32 := BitVec.ofNat 32 (i 0).val
  let c0_i32_11 : BitVec 32 := 0#32
  ![arg0.toNat, v24.toNat, 0]

def k0_off7 (i : grid0.Coords) : Fin 2 → Nat :=
  let arg0 : BitVec 32 := BitVec.ofNat 32 (i 0).val
  let v32 : Index := Scalar.indexCast arg0
  let arg1 : BitVec 32 := BitVec.ofNat 32 (i 1).val
  let c32_i32 : BitVec 32 := 32#32
  let v0 : BitVec 32 := Scalar.muli arg1 c32_i32
  let c3_i32 : BitVec 32 := 3#32
  let v31 : BitVec 32 := Scalar.addi v0 c3_i32
  let v33 : Index := Scalar.indexCast v31
  ![v32.toNat, v33.toNat]
def k0_off8 (i : grid0.Coords) (v34 : BitVec 32) : Fin 3 → Nat :=
  let arg0 : BitVec 32 := BitVec.ofNat 32 (i 0).val
  let c0_i32_15 : BitVec 32 := 0#32
  ![arg0.toNat, v34.toNat, 0]

def k0_off9 (i : grid0.Coords) : Fin 2 → Nat :=
  let arg0 : BitVec 32 := BitVec.ofNat 32 (i 0).val
  let v42 : Index := Scalar.indexCast arg0
  let arg1 : BitVec 32 := BitVec.ofNat 32 (i 1).val
  let c32_i32 : BitVec 32 := 32#32
  let v0 : BitVec 32 := Scalar.muli arg1 c32_i32
  let c4_i32 : BitVec 32 := 4#32
  let v41 : BitVec 32 := Scalar.addi v0 c4_i32
  let v43 : Index := Scalar.indexCast v41
  ![v42.toNat, v43.toNat]
def k0_off10 (i : grid0.Coords) (v44 : BitVec 32) : Fin 3 → Nat :=
  let arg0 : BitVec 32 := BitVec.ofNat 32 (i 0).val
  let c0_i32_19 : BitVec 32 := 0#32
  ![arg0.toNat, v44.toNat, 0]

def k0_off11 (i : grid0.Coords) : Fin 2 → Nat :=
  let arg0 : BitVec 32 := BitVec.ofNat 32 (i 0).val
  let v52 : Index := Scalar.indexCast arg0
  let arg1 : BitVec 32 := BitVec.ofNat 32 (i 1).val
  let c32_i32 : BitVec 32 := 32#32
  let v0 : BitVec 32 := Scalar.muli arg1 c32_i32
  let c5_i32 : BitVec 32 := 5#32
  let v51 : BitVec 32 := Scalar.addi v0 c5_i32
  let v53 : Index := Scalar.indexCast v51
  ![v52.toNat, v53.toNat]
def k0_off12 (i : grid0.Coords) (v54 : BitVec 32) : Fin 3 → Nat :=
  let arg0 : BitVec 32 := BitVec.ofNat 32 (i 0).val
  let c0_i32_23 : BitVec 32 := 0#32
  ![arg0.toNat, v54.toNat, 0]

def k0_off13 (i : grid0.Coords) : Fin 2 → Nat :=
  let arg0 : BitVec 32 := BitVec.ofNat 32 (i 0).val
  let v62 : Index := Scalar.indexCast arg0
  let arg1 : BitVec 32 := BitVec.ofNat 32 (i 1).val
  let c32_i32 : BitVec 32 := 32#32
  let v0 : BitVec 32 := Scalar.muli arg1 c32_i32
  let c6_i32 : BitVec 32 := 6#32
  let v61 : BitVec 32 := Scalar.addi v0 c6_i32
  let v63 : Index := Scalar.indexCast v61
  ![v62.toNat, v63.toNat]
def k0_off14 (i : grid0.Coords) (v64 : BitVec 32) : Fin 3 → Nat :=
  let arg0 : BitVec 32 := BitVec.ofNat 32 (i 0).val
  let c0_i32_27 : BitVec 32 := 0#32
  ![arg0.toNat, v64.toNat, 0]

def k0_off15 (i : grid0.Coords) : Fin 2 → Nat :=
  let arg0 : BitVec 32 := BitVec.ofNat 32 (i 0).val
  let v72 : Index := Scalar.indexCast arg0
  let arg1 : BitVec 32 := BitVec.ofNat 32 (i 1).val
  let c32_i32 : BitVec 32 := 32#32
  let v0 : BitVec 32 := Scalar.muli arg1 c32_i32
  let c7_i32 : BitVec 32 := 7#32
  let v71 : BitVec 32 := Scalar.addi v0 c7_i32
  let v73 : Index := Scalar.indexCast v71
  ![v72.toNat, v73.toNat]
def k0_off16 (i : grid0.Coords) (v74 : BitVec 32) : Fin 3 → Nat :=
  let arg0 : BitVec 32 := BitVec.ofNat 32 (i 0).val
  let c0_i32_31 : BitVec 32 := 0#32
  ![arg0.toNat, v74.toNat, 0]

def k0_off17 (i : grid0.Coords) : Fin 2 → Nat :=
  let arg0 : BitVec 32 := BitVec.ofNat 32 (i 0).val
  let v82 : Index := Scalar.indexCast arg0
  let arg1 : BitVec 32 := BitVec.ofNat 32 (i 1).val
  let c32_i32 : BitVec 32 := 32#32
  let v0 : BitVec 32 := Scalar.muli arg1 c32_i32
  let c8_i32 : BitVec 32 := 8#32
  let v81 : BitVec 32 := Scalar.addi v0 c8_i32
  let v83 : Index := Scalar.indexCast v81
  ![v82.toNat, v83.toNat]
def k0_off18 (i : grid0.Coords) (v84 : BitVec 32) : Fin 3 → Nat :=
  let arg0 : BitVec 32 := BitVec.ofNat 32 (i 0).val
  let c0_i32_35 : BitVec 32 := 0#32
  ![arg0.toNat, v84.toNat, 0]

def k0_off19 (i : grid0.Coords) : Fin 2 → Nat :=
  let arg0 : BitVec 32 := BitVec.ofNat 32 (i 0).val
  let v92 : Index := Scalar.indexCast arg0
  let arg1 : BitVec 32 := BitVec.ofNat 32 (i 1).val
  let c32_i32 : BitVec 32 := 32#32
  let v0 : BitVec 32 := Scalar.muli arg1 c32_i32
  let c9_i32 : BitVec 32 := 9#32
  let v91 : BitVec 32 := Scalar.addi v0 c9_i32
  let v93 : Index := Scalar.indexCast v91
  ![v92.toNat, v93.toNat]
def k0_off20 (i : grid0.Coords) (v94 : BitVec 32) : Fin 3 → Nat :=
  let arg0 : BitVec 32 := BitVec.ofNat 32 (i 0).val
  let c0_i32_39 : BitVec 32 := 0#32
  ![arg0.toNat, v94.toNat, 0]

def k0_off21 (i : grid0.Coords) : Fin 2 → Nat :=
  let arg0 : BitVec 32 := BitVec.ofNat 32 (i 0).val
  let v102 : Index := Scalar.indexCast arg0
  let arg1 : BitVec 32 := BitVec.ofNat 32 (i 1).val
  let c32_i32 : BitVec 32 := 32#32
  let v0 : BitVec 32 := Scalar.muli arg1 c32_i32
  let c10_i32 : BitVec 32 := 10#32
  let v101 : BitVec 32 := Scalar.addi v0 c10_i32
  let v103 : Index := Scalar.indexCast v101
  ![v102.toNat, v103.toNat]
def k0_off22 (i : grid0.Coords) (v104 : BitVec 32) : Fin 3 → Nat :=
  let arg0 : BitVec 32 := BitVec.ofNat 32 (i 0).val
  let c0_i32_43 : BitVec 32 := 0#32
  ![arg0.toNat, v104.toNat, 0]

def k0_off23 (i : grid0.Coords) : Fin 2 → Nat :=
  let arg0 : BitVec 32 := BitVec.ofNat 32 (i 0).val
  let v112 : Index := Scalar.indexCast arg0
  let arg1 : BitVec 32 := BitVec.ofNat 32 (i 1).val
  let c32_i32 : BitVec 32 := 32#32
  let v0 : BitVec 32 := Scalar.muli arg1 c32_i32
  let c11_i32 : BitVec 32 := 11#32
  let v111 : BitVec 32 := Scalar.addi v0 c11_i32
  let v113 : Index := Scalar.indexCast v111
  ![v112.toNat, v113.toNat]
def k0_off24 (i : grid0.Coords) (v114 : BitVec 32) : Fin 3 → Nat :=
  let arg0 : BitVec 32 := BitVec.ofNat 32 (i 0).val
  let c0_i32_47 : BitVec 32 := 0#32
  ![arg0.toNat, v114.toNat, 0]

def k0_off25 (i : grid0.Coords) : Fin 2 → Nat :=
  let arg0 : BitVec 32 := BitVec.ofNat 32 (i 0).val
  let v122 : Index := Scalar.indexCast arg0
  let arg1 : BitVec 32 := BitVec.ofNat 32 (i 1).val
  let c32_i32 : BitVec 32 := 32#32
  let v0 : BitVec 32 := Scalar.muli arg1 c32_i32
  let c12_i32 : BitVec 32 := 12#32
  let v121 : BitVec 32 := Scalar.addi v0 c12_i32
  let v123 : Index := Scalar.indexCast v121
  ![v122.toNat, v123.toNat]
def k0_off26 (i : grid0.Coords) (v124 : BitVec 32) : Fin 3 → Nat :=
  let arg0 : BitVec 32 := BitVec.ofNat 32 (i 0).val
  let c0_i32_51 : BitVec 32 := 0#32
  ![arg0.toNat, v124.toNat, 0]

def k0_off27 (i : grid0.Coords) : Fin 2 → Nat :=
  let arg0 : BitVec 32 := BitVec.ofNat 32 (i 0).val
  let v132 : Index := Scalar.indexCast arg0
  let arg1 : BitVec 32 := BitVec.ofNat 32 (i 1).val
  let c32_i32 : BitVec 32 := 32#32
  let v0 : BitVec 32 := Scalar.muli arg1 c32_i32
  let c13_i32 : BitVec 32 := 13#32
  let v131 : BitVec 32 := Scalar.addi v0 c13_i32
  let v133 : Index := Scalar.indexCast v131
  ![v132.toNat, v133.toNat]
def k0_off28 (i : grid0.Coords) (v134 : BitVec 32) : Fin 3 → Nat :=
  let arg0 : BitVec 32 := BitVec.ofNat 32 (i 0).val
  let c0_i32_55 : BitVec 32 := 0#32
  ![arg0.toNat, v134.toNat, 0]

def k0_off29 (i : grid0.Coords) : Fin 2 → Nat :=
  let arg0 : BitVec 32 := BitVec.ofNat 32 (i 0).val
  let v142 : Index := Scalar.indexCast arg0
  let arg1 : BitVec 32 := BitVec.ofNat 32 (i 1).val
  let c32_i32 : BitVec 32 := 32#32
  let v0 : BitVec 32 := Scalar.muli arg1 c32_i32
  let c14_i32 : BitVec 32 := 14#32
  let v141 : BitVec 32 := Scalar.addi v0 c14_i32
  let v143 : Index := Scalar.indexCast v141
  ![v142.toNat, v143.toNat]
def k0_off30 (i : grid0.Coords) (v144 : BitVec 32) : Fin 3 → Nat :=
  let arg0 : BitVec 32 := BitVec.ofNat 32 (i 0).val
  let c0_i32_59 : BitVec 32 := 0#32
  ![arg0.toNat, v144.toNat, 0]

def k0_off31 (i : grid0.Coords) : Fin 2 → Nat :=
  let arg0 : BitVec 32 := BitVec.ofNat 32 (i 0).val
  let v152 : Index := Scalar.indexCast arg0
  let arg1 : BitVec 32 := BitVec.ofNat 32 (i 1).val
  let c32_i32 : BitVec 32 := 32#32
  let v0 : BitVec 32 := Scalar.muli arg1 c32_i32
  let c15_i32 : BitVec 32 := 15#32
  let v151 : BitVec 32 := Scalar.addi v0 c15_i32
  let v153 : Index := Scalar.indexCast v151
  ![v152.toNat, v153.toNat]
def k0_off32 (i : grid0.Coords) (v154 : BitVec 32) : Fin 3 → Nat :=
  let arg0 : BitVec 32 := BitVec.ofNat 32 (i 0).val
  let c0_i32_63 : BitVec 32 := 0#32
  ![arg0.toNat, v154.toNat, 0]

def k0_off33 (i : grid0.Coords) : Fin 2 → Nat :=
  let arg0 : BitVec 32 := BitVec.ofNat 32 (i 0).val
  let v162 : Index := Scalar.indexCast arg0
  let arg1 : BitVec 32 := BitVec.ofNat 32 (i 1).val
  let c32_i32 : BitVec 32 := 32#32
  let v0 : BitVec 32 := Scalar.muli arg1 c32_i32
  let c16_i32 : BitVec 32 := 16#32
  let v161 : BitVec 32 := Scalar.addi v0 c16_i32
  let v163 : Index := Scalar.indexCast v161
  ![v162.toNat, v163.toNat]
def k0_off34 (i : grid0.Coords) (v164 : BitVec 32) : Fin 3 → Nat :=
  let arg0 : BitVec 32 := BitVec.ofNat 32 (i 0).val
  let c0_i32_67 : BitVec 32 := 0#32
  ![arg0.toNat, v164.toNat, 0]

def k0_off35 (i : grid0.Coords) : Fin 2 → Nat :=
  let arg0 : BitVec 32 := BitVec.ofNat 32 (i 0).val
  let v172 : Index := Scalar.indexCast arg0
  let arg1 : BitVec 32 := BitVec.ofNat 32 (i 1).val
  let c32_i32 : BitVec 32 := 32#32
  let v0 : BitVec 32 := Scalar.muli arg1 c32_i32
  let c17_i32 : BitVec 32 := 17#32
  let v171 : BitVec 32 := Scalar.addi v0 c17_i32
  let v173 : Index := Scalar.indexCast v171
  ![v172.toNat, v173.toNat]
def k0_off36 (i : grid0.Coords) (v174 : BitVec 32) : Fin 3 → Nat :=
  let arg0 : BitVec 32 := BitVec.ofNat 32 (i 0).val
  let c0_i32_71 : BitVec 32 := 0#32
  ![arg0.toNat, v174.toNat, 0]

def k0_off37 (i : grid0.Coords) : Fin 2 → Nat :=
  let arg0 : BitVec 32 := BitVec.ofNat 32 (i 0).val
  let v182 : Index := Scalar.indexCast arg0
  let arg1 : BitVec 32 := BitVec.ofNat 32 (i 1).val
  let c32_i32 : BitVec 32 := 32#32
  let v0 : BitVec 32 := Scalar.muli arg1 c32_i32
  let c18_i32 : BitVec 32 := 18#32
  let v181 : BitVec 32 := Scalar.addi v0 c18_i32
  let v183 : Index := Scalar.indexCast v181
  ![v182.toNat, v183.toNat]
def k0_off38 (i : grid0.Coords) (v184 : BitVec 32) : Fin 3 → Nat :=
  let arg0 : BitVec 32 := BitVec.ofNat 32 (i 0).val
  let c0_i32_75 : BitVec 32 := 0#32
  ![arg0.toNat, v184.toNat, 0]

def k0_off39 (i : grid0.Coords) : Fin 2 → Nat :=
  let arg0 : BitVec 32 := BitVec.ofNat 32 (i 0).val
  let v192 : Index := Scalar.indexCast arg0
  let arg1 : BitVec 32 := BitVec.ofNat 32 (i 1).val
  let c32_i32 : BitVec 32 := 32#32
  let v0 : BitVec 32 := Scalar.muli arg1 c32_i32
  let c19_i32 : BitVec 32 := 19#32
  let v191 : BitVec 32 := Scalar.addi v0 c19_i32
  let v193 : Index := Scalar.indexCast v191
  ![v192.toNat, v193.toNat]
def k0_off40 (i : grid0.Coords) (v194 : BitVec 32) : Fin 3 → Nat :=
  let arg0 : BitVec 32 := BitVec.ofNat 32 (i 0).val
  let c0_i32_79 : BitVec 32 := 0#32
  ![arg0.toNat, v194.toNat, 0]

def k0_off41 (i : grid0.Coords) : Fin 2 → Nat :=
  let arg0 : BitVec 32 := BitVec.ofNat 32 (i 0).val
  let v202 : Index := Scalar.indexCast arg0
  let arg1 : BitVec 32 := BitVec.ofNat 32 (i 1).val
  let c32_i32 : BitVec 32 := 32#32
  let v0 : BitVec 32 := Scalar.muli arg1 c32_i32
  let c20_i32 : BitVec 32 := 20#32
  let v201 : BitVec 32 := Scalar.addi v0 c20_i32
  let v203 : Index := Scalar.indexCast v201
  ![v202.toNat, v203.toNat]
def k0_off42 (i : grid0.Coords) (v204 : BitVec 32) : Fin 3 → Nat :=
  let arg0 : BitVec 32 := BitVec.ofNat 32 (i 0).val
  let c0_i32_83 : BitVec 32 := 0#32
  ![arg0.toNat, v204.toNat, 0]

def k0_off43 (i : grid0.Coords) : Fin 2 → Nat :=
  let arg0 : BitVec 32 := BitVec.ofNat 32 (i 0).val
  let v212 : Index := Scalar.indexCast arg0
  let arg1 : BitVec 32 := BitVec.ofNat 32 (i 1).val
  let c32_i32 : BitVec 32 := 32#32
  let v0 : BitVec 32 := Scalar.muli arg1 c32_i32
  let c21_i32 : BitVec 32 := 21#32
  let v211 : BitVec 32 := Scalar.addi v0 c21_i32
  let v213 : Index := Scalar.indexCast v211
  ![v212.toNat, v213.toNat]
def k0_off44 (i : grid0.Coords) (v214 : BitVec 32) : Fin 3 → Nat :=
  let arg0 : BitVec 32 := BitVec.ofNat 32 (i 0).val
  let c0_i32_87 : BitVec 32 := 0#32
  ![arg0.toNat, v214.toNat, 0]

def k0_off45 (i : grid0.Coords) : Fin 2 → Nat :=
  let arg0 : BitVec 32 := BitVec.ofNat 32 (i 0).val
  let v222 : Index := Scalar.indexCast arg0
  let arg1 : BitVec 32 := BitVec.ofNat 32 (i 1).val
  let c32_i32 : BitVec 32 := 32#32
  let v0 : BitVec 32 := Scalar.muli arg1 c32_i32
  let c22_i32 : BitVec 32 := 22#32
  let v221 : BitVec 32 := Scalar.addi v0 c22_i32
  let v223 : Index := Scalar.indexCast v221
  ![v222.toNat, v223.toNat]
def k0_off46 (i : grid0.Coords) (v224 : BitVec 32) : Fin 3 → Nat :=
  let arg0 : BitVec 32 := BitVec.ofNat 32 (i 0).val
  let c0_i32_91 : BitVec 32 := 0#32
  ![arg0.toNat, v224.toNat, 0]

def k0_off47 (i : grid0.Coords) : Fin 2 → Nat :=
  let arg0 : BitVec 32 := BitVec.ofNat 32 (i 0).val
  let v232 : Index := Scalar.indexCast arg0
  let arg1 : BitVec 32 := BitVec.ofNat 32 (i 1).val
  let c32_i32 : BitVec 32 := 32#32
  let v0 : BitVec 32 := Scalar.muli arg1 c32_i32
  let c23_i32 : BitVec 32 := 23#32
  let v231 : BitVec 32 := Scalar.addi v0 c23_i32
  let v233 : Index := Scalar.indexCast v231
  ![v232.toNat, v233.toNat]
def k0_off48 (i : grid0.Coords) (v234 : BitVec 32) : Fin 3 → Nat :=
  let arg0 : BitVec 32 := BitVec.ofNat 32 (i 0).val
  let c0_i32_95 : BitVec 32 := 0#32
  ![arg0.toNat, v234.toNat, 0]

def k0_off49 (i : grid0.Coords) : Fin 2 → Nat :=
  let arg0 : BitVec 32 := BitVec.ofNat 32 (i 0).val
  let v242 : Index := Scalar.indexCast arg0
  let arg1 : BitVec 32 := BitVec.ofNat 32 (i 1).val
  let c32_i32 : BitVec 32 := 32#32
  let v0 : BitVec 32 := Scalar.muli arg1 c32_i32
  let c24_i32 : BitVec 32 := 24#32
  let v241 : BitVec 32 := Scalar.addi v0 c24_i32
  let v243 : Index := Scalar.indexCast v241
  ![v242.toNat, v243.toNat]
def k0_off50 (i : grid0.Coords) (v244 : BitVec 32) : Fin 3 → Nat :=
  let arg0 : BitVec 32 := BitVec.ofNat 32 (i 0).val
  let c0_i32_99 : BitVec 32 := 0#32
  ![arg0.toNat, v244.toNat, 0]

def k0_off51 (i : grid0.Coords) : Fin 2 → Nat :=
  let arg0 : BitVec 32 := BitVec.ofNat 32 (i 0).val
  let v252 : Index := Scalar.indexCast arg0
  let arg1 : BitVec 32 := BitVec.ofNat 32 (i 1).val
  let c32_i32 : BitVec 32 := 32#32
  let v0 : BitVec 32 := Scalar.muli arg1 c32_i32
  let c25_i32 : BitVec 32 := 25#32
  let v251 : BitVec 32 := Scalar.addi v0 c25_i32
  let v253 : Index := Scalar.indexCast v251
  ![v252.toNat, v253.toNat]
def k0_off52 (i : grid0.Coords) (v254 : BitVec 32) : Fin 3 → Nat :=
  let arg0 : BitVec 32 := BitVec.ofNat 32 (i 0).val
  let c0_i32_103 : BitVec 32 := 0#32
  ![arg0.toNat, v254.toNat, 0]

def k0_off53 (i : grid0.Coords) : Fin 2 → Nat :=
  let arg0 : BitVec 32 := BitVec.ofNat 32 (i 0).val
  let v262 : Index := Scalar.indexCast arg0
  let arg1 : BitVec 32 := BitVec.ofNat 32 (i 1).val
  let c32_i32 : BitVec 32 := 32#32
  let v0 : BitVec 32 := Scalar.muli arg1 c32_i32
  let c26_i32 : BitVec 32 := 26#32
  let v261 : BitVec 32 := Scalar.addi v0 c26_i32
  let v263 : Index := Scalar.indexCast v261
  ![v262.toNat, v263.toNat]
def k0_off54 (i : grid0.Coords) (v264 : BitVec 32) : Fin 3 → Nat :=
  let arg0 : BitVec 32 := BitVec.ofNat 32 (i 0).val
  let c0_i32_107 : BitVec 32 := 0#32
  ![arg0.toNat, v264.toNat, 0]

def k0_off55 (i : grid0.Coords) : Fin 2 → Nat :=
  let arg0 : BitVec 32 := BitVec.ofNat 32 (i 0).val
  let v272 : Index := Scalar.indexCast arg0
  let arg1 : BitVec 32 := BitVec.ofNat 32 (i 1).val
  let c32_i32 : BitVec 32 := 32#32
  let v0 : BitVec 32 := Scalar.muli arg1 c32_i32
  let c27_i32 : BitVec 32 := 27#32
  let v271 : BitVec 32 := Scalar.addi v0 c27_i32
  let v273 : Index := Scalar.indexCast v271
  ![v272.toNat, v273.toNat]
def k0_off56 (i : grid0.Coords) (v274 : BitVec 32) : Fin 3 → Nat :=
  let arg0 : BitVec 32 := BitVec.ofNat 32 (i 0).val
  let c0_i32_111 : BitVec 32 := 0#32
  ![arg0.toNat, v274.toNat, 0]

def k0_off57 (i : grid0.Coords) : Fin 2 → Nat :=
  let arg0 : BitVec 32 := BitVec.ofNat 32 (i 0).val
  let v282 : Index := Scalar.indexCast arg0
  let arg1 : BitVec 32 := BitVec.ofNat 32 (i 1).val
  let c32_i32 : BitVec 32 := 32#32
  let v0 : BitVec 32 := Scalar.muli arg1 c32_i32
  let c28_i32 : BitVec 32 := 28#32
  let v281 : BitVec 32 := Scalar.addi v0 c28_i32
  let v283 : Index := Scalar.indexCast v281
  ![v282.toNat, v283.toNat]
def k0_off58 (i : grid0.Coords) (v284 : BitVec 32) : Fin 3 → Nat :=
  let arg0 : BitVec 32 := BitVec.ofNat 32 (i 0).val
  let c0_i32_115 : BitVec 32 := 0#32
  ![arg0.toNat, v284.toNat, 0]

def k0_off59 (i : grid0.Coords) : Fin 2 → Nat :=
  let arg0 : BitVec 32 := BitVec.ofNat 32 (i 0).val
  let v292 : Index := Scalar.indexCast arg0
  let arg1 : BitVec 32 := BitVec.ofNat 32 (i 1).val
  let c32_i32 : BitVec 32 := 32#32
  let v0 : BitVec 32 := Scalar.muli arg1 c32_i32
  let c29_i32 : BitVec 32 := 29#32
  let v291 : BitVec 32 := Scalar.addi v0 c29_i32
  let v293 : Index := Scalar.indexCast v291
  ![v292.toNat, v293.toNat]
def k0_off60 (i : grid0.Coords) (v294 : BitVec 32) : Fin 3 → Nat :=
  let arg0 : BitVec 32 := BitVec.ofNat 32 (i 0).val
  let c0_i32_119 : BitVec 32 := 0#32
  ![arg0.toNat, v294.toNat, 0]

def k0_off61 (i : grid0.Coords) : Fin 2 → Nat :=
  let arg0 : BitVec 32 := BitVec.ofNat 32 (i 0).val
  let v302 : Index := Scalar.indexCast arg0
  let arg1 : BitVec 32 := BitVec.ofNat 32 (i 1).val
  let c32_i32 : BitVec 32 := 32#32
  let v0 : BitVec 32 := Scalar.muli arg1 c32_i32
  let c30_i32 : BitVec 32 := 30#32
  let v301 : BitVec 32 := Scalar.addi v0 c30_i32
  let v303 : Index := Scalar.indexCast v301
  ![v302.toNat, v303.toNat]
def k0_off62 (i : grid0.Coords) (v304 : BitVec 32) : Fin 3 → Nat :=
  let arg0 : BitVec 32 := BitVec.ofNat 32 (i 0).val
  let c0_i32_123 : BitVec 32 := 0#32
  ![arg0.toNat, v304.toNat, 0]

def k0_off63 (i : grid0.Coords) : Fin 2 → Nat :=
  let arg0 : BitVec 32 := BitVec.ofNat 32 (i 0).val
  let v312 : Index := Scalar.indexCast arg0
  let arg1 : BitVec 32 := BitVec.ofNat 32 (i 1).val
  let c32_i32 : BitVec 32 := 32#32
  let v0 : BitVec 32 := Scalar.muli arg1 c32_i32
  let c31_i32 : BitVec 32 := 31#32
  let v311 : BitVec 32 := Scalar.addi v0 c31_i32
  let v313 : Index := Scalar.indexCast v311
  ![v312.toNat, v313.toNat]
def k0_off64 (i : grid0.Coords) (v314 : BitVec 32) : Fin 3 → Nat :=
  let arg0 : BitVec 32 := BitVec.ofNat 32 (i 0).val
  let c0_i32_127 : BitVec 32 := 0#32
  ![arg0.toNat, v314.toNat, 0]

def k0_chk32 (i : grid0.Coords) (v314 : BitVec 32) : Prop :=
  (∀ a, (k0_off64 i v314) a + S1x1x16.size a ≤ S32x262144x16.size a)
instance k0_chk32.dec : ∀ (i : grid0.Coords) (v314 : BitVec 32), Decidable (k0_chk32 i v314) := fun i v314 => decidable_of_iff' _ (Iff.of_eq (k0_chk32.eq_1 i v314))
theorem k0_off64_inb : ∀ (i : grid0.Coords) (v314 : BitVec 32) (k0_hw32 : k0_chk32 i v314), ∀ a, (k0_off64 i v314) a + S1x1x16.size a ≤ S32x262144x16.size a := fun i v314 k0_hw32 => k0_hw32

def k0_off65 (i : grid0.Coords) (v4 : BitVec 32) : Fin 3 → Nat :=
  let arg0 : BitVec 32 := BitVec.ofNat 32 (i 0).val
  let c0_i32_131 : BitVec 32 := 0#32
  ![arg0.toNat, v4.toNat, 0]

def k0_chk1 (i : grid0.Coords) (v4 : BitVec 32) : Prop :=
  (∀ a, (k0_off2 i v4) a + S1x1x16.size a ≤ S32x262144x16.size a) ∧
  (∀ a, (k0_off65 i v4) a + S1x1x16.size a ≤ S32x262144x16.size a)
instance k0_chk1.dec : ∀ (i : grid0.Coords) (v4 : BitVec 32), Decidable (k0_chk1 i v4) := fun i v4 => decidable_of_iff' _ (Iff.of_eq (k0_chk1.eq_1 i v4))
theorem k0_off2_inb : ∀ (i : grid0.Coords) (v4 : BitVec 32) (k0_hw1 : k0_chk1 i v4), ∀ a, (k0_off2 i v4) a + S1x1x16.size a ≤ S32x262144x16.size a := fun i v4 k0_hw1 => k0_hw1.1
theorem k0_off65_inb : ∀ (i : grid0.Coords) (v4 : BitVec 32) (k0_hw1 : k0_chk1 i v4), ∀ a, (k0_off65 i v4) a + S1x1x16.size a ≤ S32x262144x16.size a := fun i v4 k0_hw1 => k0_hw1.2

def k0_off66 (i : grid0.Coords) (v14 : BitVec 32) : Fin 3 → Nat :=
  let arg0 : BitVec 32 := BitVec.ofNat 32 (i 0).val
  let c0_i32_135 : BitVec 32 := 0#32
  ![arg0.toNat, v14.toNat, 0]

def k0_chk2 (i : grid0.Coords) (v14 : BitVec 32) : Prop :=
  (∀ a, (k0_off4 i v14) a + S1x1x16.size a ≤ S32x262144x16.size a) ∧
  (∀ a, (k0_off66 i v14) a + S1x1x16.size a ≤ S32x262144x16.size a)
instance k0_chk2.dec : ∀ (i : grid0.Coords) (v14 : BitVec 32), Decidable (k0_chk2 i v14) := fun i v14 => decidable_of_iff' _ (Iff.of_eq (k0_chk2.eq_1 i v14))
theorem k0_off4_inb : ∀ (i : grid0.Coords) (v14 : BitVec 32) (k0_hw2 : k0_chk2 i v14), ∀ a, (k0_off4 i v14) a + S1x1x16.size a ≤ S32x262144x16.size a := fun i v14 k0_hw2 => k0_hw2.1
theorem k0_off66_inb : ∀ (i : grid0.Coords) (v14 : BitVec 32) (k0_hw2 : k0_chk2 i v14), ∀ a, (k0_off66 i v14) a + S1x1x16.size a ≤ S32x262144x16.size a := fun i v14 k0_hw2 => k0_hw2.2

def k0_off67 (i : grid0.Coords) (v24 : BitVec 32) : Fin 3 → Nat :=
  let arg0 : BitVec 32 := BitVec.ofNat 32 (i 0).val
  let c0_i32_139 : BitVec 32 := 0#32
  ![arg0.toNat, v24.toNat, 0]

def k0_chk3 (i : grid0.Coords) (v24 : BitVec 32) : Prop :=
  (∀ a, (k0_off6 i v24) a + S1x1x16.size a ≤ S32x262144x16.size a) ∧
  (∀ a, (k0_off67 i v24) a + S1x1x16.size a ≤ S32x262144x16.size a)
instance k0_chk3.dec : ∀ (i : grid0.Coords) (v24 : BitVec 32), Decidable (k0_chk3 i v24) := fun i v24 => decidable_of_iff' _ (Iff.of_eq (k0_chk3.eq_1 i v24))
theorem k0_off6_inb : ∀ (i : grid0.Coords) (v24 : BitVec 32) (k0_hw3 : k0_chk3 i v24), ∀ a, (k0_off6 i v24) a + S1x1x16.size a ≤ S32x262144x16.size a := fun i v24 k0_hw3 => k0_hw3.1
theorem k0_off67_inb : ∀ (i : grid0.Coords) (v24 : BitVec 32) (k0_hw3 : k0_chk3 i v24), ∀ a, (k0_off67 i v24) a + S1x1x16.size a ≤ S32x262144x16.size a := fun i v24 k0_hw3 => k0_hw3.2

def k0_off68 (i : grid0.Coords) (v34 : BitVec 32) : Fin 3 → Nat :=
  let arg0 : BitVec 32 := BitVec.ofNat 32 (i 0).val
  let c0_i32_143 : BitVec 32 := 0#32
  ![arg0.toNat, v34.toNat, 0]

def k0_chk4 (i : grid0.Coords) (v34 : BitVec 32) : Prop :=
  (∀ a, (k0_off8 i v34) a + S1x1x16.size a ≤ S32x262144x16.size a) ∧
  (∀ a, (k0_off68 i v34) a + S1x1x16.size a ≤ S32x262144x16.size a)
instance k0_chk4.dec : ∀ (i : grid0.Coords) (v34 : BitVec 32), Decidable (k0_chk4 i v34) := fun i v34 => decidable_of_iff' _ (Iff.of_eq (k0_chk4.eq_1 i v34))
theorem k0_off8_inb : ∀ (i : grid0.Coords) (v34 : BitVec 32) (k0_hw4 : k0_chk4 i v34), ∀ a, (k0_off8 i v34) a + S1x1x16.size a ≤ S32x262144x16.size a := fun i v34 k0_hw4 => k0_hw4.1
theorem k0_off68_inb : ∀ (i : grid0.Coords) (v34 : BitVec 32) (k0_hw4 : k0_chk4 i v34), ∀ a, (k0_off68 i v34) a + S1x1x16.size a ≤ S32x262144x16.size a := fun i v34 k0_hw4 => k0_hw4.2

def k0_off69 (i : grid0.Coords) (v44 : BitVec 32) : Fin 3 → Nat :=
  let arg0 : BitVec 32 := BitVec.ofNat 32 (i 0).val
  let c0_i32_147 : BitVec 32 := 0#32
  ![arg0.toNat, v44.toNat, 0]

def k0_chk5 (i : grid0.Coords) (v44 : BitVec 32) : Prop :=
  (∀ a, (k0_off10 i v44) a + S1x1x16.size a ≤ S32x262144x16.size a) ∧
  (∀ a, (k0_off69 i v44) a + S1x1x16.size a ≤ S32x262144x16.size a)
instance k0_chk5.dec : ∀ (i : grid0.Coords) (v44 : BitVec 32), Decidable (k0_chk5 i v44) := fun i v44 => decidable_of_iff' _ (Iff.of_eq (k0_chk5.eq_1 i v44))
theorem k0_off10_inb : ∀ (i : grid0.Coords) (v44 : BitVec 32) (k0_hw5 : k0_chk5 i v44), ∀ a, (k0_off10 i v44) a + S1x1x16.size a ≤ S32x262144x16.size a := fun i v44 k0_hw5 => k0_hw5.1
theorem k0_off69_inb : ∀ (i : grid0.Coords) (v44 : BitVec 32) (k0_hw5 : k0_chk5 i v44), ∀ a, (k0_off69 i v44) a + S1x1x16.size a ≤ S32x262144x16.size a := fun i v44 k0_hw5 => k0_hw5.2

def k0_off70 (i : grid0.Coords) (v54 : BitVec 32) : Fin 3 → Nat :=
  let arg0 : BitVec 32 := BitVec.ofNat 32 (i 0).val
  let c0_i32_151 : BitVec 32 := 0#32
  ![arg0.toNat, v54.toNat, 0]

def k0_chk6 (i : grid0.Coords) (v54 : BitVec 32) : Prop :=
  (∀ a, (k0_off12 i v54) a + S1x1x16.size a ≤ S32x262144x16.size a) ∧
  (∀ a, (k0_off70 i v54) a + S1x1x16.size a ≤ S32x262144x16.size a)
instance k0_chk6.dec : ∀ (i : grid0.Coords) (v54 : BitVec 32), Decidable (k0_chk6 i v54) := fun i v54 => decidable_of_iff' _ (Iff.of_eq (k0_chk6.eq_1 i v54))
theorem k0_off12_inb : ∀ (i : grid0.Coords) (v54 : BitVec 32) (k0_hw6 : k0_chk6 i v54), ∀ a, (k0_off12 i v54) a + S1x1x16.size a ≤ S32x262144x16.size a := fun i v54 k0_hw6 => k0_hw6.1
theorem k0_off70_inb : ∀ (i : grid0.Coords) (v54 : BitVec 32) (k0_hw6 : k0_chk6 i v54), ∀ a, (k0_off70 i v54) a + S1x1x16.size a ≤ S32x262144x16.size a := fun i v54 k0_hw6 => k0_hw6.2

def k0_off71 (i : grid0.Coords) (v64 : BitVec 32) : Fin 3 → Nat :=
  let arg0 : BitVec 32 := BitVec.ofNat 32 (i 0).val
  let c0_i32_155 : BitVec 32 := 0#32
  ![arg0.toNat, v64.toNat, 0]

def k0_chk7 (i : grid0.Coords) (v64 : BitVec 32) : Prop :=
  (∀ a, (k0_off14 i v64) a + S1x1x16.size a ≤ S32x262144x16.size a) ∧
  (∀ a, (k0_off71 i v64) a + S1x1x16.size a ≤ S32x262144x16.size a)
instance k0_chk7.dec : ∀ (i : grid0.Coords) (v64 : BitVec 32), Decidable (k0_chk7 i v64) := fun i v64 => decidable_of_iff' _ (Iff.of_eq (k0_chk7.eq_1 i v64))
theorem k0_off14_inb : ∀ (i : grid0.Coords) (v64 : BitVec 32) (k0_hw7 : k0_chk7 i v64), ∀ a, (k0_off14 i v64) a + S1x1x16.size a ≤ S32x262144x16.size a := fun i v64 k0_hw7 => k0_hw7.1
theorem k0_off71_inb : ∀ (i : grid0.Coords) (v64 : BitVec 32) (k0_hw7 : k0_chk7 i v64), ∀ a, (k0_off71 i v64) a + S1x1x16.size a ≤ S32x262144x16.size a := fun i v64 k0_hw7 => k0_hw7.2

def k0_off72 (i : grid0.Coords) (v74 : BitVec 32) : Fin 3 → Nat :=
  let arg0 : BitVec 32 := BitVec.ofNat 32 (i 0).val
  let c0_i32_159 : BitVec 32 := 0#32
  ![arg0.toNat, v74.toNat, 0]

def k0_chk8 (i : grid0.Coords) (v74 : BitVec 32) : Prop :=
  (∀ a, (k0_off16 i v74) a + S1x1x16.size a ≤ S32x262144x16.size a) ∧
  (∀ a, (k0_off72 i v74) a + S1x1x16.size a ≤ S32x262144x16.size a)
instance k0_chk8.dec : ∀ (i : grid0.Coords) (v74 : BitVec 32), Decidable (k0_chk8 i v74) := fun i v74 => decidable_of_iff' _ (Iff.of_eq (k0_chk8.eq_1 i v74))
theorem k0_off16_inb : ∀ (i : grid0.Coords) (v74 : BitVec 32) (k0_hw8 : k0_chk8 i v74), ∀ a, (k0_off16 i v74) a + S1x1x16.size a ≤ S32x262144x16.size a := fun i v74 k0_hw8 => k0_hw8.1
theorem k0_off72_inb : ∀ (i : grid0.Coords) (v74 : BitVec 32) (k0_hw8 : k0_chk8 i v74), ∀ a, (k0_off72 i v74) a + S1x1x16.size a ≤ S32x262144x16.size a := fun i v74 k0_hw8 => k0_hw8.2

def k0_off73 (i : grid0.Coords) (v84 : BitVec 32) : Fin 3 → Nat :=
  let arg0 : BitVec 32 := BitVec.ofNat 32 (i 0).val
  let c0_i32_163 : BitVec 32 := 0#32
  ![arg0.toNat, v84.toNat, 0]

def k0_chk9 (i : grid0.Coords) (v84 : BitVec 32) : Prop :=
  (∀ a, (k0_off18 i v84) a + S1x1x16.size a ≤ S32x262144x16.size a) ∧
  (∀ a, (k0_off73 i v84) a + S1x1x16.size a ≤ S32x262144x16.size a)
instance k0_chk9.dec : ∀ (i : grid0.Coords) (v84 : BitVec 32), Decidable (k0_chk9 i v84) := fun i v84 => decidable_of_iff' _ (Iff.of_eq (k0_chk9.eq_1 i v84))
theorem k0_off18_inb : ∀ (i : grid0.Coords) (v84 : BitVec 32) (k0_hw9 : k0_chk9 i v84), ∀ a, (k0_off18 i v84) a + S1x1x16.size a ≤ S32x262144x16.size a := fun i v84 k0_hw9 => k0_hw9.1
theorem k0_off73_inb : ∀ (i : grid0.Coords) (v84 : BitVec 32) (k0_hw9 : k0_chk9 i v84), ∀ a, (k0_off73 i v84) a + S1x1x16.size a ≤ S32x262144x16.size a := fun i v84 k0_hw9 => k0_hw9.2

def k0_off74 (i : grid0.Coords) (v94 : BitVec 32) : Fin 3 → Nat :=
  let arg0 : BitVec 32 := BitVec.ofNat 32 (i 0).val
  let c0_i32_167 : BitVec 32 := 0#32
  ![arg0.toNat, v94.toNat, 0]

def k0_chk10 (i : grid0.Coords) (v94 : BitVec 32) : Prop :=
  (∀ a, (k0_off20 i v94) a + S1x1x16.size a ≤ S32x262144x16.size a) ∧
  (∀ a, (k0_off74 i v94) a + S1x1x16.size a ≤ S32x262144x16.size a)
instance k0_chk10.dec : ∀ (i : grid0.Coords) (v94 : BitVec 32), Decidable (k0_chk10 i v94) := fun i v94 => decidable_of_iff' _ (Iff.of_eq (k0_chk10.eq_1 i v94))
theorem k0_off20_inb : ∀ (i : grid0.Coords) (v94 : BitVec 32) (k0_hw10 : k0_chk10 i v94), ∀ a, (k0_off20 i v94) a + S1x1x16.size a ≤ S32x262144x16.size a := fun i v94 k0_hw10 => k0_hw10.1
theorem k0_off74_inb : ∀ (i : grid0.Coords) (v94 : BitVec 32) (k0_hw10 : k0_chk10 i v94), ∀ a, (k0_off74 i v94) a + S1x1x16.size a ≤ S32x262144x16.size a := fun i v94 k0_hw10 => k0_hw10.2

def k0_off75 (i : grid0.Coords) (v104 : BitVec 32) : Fin 3 → Nat :=
  let arg0 : BitVec 32 := BitVec.ofNat 32 (i 0).val
  let c0_i32_171 : BitVec 32 := 0#32
  ![arg0.toNat, v104.toNat, 0]

def k0_chk11 (i : grid0.Coords) (v104 : BitVec 32) : Prop :=
  (∀ a, (k0_off22 i v104) a + S1x1x16.size a ≤ S32x262144x16.size a) ∧
  (∀ a, (k0_off75 i v104) a + S1x1x16.size a ≤ S32x262144x16.size a)
instance k0_chk11.dec : ∀ (i : grid0.Coords) (v104 : BitVec 32), Decidable (k0_chk11 i v104) := fun i v104 => decidable_of_iff' _ (Iff.of_eq (k0_chk11.eq_1 i v104))
theorem k0_off22_inb : ∀ (i : grid0.Coords) (v104 : BitVec 32) (k0_hw11 : k0_chk11 i v104), ∀ a, (k0_off22 i v104) a + S1x1x16.size a ≤ S32x262144x16.size a := fun i v104 k0_hw11 => k0_hw11.1
theorem k0_off75_inb : ∀ (i : grid0.Coords) (v104 : BitVec 32) (k0_hw11 : k0_chk11 i v104), ∀ a, (k0_off75 i v104) a + S1x1x16.size a ≤ S32x262144x16.size a := fun i v104 k0_hw11 => k0_hw11.2

def k0_off76 (i : grid0.Coords) (v114 : BitVec 32) : Fin 3 → Nat :=
  let arg0 : BitVec 32 := BitVec.ofNat 32 (i 0).val
  let c0_i32_175 : BitVec 32 := 0#32
  ![arg0.toNat, v114.toNat, 0]

def k0_chk12 (i : grid0.Coords) (v114 : BitVec 32) : Prop :=
  (∀ a, (k0_off24 i v114) a + S1x1x16.size a ≤ S32x262144x16.size a) ∧
  (∀ a, (k0_off76 i v114) a + S1x1x16.size a ≤ S32x262144x16.size a)
instance k0_chk12.dec : ∀ (i : grid0.Coords) (v114 : BitVec 32), Decidable (k0_chk12 i v114) := fun i v114 => decidable_of_iff' _ (Iff.of_eq (k0_chk12.eq_1 i v114))
theorem k0_off24_inb : ∀ (i : grid0.Coords) (v114 : BitVec 32) (k0_hw12 : k0_chk12 i v114), ∀ a, (k0_off24 i v114) a + S1x1x16.size a ≤ S32x262144x16.size a := fun i v114 k0_hw12 => k0_hw12.1
theorem k0_off76_inb : ∀ (i : grid0.Coords) (v114 : BitVec 32) (k0_hw12 : k0_chk12 i v114), ∀ a, (k0_off76 i v114) a + S1x1x16.size a ≤ S32x262144x16.size a := fun i v114 k0_hw12 => k0_hw12.2

def k0_off77 (i : grid0.Coords) (v124 : BitVec 32) : Fin 3 → Nat :=
  let arg0 : BitVec 32 := BitVec.ofNat 32 (i 0).val
  let c0_i32_179 : BitVec 32 := 0#32
  ![arg0.toNat, v124.toNat, 0]

def k0_chk13 (i : grid0.Coords) (v124 : BitVec 32) : Prop :=
  (∀ a, (k0_off26 i v124) a + S1x1x16.size a ≤ S32x262144x16.size a) ∧
  (∀ a, (k0_off77 i v124) a + S1x1x16.size a ≤ S32x262144x16.size a)
instance k0_chk13.dec : ∀ (i : grid0.Coords) (v124 : BitVec 32), Decidable (k0_chk13 i v124) := fun i v124 => decidable_of_iff' _ (Iff.of_eq (k0_chk13.eq_1 i v124))
theorem k0_off26_inb : ∀ (i : grid0.Coords) (v124 : BitVec 32) (k0_hw13 : k0_chk13 i v124), ∀ a, (k0_off26 i v124) a + S1x1x16.size a ≤ S32x262144x16.size a := fun i v124 k0_hw13 => k0_hw13.1
theorem k0_off77_inb : ∀ (i : grid0.Coords) (v124 : BitVec 32) (k0_hw13 : k0_chk13 i v124), ∀ a, (k0_off77 i v124) a + S1x1x16.size a ≤ S32x262144x16.size a := fun i v124 k0_hw13 => k0_hw13.2

def k0_off78 (i : grid0.Coords) (v134 : BitVec 32) : Fin 3 → Nat :=
  let arg0 : BitVec 32 := BitVec.ofNat 32 (i 0).val
  let c0_i32_183 : BitVec 32 := 0#32
  ![arg0.toNat, v134.toNat, 0]

def k0_chk14 (i : grid0.Coords) (v134 : BitVec 32) : Prop :=
  (∀ a, (k0_off28 i v134) a + S1x1x16.size a ≤ S32x262144x16.size a) ∧
  (∀ a, (k0_off78 i v134) a + S1x1x16.size a ≤ S32x262144x16.size a)
instance k0_chk14.dec : ∀ (i : grid0.Coords) (v134 : BitVec 32), Decidable (k0_chk14 i v134) := fun i v134 => decidable_of_iff' _ (Iff.of_eq (k0_chk14.eq_1 i v134))
theorem k0_off28_inb : ∀ (i : grid0.Coords) (v134 : BitVec 32) (k0_hw14 : k0_chk14 i v134), ∀ a, (k0_off28 i v134) a + S1x1x16.size a ≤ S32x262144x16.size a := fun i v134 k0_hw14 => k0_hw14.1
theorem k0_off78_inb : ∀ (i : grid0.Coords) (v134 : BitVec 32) (k0_hw14 : k0_chk14 i v134), ∀ a, (k0_off78 i v134) a + S1x1x16.size a ≤ S32x262144x16.size a := fun i v134 k0_hw14 => k0_hw14.2

def k0_off79 (i : grid0.Coords) (v144 : BitVec 32) : Fin 3 → Nat :=
  let arg0 : BitVec 32 := BitVec.ofNat 32 (i 0).val
  let c0_i32_187 : BitVec 32 := 0#32
  ![arg0.toNat, v144.toNat, 0]

def k0_chk15 (i : grid0.Coords) (v144 : BitVec 32) : Prop :=
  (∀ a, (k0_off30 i v144) a + S1x1x16.size a ≤ S32x262144x16.size a) ∧
  (∀ a, (k0_off79 i v144) a + S1x1x16.size a ≤ S32x262144x16.size a)
instance k0_chk15.dec : ∀ (i : grid0.Coords) (v144 : BitVec 32), Decidable (k0_chk15 i v144) := fun i v144 => decidable_of_iff' _ (Iff.of_eq (k0_chk15.eq_1 i v144))
theorem k0_off30_inb : ∀ (i : grid0.Coords) (v144 : BitVec 32) (k0_hw15 : k0_chk15 i v144), ∀ a, (k0_off30 i v144) a + S1x1x16.size a ≤ S32x262144x16.size a := fun i v144 k0_hw15 => k0_hw15.1
theorem k0_off79_inb : ∀ (i : grid0.Coords) (v144 : BitVec 32) (k0_hw15 : k0_chk15 i v144), ∀ a, (k0_off79 i v144) a + S1x1x16.size a ≤ S32x262144x16.size a := fun i v144 k0_hw15 => k0_hw15.2

def k0_off80 (i : grid0.Coords) (v154 : BitVec 32) : Fin 3 → Nat :=
  let arg0 : BitVec 32 := BitVec.ofNat 32 (i 0).val
  let c0_i32_191 : BitVec 32 := 0#32
  ![arg0.toNat, v154.toNat, 0]

def k0_chk16 (i : grid0.Coords) (v154 : BitVec 32) : Prop :=
  (∀ a, (k0_off32 i v154) a + S1x1x16.size a ≤ S32x262144x16.size a) ∧
  (∀ a, (k0_off80 i v154) a + S1x1x16.size a ≤ S32x262144x16.size a)
instance k0_chk16.dec : ∀ (i : grid0.Coords) (v154 : BitVec 32), Decidable (k0_chk16 i v154) := fun i v154 => decidable_of_iff' _ (Iff.of_eq (k0_chk16.eq_1 i v154))
theorem k0_off32_inb : ∀ (i : grid0.Coords) (v154 : BitVec 32) (k0_hw16 : k0_chk16 i v154), ∀ a, (k0_off32 i v154) a + S1x1x16.size a ≤ S32x262144x16.size a := fun i v154 k0_hw16 => k0_hw16.1
theorem k0_off80_inb : ∀ (i : grid0.Coords) (v154 : BitVec 32) (k0_hw16 : k0_chk16 i v154), ∀ a, (k0_off80 i v154) a + S1x1x16.size a ≤ S32x262144x16.size a := fun i v154 k0_hw16 => k0_hw16.2

def k0_off81 (i : grid0.Coords) (v164 : BitVec 32) : Fin 3 → Nat :=
  let arg0 : BitVec 32 := BitVec.ofNat 32 (i 0).val
  let c0_i32_195 : BitVec 32 := 0#32
  ![arg0.toNat, v164.toNat, 0]

def k0_chk17 (i : grid0.Coords) (v164 : BitVec 32) : Prop :=
  (∀ a, (k0_off34 i v164) a + S1x1x16.size a ≤ S32x262144x16.size a) ∧
  (∀ a, (k0_off81 i v164) a + S1x1x16.size a ≤ S32x262144x16.size a)
instance k0_chk17.dec : ∀ (i : grid0.Coords) (v164 : BitVec 32), Decidable (k0_chk17 i v164) := fun i v164 => decidable_of_iff' _ (Iff.of_eq (k0_chk17.eq_1 i v164))
theorem k0_off34_inb : ∀ (i : grid0.Coords) (v164 : BitVec 32) (k0_hw17 : k0_chk17 i v164), ∀ a, (k0_off34 i v164) a + S1x1x16.size a ≤ S32x262144x16.size a := fun i v164 k0_hw17 => k0_hw17.1
theorem k0_off81_inb : ∀ (i : grid0.Coords) (v164 : BitVec 32) (k0_hw17 : k0_chk17 i v164), ∀ a, (k0_off81 i v164) a + S1x1x16.size a ≤ S32x262144x16.size a := fun i v164 k0_hw17 => k0_hw17.2

def k0_off82 (i : grid0.Coords) (v174 : BitVec 32) : Fin 3 → Nat :=
  let arg0 : BitVec 32 := BitVec.ofNat 32 (i 0).val
  let c0_i32_199 : BitVec 32 := 0#32
  ![arg0.toNat, v174.toNat, 0]

def k0_chk18 (i : grid0.Coords) (v174 : BitVec 32) : Prop :=
  (∀ a, (k0_off36 i v174) a + S1x1x16.size a ≤ S32x262144x16.size a) ∧
  (∀ a, (k0_off82 i v174) a + S1x1x16.size a ≤ S32x262144x16.size a)
instance k0_chk18.dec : ∀ (i : grid0.Coords) (v174 : BitVec 32), Decidable (k0_chk18 i v174) := fun i v174 => decidable_of_iff' _ (Iff.of_eq (k0_chk18.eq_1 i v174))
theorem k0_off36_inb : ∀ (i : grid0.Coords) (v174 : BitVec 32) (k0_hw18 : k0_chk18 i v174), ∀ a, (k0_off36 i v174) a + S1x1x16.size a ≤ S32x262144x16.size a := fun i v174 k0_hw18 => k0_hw18.1
theorem k0_off82_inb : ∀ (i : grid0.Coords) (v174 : BitVec 32) (k0_hw18 : k0_chk18 i v174), ∀ a, (k0_off82 i v174) a + S1x1x16.size a ≤ S32x262144x16.size a := fun i v174 k0_hw18 => k0_hw18.2

def k0_off83 (i : grid0.Coords) (v184 : BitVec 32) : Fin 3 → Nat :=
  let arg0 : BitVec 32 := BitVec.ofNat 32 (i 0).val
  let c0_i32_203 : BitVec 32 := 0#32
  ![arg0.toNat, v184.toNat, 0]

def k0_chk19 (i : grid0.Coords) (v184 : BitVec 32) : Prop :=
  (∀ a, (k0_off38 i v184) a + S1x1x16.size a ≤ S32x262144x16.size a) ∧
  (∀ a, (k0_off83 i v184) a + S1x1x16.size a ≤ S32x262144x16.size a)
instance k0_chk19.dec : ∀ (i : grid0.Coords) (v184 : BitVec 32), Decidable (k0_chk19 i v184) := fun i v184 => decidable_of_iff' _ (Iff.of_eq (k0_chk19.eq_1 i v184))
theorem k0_off38_inb : ∀ (i : grid0.Coords) (v184 : BitVec 32) (k0_hw19 : k0_chk19 i v184), ∀ a, (k0_off38 i v184) a + S1x1x16.size a ≤ S32x262144x16.size a := fun i v184 k0_hw19 => k0_hw19.1
theorem k0_off83_inb : ∀ (i : grid0.Coords) (v184 : BitVec 32) (k0_hw19 : k0_chk19 i v184), ∀ a, (k0_off83 i v184) a + S1x1x16.size a ≤ S32x262144x16.size a := fun i v184 k0_hw19 => k0_hw19.2

def k0_off84 (i : grid0.Coords) (v194 : BitVec 32) : Fin 3 → Nat :=
  let arg0 : BitVec 32 := BitVec.ofNat 32 (i 0).val
  let c0_i32_207 : BitVec 32 := 0#32
  ![arg0.toNat, v194.toNat, 0]

def k0_chk20 (i : grid0.Coords) (v194 : BitVec 32) : Prop :=
  (∀ a, (k0_off40 i v194) a + S1x1x16.size a ≤ S32x262144x16.size a) ∧
  (∀ a, (k0_off84 i v194) a + S1x1x16.size a ≤ S32x262144x16.size a)
instance k0_chk20.dec : ∀ (i : grid0.Coords) (v194 : BitVec 32), Decidable (k0_chk20 i v194) := fun i v194 => decidable_of_iff' _ (Iff.of_eq (k0_chk20.eq_1 i v194))
theorem k0_off40_inb : ∀ (i : grid0.Coords) (v194 : BitVec 32) (k0_hw20 : k0_chk20 i v194), ∀ a, (k0_off40 i v194) a + S1x1x16.size a ≤ S32x262144x16.size a := fun i v194 k0_hw20 => k0_hw20.1
theorem k0_off84_inb : ∀ (i : grid0.Coords) (v194 : BitVec 32) (k0_hw20 : k0_chk20 i v194), ∀ a, (k0_off84 i v194) a + S1x1x16.size a ≤ S32x262144x16.size a := fun i v194 k0_hw20 => k0_hw20.2

def k0_off85 (i : grid0.Coords) (v204 : BitVec 32) : Fin 3 → Nat :=
  let arg0 : BitVec 32 := BitVec.ofNat 32 (i 0).val
  let c0_i32_211 : BitVec 32 := 0#32
  ![arg0.toNat, v204.toNat, 0]

def k0_chk21 (i : grid0.Coords) (v204 : BitVec 32) : Prop :=
  (∀ a, (k0_off42 i v204) a + S1x1x16.size a ≤ S32x262144x16.size a) ∧
  (∀ a, (k0_off85 i v204) a + S1x1x16.size a ≤ S32x262144x16.size a)
instance k0_chk21.dec : ∀ (i : grid0.Coords) (v204 : BitVec 32), Decidable (k0_chk21 i v204) := fun i v204 => decidable_of_iff' _ (Iff.of_eq (k0_chk21.eq_1 i v204))
theorem k0_off42_inb : ∀ (i : grid0.Coords) (v204 : BitVec 32) (k0_hw21 : k0_chk21 i v204), ∀ a, (k0_off42 i v204) a + S1x1x16.size a ≤ S32x262144x16.size a := fun i v204 k0_hw21 => k0_hw21.1
theorem k0_off85_inb : ∀ (i : grid0.Coords) (v204 : BitVec 32) (k0_hw21 : k0_chk21 i v204), ∀ a, (k0_off85 i v204) a + S1x1x16.size a ≤ S32x262144x16.size a := fun i v204 k0_hw21 => k0_hw21.2

def k0_off86 (i : grid0.Coords) (v214 : BitVec 32) : Fin 3 → Nat :=
  let arg0 : BitVec 32 := BitVec.ofNat 32 (i 0).val
  let c0_i32_215 : BitVec 32 := 0#32
  ![arg0.toNat, v214.toNat, 0]

def k0_chk22 (i : grid0.Coords) (v214 : BitVec 32) : Prop :=
  (∀ a, (k0_off44 i v214) a + S1x1x16.size a ≤ S32x262144x16.size a) ∧
  (∀ a, (k0_off86 i v214) a + S1x1x16.size a ≤ S32x262144x16.size a)
instance k0_chk22.dec : ∀ (i : grid0.Coords) (v214 : BitVec 32), Decidable (k0_chk22 i v214) := fun i v214 => decidable_of_iff' _ (Iff.of_eq (k0_chk22.eq_1 i v214))
theorem k0_off44_inb : ∀ (i : grid0.Coords) (v214 : BitVec 32) (k0_hw22 : k0_chk22 i v214), ∀ a, (k0_off44 i v214) a + S1x1x16.size a ≤ S32x262144x16.size a := fun i v214 k0_hw22 => k0_hw22.1
theorem k0_off86_inb : ∀ (i : grid0.Coords) (v214 : BitVec 32) (k0_hw22 : k0_chk22 i v214), ∀ a, (k0_off86 i v214) a + S1x1x16.size a ≤ S32x262144x16.size a := fun i v214 k0_hw22 => k0_hw22.2

def k0_off87 (i : grid0.Coords) (v224 : BitVec 32) : Fin 3 → Nat :=
  let arg0 : BitVec 32 := BitVec.ofNat 32 (i 0).val
  let c0_i32_219 : BitVec 32 := 0#32
  ![arg0.toNat, v224.toNat, 0]

def k0_chk23 (i : grid0.Coords) (v224 : BitVec 32) : Prop :=
  (∀ a, (k0_off46 i v224) a + S1x1x16.size a ≤ S32x262144x16.size a) ∧
  (∀ a, (k0_off87 i v224) a + S1x1x16.size a ≤ S32x262144x16.size a)
instance k0_chk23.dec : ∀ (i : grid0.Coords) (v224 : BitVec 32), Decidable (k0_chk23 i v224) := fun i v224 => decidable_of_iff' _ (Iff.of_eq (k0_chk23.eq_1 i v224))
theorem k0_off46_inb : ∀ (i : grid0.Coords) (v224 : BitVec 32) (k0_hw23 : k0_chk23 i v224), ∀ a, (k0_off46 i v224) a + S1x1x16.size a ≤ S32x262144x16.size a := fun i v224 k0_hw23 => k0_hw23.1
theorem k0_off87_inb : ∀ (i : grid0.Coords) (v224 : BitVec 32) (k0_hw23 : k0_chk23 i v224), ∀ a, (k0_off87 i v224) a + S1x1x16.size a ≤ S32x262144x16.size a := fun i v224 k0_hw23 => k0_hw23.2

def k0_off88 (i : grid0.Coords) (v234 : BitVec 32) : Fin 3 → Nat :=
  let arg0 : BitVec 32 := BitVec.ofNat 32 (i 0).val
  let c0_i32_223 : BitVec 32 := 0#32
  ![arg0.toNat, v234.toNat, 0]

def k0_chk24 (i : grid0.Coords) (v234 : BitVec 32) : Prop :=
  (∀ a, (k0_off48 i v234) a + S1x1x16.size a ≤ S32x262144x16.size a) ∧
  (∀ a, (k0_off88 i v234) a + S1x1x16.size a ≤ S32x262144x16.size a)
instance k0_chk24.dec : ∀ (i : grid0.Coords) (v234 : BitVec 32), Decidable (k0_chk24 i v234) := fun i v234 => decidable_of_iff' _ (Iff.of_eq (k0_chk24.eq_1 i v234))
theorem k0_off48_inb : ∀ (i : grid0.Coords) (v234 : BitVec 32) (k0_hw24 : k0_chk24 i v234), ∀ a, (k0_off48 i v234) a + S1x1x16.size a ≤ S32x262144x16.size a := fun i v234 k0_hw24 => k0_hw24.1
theorem k0_off88_inb : ∀ (i : grid0.Coords) (v234 : BitVec 32) (k0_hw24 : k0_chk24 i v234), ∀ a, (k0_off88 i v234) a + S1x1x16.size a ≤ S32x262144x16.size a := fun i v234 k0_hw24 => k0_hw24.2

def k0_off89 (i : grid0.Coords) (v244 : BitVec 32) : Fin 3 → Nat :=
  let arg0 : BitVec 32 := BitVec.ofNat 32 (i 0).val
  let c0_i32_227 : BitVec 32 := 0#32
  ![arg0.toNat, v244.toNat, 0]

def k0_chk25 (i : grid0.Coords) (v244 : BitVec 32) : Prop :=
  (∀ a, (k0_off50 i v244) a + S1x1x16.size a ≤ S32x262144x16.size a) ∧
  (∀ a, (k0_off89 i v244) a + S1x1x16.size a ≤ S32x262144x16.size a)
instance k0_chk25.dec : ∀ (i : grid0.Coords) (v244 : BitVec 32), Decidable (k0_chk25 i v244) := fun i v244 => decidable_of_iff' _ (Iff.of_eq (k0_chk25.eq_1 i v244))
theorem k0_off50_inb : ∀ (i : grid0.Coords) (v244 : BitVec 32) (k0_hw25 : k0_chk25 i v244), ∀ a, (k0_off50 i v244) a + S1x1x16.size a ≤ S32x262144x16.size a := fun i v244 k0_hw25 => k0_hw25.1
theorem k0_off89_inb : ∀ (i : grid0.Coords) (v244 : BitVec 32) (k0_hw25 : k0_chk25 i v244), ∀ a, (k0_off89 i v244) a + S1x1x16.size a ≤ S32x262144x16.size a := fun i v244 k0_hw25 => k0_hw25.2

def k0_off90 (i : grid0.Coords) (v254 : BitVec 32) : Fin 3 → Nat :=
  let arg0 : BitVec 32 := BitVec.ofNat 32 (i 0).val
  let c0_i32_231 : BitVec 32 := 0#32
  ![arg0.toNat, v254.toNat, 0]

def k0_chk26 (i : grid0.Coords) (v254 : BitVec 32) : Prop :=
  (∀ a, (k0_off52 i v254) a + S1x1x16.size a ≤ S32x262144x16.size a) ∧
  (∀ a, (k0_off90 i v254) a + S1x1x16.size a ≤ S32x262144x16.size a)
instance k0_chk26.dec : ∀ (i : grid0.Coords) (v254 : BitVec 32), Decidable (k0_chk26 i v254) := fun i v254 => decidable_of_iff' _ (Iff.of_eq (k0_chk26.eq_1 i v254))
theorem k0_off52_inb : ∀ (i : grid0.Coords) (v254 : BitVec 32) (k0_hw26 : k0_chk26 i v254), ∀ a, (k0_off52 i v254) a + S1x1x16.size a ≤ S32x262144x16.size a := fun i v254 k0_hw26 => k0_hw26.1
theorem k0_off90_inb : ∀ (i : grid0.Coords) (v254 : BitVec 32) (k0_hw26 : k0_chk26 i v254), ∀ a, (k0_off90 i v254) a + S1x1x16.size a ≤ S32x262144x16.size a := fun i v254 k0_hw26 => k0_hw26.2

def k0_off91 (i : grid0.Coords) (v264 : BitVec 32) : Fin 3 → Nat :=
  let arg0 : BitVec 32 := BitVec.ofNat 32 (i 0).val
  let c0_i32_235 : BitVec 32 := 0#32
  ![arg0.toNat, v264.toNat, 0]

def k0_chk27 (i : grid0.Coords) (v264 : BitVec 32) : Prop :=
  (∀ a, (k0_off54 i v264) a + S1x1x16.size a ≤ S32x262144x16.size a) ∧
  (∀ a, (k0_off91 i v264) a + S1x1x16.size a ≤ S32x262144x16.size a)
instance k0_chk27.dec : ∀ (i : grid0.Coords) (v264 : BitVec 32), Decidable (k0_chk27 i v264) := fun i v264 => decidable_of_iff' _ (Iff.of_eq (k0_chk27.eq_1 i v264))
theorem k0_off54_inb : ∀ (i : grid0.Coords) (v264 : BitVec 32) (k0_hw27 : k0_chk27 i v264), ∀ a, (k0_off54 i v264) a + S1x1x16.size a ≤ S32x262144x16.size a := fun i v264 k0_hw27 => k0_hw27.1
theorem k0_off91_inb : ∀ (i : grid0.Coords) (v264 : BitVec 32) (k0_hw27 : k0_chk27 i v264), ∀ a, (k0_off91 i v264) a + S1x1x16.size a ≤ S32x262144x16.size a := fun i v264 k0_hw27 => k0_hw27.2

def k0_off92 (i : grid0.Coords) (v274 : BitVec 32) : Fin 3 → Nat :=
  let arg0 : BitVec 32 := BitVec.ofNat 32 (i 0).val
  let c0_i32_239 : BitVec 32 := 0#32
  ![arg0.toNat, v274.toNat, 0]

def k0_chk28 (i : grid0.Coords) (v274 : BitVec 32) : Prop :=
  (∀ a, (k0_off56 i v274) a + S1x1x16.size a ≤ S32x262144x16.size a) ∧
  (∀ a, (k0_off92 i v274) a + S1x1x16.size a ≤ S32x262144x16.size a)
instance k0_chk28.dec : ∀ (i : grid0.Coords) (v274 : BitVec 32), Decidable (k0_chk28 i v274) := fun i v274 => decidable_of_iff' _ (Iff.of_eq (k0_chk28.eq_1 i v274))
theorem k0_off56_inb : ∀ (i : grid0.Coords) (v274 : BitVec 32) (k0_hw28 : k0_chk28 i v274), ∀ a, (k0_off56 i v274) a + S1x1x16.size a ≤ S32x262144x16.size a := fun i v274 k0_hw28 => k0_hw28.1
theorem k0_off92_inb : ∀ (i : grid0.Coords) (v274 : BitVec 32) (k0_hw28 : k0_chk28 i v274), ∀ a, (k0_off92 i v274) a + S1x1x16.size a ≤ S32x262144x16.size a := fun i v274 k0_hw28 => k0_hw28.2

def k0_off93 (i : grid0.Coords) (v284 : BitVec 32) : Fin 3 → Nat :=
  let arg0 : BitVec 32 := BitVec.ofNat 32 (i 0).val
  let c0_i32_243 : BitVec 32 := 0#32
  ![arg0.toNat, v284.toNat, 0]

def k0_chk29 (i : grid0.Coords) (v284 : BitVec 32) : Prop :=
  (∀ a, (k0_off58 i v284) a + S1x1x16.size a ≤ S32x262144x16.size a) ∧
  (∀ a, (k0_off93 i v284) a + S1x1x16.size a ≤ S32x262144x16.size a)
instance k0_chk29.dec : ∀ (i : grid0.Coords) (v284 : BitVec 32), Decidable (k0_chk29 i v284) := fun i v284 => decidable_of_iff' _ (Iff.of_eq (k0_chk29.eq_1 i v284))
theorem k0_off58_inb : ∀ (i : grid0.Coords) (v284 : BitVec 32) (k0_hw29 : k0_chk29 i v284), ∀ a, (k0_off58 i v284) a + S1x1x16.size a ≤ S32x262144x16.size a := fun i v284 k0_hw29 => k0_hw29.1
theorem k0_off93_inb : ∀ (i : grid0.Coords) (v284 : BitVec 32) (k0_hw29 : k0_chk29 i v284), ∀ a, (k0_off93 i v284) a + S1x1x16.size a ≤ S32x262144x16.size a := fun i v284 k0_hw29 => k0_hw29.2

def k0_off94 (i : grid0.Coords) (v294 : BitVec 32) : Fin 3 → Nat :=
  let arg0 : BitVec 32 := BitVec.ofNat 32 (i 0).val
  let c0_i32_247 : BitVec 32 := 0#32
  ![arg0.toNat, v294.toNat, 0]

def k0_chk30 (i : grid0.Coords) (v294 : BitVec 32) : Prop :=
  (∀ a, (k0_off60 i v294) a + S1x1x16.size a ≤ S32x262144x16.size a) ∧
  (∀ a, (k0_off94 i v294) a + S1x1x16.size a ≤ S32x262144x16.size a)
instance k0_chk30.dec : ∀ (i : grid0.Coords) (v294 : BitVec 32), Decidable (k0_chk30 i v294) := fun i v294 => decidable_of_iff' _ (Iff.of_eq (k0_chk30.eq_1 i v294))
theorem k0_off60_inb : ∀ (i : grid0.Coords) (v294 : BitVec 32) (k0_hw30 : k0_chk30 i v294), ∀ a, (k0_off60 i v294) a + S1x1x16.size a ≤ S32x262144x16.size a := fun i v294 k0_hw30 => k0_hw30.1
theorem k0_off94_inb : ∀ (i : grid0.Coords) (v294 : BitVec 32) (k0_hw30 : k0_chk30 i v294), ∀ a, (k0_off94 i v294) a + S1x1x16.size a ≤ S32x262144x16.size a := fun i v294 k0_hw30 => k0_hw30.2

def k0_off95 (i : grid0.Coords) (v304 : BitVec 32) : Fin 3 → Nat :=
  let arg0 : BitVec 32 := BitVec.ofNat 32 (i 0).val
  let c0_i32_251 : BitVec 32 := 0#32
  ![arg0.toNat, v304.toNat, 0]

def k0_chk31 (i : grid0.Coords) (v304 : BitVec 32) : Prop :=
  (∀ a, (k0_off62 i v304) a + S1x1x16.size a ≤ S32x262144x16.size a) ∧
  (∀ a, (k0_off95 i v304) a + S1x1x16.size a ≤ S32x262144x16.size a)
instance k0_chk31.dec : ∀ (i : grid0.Coords) (v304 : BitVec 32), Decidable (k0_chk31 i v304) := fun i v304 => decidable_of_iff' _ (Iff.of_eq (k0_chk31.eq_1 i v304))
theorem k0_off62_inb : ∀ (i : grid0.Coords) (v304 : BitVec 32) (k0_hw31 : k0_chk31 i v304), ∀ a, (k0_off62 i v304) a + S1x1x16.size a ≤ S32x262144x16.size a := fun i v304 k0_hw31 => k0_hw31.1
theorem k0_off95_inb : ∀ (i : grid0.Coords) (v304 : BitVec 32) (k0_hw31 : k0_chk31 i v304), ∀ a, (k0_off95 i v304) a + S1x1x16.size a ≤ S32x262144x16.size a := fun i v304 k0_hw31 => k0_hw31.2

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

class Facts₀ : Prop where
  bcast_S_S32x262144 : S_.BroadcastsInDim S32x262144 (![] : Fin 0 → Fin S32x262144.rank)
  natLt_1_32 : 1 < 32
  reducesTo_S32x262144_S32_d1 : S32x262144.ReducesTo [1] S32
  h_S_ : 0 < S_.numel
  bcast_S_S32 : S_.BroadcastsInDim S32 (![] : Fin 0 → Fin S32.rank)
  bcast_S2048_S1x2048_1 : S2048.BroadcastsInDim S1x2048 (![1] : Fin 1 → Fin S1x2048.rank)
  bcast_S32_S32x1_0 : S32.BroadcastsInDim S32x1 (![0] : Fin 1 → Fin S32x1.rank)
  bcast_S_S32x1 : S_.BroadcastsInDim S32x1 (![] : Fin 0 → Fin S32x1.rank)
  bcast_S1x2048_S32x2048_0_1 : S1x2048.BroadcastsInDim S32x2048 (![0, 1] : Fin 2 → Fin S32x2048.rank)
  bcast_S32x1_S32x2048_0_1 : S32x1.BroadcastsInDim S32x2048 (![0, 1] : Fin 2 → Fin S32x2048.rank)
  bcast_S_S32x2048 : S_.BroadcastsInDim S32x2048 (![] : Fin 0 → Fin S32x2048.rank)
  shapeCasts_S32x2048_S32x2048x1 : S32x2048.ShapeCasts S32x2048x1
  bcast_S_S32x2048x1 : S_.BroadcastsInDim S32x2048x1 (![] : Fin 0 → Fin S32x2048x1.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x2048_d2 : S32x2048x1.ReducesTo [2] S32x2048
  numel1_S1x1 : S1x1.numel = 1
  inb_S32_S1_0 : ∀ a, (![0] : Fin 1 → Nat) a + S1.size a ≤ S32.size a
  squeezes_S1_S_ : S1.Squeezes S_
  inb_S32x16_S1x16_0_0 : ∀ a, (![0, 0] : Fin 2 → Nat) a + S1x16.size a ≤ S32x16.size a
  squeezes_S1x16_S16 : S1x16.Squeezes S16
  squeezes_S1x1x16_S16 : S1x1x16.Squeezes S16
  inb_S32_S1_1 : ∀ a, (![1] : Fin 1 → Nat) a + S1.size a ≤ S32.size a
  inb_S32x16_S1x16_1_0 : ∀ a, (![1, 0] : Fin 2 → Nat) a + S1x16.size a ≤ S32x16.size a
  inb_S32_S1_2 : ∀ a, (![2] : Fin 1 → Nat) a + S1.size a ≤ S32.size a
  inb_S32x16_S1x16_2_0 : ∀ a, (![2, 0] : Fin 2 → Nat) a + S1x16.size a ≤ S32x16.size a
  inb_S32_S1_3 : ∀ a, (![3] : Fin 1 → Nat) a + S1.size a ≤ S32.size a
  inb_S32x16_S1x16_3_0 : ∀ a, (![3, 0] : Fin 2 → Nat) a + S1x16.size a ≤ S32x16.size a
  inb_S32_S1_4 : ∀ a, (![4] : Fin 1 → Nat) a + S1.size a ≤ S32.size a
  inb_S32x16_S1x16_4_0 : ∀ a, (![4, 0] : Fin 2 → Nat) a + S1x16.size a ≤ S32x16.size a
  inb_S32_S1_5 : ∀ a, (![5] : Fin 1 → Nat) a + S1.size a ≤ S32.size a
  inb_S32x16_S1x16_5_0 : ∀ a, (![5, 0] : Fin 2 → Nat) a + S1x16.size a ≤ S32x16.size a
  inb_S32_S1_6 : ∀ a, (![6] : Fin 1 → Nat) a + S1.size a ≤ S32.size a
  inb_S32x16_S1x16_6_0 : ∀ a, (![6, 0] : Fin 2 → Nat) a + S1x16.size a ≤ S32x16.size a
  inb_S32_S1_7 : ∀ a, (![7] : Fin 1 → Nat) a + S1.size a ≤ S32.size a
  inb_S32x16_S1x16_7_0 : ∀ a, (![7, 0] : Fin 2 → Nat) a + S1x16.size a ≤ S32x16.size a
  inb_S32_S1_8 : ∀ a, (![8] : Fin 1 → Nat) a + S1.size a ≤ S32.size a
  inb_S32x16_S1x16_8_0 : ∀ a, (![8, 0] : Fin 2 → Nat) a + S1x16.size a ≤ S32x16.size a
  inb_S32_S1_9 : ∀ a, (![9] : Fin 1 → Nat) a + S1.size a ≤ S32.size a
  inb_S32x16_S1x16_9_0 : ∀ a, (![9, 0] : Fin 2 → Nat) a + S1x16.size a ≤ S32x16.size a
  inb_S32_S1_10 : ∀ a, (![10] : Fin 1 → Nat) a + S1.size a ≤ S32.size a
  inb_S32x16_S1x16_10_0 : ∀ a, (![10, 0] : Fin 2 → Nat) a + S1x16.size a ≤ S32x16.size a
  inb_S32_S1_11 : ∀ a, (![11] : Fin 1 → Nat) a + S1.size a ≤ S32.size a
  inb_S32x16_S1x16_11_0 : ∀ a, (![11, 0] : Fin 2 → Nat) a + S1x16.size a ≤ S32x16.size a
  inb_S32_S1_12 : ∀ a, (![12] : Fin 1 → Nat) a + S1.size a ≤ S32.size a
  inb_S32x16_S1x16_12_0 : ∀ a, (![12, 0] : Fin 2 → Nat) a + S1x16.size a ≤ S32x16.size a
  inb_S32_S1_13 : ∀ a, (![13] : Fin 1 → Nat) a + S1.size a ≤ S32.size a
  inb_S32x16_S1x16_13_0 : ∀ a, (![13, 0] : Fin 2 → Nat) a + S1x16.size a ≤ S32x16.size a
  inb_S32_S1_14 : ∀ a, (![14] : Fin 1 → Nat) a + S1.size a ≤ S32.size a
  inb_S32x16_S1x16_14_0 : ∀ a, (![14, 0] : Fin 2 → Nat) a + S1x16.size a ≤ S32x16.size a
  inb_S32_S1_15 : ∀ a, (![15] : Fin 1 → Nat) a + S1.size a ≤ S32.size a
  inb_S32x16_S1x16_15_0 : ∀ a, (![15, 0] : Fin 2 → Nat) a + S1x16.size a ≤ S32x16.size a
  inb_S32_S1_16 : ∀ a, (![16] : Fin 1 → Nat) a + S1.size a ≤ S32.size a
  inb_S32x16_S1x16_16_0 : ∀ a, (![16, 0] : Fin 2 → Nat) a + S1x16.size a ≤ S32x16.size a
  inb_S32_S1_17 : ∀ a, (![17] : Fin 1 → Nat) a + S1.size a ≤ S32.size a
  inb_S32x16_S1x16_17_0 : ∀ a, (![17, 0] : Fin 2 → Nat) a + S1x16.size a ≤ S32x16.size a
  inb_S32_S1_18 : ∀ a, (![18] : Fin 1 → Nat) a + S1.size a ≤ S32.size a
  inb_S32x16_S1x16_18_0 : ∀ a, (![18, 0] : Fin 2 → Nat) a + S1x16.size a ≤ S32x16.size a
  inb_S32_S1_19 : ∀ a, (![19] : Fin 1 → Nat) a + S1.size a ≤ S32.size a
  inb_S32x16_S1x16_19_0 : ∀ a, (![19, 0] : Fin 2 → Nat) a + S1x16.size a ≤ S32x16.size a
  inb_S32_S1_20 : ∀ a, (![20] : Fin 1 → Nat) a + S1.size a ≤ S32.size a
  inb_S32x16_S1x16_20_0 : ∀ a, (![20, 0] : Fin 2 → Nat) a + S1x16.size a ≤ S32x16.size a
  inb_S32_S1_21 : ∀ a, (![21] : Fin 1 → Nat) a + S1.size a ≤ S32.size a
  inb_S32x16_S1x16_21_0 : ∀ a, (![21, 0] : Fin 2 → Nat) a + S1x16.size a ≤ S32x16.size a
  inb_S32_S1_22 : ∀ a, (![22] : Fin 1 → Nat) a + S1.size a ≤ S32.size a
  inb_S32x16_S1x16_22_0 : ∀ a, (![22, 0] : Fin 2 → Nat) a + S1x16.size a ≤ S32x16.size a
  inb_S32_S1_23 : ∀ a, (![23] : Fin 1 → Nat) a + S1.size a ≤ S32.size a
  inb_S32x16_S1x16_23_0 : ∀ a, (![23, 0] : Fin 2 → Nat) a + S1x16.size a ≤ S32x16.size a
  inb_S32_S1_24 : ∀ a, (![24] : Fin 1 → Nat) a + S1.size a ≤ S32.size a
  inb_S32x16_S1x16_24_0 : ∀ a, (![24, 0] : Fin 2 → Nat) a + S1x16.size a ≤ S32x16.size a
  inb_S32_S1_25 : ∀ a, (![25] : Fin 1 → Nat) a + S1.size a ≤ S32.size a
  inb_S32x16_S1x16_25_0 : ∀ a, (![25, 0] : Fin 2 → Nat) a + S1x16.size a ≤ S32x16.size a
  inb_S32_S1_26 : ∀ a, (![26] : Fin 1 → Nat) a + S1.size a ≤ S32.size a
  inb_S32x16_S1x16_26_0 : ∀ a, (![26, 0] : Fin 2 → Nat) a + S1x16.size a ≤ S32x16.size a
  inb_S32_S1_27 : ∀ a, (![27] : Fin 1 → Nat) a + S1.size a ≤ S32.size a
  inb_S32x16_S1x16_27_0 : ∀ a, (![27, 0] : Fin 2 → Nat) a + S1x16.size a ≤ S32x16.size a
  inb_S32_S1_28 : ∀ a, (![28] : Fin 1 → Nat) a + S1.size a ≤ S32.size a
  inb_S32x16_S1x16_28_0 : ∀ a, (![28, 0] : Fin 2 → Nat) a + S1x16.size a ≤ S32x16.size a
  inb_S32_S1_29 : ∀ a, (![29] : Fin 1 → Nat) a + S1.size a ≤ S32.size a
  inb_S32x16_S1x16_29_0 : ∀ a, (![29, 0] : Fin 2 → Nat) a + S1x16.size a ≤ S32x16.size a
  inb_S32_S1_30 : ∀ a, (![30] : Fin 1 → Nat) a + S1.size a ≤ S32.size a
  inb_S32x16_S1x16_30_0 : ∀ a, (![30, 0] : Fin 2 → Nat) a + S1x16.size a ≤ S32x16.size a
  inb_S32_S1_31 : ∀ a, (![31] : Fin 1 → Nat) a + S1.size a ≤ S32.size a
  inb_S32x16_S1x16_31_0 : ∀ a, (![31, 0] : Fin 2 → Nat) a + S1x16.size a ≤ S32x16.size a
  inb_S32x16_S32x16_0_0 : ∀ a, (![0, 0] : Fin 2 → Nat) a + S32x16.size a ≤ S32x16.size a
  h_S32x16 : 0 < S32x16.numel
  inb_S1x32x16_S1x32x16_0_0_0 : ∀ a, (![0, 0, 0] : Fin 3 → Nat) a + S1x32x16.size a ≤ S1x32x16.size a
  h_S1x32x16 : 0 < S1x32x16.numel
  shapeCasts_S1x32x16_S32x16 : S1x32x16.ShapeCasts S32x16
  shapeCasts_S32x16_S1x32x16 : S32x16.ShapeCasts S1x32x16
  gather_S32x262144_S32x2048x1_S32x2048_n_1_0_0_1_2_11_wf : GatherDims.WF S32x262144 S32x2048x1 S32x2048 [] [1] [0] [1] [0] 2 ![1, 1]
  hcc0_scratch1 : 2 + S32.numel ≤ 34
  hrank0 : 0 < grid0.rank
  k0_off1_inb : ∀ i : grid0.Coords, ∀ a, (k0_off1 i) a + S1x1.size a ≤ S32x2048.size a
  k0_off3_inb : ∀ i : grid0.Coords, ∀ a, (k0_off3 i) a + S1x1.size a ≤ S32x2048.size a
  k0_off5_inb : ∀ i : grid0.Coords, ∀ a, (k0_off5 i) a + S1x1.size a ≤ S32x2048.size a
  k0_off7_inb : ∀ i : grid0.Coords, ∀ a, (k0_off7 i) a + S1x1.size a ≤ S32x2048.size a
  k0_off9_inb : ∀ i : grid0.Coords, ∀ a, (k0_off9 i) a + S1x1.size a ≤ S32x2048.size a
  k0_off11_inb : ∀ i : grid0.Coords, ∀ a, (k0_off11 i) a + S1x1.size a ≤ S32x2048.size a
  k0_off13_inb : ∀ i : grid0.Coords, ∀ a, (k0_off13 i) a + S1x1.size a ≤ S32x2048.size a
  k0_off15_inb : ∀ i : grid0.Coords, ∀ a, (k0_off15 i) a + S1x1.size a ≤ S32x2048.size a
  k0_off17_inb : ∀ i : grid0.Coords, ∀ a, (k0_off17 i) a + S1x1.size a ≤ S32x2048.size a
  k0_off19_inb : ∀ i : grid0.Coords, ∀ a, (k0_off19 i) a + S1x1.size a ≤ S32x2048.size a
  k0_off21_inb : ∀ i : grid0.Coords, ∀ a, (k0_off21 i) a + S1x1.size a ≤ S32x2048.size a
  k0_off23_inb : ∀ i : grid0.Coords, ∀ a, (k0_off23 i) a + S1x1.size a ≤ S32x2048.size a
  k0_off25_inb : ∀ i : grid0.Coords, ∀ a, (k0_off25 i) a + S1x1.size a ≤ S32x2048.size a
  k0_off27_inb : ∀ i : grid0.Coords, ∀ a, (k0_off27 i) a + S1x1.size a ≤ S32x2048.size a
  k0_off29_inb : ∀ i : grid0.Coords, ∀ a, (k0_off29 i) a + S1x1.size a ≤ S32x2048.size a
  k0_off31_inb : ∀ i : grid0.Coords, ∀ a, (k0_off31 i) a + S1x1.size a ≤ S32x2048.size a
  k0_off33_inb : ∀ i : grid0.Coords, ∀ a, (k0_off33 i) a + S1x1.size a ≤ S32x2048.size a
  k0_off35_inb : ∀ i : grid0.Coords, ∀ a, (k0_off35 i) a + S1x1.size a ≤ S32x2048.size a
  k0_off37_inb : ∀ i : grid0.Coords, ∀ a, (k0_off37 i) a + S1x1.size a ≤ S32x2048.size a
  k0_off39_inb : ∀ i : grid0.Coords, ∀ a, (k0_off39 i) a + S1x1.size a ≤ S32x2048.size a
  k0_off41_inb : ∀ i : grid0.Coords, ∀ a, (k0_off41 i) a + S1x1.size a ≤ S32x2048.size a
  k0_off43_inb : ∀ i : grid0.Coords, ∀ a, (k0_off43 i) a + S1x1.size a ≤ S32x2048.size a
  k0_off45_inb : ∀ i : grid0.Coords, ∀ a, (k0_off45 i) a + S1x1.size a ≤ S32x2048.size a
  k0_off47_inb : ∀ i : grid0.Coords, ∀ a, (k0_off47 i) a + S1x1.size a ≤ S32x2048.size a
  k0_off49_inb : ∀ i : grid0.Coords, ∀ a, (k0_off49 i) a + S1x1.size a ≤ S32x2048.size a
  k0_off51_inb : ∀ i : grid0.Coords, ∀ a, (k0_off51 i) a + S1x1.size a ≤ S32x2048.size a
  k0_off53_inb : ∀ i : grid0.Coords, ∀ a, (k0_off53 i) a + S1x1.size a ≤ S32x2048.size a
  k0_off55_inb : ∀ i : grid0.Coords, ∀ a, (k0_off55 i) a + S1x1.size a ≤ S32x2048.size a
  k0_off57_inb : ∀ i : grid0.Coords, ∀ a, (k0_off57 i) a + S1x1.size a ≤ S32x2048.size a
  k0_off59_inb : ∀ i : grid0.Coords, ∀ a, (k0_off59 i) a + S1x1.size a ≤ S32x2048.size a
  k0_off61_inb : ∀ i : grid0.Coords, ∀ a, (k0_off61 i) a + S1x1.size a ≤ S32x2048.size a
  k0_off63_inb : ∀ i : grid0.Coords, ∀ a, (k0_off63 i) a + S1x1.size a ≤ S32x2048.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S1x32x16.size a ≤ S32x2048x16.size a
  hwx0_0 : ∀ i : grid0.Coords, EltTy.bits .f32 = 32 ∨ (Rect.block (s := S32x2048x16) S1x32x16.size (cc0_transform_1 i) (hinb0_0 i)).WholeWords (EltTy.packing .f32)

variable [Facts₀]

abbrev cc0_scratch1 : DmaSems sig S32 := SemArray.consecutive 2 S32 hcc0_scratch1
def comparator_i32_i32_d1 : BitVec 32 × BitVec 32 → BitVec 32 × BitVec 32 → BitVec 1 :=
  fun l r =>
    let v2 := IntOp.cmpi .slt l.1 r.1
    v2
def gather_S32x262144_S32x2048x1_S32x2048_n_1_0_0_1_2_11 : GatherDims S32x262144 S32x2048x1 S32x2048 where
  offsetDims := []
  collapsedSliceDims := [1]
  operandBatchingDims := [0]
  startIndicesBatchingDims := [0]
  startIndexMap := [1]
  indexVectorDim := 2
  sliceSizes := ![1, 1]
  wf := gather_S32x262144_S32x2048x1_S32x2048_n_1_0_0_1_2_11_wf

abbrev spec0_0 : Pipeline.WinSpec sig grid0.rank :=
  Pipeline.WinSpec.ofSpec (Memref.whole main_v17) S1x32x16.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S32x262144x16 : Shape := ⟨3, ![32, 262144, 16]⟩
abbrev S32x262144 : Shape := ⟨2, ![32, 262144]⟩
abbrev S_ : Shape := ⟨0, ![]⟩
abbrev S32 : Shape := ⟨1, ![32]⟩
abbrev S2048 : Shape := ⟨1, ![2048]⟩
abbrev S1x2048 : Shape := ⟨2, ![1, 2048]⟩
abbrev S32x1 : Shape := ⟨2, ![32, 1]⟩
abbrev S32x2048 : Shape := ⟨2, ![32, 2048]⟩
abbrev S32x2048x1 : Shape := ⟨3, ![32, 2048, 1]⟩
abbrev S1 : Shape := ⟨1, ![1]⟩
abbrev S1x1x1 : Shape := ⟨3, ![1, 1, 1]⟩
abbrev S32x2048x16 : Shape := ⟨3, ![32, 2048, 16]⟩

abbrev nBuf : Space → Nat
  | .hbm => 100
  | .vmem => 0
  | .smem => 0
  | _ => 0

abbrev bufTy : (tb : Table) → Fin (tcTables nBuf tb) → BufTy
  | .hbm, ⟨0, _⟩ => ⟨S32x262144x16, .f32⟩
  | .hbm, ⟨1, _⟩ => ⟨S32x262144, .f32⟩
  | .hbm, ⟨2, _⟩ => ⟨S_, .f32⟩
  | .hbm, ⟨3, _⟩ => ⟨S32x262144, .f32⟩
  | .hbm, ⟨4, _⟩ => ⟨S32x262144, .i1⟩
  | .hbm, ⟨5, _⟩ => ⟨S_, .i32⟩
  | .hbm, ⟨6, _⟩ => ⟨S_, .i32⟩
  | .hbm, ⟨7, _⟩ => ⟨S32x262144, .i32⟩
  | .hbm, ⟨8, _⟩ => ⟨S32x262144, .i32⟩
  | .hbm, ⟨9, _⟩ => ⟨S32x262144, .i32⟩
  | .hbm, ⟨10, _⟩ => ⟨S32x262144, .i32⟩
  | .hbm, ⟨11, _⟩ => ⟨S32x262144, .i32⟩
  | .hbm, ⟨12, _⟩ => ⟨S32x262144, .i32⟩
  | .hbm, ⟨13, _⟩ => ⟨S32x262144, .i32⟩
  | .hbm, ⟨14, _⟩ => ⟨S_, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S2048, .i32⟩
  | .hbm, ⟨20, _⟩ => ⟨S1x2048, .i32⟩
  | .hbm, ⟨21, _⟩ => ⟨S32x1, .i32⟩
  | .hbm, ⟨22, _⟩ => ⟨S_, .i32⟩
  | .hbm, ⟨23, _⟩ => ⟨S32x1, .i32⟩
  | .hbm, ⟨24, _⟩ => ⟨S32x1, .i1⟩
  | .hbm, ⟨25, _⟩ => ⟨S_, .i32⟩
  | .hbm, ⟨26, _⟩ => ⟨S32x1, .i32⟩
  | .hbm, ⟨27, _⟩ => ⟨S32x1, .i32⟩
  | .hbm, ⟨28, _⟩ => ⟨S32x2048, .i32⟩
  | .hbm, ⟨29, _⟩ => ⟨S32x2048, .i32⟩
  | .hbm, ⟨30, _⟩ => ⟨S32x2048, .i32⟩
  | .hbm, ⟨31, _⟩ => ⟨S_, .i32⟩
  | .hbm, ⟨32, _⟩ => ⟨S32x2048, .i32⟩
  | .hbm, ⟨33, _⟩ => ⟨S32x2048, .i1⟩
  | .hbm, ⟨34, _⟩ => ⟨S_, .i32⟩
  | .hbm, ⟨35, _⟩ => ⟨S32x2048, .i32⟩
  | .hbm, ⟨36, _⟩ => ⟨S32x2048, .i1⟩
  | .hbm, ⟨37, _⟩ => ⟨S_, .i32⟩
  | .hbm, ⟨38, _⟩ => ⟨S32x1, .i32⟩
  | .hbm, ⟨39, _⟩ => ⟨S32x1, .i1⟩
  | .hbm, ⟨40, _⟩ => ⟨S32x2048, .i1⟩
  | .hbm, ⟨41, _⟩ => ⟨S32x2048, .i1⟩
  | .hbm, ⟨42, _⟩ => ⟨S32x2048, .i1⟩
  | .hbm, ⟨43, _⟩ => ⟨S32x2048, .i32⟩
  | .hbm, ⟨44, _⟩ => ⟨S32x2048, .i32⟩
  | .hbm, ⟨45, _⟩ => ⟨S32x2048, .i32⟩
  | .hbm, ⟨46, _⟩ => ⟨S_, .i32⟩
  | .hbm, ⟨47, _⟩ => ⟨S32x2048, .i32⟩
  | .hbm, ⟨48, _⟩ => ⟨S32x2048, .i1⟩
  | .hbm, ⟨49, _⟩ => ⟨S_, .i32⟩
  | .hbm, ⟨50, _⟩ => ⟨S32x2048, .i32⟩
  | .hbm, ⟨51, _⟩ => ⟨S32x2048, .i32⟩
  | .hbm, ⟨52, _⟩ => ⟨S32x2048, .i32⟩
  | .hbm, ⟨53, _⟩ => ⟨S32x2048x1, .i32⟩
  | .hbm, ⟨54, _⟩ => ⟨S1, .i32⟩
  | .hbm, ⟨55, _⟩ => ⟨S_, .i32⟩
  | .hbm, ⟨56, _⟩ => ⟨S32x2048x1, .i32⟩
  | .hbm, ⟨57, _⟩ => ⟨S32x2048x1, .i1⟩
  | .hbm, ⟨58, _⟩ => ⟨S1x1x1, .i32⟩
  | .hbm, ⟨59, _⟩ => ⟨S32x2048x1, .i32⟩
  | .hbm, ⟨60, _⟩ => ⟨S32x2048x1, .i1⟩
  | .hbm, ⟨61, _⟩ => ⟨S32x2048x1, .i1⟩
  | .hbm, ⟨62, _⟩ => ⟨S_, .i1⟩
  | .hbm, ⟨63, _⟩ => ⟨S32x2048, .i1⟩
  | .hbm, ⟨64, _⟩ => ⟨S32x2048, .i32⟩
  | .hbm, ⟨65, _⟩ => ⟨S_, .i32⟩
  | .hbm, ⟨66, _⟩ => ⟨S32x2048, .i32⟩
  | .hbm, ⟨67, _⟩ => ⟨S32x2048, .i32⟩
  | .hbm, ⟨68, _⟩ => ⟨S32x1, .i32⟩
  | .hbm, ⟨69, _⟩ => ⟨S_, .i32⟩
  | .hbm, ⟨70, _⟩ => ⟨S32x1, .i32⟩
  | .hbm, ⟨71, _⟩ => ⟨S32x1, .i1⟩
  | .hbm, ⟨72, _⟩ => ⟨S_, .i32⟩
  | .hbm, ⟨73, _⟩ => ⟨S_, .i32⟩
  | .hbm, ⟨74, _⟩ => ⟨S32x2048, .i1⟩
  | .hbm, ⟨75, _⟩ => ⟨S32x2048, .i32⟩
  | .hbm, ⟨76, _⟩ => ⟨S32x2048, .i32⟩
  | .hbm, ⟨77, _⟩ => ⟨S32x2048x1, .i32⟩
  | .hbm, ⟨78, _⟩ => ⟨S_, .i32⟩
  | .hbm, ⟨79, _⟩ => ⟨S32x2048x1, .i32⟩
  | .hbm, ⟨80, _⟩ => ⟨S32x2048x1, .i1⟩
  | .hbm, ⟨81, _⟩ => ⟨S_, .i32⟩
  | .hbm, ⟨82, _⟩ => ⟨S32x2048x1, .i32⟩
  | .hbm, ⟨83, _⟩ => ⟨S32x2048x1, .i32⟩
  | .hbm, ⟨84, _⟩ => ⟨S32x2048x1, .i32⟩
  | .hbm, ⟨85, _⟩ => ⟨S1, .i32⟩
  | .hbm, ⟨86, _⟩ => ⟨S_, .i32⟩
  | .hbm, ⟨87, _⟩ => ⟨S32x2048x1, .i32⟩
  | .hbm, ⟨88, _⟩ => ⟨S32x2048x1, .i1⟩
  | .hbm, ⟨89, _⟩ => ⟨S1x1x1, .i32⟩
  | .hbm, ⟨90, _⟩ => ⟨S32x2048x1, .i32⟩
  | .hbm, ⟨91, _⟩ => ⟨S32x2048x1, .i1⟩
  | .hbm, ⟨92, _⟩ => ⟨S32x2048x1, .i1⟩
  | .hbm, ⟨93, _⟩ => ⟨S_, .i1⟩
  | .hbm, ⟨94, _⟩ => ⟨S32x2048, .i1⟩
  | .hbm, ⟨95, _⟩ => ⟨S32x2048x16, .f32⟩
  | .hbm, ⟨96, _⟩ => ⟨S32x2048x16, .i1⟩
  | .hbm, ⟨97, _⟩ => ⟨S_, .f32⟩
  | .hbm, ⟨98, _⟩ => ⟨S32x2048x16, .f32⟩
  | .hbm, ⟨99, _⟩ => ⟨S32x2048x16, .f32⟩
  | _, _ => ⟨S32x262144x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_call1_v0 : Ref sig .tc := ⟨.hbm, 10, rfl⟩
abbrev main_call1_v1_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call2_c : Ref sig .tc := ⟨.hbm, 22, rfl⟩
abbrev main_call2_v0 : Ref sig .tc := ⟨.hbm, 23, rfl⟩
abbrev main_call2_v1 : Ref sig .tc := ⟨.hbm, 24, rfl⟩
abbrev main_call2_c_0 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_v5 : Ref sig .tc := ⟨.hbm, 29, rfl⟩
abbrev main_call2_v6 : Ref sig .tc := ⟨.hbm, 30, rfl⟩
abbrev main_call2_c_1 : Ref sig .tc := ⟨.hbm, 31, rfl⟩
abbrev main_call2_v7 : Ref sig .tc := ⟨.hbm, 32, rfl⟩
abbrev main_call2_v8 : Ref sig .tc := ⟨.hbm, 33, rfl⟩
abbrev main_call2_c_2 : Ref sig .tc := ⟨.hbm, 34, rfl⟩
abbrev main_call2_v9 : Ref sig .tc := ⟨.hbm, 35, rfl⟩
abbrev main_call2_v10 : Ref sig .tc := ⟨.hbm, 36, rfl⟩
abbrev main_call2_c_3 : Ref sig .tc := ⟨.hbm, 37, rfl⟩
abbrev main_call2_v11 : Ref sig .tc := ⟨.hbm, 38, rfl⟩
abbrev main_call2_v12 : Ref sig .tc := ⟨.hbm, 39, rfl⟩
abbrev main_call2_v13 : Ref sig .tc := ⟨.hbm, 40, rfl⟩
abbrev main_call2_v14 : Ref sig .tc := ⟨.hbm, 41, rfl⟩
abbrev main_call2_v15 : Ref sig .tc := ⟨.hbm, 42, rfl⟩
abbrev main_call2_v16 : Ref sig .tc := ⟨.hbm, 43, rfl⟩
abbrev main_call2_v17 : Ref sig .tc := ⟨.hbm, 44, rfl⟩
abbrev main_v11 : Ref sig .tc := ⟨.hbm, 45, rfl⟩
abbrev main_call3_c : Ref sig .tc := ⟨.hbm, 46, rfl⟩
abbrev main_call3_v0 : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_c_1 : Ref sig .tc := ⟨.hbm, 54, rfl⟩
abbrev main_call3_c_2 : Ref sig .tc := ⟨.hbm, 55, rfl⟩
abbrev main_call3_v6 : Ref sig .tc := ⟨.hbm, 56, rfl⟩
abbrev main_call3_v7 : Ref sig .tc := ⟨.hbm, 57, rfl⟩
abbrev main_call3_v8 : Ref sig .tc := ⟨.hbm, 58, rfl⟩
abbrev main_call3_v9 : Ref sig .tc := ⟨.hbm, 59, rfl⟩
abbrev main_call3_v10 : Ref sig .tc := ⟨.hbm, 60, rfl⟩
abbrev main_call3_v11 : Ref sig .tc := ⟨.hbm, 61, rfl⟩
abbrev main_call3_c_3 : Ref sig .tc := ⟨.hbm, 62, rfl⟩
abbrev main_call3_v12 : Ref sig .tc := ⟨.hbm, 63, rfl⟩
abbrev main_call3_v13 : Ref sig .tc := ⟨.hbm, 64, rfl⟩
abbrev main_call3_c_4 : Ref sig .tc := ⟨.hbm, 65, rfl⟩
abbrev main_call3_v14 : Ref sig .tc := ⟨.hbm, 66, rfl⟩
abbrev main_v12 : Ref sig .tc := ⟨.hbm, 67, rfl⟩
abbrev main_v13 : Ref sig .tc := ⟨.hbm, 68, rfl⟩
abbrev main_c_3 : Ref sig .tc := ⟨.hbm, 69, rfl⟩
abbrev main_v14 : Ref sig .tc := ⟨.hbm, 70, rfl⟩
abbrev main_v15 : Ref sig .tc := ⟨.hbm, 71, rfl⟩
abbrev main_c_4 : Ref sig .tc := ⟨.hbm, 72, rfl⟩
abbrev main_call4_v0 : Ref sig .tc := ⟨.hbm, 73, rfl⟩
abbrev main_call4_v1 : Ref sig .tc := ⟨.hbm, 74, rfl⟩
abbrev main_call4_v2 : Ref sig .tc := ⟨.hbm, 75, rfl⟩
abbrev main_v16 : Ref sig .tc := ⟨.hbm, 76, rfl⟩
abbrev main_v17 : Ref sig .tc := ⟨.hbm, 77, rfl⟩
abbrev main_call5_c : Ref sig .tc := ⟨.hbm, 78, rfl⟩
abbrev main_call5_v0 : Ref sig .tc := ⟨.hbm, 79, rfl⟩
abbrev main_call5_v1 : Ref sig .tc := ⟨.hbm, 80, rfl⟩
abbrev main_call5_c_0 : Ref sig .tc := ⟨.hbm, 81, rfl⟩
abbrev main_call5_v2 : Ref sig .tc := ⟨.hbm, 82, rfl⟩
abbrev main_call5_v3 : Ref sig .tc := ⟨.hbm, 83, rfl⟩
abbrev main_call5_v4 : Ref sig .tc := ⟨.hbm, 84, rfl⟩
abbrev main_call5_c_1 : Ref sig .tc := ⟨.hbm, 85, rfl⟩
abbrev main_call5_c_2 : Ref sig .tc := ⟨.hbm, 86, rfl⟩
abbrev main_call5_v5 : Ref sig .tc := ⟨.hbm, 87, rfl⟩
abbrev main_call5_v6 : Ref sig .tc := ⟨.hbm, 88, rfl⟩
abbrev main_call5_v7 : Ref sig .tc := ⟨.hbm, 89, rfl⟩
abbrev main_call5_v8 : Ref sig .tc := ⟨.hbm, 90, rfl⟩
abbrev main_call5_v9 : Ref sig .tc := ⟨.hbm, 91, rfl⟩
abbrev main_call5_v10 : Ref sig .tc := ⟨.hbm, 92, rfl⟩
abbrev main_call5_c_3 : Ref sig .tc := ⟨.hbm, 93, rfl⟩
abbrev main_call5_v11 : Ref sig .tc := ⟨.hbm, 94, rfl⟩
abbrev main_call5_v12 : Ref sig .tc := ⟨.hbm, 95, rfl⟩
abbrev main_call5_v13 : Ref sig .tc := ⟨.hbm, 96, rfl⟩
abbrev main_call5_cst : Ref sig .tc := ⟨.hbm, 97, rfl⟩
abbrev main_call5_v14 : Ref sig .tc := ⟨.hbm, 98, rfl⟩
abbrev main_v18 : Ref sig .tc := ⟨.hbm, 99, rfl⟩

abbrev nD : Nat := 1
abbrev τ : Topo := Topo.v7x

variable {F : FTy → Type} [FloatOps F]

class Facts₀ : Prop where
  bcast_S_S32x262144 : S_.BroadcastsInDim S32x262144 (![] : Fin 0 → Fin S32x262144.rank)
  natLt_1_32 : 1 < 32
  reducesTo_S32x262144_S32_d1 : S32x262144.ReducesTo [1] S32
  h_S_ : 0 < S_.numel
  bcast_S_S32 : S_.BroadcastsInDim S32 (![] : Fin 0 → Fin S32.rank)
  bcast_S2048_S1x2048_1 : S2048.BroadcastsInDim S1x2048 (![1] : Fin 1 → Fin S1x2048.rank)
  bcast_S32_S32x1_0 : S32.BroadcastsInDim S32x1 (![0] : Fin 1 → Fin S32x1.rank)
  bcast_S_S32x1 : S_.BroadcastsInDim S32x1 (![] : Fin 0 → Fin S32x1.rank)
  bcast_S1x2048_S32x2048_0_1 : S1x2048.BroadcastsInDim S32x2048 (![0, 1] : Fin 2 → Fin S32x2048.rank)
  bcast_S32x1_S32x2048_0_1 : S32x1.BroadcastsInDim S32x2048 (![0, 1] : Fin 2 → Fin S32x2048.rank)
  bcast_S_S32x2048 : S_.BroadcastsInDim S32x2048 (![] : Fin 0 → Fin S32x2048.rank)
  shapeCasts_S32x2048_S32x2048x1 : S32x2048.ShapeCasts S32x2048x1
  bcast_S_S32x2048x1 : S_.BroadcastsInDim S32x2048x1 (![] : Fin 0 → Fin S32x2048x1.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x2048_d2 : S32x2048x1.ReducesTo [2] S32x2048
  bcast_S32x2048_S32x2048x1_0_1 : S32x2048.BroadcastsInDim S32x2048x1 (![0, 1] : Fin 2 → Fin S32x2048x1.rank)
  bcast_S32x2048_S32x2048x16_0_1 : S32x2048.BroadcastsInDim S32x2048x16 (![0, 1] : Fin 2 → Fin S32x2048x16.rank)
  bcast_S_S32x2048x16 : S_.BroadcastsInDim S32x2048x16 (![] : Fin 0 → Fin S32x2048x16.rank)
  gather_S32x262144_S32x2048x1_S32x2048_n_1_0_0_1_2_11_wf : GatherDims.WF S32x262144 S32x2048x1 S32x2048 [] [1] [0] [1] [0] 2 ![1, 1]
  gather_S32x262144x16_S32x2048x1_S32x2048x16_2_1_0_0_1_2_1116_wf : GatherDims.WF S32x262144x16 S32x2048x1 S32x2048x16 [2] [1] [0] [1] [0] 2 ![1, 1, 16]

variable [Facts₀]

def comparator_i32_i32_d1 : BitVec 32 × BitVec 32 → BitVec 32 × BitVec 32 → BitVec 1 :=
  fun l r =>
    let v2 := IntOp.cmpi .slt l.1 r.1
    v2
def gather_S32x262144_S32x2048x1_S32x2048_n_1_0_0_1_2_11 : GatherDims S32x262144 S32x2048x1 S32x2048 where
  offsetDims := []
  collapsedSliceDims := [1]
  operandBatchingDims := [0]
  startIndicesBatchingDims := [0]
  startIndexMap := [1]
  indexVectorDim := 2
  sliceSizes := ![1, 1]
  wf := gather_S32x262144_S32x2048x1_S32x2048_n_1_0_0_1_2_11_wf
def gather_S32x262144x16_S32x2048x1_S32x2048x16_2_1_0_0_1_2_1116 : GatherDims S32x262144x16 S32x2048x1 S32x2048x16 where
  offsetDims := [2]
  collapsedSliceDims := [1]
  operandBatchingDims := [0]
  startIndicesBatchingDims := [0]
  startIndexMap := [1]
  indexVectorDim := 2
  sliceSizes := ![1, 1, 16]
  wf := gather_S32x262144x16_S32x2048x1_S32x2048x16_2_1_0_0_1_2_1116_wf

class Facts : Prop extends Facts₀ where

variable [Facts]
-- ==== Proof.KernelRows.lean ====
/-
  Reading a `[32, 16]` scratch buffer back after rows have been written into it one at a time: a row write leaves the
  written values on its row and what was there on every other row; contents glued from two pieces read as the piece the
  index falls in.
-/
import proofs.«139401_j62989990363749_1_alg».proof.Proof.Gen.Kernel
import Idealize.ShloMosaic.Lib.Pipeline.Value
import Idealize.ShloMosaic.Lib.Pipeline.Frame
import Idealize.ShloMosaic.Lib.ValueIdx

set_option maxRecDepth 16384

noncomputable section

namespace Cert.Kernel.Rows

open Idealize.ShloMosaic Idealize.ShloMosaic.ValueIdx Idealize.SL.Sem
open Cert.Kernel

variable {F : FTy → Type} [FloatOps F]

/-- Row `k` of the buffer, as the body names the destination of the `k`-th transfer. -/
abbrev rowOf (a5 : Memref sig .tc .vmem S32x16 .f32) (k : Nat) (hin : ∀ a, (![k, 0] : Fin 2 → Nat) a + S1x16.size a ≤ S32x16.size a)
    (hs : ∀ a, (Rect.unit (s := S32x16) ![k, 0] S1x16.size hin).stride a = 1) : Memref sig .tc .vmem S16 .f32 :=
  (a5.slice (Rect.unit (s := S32x16) ![k, 0] S1x16.size hin) hs).squeeze S16 Facts₀.squeezes_S1x16_S16

omit [FloatOps F] in
/-- Element `ch` of row `k` sits where element `(k, ch)` of the buffer does. -/
theorem rowOf_emb (a5 : Memref sig .tc .vmem S32x16 .f32) (k : Nat) (hin) (hs) (hk : k < 32) (ch : Fin 16) :
    (rowOf a5 k hin hs).view.emb (ix1 ch) = a5.view.emb (ix2 (n0 := 32) (n1 := 16) ⟨k, hk⟩ ch) := by
  show a5.view.emb ((Rect.unit (s := S32x16) ![k, 0] S1x16.size hin).emb ((Shape.reshapeEquiv _) (ix1 ch))) = _
  refine congrArg a5.view.emb ?_
  rw [Shape.reshapeEquiv_cons_one]
  funext a
  refine Fin.ext ?_
  rw [Rect.emb_apply]
  match a with
  | ⟨0, _⟩ => show k + 1 * 0 = k; omega
  | ⟨1, _⟩ => show 0 + 1 * ch.val = ch.val; omega

omit [FloatOps F] in
/-- The row's elements are the buffer's elements `(k, ·)`: an element `(r, ch)` with `r ≠ k` is not among them. -/
theorem not_mem_rowOf (a5 : Memref sig .tc .vmem S32x16 .f32) (k : Nat) (hin) (hs) (r : Fin 32) (ch : Fin 16) (hne : r.val ≠ k) :
    a5.view.emb (ix2 r ch) ∉ (rowOf a5 k hin hs).view.set := by
  have hset : (rowOf a5 k hin hs).view.set = (Rect.unit (s := S32x16) ![k, 0] S1x16.size hin).set.map a5.view.emb := by
    simp only [Memref.view_squeeze, Memref.view_slice, View.set_reshape, View.set_slice]
  rw [hset]
  intro hm
  rw [Finset.mem_map' ] at hm
  rw [Rect.mem_set_unit] at hm
  have h0 := hm 0
  have h0' : k ≤ r.val ∧ r.val < k + 1 := h0
  omega

/-- A ROW WRITE READ BACK: on its row the written values, elsewhere what was there. -/
theorem read_write_row (a5 : Memref sig .tc .vmem S32x16 .f32) (k : Nat) (hin) (hs) (hk : k < 32)
    (cur : a5.view.ty.Contents (Elt F)) (pay : S16.Idx → Elt F .f32) (r : Fin 32) (ch : Fin 16) :
    a5.view.read (Elt F) ((rowOf a5 k hin hs).view.write (Elt F) cur pay Finset.univ) (ix2 r ch)
      = if r.val = k then pay (ix1 ch) else a5.view.read (Elt F) cur (ix2 r ch) := by
  rw [View.read_apply, View.read_apply]
  by_cases h : r.val = k
  · rw [if_pos h]
    obtain rfl : r = ⟨k, hk⟩ := Fin.ext h
    rw [← rowOf_emb a5 k hin hs hk ch, View.write_emb_of_mem _ _ (Finset.mem_univ _)]
    simp
  · rw [if_neg h, View.write_of_not_mem _ _ _ (by rw [View.setOn_univ]; exact not_mem_rowOf a5 k hin hs r ch h)]

omit [FloatOps F] in
/-- CONTENTS GLUED from the rows 16 … 31 of one piece and the rest of another read as the piece the row falls in. -/
theorem read_piecewise (a5 : Memref sig .tc .vmem S32x16 .f32) (hin : ∀ a, (![16, 0] : Fin 2 → Nat) a + (![16, 16] : Fin 2 → Nat) a ≤ S32x16.size a)
    (g1 g0 : a5.view.ty.Contents (Elt F)) (r : Fin 32) (ch : Fin 16) :
    a5.view.read (Elt F) ((a5.view.setOn (Rect.unit (s := S32x16) ![16, 0] ![16, 16] hin).set).piecewise g1 g0) (ix2 r ch)
      = if 16 ≤ r.val then a5.view.read (Elt F) g1 (ix2 r ch) else a5.view.read (Elt F) g0 (ix2 r ch) := by
  have hmem : a5.view.emb (ix2 r ch) ∈ a5.view.setOn (Rect.unit (s := S32x16) ![16, 0] ![16, 16] hin).set ↔ 16 ≤ r.val := by
    rw [View.mem_setOn, Rect.mem_set_unit]
    constructor
    · intro h; exact (h 0).1
    · intro h a
      have hr : r.val < 32 := r.isLt
      have hc : ch.val < 16 := ch.isLt
      match a with
      | ⟨0, _⟩ => show 16 ≤ r.val ∧ r.val < 16 + 16; omega
      | ⟨1, _⟩ => show 0 ≤ ch.val ∧ ch.val < 0 + 16; omega
  rw [View.read_apply, View.read_apply, View.read_apply]
  by_cases h : 16 ≤ r.val
  · rw [if_pos h, Finset.piecewise_eq_of_mem _ _ _ (hmem.mpr h)]
  · rw [if_neg h, Finset.piecewise_eq_of_notMem _ _ _ (fun hm => h (hmem.mp hm))]

/-! ## All thirty-two rows landed -/

omit [FloatOps F] in
/-- Row k of the buffer, k below 32, is inside it. -/
theorem hin_row (k : Nat) (hk : k < 32) : ∀ a, (![k, 0] : Fin 2 → Nat) a + S1x16.size a ≤ S32x16.size a := fun a => by
  match a with
  | ⟨0, _⟩ => show k + 1 ≤ 32; omega
  | ⟨1, _⟩ => show 0 + 16 ≤ 16; omega

/-- The contents after one more row write: row k of "cur" replaced by "p" (the body's k-th transfer landed). -/
abbrev wrow (a5 : Memref sig .tc .vmem S32x16 .f32) (k : Nat) (hk : k < 32) (cur : a5.view.ty.Contents (Elt F))
    (p : S16.Idx → Elt F .f32) : a5.view.ty.Contents (Elt F) :=
  (rowOf a5 k (hin_row k hk) (fun _ => rfl)).view.write (Elt F) cur p Finset.univ

/-- One more row write read back: on its row the written values, elsewhere what was there. -/
theorem read_wrow (a5 : Memref sig .tc .vmem S32x16 .f32) (k : Nat) (hk : k < 32) (cur : a5.view.ty.Contents (Elt F))
    (p : S16.Idx → Elt F .f32) (r : Fin 32) (ch : Fin 16) :
    a5.view.read (Elt F) (wrow a5 k hk cur p) (ix2 r ch) = if r.val = k then p (ix1 ch) else a5.view.read (Elt F) cur (ix2 r ch) :=
  read_write_row a5 k _ _ hk cur p r ch

/-- The contents after row k got "pay k", k = 0 … 31: the rows 16 … 31 written one after the other over "base" on the rows
    of the high block, the rows 0 … 15 written one after the other over "base" elsewhere. -/
def landed (a5 : Memref sig .tc .vmem S32x16 .f32) (base : a5.view.ty.Contents (Elt F)) (pay : Fin 32 → S16.Idx → Elt F .f32) :
    a5.view.ty.Contents (Elt F) :=
  (a5.view.setOn (Rect.unit (s := S32x16) ![16, 0] ![16, 16] (by decide)).set).piecewise
    (wrow a5 31 (by decide) (wrow a5 30 (by decide) (wrow a5 29 (by decide) (wrow a5 28 (by decide) (wrow a5 27 (by decide) (wrow a5 26 (by decide) (wrow a5 25 (by decide) (wrow a5 24 (by decide) (wrow a5 23 (by decide) (wrow a5 22 (by decide) (wrow a5 21 (by decide) (wrow a5 20 (by decide) (wrow a5 19 (by decide) (wrow a5 18 (by decide) (wrow a5 17 (by decide) (wrow a5 16 (by decide) base (pay 16)) (pay 17)) (pay 18)) (pay 19)) (pay 20)) (pay 21)) (pay 22)) (pay 23)) (pay 24)) (pay 25)) (pay 26)) (pay 27)) (pay 28)) (pay 29)) (pay 30)) (pay 31))
    (wrow a5 15 (by decide) (wrow a5 14 (by decide) (wrow a5 13 (by decide) (wrow a5 12 (by decide) (wrow a5 11 (by decide) (wrow a5 10 (by decide) (wrow a5 9 (by decide) (wrow a5 8 (by decide) (wrow a5 7 (by decide) (wrow a5 6 (by decide) (wrow a5 5 (by decide) (wrow a5 4 (by decide) (wrow a5 3 (by decide) (wrow a5 2 (by decide) (wrow a5 1 (by decide) (wrow a5 0 (by decide) base (pay 0)) (pay 1)) (pay 2)) (pay 3)) (pay 4)) (pay 5)) (pay 6)) (pay 7)) (pay 8)) (pay 9)) (pay 10)) (pay 11)) (pay 12)) (pay 13)) (pay 14)) (pay 15))

/-- EVERY ROW READS BACK WHAT LANDED ON IT: row r of the buffer holds "pay r". -/
theorem read_landed (a5 : Memref sig .tc .vmem S32x16 .f32) (base : a5.view.ty.Contents (Elt F)) (pay : Fin 32 → S16.Idx → Elt F .f32)
    (r : Fin 32) (ch : Fin 16) : a5.view.read (Elt F) (landed a5 base pay) (ix2 r ch) = pay r (ix1 ch) := by
  have hr : r.val < 32 := r.isLt
  unfold landed
  rw [read_piecewise]
  by_cases h16 : 16 ≤ r.val
  · rw [if_pos h16]
    rw [read_wrow]
    by_cases e31 : r.val = 31
    · rw [if_pos e31]; exact congrArg (fun q => pay q (ix1 ch)) (Fin.ext e31.symm)
    rw [if_neg e31]
    rw [read_wrow]
    by_cases e30 : r.val = 30
    · rw [if_pos e30]; exact congrArg (fun q => pay q (ix1 ch)) (Fin.ext e30.symm)
    rw [if_neg e30]
    rw [read_wrow]
    by_cases e29 : r.val = 29
    · rw [if_pos e29]; exact congrArg (fun q => pay q (ix1 ch)) (Fin.ext e29.symm)
    rw [if_neg e29]
    rw [read_wrow]
    by_cases e28 : r.val = 28
    · rw [if_pos e28]; exact congrArg (fun q => pay q (ix1 ch)) (Fin.ext e28.symm)
    rw [if_neg e28]
    rw [read_wrow]
    by_cases e27 : r.val = 27
    · rw [if_pos e27]; exact congrArg (fun q => pay q (ix1 ch)) (Fin.ext e27.symm)
    rw [if_neg e27]
    rw [read_wrow]
    by_cases e26 : r.val = 26
    · rw [if_pos e26]; exact congrArg (fun q => pay q (ix1 ch)) (Fin.ext e26.symm)
    rw [if_neg e26]
    rw [read_wrow]
    by_cases e25 : r.val = 25
    · rw [if_pos e25]; exact congrArg (fun q => pay q (ix1 ch)) (Fin.ext e25.symm)
    rw [if_neg e25]
    rw [read_wrow]
    by_cases e24 : r.val = 24
    · rw [if_pos e24]; exact congrArg (fun q => pay q (ix1 ch)) (Fin.ext e24.symm)
    rw [if_neg e24]
    rw [read_wrow]
    by_cases e23 : r.val = 23
    · rw [if_pos e23]; exact congrArg (fun q => pay q (ix1 ch)) (Fin.ext e23.symm)
    rw [if_neg e23]
    rw [read_wrow]
    by_cases e22 : r.val = 22
    · rw [if_pos e22]; exact congrArg (fun q => pay q (ix1 ch)) (Fin.ext e22.symm)
    rw [if_neg e22]
    rw [read_wrow]
    by_cases e21 : r.val = 21
    · rw [if_pos e21]; exact congrArg (fun q => pay q (ix1 ch)) (Fin.ext e21.symm)
    rw [if_neg e21]
    rw [read_wrow]
    by_cases e20 : r.val = 20
    · rw [if_pos e20]; exact congrArg (fun q => pay q (ix1 ch)) (Fin.ext e20.symm)
    rw [if_neg e20]
    rw [read_wrow]
    by_cases e19 : r.val = 19
    · rw [if_pos e19]; exact congrArg (fun q => pay q (ix1 ch)) (Fin.ext e19.symm)
    rw [if_neg e19]
    rw [read_wrow]
    by_cases e18 : r.val = 18
    · rw [if_pos e18]; exact congrArg (fun q => pay q (ix1 ch)) (Fin.ext e18.symm)
    rw [if_neg e18]
    rw [read_wrow]
    by_cases e17 : r.val = 17
    · rw [if_pos e17]; exact congrArg (fun q => pay q (ix1 ch)) (Fin.ext e17.symm)
    rw [if_neg e17]
    rw [read_wrow]
    by_cases e16 : r.val = 16
    · rw [if_pos e16]; exact congrArg (fun q => pay q (ix1 ch)) (Fin.ext e16.symm)
    rw [if_neg e16]
    exfalso; omega
  · rw [if_neg h16]
    rw [read_wrow]
    by_cases e15 : r.val = 15
    · rw [if_pos e15]; exact congrArg (fun q => pay q (ix1 ch)) (Fin.ext e15.symm)
    rw [if_neg e15]
    rw [read_wrow]
    by_cases e14 : r.val = 14
    · rw [if_pos e14]; exact congrArg (fun q => pay q (ix1 ch)) (Fin.ext e14.symm)
    rw [if_neg e14]
    rw [read_wrow]
    by_cases e13 : r.val = 13
    · rw [if_pos e13]; exact congrArg (fun q => pay q (ix1 ch)) (Fin.ext e13.symm)
    rw [if_neg e13]
    rw [read_wrow]
    by_cases e12 : r.val = 12
    · rw [if_pos e12]; exact congrArg (fun q => pay q (ix1 ch)) (Fin.ext e12.symm)
    rw [if_neg e12]
    rw [read_wrow]
    by_cases e11 : r.val = 11
    · rw [if_pos e11]; exact congrArg (fun q => pay q (ix1 ch)) (Fin.ext e11.symm)
    rw [if_neg e11]
    rw [read_wrow]
    by_cases e10 : r.val = 10
    · rw [if_pos e10]; exact congrArg (fun q => pay q (ix1 ch)) (Fin.ext e10.symm)
    rw [if_neg e10]
    rw [read_wrow]
    by_cases e9 : r.val = 9
    · rw [if_pos e9]; exact congrArg (fun q => pay q (ix1 ch)) (Fin.ext e9.symm)
    rw [if_neg e9]
    rw [read_wrow]
    by_cases e8 : r.val = 8
    · rw [if_pos e8]; exact congrArg (fun q => pay q (ix1 ch)) (Fin.ext e8.symm)
    rw [if_neg e8]
    rw [read_wrow]
    by_cases e7 : r.val = 7
    · rw [if_pos e7]; exact congrArg (fun q => pay q (ix1 ch)) (Fin.ext e7.symm)
    rw [if_neg e7]
    rw [read_wrow]
    by_cases e6 : r.val = 6
    · rw [if_pos e6]; exact congrArg (fun q => pay q (ix1 ch)) (Fin.ext e6.symm)
    rw [if_neg e6]
    rw [read_wrow]
    by_cases e5 : r.val = 5
    · rw [if_pos e5]; exact congrArg (fun q => pay q (ix1 ch)) (Fin.ext e5.symm)
    rw [if_neg e5]
    rw [read_wrow]
    by_cases e4 : r.val = 4
    · rw [if_pos e4]; exact congrArg (fun q => pay q (ix1 ch)) (Fin.ext e4.symm)
    rw [if_neg e4]
    rw [read_wrow]
    by_cases e3 : r.val = 3
    · rw [if_pos e3]; exact congrArg (fun q => pay q (ix1 ch)) (Fin.ext e3.symm)
    rw [if_neg e3]
    rw [read_wrow]
    by_cases e2 : r.val = 2
    · rw [if_pos e2]; exact congrArg (fun q => pay q (ix1 ch)) (Fin.ext e2.symm)
    rw [if_neg e2]
    rw [read_wrow]
    by_cases e1 : r.val = 1
    · rw [if_pos e1]; exact congrArg (fun q => pay q (ix1 ch)) (Fin.ext e1.symm)
    rw [if_neg e1]
    rw [read_wrow]
    by_cases e0 : r.val = 0
    · rw [if_pos e0]; exact congrArg (fun q => pay q (ix1 ch)) (Fin.ext e0.symm)
    rw [if_neg e0]
    exfalso; omega

/-- The payloads as one `[32, 16]` array: row `r` is `pay r`. -/
def table (pay : Fin 32 → S16.Idx → Elt F .f32) : S32x16.Idx → Elt F .f32 :=
  fun j => pay ⟨(j 0).val, (j 0).isLt⟩ (ix1 (n := 16) ⟨(j 1).val, (j 1).isLt⟩)

omit [FloatOps F] in
theorem table_ix2 (pay : Fin 32 → S16.Idx → Elt F .f32) (r : Fin 32) (ch : Fin 16) : table pay (ix2 r ch) = pay r (ix1 ch) := rfl

/-- ONCE EVERY ROW HAS LANDED the buffer's contents are the contents that read as the payloads' array, whatever it held
    before: a whole buffer's contents are what they read. -/
theorem landed_eq (a5 : Memref sig .tc .vmem S32x16 .f32) (h5 : a5.IsWhole) (base : a5.view.ty.Contents (Elt F))
    (pay : Fin 32 → S16.Idx → Elt F .f32) : landed a5 base pay = h5.unread (table pay) :=
  h5.eq_unread (funext fun j => by
    rw [eq_ix2 j]
    exact read_landed a5 base pay _ _)

end Cert.Kernel.Rows

end
-- ==== Proof.KernelBody.lean ====
/-
  The kernel body's run at one grid point. The body reads thirty-two words of the index table, starts thirty-two row
  transfers out of the point cloud (left in its own memory) into the thirty-two rows of a scratch buffer — all thirty-two
  in flight at once —, waits for each, then copies the scratch into the output block.

  Two of the rows transferred may be the SAME row of the point cloud (the table repeats an index when a batch has fewer
  positives than samples), so the point cloud cannot be lent to the transfers row by row: each transfer reads it at a
  share of its own, split off the full share beforehand (one per completion cell) and put back afterwards. The scratch's
  rows ARE pairwise distinct: each transfer is lent the one row it writes, and gets it back at its wait; the scratch is
  held as two blocks of sixteen rows so that a row handed back is put back across at most fifteen later rows.

  What the run leaves in the output block is one piece covering it: the scratch's contents after the thirty-two rows have
  landed, with a unit axis put in front.
-/
import proofs.«139401_j62989990363749_1_alg».proof.Proof.Gen.Kernel.Frame.Runs
import proofs.«139401_j62989990363749_1_alg».proof.Proof.KernelRows

set_option maxRecDepth 16384

noncomputable section

namespace Cert.Kernel.GenP

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The point cloud at one read share per transfer -/

omit [FloatOps F] in
/-- One read token split off the HBM operand's points-to: what remains after `k` tokens is what remains after `k + 1` and the `k`-th token. -/
theorem hbTok (c : Dev nD) (f : HbBuf0 (F := F) c hbM0_0) (k : ℕ) :
    (hbM0_0.view.loc (c : Thread nD τ) ↦{Transfers.shareDrop fullShare k} f : sProp 𝕄)
      ⊣⊢ iprop((hbM0_0.view.loc (c : Thread nD τ) ↦{Transfers.shareDrop fullShare (k + 1)} f) ∗ (hbM0_0.view.loc (c : Thread nD τ) ↦{Transfers.shareTokN fullShare k} f)) :=
  pointsTo_share (PosShare.mem_left_op_right _)

omit [FloatOps F] in
/-- The first token, off the operand held at the full share. -/
theorem hbTok0 (c : Dev nD) (f : HbBuf0 (F := F) c hbM0_0) :
    (hbPt0 c hbM0_0 f : sProp 𝕄)
      ⊣⊢ iprop((hbM0_0.view.loc (c : Thread nD τ) ↦{Transfers.shareDrop fullShare 1} f) ∗ (hbM0_0.view.loc (c : Thread nD τ) ↦{Transfers.shareTokN fullShare 0} f)) :=
  hbTok c f 0

/-! ## The scratch buffer as two blocks of sixteen rows

The body copies thirty-two rows into the scratch, one transfer per row, all in flight at once. Held as ONE piece, each
row handed back at its wait would have to be put back across every row written since; held as two blocks of sixteen
rows, across at most fifteen. -/

/-- Rows 0 … 15 and rows 16 … 31 of a `[32, 16]` buffer. -/
abbrev rowsLo : Rect S32x16 := Rect.unit (s := S32x16) ![0, 0] ![16, 16] (by decide)
abbrev rowsHi : Rect S32x16 := Rect.unit (s := S32x16) ![16, 0] ![16, 16] (by decide)

theorem rows_cover : (Finset.univ : Finset S32x16.Idx) = rowsLo.set ∪ rowsHi.set := by
  ext i
  simp only [Finset.mem_univ, Finset.mem_union, Rect.mem_set_unit, true_iff]
  have h0 : (i 0).val < 32 := (i 0).isLt
  have h1 : (i 1).val < 16 := (i 1).isLt
  by_cases h : (i 0).val < 16
  · left; intro a
    match a with
    | ⟨0, _⟩ => show 0 ≤ (i 0).val ∧ (i 0).val < 0 + 16; omega
    | ⟨1, _⟩ => show 0 ≤ (i 1).val ∧ (i 1).val < 0 + 16; omega
  · right; intro a
    match a with
    | ⟨0, _⟩ => show 16 ≤ (i 0).val ∧ (i 0).val < 16 + 16; omega
    | ⟨1, _⟩ => show 0 ≤ (i 1).val ∧ (i 1).val < 0 + 16; omega

theorem rows_disjoint : Disjoint (rowsLo.set : Finset S32x16.Idx) rowsHi.set := by
  refine Finset.disjoint_left.2 fun i hl hh => ?_
  rw [Rect.mem_set_unit] at hl hh
  have a := (hl 0).2; have b := (hh 0).1
  have a' : (i 0).val < 0 + 16 := a
  have b' : 16 ≤ (i 0).val := b
  omega

omit [FloatOps F] in
theorem rows_union (v : View sig .tc .vmem S32x16 .f32) : v.set = v.setOn rowsLo.set ∪ v.setOn rowsHi.set := by
  rw [← View.setOn_univ, rows_cover]
  unfold View.setOn
  exact Finset.map_union _ _

omit [FloatOps F] in
theorem rows_setOn_disjoint (v : View sig .tc .vmem S32x16 .f32) : Disjoint (v.setOn rowsLo.set) (v.setOn rowsHi.set) := by
  unfold View.setOn
  exact (Finset.disjoint_map _).2 rows_disjoint

omit [FloatOps F] in
/-- The buffer held whole is its two blocks of rows held side by side, -/
theorem rows_split (c : Dev nD) (a5 : Memref sig .tc .vmem S32x16 .f32) (f : Buf (Elt F) (a5.view.loc (c : Thread nD τ))) :
    (a5.view.loc (c : Thread nD τ) ↦[a5.view.set]{fullShare} f : sProp 𝕄)
      ⊣⊢ iprop((a5.view.loc (c : Thread nD τ) ↦[a5.view.setOn rowsLo.set]{fullShare} f) ∗ (a5.view.loc (c : Thread nD τ) ↦[a5.view.setOn rowsHi.set]{fullShare} f)) := by
  rw [rows_union a5.view]
  exact pointsTo_union (rows_setOn_disjoint a5.view)

omit [FloatOps F] in
/-- and the two blocks, each at its own contents, are the buffer whole at the contents that are the one's on its rows and the other's elsewhere. -/
theorem rows_join (c : Dev nD) (a5 : Memref sig .tc .vmem S32x16 .f32) (g0 g1 : Buf (Elt F) (a5.view.loc (c : Thread nD τ))) :
    iprop((a5.view.loc (c : Thread nD τ) ↦[a5.view.setOn rowsLo.set]{fullShare} g0) ∗ (a5.view.loc (c : Thread nD τ) ↦[a5.view.setOn rowsHi.set]{fullShare} g1))
      ⊢ (a5.view.loc (c : Thread nD τ) ↦[a5.view.set]{fullShare} ((a5.view.setOn rowsHi.set).piecewise g1 g0) : sProp 𝕄) := by
  rw [rows_union a5.view]
  exact pointsTo_join (rows_setOn_disjoint a5.view)

/-- The scratch's contents once the rows p0 … p31 have landed over "base", row by row: rows 16 … 31 written one after the
    other on the high block, rows 0 … 15 one after the other on the low block. -/
abbrev landedOf (a5 : Memref sig .tc .vmem S32x16 .f32) (base : a5.view.ty.Contents (Elt F))
    (p0 p1 p2 p3 p4 p5 p6 p7 p8 p9 p10 p11 p12 p13 p14 p15 p16 p17 p18 p19 p20 p21 p22 p23 p24 p25 p26 p27 p28 p29 p30 p31 : S16.Idx → Elt F .f32) : a5.view.ty.Contents (Elt F) :=
  (a5.view.setOn rowsHi.set).piecewise
    (Cert.Kernel.Rows.wrow a5 31 (by decide) (Cert.Kernel.Rows.wrow a5 30 (by decide) (Cert.Kernel.Rows.wrow a5 29 (by decide) (Cert.Kernel.Rows.wrow a5 28 (by decide) (Cert.Kernel.Rows.wrow a5 27 (by decide) (Cert.Kernel.Rows.wrow a5 26 (by decide) (Cert.Kernel.Rows.wrow a5 25 (by decide) (Cert.Kernel.Rows.wrow a5 24 (by decide) (Cert.Kernel.Rows.wrow a5 23 (by decide) (Cert.Kernel.Rows.wrow a5 22 (by decide) (Cert.Kernel.Rows.wrow a5 21 (by decide) (Cert.Kernel.Rows.wrow a5 20 (by decide) (Cert.Kernel.Rows.wrow a5 19 (by decide) (Cert.Kernel.Rows.wrow a5 18 (by decide) (Cert.Kernel.Rows.wrow a5 17 (by decide) (Cert.Kernel.Rows.wrow a5 16 (by decide) base p16) p17) p18) p19) p20) p21) p22) p23) p24) p25) p26) p27) p28) p29) p30) p31)
    (Cert.Kernel.Rows.wrow a5 15 (by decide) (Cert.Kernel.Rows.wrow a5 14 (by decide) (Cert.Kernel.Rows.wrow a5 13 (by decide) (Cert.Kernel.Rows.wrow a5 12 (by decide) (Cert.Kernel.Rows.wrow a5 11 (by decide) (Cert.Kernel.Rows.wrow a5 10 (by decide) (Cert.Kernel.Rows.wrow a5 9 (by decide) (Cert.Kernel.Rows.wrow a5 8 (by decide) (Cert.Kernel.Rows.wrow a5 7 (by decide) (Cert.Kernel.Rows.wrow a5 6 (by decide) (Cert.Kernel.Rows.wrow a5 5 (by decide) (Cert.Kernel.Rows.wrow a5 4 (by decide) (Cert.Kernel.Rows.wrow a5 3 (by decide) (Cert.Kernel.Rows.wrow a5 2 (by decide) (Cert.Kernel.Rows.wrow a5 1 (by decide) (Cert.Kernel.Rows.wrow a5 0 (by decide) base p0) p1) p2) p3) p4) p5) p6) p7) p8) p9) p10) p11) p12) p13) p14) p15)

/-- The rows listed one by one are the rows of the array that lists them. -/
theorem landedOf_eq (a5 : Memref sig .tc .vmem S32x16 .f32) (base : a5.view.ty.Contents (Elt F))
    (p0 p1 p2 p3 p4 p5 p6 p7 p8 p9 p10 p11 p12 p13 p14 p15 p16 p17 p18 p19 p20 p21 p22 p23 p24 p25 p26 p27 p28 p29 p30 p31 : S16.Idx → Elt F .f32) :
    landedOf a5 base p0 p1 p2 p3 p4 p5 p6 p7 p8 p9 p10 p11 p12 p13 p14 p15 p16 p17 p18 p19 p20 p21 p22 p23 p24 p25 p26 p27 p28 p29 p30 p31 = Cert.Kernel.Rows.landed a5 base ![p0, p1, p2, p3, p4, p5, p6, p7, p8, p9, p10, p11, p12, p13, p14, p15, p16, p17, p18, p19, p20, p21, p22, p23, p24, p25, p26, p27, p28, p29, p30, p31] := rfl

/-- Once its thirty-two rows have landed, the scratch held whole is held at the contents that read as the rows' array:
    nothing of what it held before is left. -/
theorem scratch_canon (c : Dev nD) (a5 : Memref sig .tc .vmem S32x16 .f32) (h5 : a5.IsWhole) (base : a5.view.ty.Contents (Elt F))
    (p0 p1 p2 p3 p4 p5 p6 p7 p8 p9 p10 p11 p12 p13 p14 p15 p16 p17 p18 p19 p20 p21 p22 p23 p24 p25 p26 p27 p28 p29 p30 p31 : S16.Idx → Elt F .f32) :
    (a5.view.loc (c : Thread nD τ) ↦[a5.view.set]{fullShare} landedOf a5 base p0 p1 p2 p3 p4 p5 p6 p7 p8 p9 p10 p11 p12 p13 p14 p15 p16 p17 p18 p19 p20 p21 p22 p23 p24 p25 p26 p27 p28 p29 p30 p31 : sProp 𝕄)
      ⊢ (a5.view.loc (c : Thread nD τ) ↦[a5.view.set]{fullShare} h5.unread (Cert.Kernel.Rows.table ![p0, p1, p2, p3, p4, p5, p6, p7, p8, p9, p10, p11, p12, p13, p14, p15, p16, p17, p18, p19, p20, p21, p22, p23, p24, p25, p26, p27, p28, p29, p30, p31])) :=
  Entails.of_eq (by rw [landedOf_eq, Cert.Kernel.Rows.landed_eq a5 h5])

/-! ## The run -/

set_option maxHeartbeats 400000000 in set_option sl_exec.stepHeartbeats 4000000 in set_option sl_exec.rejoinHeartbeats 4000000 in set_option sl_exec.dmaWindow true in set_option sl_exec.dmaWindowSet true in
/-- The pieces the body's one store leaves in the output's staging memref, WITH the proof that from whole staging memrefs —
    the output's and the scratch at any contents —, the index table at its contents, the point cloud whole at its contents,
    the thirty-two completion cells at zero and the core's record of waits, the body runs to its continuation holding the
    output's memref with those pieces written, the scratch at some contents, and the table, the point cloud, the cells and
    the record as they were (each wait recorded). -/
noncomputable def kernelRun0_A (c : Dev nD) (i : grid0.Coords) (arg4 : Memref sig .tc .vmem S1x32x16 .f32) (harg4 : arg4.IsWhole) (arg5 : Memref sig .tc .vmem S32x16 .f32) (harg5 : arg5.IsWhole)
    (xt0 : TbBuf0 (F := F) c tbM0_0) (fh0 : HbBuf0 (F := F) c hbM0_0) (k0_hw1 : k0_chk1 i (tbM0_0.view.readAt (Elt F) (Rect.unit (s := S32x2048) (k0_off1 i) S1x1.size (k0_off1_inb i)).toLoadRect xt0 (Shape.Idx.first (numel1_S1x1.symm ▸ Nat.one_pos)))) (k0_hw2 : k0_chk2 i (tbM0_0.view.readAt (Elt F) (Rect.unit (s := S32x2048) (k0_off3 i) S1x1.size (k0_off3_inb i)).toLoadRect xt0 (Shape.Idx.first (numel1_S1x1.symm ▸ Nat.one_pos)))) (k0_hw3 : k0_chk3 i (tbM0_0.view.readAt (Elt F) (Rect.unit (s := S32x2048) (k0_off5 i) S1x1.size (k0_off5_inb i)).toLoadRect xt0 (Shape.Idx.first (numel1_S1x1.symm ▸ Nat.one_pos)))) (k0_hw4 : k0_chk4 i (tbM0_0.view.readAt (Elt F) (Rect.unit (s := S32x2048) (k0_off7 i) S1x1.size (k0_off7_inb i)).toLoadRect xt0 (Shape.Idx.first (numel1_S1x1.symm ▸ Nat.one_pos)))) (k0_hw5 : k0_chk5 i (tbM0_0.view.readAt (Elt F) (Rect.unit (s := S32x2048) (k0_off9 i) S1x1.size (k0_off9_inb i)).toLoadRect xt0 (Shape.Idx.first (numel1_S1x1.symm ▸ Nat.one_pos)))) (k0_hw6 : k0_chk6 i (tbM0_0.view.readAt (Elt F) (Rect.unit (s := S32x2048) (k0_off11 i) S1x1.size (k0_off11_inb i)).toLoadRect xt0 (Shape.Idx.first (numel1_S1x1.symm ▸ Nat.one_pos)))) (k0_hw7 : k0_chk7 i (tbM0_0.view.readAt (Elt F) (Rect.unit (s := S32x2048) (k0_off13 i) S1x1.size (k0_off13_inb i)).toLoadRect xt0 (Shape.Idx.first (numel1_S1x1.symm ▸ Nat.one_pos)))) (k0_hw8 : k0_chk8 i (tbM0_0.view.readAt (Elt F) (Rect.unit (s := S32x2048) (k0_off15 i) S1x1.size (k0_off15_inb i)).toLoadRect xt0 (Shape.Idx.first (numel1_S1x1.symm ▸ Nat.one_pos)))) (k0_hw9 : k0_chk9 i (tbM0_0.view.readAt (Elt F) (Rect.unit (s := S32x2048) (k0_off17 i) S1x1.size (k0_off17_inb i)).toLoadRect xt0 (Shape.Idx.first (numel1_S1x1.symm ▸ Nat.one_pos)))) (k0_hw10 : k0_chk10 i (tbM0_0.view.readAt (Elt F) (Rect.unit (s := S32x2048) (k0_off19 i) S1x1.size (k0_off19_inb i)).toLoadRect xt0 (Shape.Idx.first (numel1_S1x1.symm ▸ Nat.one_pos)))) (k0_hw11 : k0_chk11 i (tbM0_0.view.readAt (Elt F) (Rect.unit (s := S32x2048) (k0_off21 i) S1x1.size (k0_off21_inb i)).toLoadRect xt0 (Shape.Idx.first (numel1_S1x1.symm ▸ Nat.one_pos)))) (k0_hw12 : k0_chk12 i (tbM0_0.view.readAt (Elt F) (Rect.unit (s := S32x2048) (k0_off23 i) S1x1.size (k0_off23_inb i)).toLoadRect xt0 (Shape.Idx.first (numel1_S1x1.symm ▸ Nat.one_pos)))) (k0_hw13 : k0_chk13 i (tbM0_0.view.readAt (Elt F) (Rect.unit (s := S32x2048) (k0_off25 i) S1x1.size (k0_off25_inb i)).toLoadRect xt0 (Shape.Idx.first (numel1_S1x1.symm ▸ Nat.one_pos)))) (k0_hw14 : k0_chk14 i (tbM0_0.view.readAt (Elt F) (Rect.unit (s := S32x2048) (k0_off27 i) S1x1.size (k0_off27_inb i)).toLoadRect xt0 (Shape.Idx.first (numel1_S1x1.symm ▸ Nat.one_pos)))) (k0_hw15 : k0_chk15 i (tbM0_0.view.readAt (Elt F) (Rect.unit (s := S32x2048) (k0_off29 i) S1x1.size (k0_off29_inb i)).toLoadRect xt0 (Shape.Idx.first (numel1_S1x1.symm ▸ Nat.one_pos)))) (k0_hw16 : k0_chk16 i (tbM0_0.view.readAt (Elt F) (Rect.unit (s := S32x2048) (k0_off31 i) S1x1.size (k0_off31_inb i)).toLoadRect xt0 (Shape.Idx.first (numel1_S1x1.symm ▸ Nat.one_pos)))) (k0_hw17 : k0_chk17 i (tbM0_0.view.readAt (Elt F) (Rect.unit (s := S32x2048) (k0_off33 i) S1x1.size (k0_off33_inb i)).toLoadRect xt0 (Shape.Idx.first (numel1_S1x1.symm ▸ Nat.one_pos)))) (k0_hw18 : k0_chk18 i (tbM0_0.view.readAt (Elt F) (Rect.unit (s := S32x2048) (k0_off35 i) S1x1.size (k0_off35_inb i)).toLoadRect xt0 (Shape.Idx.first (numel1_S1x1.symm ▸ Nat.one_pos)))) (k0_hw19 : k0_chk19 i (tbM0_0.view.readAt (Elt F) (Rect.unit (s := S32x2048) (k0_off37 i) S1x1.size (k0_off37_inb i)).toLoadRect xt0 (Shape.Idx.first (numel1_S1x1.symm ▸ Nat.one_pos)))) (k0_hw20 : k0_chk20 i (tbM0_0.view.readAt (Elt F) (Rect.unit (s := S32x2048) (k0_off39 i) S1x1.size (k0_off39_inb i)).toLoadRect xt0 (Shape.Idx.first (numel1_S1x1.symm ▸ Nat.one_pos)))) (k0_hw21 : k0_chk21 i (tbM0_0.view.readAt (Elt F) (Rect.unit (s := S32x2048) (k0_off41 i) S1x1.size (k0_off41_inb i)).toLoadRect xt0 (Shape.Idx.first (numel1_S1x1.symm ▸ Nat.one_pos)))) (k0_hw22 : k0_chk22 i (tbM0_0.view.readAt (Elt F) (Rect.unit (s := S32x2048) (k0_off43 i) S1x1.size (k0_off43_inb i)).toLoadRect xt0 (Shape.Idx.first (numel1_S1x1.symm ▸ Nat.one_pos)))) (k0_hw23 : k0_chk23 i (tbM0_0.view.readAt (Elt F) (Rect.unit (s := S32x2048) (k0_off45 i) S1x1.size (k0_off45_inb i)).toLoadRect xt0 (Shape.Idx.first (numel1_S1x1.symm ▸ Nat.one_pos)))) (k0_hw24 : k0_chk24 i (tbM0_0.view.readAt (Elt F) (Rect.unit (s := S32x2048) (k0_off47 i) S1x1.size (k0_off47_inb i)).toLoadRect xt0 (Shape.Idx.first (numel1_S1x1.symm ▸ Nat.one_pos)))) (k0_hw25 : k0_chk25 i (tbM0_0.view.readAt (Elt F) (Rect.unit (s := S32x2048) (k0_off49 i) S1x1.size (k0_off49_inb i)).toLoadRect xt0 (Shape.Idx.first (numel1_S1x1.symm ▸ Nat.one_pos)))) (k0_hw26 : k0_chk26 i (tbM0_0.view.readAt (Elt F) (Rect.unit (s := S32x2048) (k0_off51 i) S1x1.size (k0_off51_inb i)).toLoadRect xt0 (Shape.Idx.first (numel1_S1x1.symm ▸ Nat.one_pos)))) (k0_hw27 : k0_chk27 i (tbM0_0.view.readAt (Elt F) (Rect.unit (s := S32x2048) (k0_off53 i) S1x1.size (k0_off53_inb i)).toLoadRect xt0 (Shape.Idx.first (numel1_S1x1.symm ▸ Nat.one_pos)))) (k0_hw28 : k0_chk28 i (tbM0_0.view.readAt (Elt F) (Rect.unit (s := S32x2048) (k0_off55 i) S1x1.size (k0_off55_inb i)).toLoadRect xt0 (Shape.Idx.first (numel1_S1x1.symm ▸ Nat.one_pos)))) (k0_hw29 : k0_chk29 i (tbM0_0.view.readAt (Elt F) (Rect.unit (s := S32x2048) (k0_off57 i) S1x1.size (k0_off57_inb i)).toLoadRect xt0 (Shape.Idx.first (numel1_S1x1.symm ▸ Nat.one_pos)))) (k0_hw30 : k0_chk30 i (tbM0_0.view.readAt (Elt F) (Rect.unit (s := S32x2048) (k0_off59 i) S1x1.size (k0_off59_inb i)).toLoadRect xt0 (Shape.Idx.first (numel1_S1x1.symm ▸ Nat.one_pos)))) (k0_hw31 : k0_chk31 i (tbM0_0.view.readAt (Elt F) (Rect.unit (s := S32x2048) (k0_off61 i) S1x1.size (k0_off61_inb i)).toLoadRect xt0 (Shape.Idx.first (numel1_S1x1.symm ▸ Nat.one_pos)))) (k0_hw32 : k0_chk32 i (tbM0_0.view.readAt (Elt F) (Rect.unit (s := S32x2048) (k0_off63 i) S1x1.size (k0_off63_inb i)).toLoadRect xt0 (Shape.Idx.first (numel1_S1x1.symm ▸ Nat.one_pos)))) :
    { L0 : List (View.Piece (Elt F) S1x32x16 .f32) //
      ∀ (W : Waits sig Unit) (K : PUnit → sProp 𝕄),
        iprop((∃ d, owns (c : Thread nD τ) arg4 fullShare d) ∗ (∃ d, owns (c : Thread nD τ) arg5 fullShare d) ∗ tbPt0 c tbM0_0 xt0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ owes (c : Thread nD τ) 0 W
            ∗ (iprop((∃ f, arg4.view.loc (c : Thread nD τ) ↦[arg4.view.set]{fullShare} arg4.view.writes (Elt F) f L0) ∗ (∃ d, owns (c : Thread nD τ) arg5 fullShare d) ∗ tbPt0 c tbM0_0 xt0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ (∃ W', owes (c : Thread nD τ) 0 W')) -∗ K ⟨⟩))
          ⊢ wp frame (wpE (defs₀ (F := F)) Variants.none c none) Set.univ (cc0__gather_kernel i tbM0_0 htbM0_0 (Memref.whole main_arg0) (Memref.isWhole_whole _) arg4 harg4 arg5 harg5 cc0_scratch1) K } := by
  refine ⟨?_, fun W K => ?run⟩
  case run =>
    simp only [cc0__gather_kernel_eq_skeleton]; unfold cc0__gather_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%d0, %f0, -, H0⟩, ⟨%ds0, %fs0, -, HS0⟩, HT0, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hh0, HW, Hk⟩
    ihave T := (hbTok0 c fh0).1 $$ Hh0; icases T with ⟨Hh0, Ht0⟩
    ihave T := (hbTok c fh0 1).1 $$ Hh0; icases T with ⟨Hh0, Ht1⟩
    ihave T := (hbTok c fh0 2).1 $$ Hh0; icases T with ⟨Hh0, Ht2⟩
    ihave T := (hbTok c fh0 3).1 $$ Hh0; icases T with ⟨Hh0, Ht3⟩
    ihave T := (hbTok c fh0 4).1 $$ Hh0; icases T with ⟨Hh0, Ht4⟩
    ihave T := (hbTok c fh0 5).1 $$ Hh0; icases T with ⟨Hh0, Ht5⟩
    ihave T := (hbTok c fh0 6).1 $$ Hh0; icases T with ⟨Hh0, Ht6⟩
    ihave T := (hbTok c fh0 7).1 $$ Hh0; icases T with ⟨Hh0, Ht7⟩
    ihave T := (hbTok c fh0 8).1 $$ Hh0; icases T with ⟨Hh0, Ht8⟩
    ihave T := (hbTok c fh0 9).1 $$ Hh0; icases T with ⟨Hh0, Ht9⟩
    ihave T := (hbTok c fh0 10).1 $$ Hh0; icases T with ⟨Hh0, Ht10⟩
    ihave T := (hbTok c fh0 11).1 $$ Hh0; icases T with ⟨Hh0, Ht11⟩
    ihave T := (hbTok c fh0 12).1 $$ Hh0; icases T with ⟨Hh0, Ht12⟩
    ihave T := (hbTok c fh0 13).1 $$ Hh0; icases T with ⟨Hh0, Ht13⟩
    ihave T := (hbTok c fh0 14).1 $$ Hh0; icases T with ⟨Hh0, Ht14⟩
    ihave T := (hbTok c fh0 15).1 $$ Hh0; icases T with ⟨Hh0, Ht15⟩
    ihave T := (hbTok c fh0 16).1 $$ Hh0; icases T with ⟨Hh0, Ht16⟩
    ihave T := (hbTok c fh0 17).1 $$ Hh0; icases T with ⟨Hh0, Ht17⟩
    ihave T := (hbTok c fh0 18).1 $$ Hh0; icases T with ⟨Hh0, Ht18⟩
    ihave T := (hbTok c fh0 19).1 $$ Hh0; icases T with ⟨Hh0, Ht19⟩
    ihave T := (hbTok c fh0 20).1 $$ Hh0; icases T with ⟨Hh0, Ht20⟩
    ihave T := (hbTok c fh0 21).1 $$ Hh0; icases T with ⟨Hh0, Ht21⟩
    ihave T := (hbTok c fh0 22).1 $$ Hh0; icases T with ⟨Hh0, Ht22⟩
    ihave T := (hbTok c fh0 23).1 $$ Hh0; icases T with ⟨Hh0, Ht23⟩
    ihave T := (hbTok c fh0 24).1 $$ Hh0; icases T with ⟨Hh0, Ht24⟩
    ihave T := (hbTok c fh0 25).1 $$ Hh0; icases T with ⟨Hh0, Ht25⟩
    ihave T := (hbTok c fh0 26).1 $$ Hh0; icases T with ⟨Hh0, Ht26⟩
    ihave T := (hbTok c fh0 27).1 $$ Hh0; icases T with ⟨Hh0, Ht27⟩
    ihave T := (hbTok c fh0 28).1 $$ Hh0; icases T with ⟨Hh0, Ht28⟩
    ihave T := (hbTok c fh0 29).1 $$ Hh0; icases T with ⟨Hh0, Ht29⟩
    ihave T := (hbTok c fh0 30).1 $$ Hh0; icases T with ⟨Hh0, Ht30⟩
    ihave T := (hbTok c fh0 31).1 $$ Hh0; icases T with ⟨Hh0, Ht31⟩
    ihave T := (hbTok c fh0 32).1 $$ Hh0; icases T with ⟨Hh0, Ht32⟩
    ihave T := (hbTok c fh0 33).1 $$ Hh0; icases T with ⟨Hh0, Ht33⟩
    ihave T := (rows_split c arg5 fs0).1 $$ HS0; icases T with ⟨HS0, HS1⟩
    sl_exec (disch := first | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32)
    ihave HS0 := (rows_join c arg5 _ _) $$ [HS0 HS1]
    · isplitl [HS0]
      · iexact HS0
      · iexact HS1
    ihave HS0 := (scratch_canon c arg5 harg5 fs0 (kernelRun0_A.sl.dma1 c i xt0 fh0 k0_hw1) (kernelRun0_A.sl.dma2 c i xt0 fh0 k0_hw2) (kernelRun0_A.sl.dma3 c i xt0 fh0 k0_hw3) (kernelRun0_A.sl.dma4 c i xt0 fh0 k0_hw4) (kernelRun0_A.sl.dma5 c i xt0 fh0 k0_hw5) (kernelRun0_A.sl.dma6 c i xt0 fh0 k0_hw6) (kernelRun0_A.sl.dma7 c i xt0 fh0 k0_hw7) (kernelRun0_A.sl.dma8 c i xt0 fh0 k0_hw8) (kernelRun0_A.sl.dma9 c i xt0 fh0 k0_hw9) (kernelRun0_A.sl.dma10 c i xt0 fh0 k0_hw10) (kernelRun0_A.sl.dma11 c i xt0 fh0 k0_hw11) (kernelRun0_A.sl.dma12 c i xt0 fh0 k0_hw12) (kernelRun0_A.sl.dma13 c i xt0 fh0 k0_hw13) (kernelRun0_A.sl.dma14 c i xt0 fh0 k0_hw14) (kernelRun0_A.sl.dma15 c i xt0 fh0 k0_hw15) (kernelRun0_A.sl.dma16 c i xt0 fh0 k0_hw16) (kernelRun0_A.sl.dma17 c i xt0 fh0 k0_hw17) (kernelRun0_A.sl.dma18 c i xt0 fh0 k0_hw18) (kernelRun0_A.sl.dma19 c i xt0 fh0 k0_hw19) (kernelRun0_A.sl.dma20 c i xt0 fh0 k0_hw20) (kernelRun0_A.sl.dma21 c i xt0 fh0 k0_hw21) (kernelRun0_A.sl.dma22 c i xt0 fh0 k0_hw22) (kernelRun0_A.sl.dma23 c i xt0 fh0 k0_hw23) (kernelRun0_A.sl.dma24 c i xt0 fh0 k0_hw24) (kernelRun0_A.sl.dma25 c i xt0 fh0 k0_hw25) (kernelRun0_A.sl.dma26 c i xt0 fh0 k0_hw26) (kernelRun0_A.sl.dma27 c i xt0 fh0 k0_hw27) (kernelRun0_A.sl.dma28 c i xt0 fh0 k0_hw28) (kernelRun0_A.sl.dma29 c i xt0 fh0 k0_hw29) (kernelRun0_A.sl.dma30 c i xt0 fh0 k0_hw30) (kernelRun0_A.sl.dma31 c i xt0 fh0 k0_hw31) (kernelRun0_A.sl.dma32 c i xt0 fh0 k0_hw32)) $$ HS0
    sl_exec (disch := first | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32)
    ihave Hh0 := (hbTok c fh0 33).2 $$ [Hh0 Ht33]
    · isplitl [Hh0]
      · iexact Hh0
      · iexact Ht33
    ihave Hh0 := (hbTok c fh0 32).2 $$ [Hh0 Ht32]
    · isplitl [Hh0]
      · iexact Hh0
      · iexact Ht32
    ihave Hh0 := (hbTok c fh0 31).2 $$ [Hh0 Ht31]
    · isplitl [Hh0]
      · iexact Hh0
      · iexact Ht31
    ihave Hh0 := (hbTok c fh0 30).2 $$ [Hh0 Ht30]
    · isplitl [Hh0]
      · iexact Hh0
      · iexact Ht30
    ihave Hh0 := (hbTok c fh0 29).2 $$ [Hh0 Ht29]
    · isplitl [Hh0]
      · iexact Hh0
      · iexact Ht29
    ihave Hh0 := (hbTok c fh0 28).2 $$ [Hh0 Ht28]
    · isplitl [Hh0]
      · iexact Hh0
      · iexact Ht28
    ihave Hh0 := (hbTok c fh0 27).2 $$ [Hh0 Ht27]
    · isplitl [Hh0]
      · iexact Hh0
      · iexact Ht27
    ihave Hh0 := (hbTok c fh0 26).2 $$ [Hh0 Ht26]
    · isplitl [Hh0]
      · iexact Hh0
      · iexact Ht26
    ihave Hh0 := (hbTok c fh0 25).2 $$ [Hh0 Ht25]
    · isplitl [Hh0]
      · iexact Hh0
      · iexact Ht25
    ihave Hh0 := (hbTok c fh0 24).2 $$ [Hh0 Ht24]
    · isplitl [Hh0]
      · iexact Hh0
      · iexact Ht24
    ihave Hh0 := (hbTok c fh0 23).2 $$ [Hh0 Ht23]
    · isplitl [Hh0]
      · iexact Hh0
      · iexact Ht23
    ihave Hh0 := (hbTok c fh0 22).2 $$ [Hh0 Ht22]
    · isplitl [Hh0]
      · iexact Hh0
      · iexact Ht22
    ihave Hh0 := (hbTok c fh0 21).2 $$ [Hh0 Ht21]
    · isplitl [Hh0]
      · iexact Hh0
      · iexact Ht21
    ihave Hh0 := (hbTok c fh0 20).2 $$ [Hh0 Ht20]
    · isplitl [Hh0]
      · iexact Hh0
      · iexact Ht20
    ihave Hh0 := (hbTok c fh0 19).2 $$ [Hh0 Ht19]
    · isplitl [Hh0]
      · iexact Hh0
      · iexact Ht19
    ihave Hh0 := (hbTok c fh0 18).2 $$ [Hh0 Ht18]
    · isplitl [Hh0]
      · iexact Hh0
      · iexact Ht18
    ihave Hh0 := (hbTok c fh0 17).2 $$ [Hh0 Ht17]
    · isplitl [Hh0]
      · iexact Hh0
      · iexact Ht17
    ihave Hh0 := (hbTok c fh0 16).2 $$ [Hh0 Ht16]
    · isplitl [Hh0]
      · iexact Hh0
      · iexact Ht16
    ihave Hh0 := (hbTok c fh0 15).2 $$ [Hh0 Ht15]
    · isplitl [Hh0]
      · iexact Hh0
      · iexact Ht15
    ihave Hh0 := (hbTok c fh0 14).2 $$ [Hh0 Ht14]
    · isplitl [Hh0]
      · iexact Hh0
      · iexact Ht14
    ihave Hh0 := (hbTok c fh0 13).2 $$ [Hh0 Ht13]
    · isplitl [Hh0]
      · iexact Hh0
      · iexact Ht13
    ihave Hh0 := (hbTok c fh0 12).2 $$ [Hh0 Ht12]
    · isplitl [Hh0]
      · iexact Hh0
      · iexact Ht12
    ihave Hh0 := (hbTok c fh0 11).2 $$ [Hh0 Ht11]
    · isplitl [Hh0]
      · iexact Hh0
      · iexact Ht11
    ihave Hh0 := (hbTok c fh0 10).2 $$ [Hh0 Ht10]
    · isplitl [Hh0]
      · iexact Hh0
      · iexact Ht10
    ihave Hh0 := (hbTok c fh0 9).2 $$ [Hh0 Ht9]
    · isplitl [Hh0]
      · iexact Hh0
      · iexact Ht9
    ihave Hh0 := (hbTok c fh0 8).2 $$ [Hh0 Ht8]
    · isplitl [Hh0]
      · iexact Hh0
      · iexact Ht8
    ihave Hh0 := (hbTok c fh0 7).2 $$ [Hh0 Ht7]
    · isplitl [Hh0]
      · iexact Hh0
      · iexact Ht7
    ihave Hh0 := (hbTok c fh0 6).2 $$ [Hh0 Ht6]
    · isplitl [Hh0]
      · iexact Hh0
      · iexact Ht6
    ihave Hh0 := (hbTok c fh0 5).2 $$ [Hh0 Ht5]
    · isplitl [Hh0]
      · iexact Hh0
      · iexact Ht5
    ihave Hh0 := (hbTok c fh0 4).2 $$ [Hh0 Ht4]
    · isplitl [Hh0]
      · iexact Hh0
      · iexact Ht4
    ihave Hh0 := (hbTok c fh0 3).2 $$ [Hh0 Ht3]
    · isplitl [Hh0]
      · iexact Hh0
      · iexact Ht3
    ihave Hh0 := (hbTok c fh0 2).2 $$ [Hh0 Ht2]
    · isplitl [Hh0]
      · iexact Hh0
      · iexact Ht2
    ihave Hh0 := (hbTok c fh0 1).2 $$ [Hh0 Ht1]
    · isplitl [Hh0]
      · iexact Hh0
      · iexact Ht1
    ihave Hh0 := (hbTok0 c fh0).2 $$ [Hh0 Ht0]
    · isplitl [Hh0]
      · iexact Hh0
      · iexact Ht0
    sl_step
    iapply Hk
    isplitl [H0]; · iexists _; iexact H0
    isplitl [HS0]
    · iexists _, _; isplitr; swap; · iexact HS0
      ipureintro; rfl
    isplitl [HT0]; · iexact HT0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hh0]; · iexact Hh0
    iexists _; iexact HW

end Cert.Kernel.GenP

end
-- ==== Proof.KernelIdealRows.lean ====
/-
  Reading a `[32, 16]` scratch buffer back after rows have been written into it one at a time: a row write leaves the
  written values on its row and what was there on every other row; contents glued from two pieces read as the piece the
  index falls in.
-/
import proofs.«139401_j62989990363749_1_alg».proof.Proof.Gen.KernelIdeal
import Idealize.ShloMosaic.Lib.Pipeline.Value
import Idealize.ShloMosaic.Lib.Pipeline.Frame
import Idealize.ShloMosaic.Lib.ValueIdx

set_option maxRecDepth 16384

noncomputable section

namespace Cert.KernelIdeal.Rows

open Idealize.ShloMosaic Idealize.ShloMosaic.ValueIdx Idealize.SL.Sem
open Cert.KernelIdeal

variable {F : FTy → Type} [FloatOps F]

/-- Row `k` of the buffer, as the body names the destination of the `k`-th transfer. -/
abbrev rowOf (a5 : Memref sig .tc .vmem S32x16 .f32) (k : Nat) (hin : ∀ a, (![k, 0] : Fin 2 → Nat) a + S1x16.size a ≤ S32x16.size a)
    (hs : ∀ a, (Rect.unit (s := S32x16) ![k, 0] S1x16.size hin).stride a = 1) : Memref sig .tc .vmem S16 .f32 :=
  (a5.slice (Rect.unit (s := S32x16) ![k, 0] S1x16.size hin) hs).squeeze S16 Facts₀.squeezes_S1x16_S16

omit [FloatOps F] in
/-- Element `ch` of row `k` sits where element `(k, ch)` of the buffer does. -/
theorem rowOf_emb (a5 : Memref sig .tc .vmem S32x16 .f32) (k : Nat) (hin) (hs) (hk : k < 32) (ch : Fin 16) :
    (rowOf a5 k hin hs).view.emb (ix1 ch) = a5.view.emb (ix2 (n0 := 32) (n1 := 16) ⟨k, hk⟩ ch) := by
  show a5.view.emb ((Rect.unit (s := S32x16) ![k, 0] S1x16.size hin).emb ((Shape.reshapeEquiv _) (ix1 ch))) = _
  refine congrArg a5.view.emb ?_
  rw [Shape.reshapeEquiv_cons_one]
  funext a
  refine Fin.ext ?_
  rw [Rect.emb_apply]
  match a with
  | ⟨0, _⟩ => show k + 1 * 0 = k; omega
  | ⟨1, _⟩ => show 0 + 1 * ch.val = ch.val; omega

omit [FloatOps F] in
/-- The row's elements are the buffer's elements `(k, ·)`: an element `(r, ch)` with `r ≠ k` is not among them. -/
theorem not_mem_rowOf (a5 : Memref sig .tc .vmem S32x16 .f32) (k : Nat) (hin) (hs) (r : Fin 32) (ch : Fin 16) (hne : r.val ≠ k) :
    a5.view.emb (ix2 r ch) ∉ (rowOf a5 k hin hs).view.set := by
  have hset : (rowOf a5 k hin hs).view.set = (Rect.unit (s := S32x16) ![k, 0] S1x16.size hin).set.map a5.view.emb := by
    simp only [Memref.view_squeeze, Memref.view_slice, View.set_reshape, View.set_slice]
  rw [hset]
  intro hm
  rw [Finset.mem_map' ] at hm
  rw [Rect.mem_set_unit] at hm
  have h0 := hm 0
  have h0' : k ≤ r.val ∧ r.val < k + 1 := h0
  omega

/-- A ROW WRITE READ BACK: on its row the written values, elsewhere what was there. -/
theorem read_write_row (a5 : Memref sig .tc .vmem S32x16 .f32) (k : Nat) (hin) (hs) (hk : k < 32)
    (cur : a5.view.ty.Contents (Elt F)) (pay : S16.Idx → Elt F .f32) (r : Fin 32) (ch : Fin 16) :
    a5.view.read (Elt F) ((rowOf a5 k hin hs).view.write (Elt F) cur pay Finset.univ) (ix2 r ch)
      = if r.val = k then pay (ix1 ch) else a5.view.read (Elt F) cur (ix2 r ch) := by
  rw [View.read_apply, View.read_apply]
  by_cases h : r.val = k
  · rw [if_pos h]
    obtain rfl : r = ⟨k, hk⟩ := Fin.ext h
    rw [← rowOf_emb a5 k hin hs hk ch, View.write_emb_of_mem _ _ (Finset.mem_univ _)]
    simp
  · rw [if_neg h, View.write_of_not_mem _ _ _ (by rw [View.setOn_univ]; exact not_mem_rowOf a5 k hin hs r ch h)]

omit [FloatOps F] in
/-- CONTENTS GLUED from the rows 16 … 31 of one piece and the rest of another read as the piece the row falls in. -/
theorem read_piecewise (a5 : Memref sig .tc .vmem S32x16 .f32) (hin : ∀ a, (![16, 0] : Fin 2 → Nat) a + (![16, 16] : Fin 2 → Nat) a ≤ S32x16.size a)
    (g1 g0 : a5.view.ty.Contents (Elt F)) (r : Fin 32) (ch : Fin 16) :
    a5.view.read (Elt F) ((a5.view.setOn (Rect.unit (s := S32x16) ![16, 0] ![16, 16] hin).set).piecewise g1 g0) (ix2 r ch)
      = if 16 ≤ r.val then a5.view.read (Elt F) g1 (ix2 r ch) else a5.view.read (Elt F) g0 (ix2 r ch) := by
  have hmem : a5.view.emb (ix2 r ch) ∈ a5.view.setOn (Rect.unit (s := S32x16) ![16, 0] ![16, 16] hin).set ↔ 16 ≤ r.val := by
    rw [View.mem_setOn, Rect.mem_set_unit]
    constructor
    · intro h; exact (h 0).1
    · intro h a
      have hr : r.val < 32 := r.isLt
      have hc : ch.val < 16 := ch.isLt
      match a with
      | ⟨0, _⟩ => show 16 ≤ r.val ∧ r.val < 16 + 16; omega
      | ⟨1, _⟩ => show 0 ≤ ch.val ∧ ch.val < 0 + 16; omega
  rw [View.read_apply, View.read_apply, View.read_apply]
  by_cases h : 16 ≤ r.val
  · rw [if_pos h, Finset.piecewise_eq_of_mem _ _ _ (hmem.mpr h)]
  · rw [if_neg h, Finset.piecewise_eq_of_notMem _ _ _ (fun hm => h (hmem.mp hm))]

/-! ## All thirty-two rows landed -/

omit [FloatOps F] in
/-- Row k of the buffer, k below 32, is inside it. -/
theorem hin_row (k : Nat) (hk : k < 32) : ∀ a, (![k, 0] : Fin 2 → Nat) a + S1x16.size a ≤ S32x16.size a := fun a => by
  match a with
  | ⟨0, _⟩ => show k + 1 ≤ 32; omega
  | ⟨1, _⟩ => show 0 + 16 ≤ 16; omega

/-- The contents after one more row write: row k of "cur" replaced by "p" (the body's k-th transfer landed). -/
abbrev wrow (a5 : Memref sig .tc .vmem S32x16 .f32) (k : Nat) (hk : k < 32) (cur : a5.view.ty.Contents (Elt F))
    (p : S16.Idx → Elt F .f32) : a5.view.ty.Contents (Elt F) :=
  (rowOf a5 k (hin_row k hk) (fun _ => rfl)).view.write (Elt F) cur p Finset.univ

/-- One more row write read back: on its row the written values, elsewhere what was there. -/
theorem read_wrow (a5 : Memref sig .tc .vmem S32x16 .f32) (k : Nat) (hk : k < 32) (cur : a5.view.ty.Contents (Elt F))
    (p : S16.Idx → Elt F .f32) (r : Fin 32) (ch : Fin 16) :
    a5.view.read (Elt F) (wrow a5 k hk cur p) (ix2 r ch) = if r.val = k then p (ix1 ch) else a5.view.read (Elt F) cur (ix2 r ch) :=
  read_write_row a5 k _ _ hk cur p r ch

/-- The contents after row k got "pay k", k = 0 … 31: the rows 16 … 31 written one after the other over "base" on the rows
    of the high block, the rows 0 … 15 written one after the other over "base" elsewhere. -/
def landed (a5 : Memref sig .tc .vmem S32x16 .f32) (base : a5.view.ty.Contents (Elt F)) (pay : Fin 32 → S16.Idx → Elt F .f32) :
    a5.view.ty.Contents (Elt F) :=
  (a5.view.setOn (Rect.unit (s := S32x16) ![16, 0] ![16, 16] (by decide)).set).piecewise
    (wrow a5 31 (by decide) (wrow a5 30 (by decide) (wrow a5 29 (by decide) (wrow a5 28 (by decide) (wrow a5 27 (by decide) (wrow a5 26 (by decide) (wrow a5 25 (by decide) (wrow a5 24 (by decide) (wrow a5 23 (by decide) (wrow a5 22 (by decide) (wrow a5 21 (by decide) (wrow a5 20 (by decide) (wrow a5 19 (by decide) (wrow a5 18 (by decide) (wrow a5 17 (by decide) (wrow a5 16 (by decide) base (pay 16)) (pay 17)) (pay 18)) (pay 19)) (pay 20)) (pay 21)) (pay 22)) (pay 23)) (pay 24)) (pay 25)) (pay 26)) (pay 27)) (pay 28)) (pay 29)) (pay 30)) (pay 31))
    (wrow a5 15 (by decide) (wrow a5 14 (by decide) (wrow a5 13 (by decide) (wrow a5 12 (by decide) (wrow a5 11 (by decide) (wrow a5 10 (by decide) (wrow a5 9 (by decide) (wrow a5 8 (by decide) (wrow a5 7 (by decide) (wrow a5 6 (by decide) (wrow a5 5 (by decide) (wrow a5 4 (by decide) (wrow a5 3 (by decide) (wrow a5 2 (by decide) (wrow a5 1 (by decide) (wrow a5 0 (by decide) base (pay 0)) (pay 1)) (pay 2)) (pay 3)) (pay 4)) (pay 5)) (pay 6)) (pay 7)) (pay 8)) (pay 9)) (pay 10)) (pay 11)) (pay 12)) (pay 13)) (pay 14)) (pay 15))

/-- EVERY ROW READS BACK WHAT LANDED ON IT: row r of the buffer holds "pay r". -/
theorem read_landed (a5 : Memref sig .tc .vmem S32x16 .f32) (base : a5.view.ty.Contents (Elt F)) (pay : Fin 32 → S16.Idx → Elt F .f32)
    (r : Fin 32) (ch : Fin 16) : a5.view.read (Elt F) (landed a5 base pay) (ix2 r ch) = pay r (ix1 ch) := by
  have hr : r.val < 32 := r.isLt
  unfold landed
  rw [read_piecewise]
  by_cases h16 : 16 ≤ r.val
  · rw [if_pos h16]
    rw [read_wrow]
    by_cases e31 : r.val = 31
    · rw [if_pos e31]; exact congrArg (fun q => pay q (ix1 ch)) (Fin.ext e31.symm)
    rw [if_neg e31]
    rw [read_wrow]
    by_cases e30 : r.val = 30
    · rw [if_pos e30]; exact congrArg (fun q => pay q (ix1 ch)) (Fin.ext e30.symm)
    rw [if_neg e30]
    rw [read_wrow]
    by_cases e29 : r.val = 29
    · rw [if_pos e29]; exact congrArg (fun q => pay q (ix1 ch)) (Fin.ext e29.symm)
    rw [if_neg e29]
    rw [read_wrow]
    by_cases e28 : r.val = 28
    · rw [if_pos e28]; exact congrArg (fun q => pay q (ix1 ch)) (Fin.ext e28.symm)
    rw [if_neg e28]
    rw [read_wrow]
    by_cases e27 : r.val = 27
    · rw [if_pos e27]; exact congrArg (fun q => pay q (ix1 ch)) (Fin.ext e27.symm)
    rw [if_neg e27]
    rw [read_wrow]
    by_cases e26 : r.val = 26
    · rw [if_pos e26]; exact congrArg (fun q => pay q (ix1 ch)) (Fin.ext e26.symm)
    rw [if_neg e26]
    rw [read_wrow]
    by_cases e25 : r.val = 25
    · rw [if_pos e25]; exact congrArg (fun q => pay q (ix1 ch)) (Fin.ext e25.symm)
    rw [if_neg e25]
    rw [read_wrow]
    by_cases e24 : r.val = 24
    · rw [if_pos e24]; exact congrArg (fun q => pay q (ix1 ch)) (Fin.ext e24.symm)
    rw [if_neg e24]
    rw [read_wrow]
    by_cases e23 : r.val = 23
    · rw [if_pos e23]; exact congrArg (fun q => pay q (ix1 ch)) (Fin.ext e23.symm)
    rw [if_neg e23]
    rw [read_wrow]
    by_cases e22 : r.val = 22
    · rw [if_pos e22]; exact congrArg (fun q => pay q (ix1 ch)) (Fin.ext e22.symm)
    rw [if_neg e22]
    rw [read_wrow]
    by_cases e21 : r.val = 21
    · rw [if_pos e21]; exact congrArg (fun q => pay q (ix1 ch)) (Fin.ext e21.symm)
    rw [if_neg e21]
    rw [read_wrow]
    by_cases e20 : r.val = 20
    · rw [if_pos e20]; exact congrArg (fun q => pay q (ix1 ch)) (Fin.ext e20.symm)
    rw [if_neg e20]
    rw [read_wrow]
    by_cases e19 : r.val = 19
    · rw [if_pos e19]; exact congrArg (fun q => pay q (ix1 ch)) (Fin.ext e19.symm)
    rw [if_neg e19]
    rw [read_wrow]
    by_cases e18 : r.val = 18
    · rw [if_pos e18]; exact congrArg (fun q => pay q (ix1 ch)) (Fin.ext e18.symm)
    rw [if_neg e18]
    rw [read_wrow]
    by_cases e17 : r.val = 17
    · rw [if_pos e17]; exact congrArg (fun q => pay q (ix1 ch)) (Fin.ext e17.symm)
    rw [if_neg e17]
    rw [read_wrow]
    by_cases e16 : r.val = 16
    · rw [if_pos e16]; exact congrArg (fun q => pay q (ix1 ch)) (Fin.ext e16.symm)
    rw [if_neg e16]
    exfalso; omega
  · rw [if_neg h16]
    rw [read_wrow]
    by_cases e15 : r.val = 15
    · rw [if_pos e15]; exact congrArg (fun q => pay q (ix1 ch)) (Fin.ext e15.symm)
    rw [if_neg e15]
    rw [read_wrow]
    by_cases e14 : r.val = 14
    · rw [if_pos e14]; exact congrArg (fun q => pay q (ix1 ch)) (Fin.ext e14.symm)
    rw [if_neg e14]
    rw [read_wrow]
    by_cases e13 : r.val = 13
    · rw [if_pos e13]; exact congrArg (fun q => pay q (ix1 ch)) (Fin.ext e13.symm)
    rw [if_neg e13]
    rw [read_wrow]
    by_cases e12 : r.val = 12
    · rw [if_pos e12]; exact congrArg (fun q => pay q (ix1 ch)) (Fin.ext e12.symm)
    rw [if_neg e12]
    rw [read_wrow]
    by_cases e11 : r.val = 11
    · rw [if_pos e11]; exact congrArg (fun q => pay q (ix1 ch)) (Fin.ext e11.symm)
    rw [if_neg e11]
    rw [read_wrow]
    by_cases e10 : r.val = 10
    · rw [if_pos e10]; exact congrArg (fun q => pay q (ix1 ch)) (Fin.ext e10.symm)
    rw [if_neg e10]
    rw [read_wrow]
    by_cases e9 : r.val = 9
    · rw [if_pos e9]; exact congrArg (fun q => pay q (ix1 ch)) (Fin.ext e9.symm)
    rw [if_neg e9]
    rw [read_wrow]
    by_cases e8 : r.val = 8
    · rw [if_pos e8]; exact congrArg (fun q => pay q (ix1 ch)) (Fin.ext e8.symm)
    rw [if_neg e8]
    rw [read_wrow]
    by_cases e7 : r.val = 7
    · rw [if_pos e7]; exact congrArg (fun q => pay q (ix1 ch)) (Fin.ext e7.symm)
    rw [if_neg e7]
    rw [read_wrow]
    by_cases e6 : r.val = 6
    · rw [if_pos e6]; exact congrArg (fun q => pay q (ix1 ch)) (Fin.ext e6.symm)
    rw [if_neg e6]
    rw [read_wrow]
    by_cases e5 : r.val = 5
    · rw [if_pos e5]; exact congrArg (fun q => pay q (ix1 ch)) (Fin.ext e5.symm)
    rw [if_neg e5]
    rw [read_wrow]
    by_cases e4 : r.val = 4
    · rw [if_pos e4]; exact congrArg (fun q => pay q (ix1 ch)) (Fin.ext e4.symm)
    rw [if_neg e4]
    rw [read_wrow]
    by_cases e3 : r.val = 3
    · rw [if_pos e3]; exact congrArg (fun q => pay q (ix1 ch)) (Fin.ext e3.symm)
    rw [if_neg e3]
    rw [read_wrow]
    by_cases e2 : r.val = 2
    · rw [if_pos e2]; exact congrArg (fun q => pay q (ix1 ch)) (Fin.ext e2.symm)
    rw [if_neg e2]
    rw [read_wrow]
    by_cases e1 : r.val = 1
    · rw [if_pos e1]; exact congrArg (fun q => pay q (ix1 ch)) (Fin.ext e1.symm)
    rw [if_neg e1]
    rw [read_wrow]
    by_cases e0 : r.val = 0
    · rw [if_pos e0]; exact congrArg (fun q => pay q (ix1 ch)) (Fin.ext e0.symm)
    rw [if_neg e0]
    exfalso; omega

/-- The payloads as one `[32, 16]` array: row `r` is `pay r`. -/
def table (pay : Fin 32 → S16.Idx → Elt F .f32) : S32x16.Idx → Elt F .f32 :=
  fun j => pay ⟨(j 0).val, (j 0).isLt⟩ (ix1 (n := 16) ⟨(j 1).val, (j 1).isLt⟩)

omit [FloatOps F] in
theorem table_ix2 (pay : Fin 32 → S16.Idx → Elt F .f32) (r : Fin 32) (ch : Fin 16) : table pay (ix2 r ch) = pay r (ix1 ch) := rfl

/-- ONCE EVERY ROW HAS LANDED the buffer's contents are the contents that read as the payloads' array, whatever it held
    before: a whole buffer's contents are what they read. -/
theorem landed_eq (a5 : Memref sig .tc .vmem S32x16 .f32) (h5 : a5.IsWhole) (base : a5.view.ty.Contents (Elt F))
    (pay : Fin 32 → S16.Idx → Elt F .f32) : landed a5 base pay = h5.unread (table pay) :=
  h5.eq_unread (funext fun j => by
    rw [eq_ix2 j]
    exact read_landed a5 base pay _ _)

end Cert.KernelIdeal.Rows

end
-- ==== Proof.KernelIdealBody.lean ====
/-
  The kernel body's run at one grid point. The body reads thirty-two words of the index table, starts thirty-two row
  transfers out of the point cloud (left in its own memory) into the thirty-two rows of a scratch buffer — all thirty-two
  in flight at once —, waits for each, then copies the scratch into the output block.

  Two of the rows transferred may be the SAME row of the point cloud (the table repeats an index when a batch has fewer
  positives than samples), so the point cloud cannot be lent to the transfers row by row: each transfer reads it at a
  share of its own, split off the full share beforehand (one per completion cell) and put back afterwards. The scratch's
  rows ARE pairwise distinct: each transfer is lent the one row it writes, and gets it back at its wait; the scratch is
  held as two blocks of sixteen rows so that a row handed back is put back across at most fifteen later rows.

  What the run leaves in the output block is one piece covering it: the scratch's contents after the thirty-two rows have
  landed, with a unit axis put in front.
-/
import proofs.«139401_j62989990363749_1_alg».proof.Proof.Gen.KernelIdeal.Frame.Runs
import proofs.«139401_j62989990363749_1_alg».proof.Proof.KernelIdealRows

set_option maxRecDepth 16384

noncomputable section

namespace Cert.KernelIdeal.GenP

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The point cloud at one read share per transfer -/

omit [FloatOps F] in
/-- One read token split off the HBM operand's points-to: what remains after `k` tokens is what remains after `k + 1` and the `k`-th token. -/
theorem hbTok (c : Dev nD) (f : HbBuf0 (F := F) c hbM0_0) (k : ℕ) :
    (hbM0_0.view.loc (c : Thread nD τ) ↦{Transfers.shareDrop fullShare k} f : sProp 𝕄)
      ⊣⊢ iprop((hbM0_0.view.loc (c : Thread nD τ) ↦{Transfers.shareDrop fullShare (k + 1)} f) ∗ (hbM0_0.view.loc (c : Thread nD τ) ↦{Transfers.shareTokN fullShare k} f)) :=
  pointsTo_share (PosShare.mem_left_op_right _)

omit [FloatOps F] in
/-- The first token, off the operand held at the full share. -/
theorem hbTok0 (c : Dev nD) (f : HbBuf0 (F := F) c hbM0_0) :
    (hbPt0 c hbM0_0 f : sProp 𝕄)
      ⊣⊢ iprop((hbM0_0.view.loc (c : Thread nD τ) ↦{Transfers.shareDrop fullShare 1} f) ∗ (hbM0_0.view.loc (c : Thread nD τ) ↦{Transfers.shareTokN fullShare 0} f)) :=
  hbTok c f 0

/-! ## The scratch buffer as two blocks of sixteen rows

The body copies thirty-two rows into the scratch, one transfer per row, all in flight at once. Held as ONE piece, each
row handed back at its wait would have to be put back across every row written since; held as two blocks of sixteen
rows, across at most fifteen. -/

/-- Rows 0 … 15 and rows 16 … 31 of a `[32, 16]` buffer. -/
abbrev rowsLo : Rect S32x16 := Rect.unit (s := S32x16) ![0, 0] ![16, 16] (by decide)
abbrev rowsHi : Rect S32x16 := Rect.unit (s := S32x16) ![16, 0] ![16, 16] (by decide)

theorem rows_cover : (Finset.univ : Finset S32x16.Idx) = rowsLo.set ∪ rowsHi.set := by
  ext i
  simp only [Finset.mem_univ, Finset.mem_union, Rect.mem_set_unit, true_iff]
  have h0 : (i 0).val < 32 := (i 0).isLt
  have h1 : (i 1).val < 16 := (i 1).isLt
  by_cases h : (i 0).val < 16
  · left; intro a
    match a with
    | ⟨0, _⟩ => show 0 ≤ (i 0).val ∧ (i 0).val < 0 + 16; omega
    | ⟨1, _⟩ => show 0 ≤ (i 1).val ∧ (i 1).val < 0 + 16; omega
  · right; intro a
    match a with
    | ⟨0, _⟩ => show 16 ≤ (i 0).val ∧ (i 0).val < 16 + 16; omega
    | ⟨1, _⟩ => show 0 ≤ (i 1).val ∧ (i 1).val < 0 + 16; omega

theorem rows_disjoint : Disjoint (rowsLo.set : Finset S32x16.Idx) rowsHi.set := by
  refine Finset.disjoint_left.2 fun i hl hh => ?_
  rw [Rect.mem_set_unit] at hl hh
  have a := (hl 0).2; have b := (hh 0).1
  have a' : (i 0).val < 0 + 16 := a
  have b' : 16 ≤ (i 0).val := b
  omega

omit [FloatOps F] in
theorem rows_union (v : View sig .tc .vmem S32x16 .f32) : v.set = v.setOn rowsLo.set ∪ v.setOn rowsHi.set := by
  rw [← View.setOn_univ, rows_cover]
  unfold View.setOn
  exact Finset.map_union _ _

omit [FloatOps F] in
theorem rows_setOn_disjoint (v : View sig .tc .vmem S32x16 .f32) : Disjoint (v.setOn rowsLo.set) (v.setOn rowsHi.set) := by
  unfold View.setOn
  exact (Finset.disjoint_map _).2 rows_disjoint

omit [FloatOps F] in
/-- The buffer held whole is its two blocks of rows held side by side, -/
theorem rows_split (c : Dev nD) (a5 : Memref sig .tc .vmem S32x16 .f32) (f : Buf (Elt F) (a5.view.loc (c : Thread nD τ))) :
    (a5.view.loc (c : Thread nD τ) ↦[a5.view.set]{fullShare} f : sProp 𝕄)
      ⊣⊢ iprop((a5.view.loc (c : Thread nD τ) ↦[a5.view.setOn rowsLo.set]{fullShare} f) ∗ (a5.view.loc (c : Thread nD τ) ↦[a5.view.setOn rowsHi.set]{fullShare} f)) := by
  rw [rows_union a5.view]
  exact pointsTo_union (rows_setOn_disjoint a5.view)

omit [FloatOps F] in
/-- and the two blocks, each at its own contents, are the buffer whole at the contents that are the one's on its rows and the other's elsewhere. -/
theorem rows_join (c : Dev nD) (a5 : Memref sig .tc .vmem S32x16 .f32) (g0 g1 : Buf (Elt F) (a5.view.loc (c : Thread nD τ))) :
    iprop((a5.view.loc (c : Thread nD τ) ↦[a5.view.setOn rowsLo.set]{fullShare} g0) ∗ (a5.view.loc (c : Thread nD τ) ↦[a5.view.setOn rowsHi.set]{fullShare} g1))
      ⊢ (a5.view.loc (c : Thread nD τ) ↦[a5.view.set]{fullShare} ((a5.view.setOn rowsHi.set).piecewise g1 g0) : sProp 𝕄) := by
  rw [rows_union a5.view]
  exact pointsTo_join (rows_setOn_disjoint a5.view)

/-- The scratch's contents once the rows p0 … p31 have landed over "base", row by row: rows 16 … 31 written one after the
    other on the high block, rows 0 … 15 one after the other on the low block. -/
abbrev landedOf (a5 : Memref sig .tc .vmem S32x16 .f32) (base : a5.view.ty.Contents (Elt F))
    (p0 p1 p2 p3 p4 p5 p6 p7 p8 p9 p10 p11 p12 p13 p14 p15 p16 p17 p18 p19 p20 p21 p22 p23 p24 p25 p26 p27 p28 p29 p30 p31 : S16.Idx → Elt F .f32) : a5.view.ty.Contents (Elt F) :=
  (a5.view.setOn rowsHi.set).piecewise
    (Cert.KernelIdeal.Rows.wrow a5 31 (by decide) (Cert.KernelIdeal.Rows.wrow a5 30 (by decide) (Cert.KernelIdeal.Rows.wrow a5 29 (by decide) (Cert.KernelIdeal.Rows.wrow a5 28 (by decide) (Cert.KernelIdeal.Rows.wrow a5 27 (by decide) (Cert.KernelIdeal.Rows.wrow a5 26 (by decide) (Cert.KernelIdeal.Rows.wrow a5 25 (by decide) (Cert.KernelIdeal.Rows.wrow a5 24 (by decide) (Cert.KernelIdeal.Rows.wrow a5 23 (by decide) (Cert.KernelIdeal.Rows.wrow a5 22 (by decide) (Cert.KernelIdeal.Rows.wrow a5 21 (by decide) (Cert.KernelIdeal.Rows.wrow a5 20 (by decide) (Cert.KernelIdeal.Rows.wrow a5 19 (by decide) (Cert.KernelIdeal.Rows.wrow a5 18 (by decide) (Cert.KernelIdeal.Rows.wrow a5 17 (by decide) (Cert.KernelIdeal.Rows.wrow a5 16 (by decide) base p16) p17) p18) p19) p20) p21) p22) p23) p24) p25) p26) p27) p28) p29) p30) p31)
    (Cert.KernelIdeal.Rows.wrow a5 15 (by decide) (Cert.KernelIdeal.Rows.wrow a5 14 (by decide) (Cert.KernelIdeal.Rows.wrow a5 13 (by decide) (Cert.KernelIdeal.Rows.wrow a5 12 (by decide) (Cert.KernelIdeal.Rows.wrow a5 11 (by decide) (Cert.KernelIdeal.Rows.wrow a5 10 (by decide) (Cert.KernelIdeal.Rows.wrow a5 9 (by decide) (Cert.KernelIdeal.Rows.wrow a5 8 (by decide) (Cert.KernelIdeal.Rows.wrow a5 7 (by decide) (Cert.KernelIdeal.Rows.wrow a5 6 (by decide) (Cert.KernelIdeal.Rows.wrow a5 5 (by decide) (Cert.KernelIdeal.Rows.wrow a5 4 (by decide) (Cert.KernelIdeal.Rows.wrow a5 3 (by decide) (Cert.KernelIdeal.Rows.wrow a5 2 (by decide) (Cert.KernelIdeal.Rows.wrow a5 1 (by decide) (Cert.KernelIdeal.Rows.wrow a5 0 (by decide) base p0) p1) p2) p3) p4) p5) p6) p7) p8) p9) p10) p11) p12) p13) p14) p15)

/-- The rows listed one by one are the rows of the array that lists them. -/
theorem landedOf_eq (a5 : Memref sig .tc .vmem S32x16 .f32) (base : a5.view.ty.Contents (Elt F))
    (p0 p1 p2 p3 p4 p5 p6 p7 p8 p9 p10 p11 p12 p13 p14 p15 p16 p17 p18 p19 p20 p21 p22 p23 p24 p25 p26 p27 p28 p29 p30 p31 : S16.Idx → Elt F .f32) :
    landedOf a5 base p0 p1 p2 p3 p4 p5 p6 p7 p8 p9 p10 p11 p12 p13 p14 p15 p16 p17 p18 p19 p20 p21 p22 p23 p24 p25 p26 p27 p28 p29 p30 p31 = Cert.KernelIdeal.Rows.landed a5 base ![p0, p1, p2, p3, p4, p5, p6, p7, p8, p9, p10, p11, p12, p13, p14, p15, p16, p17, p18, p19, p20, p21, p22, p23, p24, p25, p26, p27, p28, p29, p30, p31] := rfl

/-- Once its thirty-two rows have landed, the scratch held whole is held at the contents that read as the rows' array:
    nothing of what it held before is left. -/
theorem scratch_canon (c : Dev nD) (a5 : Memref sig .tc .vmem S32x16 .f32) (h5 : a5.IsWhole) (base : a5.view.ty.Contents (Elt F))
    (p0 p1 p2 p3 p4 p5 p6 p7 p8 p9 p10 p11 p12 p13 p14 p15 p16 p17 p18 p19 p20 p21 p22 p23 p24 p25 p26 p27 p28 p29 p30 p31 : S16.Idx → Elt F .f32) :
    (a5.view.loc (c : Thread nD τ) ↦[a5.view.set]{fullShare} landedOf a5 base p0 p1 p2 p3 p4 p5 p6 p7 p8 p9 p10 p11 p12 p13 p14 p15 p16 p17 p18 p19 p20 p21 p22 p23 p24 p25 p26 p27 p28 p29 p30 p31 : sProp 𝕄)
      ⊢ (a5.view.loc (c : Thread nD τ) ↦[a5.view.set]{fullShare} h5.unread (Cert.KernelIdeal.Rows.table ![p0, p1, p2, p3, p4, p5, p6, p7, p8, p9, p10, p11, p12, p13, p14, p15, p16, p17, p18, p19, p20, p21, p22, p23, p24, p25, p26, p27, p28, p29, p30, p31])) :=
  Entails.of_eq (by rw [landedOf_eq, Cert.KernelIdeal.Rows.landed_eq a5 h5])

/-! ## The run -/

set_option maxHeartbeats 400000000 in set_option sl_exec.stepHeartbeats 4000000 in set_option sl_exec.rejoinHeartbeats 4000000 in set_option sl_exec.dmaWindow true in set_option sl_exec.dmaWindowSet true in
/-- The pieces the body's one store leaves in the output's staging memref, WITH the proof that from whole staging memrefs —
    the output's and the scratch at any contents —, the index table at its contents, the point cloud whole at its contents,
    the thirty-two completion cells at zero and the core's record of waits, the body runs to its continuation holding the
    output's memref with those pieces written, the scratch at some contents, and the table, the point cloud, the cells and
    the record as they were (each wait recorded). -/
noncomputable def kernelRun0_A (c : Dev nD) (i : grid0.Coords) (arg4 : Memref sig .tc .vmem S1x32x16 .f32) (harg4 : arg4.IsWhole) (arg5 : Memref sig .tc .vmem S32x16 .f32) (harg5 : arg5.IsWhole)
    (xt0 : TbBuf0 (F := F) c tbM0_0) (fh0 : HbBuf0 (F := F) c hbM0_0) (k0_hw1 : k0_chk1 i (tbM0_0.view.readAt (Elt F) (Rect.unit (s := S32x2048) (k0_off1 i) S1x1.size (k0_off1_inb i)).toLoadRect xt0 (Shape.Idx.first (numel1_S1x1.symm ▸ Nat.one_pos)))) (k0_hw2 : k0_chk2 i (tbM0_0.view.readAt (Elt F) (Rect.unit (s := S32x2048) (k0_off3 i) S1x1.size (k0_off3_inb i)).toLoadRect xt0 (Shape.Idx.first (numel1_S1x1.symm ▸ Nat.one_pos)))) (k0_hw3 : k0_chk3 i (tbM0_0.view.readAt (Elt F) (Rect.unit (s := S32x2048) (k0_off5 i) S1x1.size (k0_off5_inb i)).toLoadRect xt0 (Shape.Idx.first (numel1_S1x1.symm ▸ Nat.one_pos)))) (k0_hw4 : k0_chk4 i (tbM0_0.view.readAt (Elt F) (Rect.unit (s := S32x2048) (k0_off7 i) S1x1.size (k0_off7_inb i)).toLoadRect xt0 (Shape.Idx.first (numel1_S1x1.symm ▸ Nat.one_pos)))) (k0_hw5 : k0_chk5 i (tbM0_0.view.readAt (Elt F) (Rect.unit (s := S32x2048) (k0_off9 i) S1x1.size (k0_off9_inb i)).toLoadRect xt0 (Shape.Idx.first (numel1_S1x1.symm ▸ Nat.one_pos)))) (k0_hw6 : k0_chk6 i (tbM0_0.view.readAt (Elt F) (Rect.unit (s := S32x2048) (k0_off11 i) S1x1.size (k0_off11_inb i)).toLoadRect xt0 (Shape.Idx.first (numel1_S1x1.symm ▸ Nat.one_pos)))) (k0_hw7 : k0_chk7 i (tbM0_0.view.readAt (Elt F) (Rect.unit (s := S32x2048) (k0_off13 i) S1x1.size (k0_off13_inb i)).toLoadRect xt0 (Shape.Idx.first (numel1_S1x1.symm ▸ Nat.one_pos)))) (k0_hw8 : k0_chk8 i (tbM0_0.view.readAt (Elt F) (Rect.unit (s := S32x2048) (k0_off15 i) S1x1.size (k0_off15_inb i)).toLoadRect xt0 (Shape.Idx.first (numel1_S1x1.symm ▸ Nat.one_pos)))) (k0_hw9 : k0_chk9 i (tbM0_0.view.readAt (Elt F) (Rect.unit (s := S32x2048) (k0_off17 i) S1x1.size (k0_off17_inb i)).toLoadRect xt0 (Shape.Idx.first (numel1_S1x1.symm ▸ Nat.one_pos)))) (k0_hw10 : k0_chk10 i (tbM0_0.view.readAt (Elt F) (Rect.unit (s := S32x2048) (k0_off19 i) S1x1.size (k0_off19_inb i)).toLoadRect xt0 (Shape.Idx.first (numel1_S1x1.symm ▸ Nat.one_pos)))) (k0_hw11 : k0_chk11 i (tbM0_0.view.readAt (Elt F) (Rect.unit (s := S32x2048) (k0_off21 i) S1x1.size (k0_off21_inb i)).toLoadRect xt0 (Shape.Idx.first (numel1_S1x1.symm ▸ Nat.one_pos)))) (k0_hw12 : k0_chk12 i (tbM0_0.view.readAt (Elt F) (Rect.unit (s := S32x2048) (k0_off23 i) S1x1.size (k0_off23_inb i)).toLoadRect xt0 (Shape.Idx.first (numel1_S1x1.symm ▸ Nat.one_pos)))) (k0_hw13 : k0_chk13 i (tbM0_0.view.readAt (Elt F) (Rect.unit (s := S32x2048) (k0_off25 i) S1x1.size (k0_off25_inb i)).toLoadRect xt0 (Shape.Idx.first (numel1_S1x1.symm ▸ Nat.one_pos)))) (k0_hw14 : k0_chk14 i (tbM0_0.view.readAt (Elt F) (Rect.unit (s := S32x2048) (k0_off27 i) S1x1.size (k0_off27_inb i)).toLoadRect xt0 (Shape.Idx.first (numel1_S1x1.symm ▸ Nat.one_pos)))) (k0_hw15 : k0_chk15 i (tbM0_0.view.readAt (Elt F) (Rect.unit (s := S32x2048) (k0_off29 i) S1x1.size (k0_off29_inb i)).toLoadRect xt0 (Shape.Idx.first (numel1_S1x1.symm ▸ Nat.one_pos)))) (k0_hw16 : k0_chk16 i (tbM0_0.view.readAt (Elt F) (Rect.unit (s := S32x2048) (k0_off31 i) S1x1.size (k0_off31_inb i)).toLoadRect xt0 (Shape.Idx.first (numel1_S1x1.symm ▸ Nat.one_pos)))) (k0_hw17 : k0_chk17 i (tbM0_0.view.readAt (Elt F) (Rect.unit (s := S32x2048) (k0_off33 i) S1x1.size (k0_off33_inb i)).toLoadRect xt0 (Shape.Idx.first (numel1_S1x1.symm ▸ Nat.one_pos)))) (k0_hw18 : k0_chk18 i (tbM0_0.view.readAt (Elt F) (Rect.unit (s := S32x2048) (k0_off35 i) S1x1.size (k0_off35_inb i)).toLoadRect xt0 (Shape.Idx.first (numel1_S1x1.symm ▸ Nat.one_pos)))) (k0_hw19 : k0_chk19 i (tbM0_0.view.readAt (Elt F) (Rect.unit (s := S32x2048) (k0_off37 i) S1x1.size (k0_off37_inb i)).toLoadRect xt0 (Shape.Idx.first (numel1_S1x1.symm ▸ Nat.one_pos)))) (k0_hw20 : k0_chk20 i (tbM0_0.view.readAt (Elt F) (Rect.unit (s := S32x2048) (k0_off39 i) S1x1.size (k0_off39_inb i)).toLoadRect xt0 (Shape.Idx.first (numel1_S1x1.symm ▸ Nat.one_pos)))) (k0_hw21 : k0_chk21 i (tbM0_0.view.readAt (Elt F) (Rect.unit (s := S32x2048) (k0_off41 i) S1x1.size (k0_off41_inb i)).toLoadRect xt0 (Shape.Idx.first (numel1_S1x1.symm ▸ Nat.one_pos)))) (k0_hw22 : k0_chk22 i (tbM0_0.view.readAt (Elt F) (Rect.unit (s := S32x2048) (k0_off43 i) S1x1.size (k0_off43_inb i)).toLoadRect xt0 (Shape.Idx.first (numel1_S1x1.symm ▸ Nat.one_pos)))) (k0_hw23 : k0_chk23 i (tbM0_0.view.readAt (Elt F) (Rect.unit (s := S32x2048) (k0_off45 i) S1x1.size (k0_off45_inb i)).toLoadRect xt0 (Shape.Idx.first (numel1_S1x1.symm ▸ Nat.one_pos)))) (k0_hw24 : k0_chk24 i (tbM0_0.view.readAt (Elt F) (Rect.unit (s := S32x2048) (k0_off47 i) S1x1.size (k0_off47_inb i)).toLoadRect xt0 (Shape.Idx.first (numel1_S1x1.symm ▸ Nat.one_pos)))) (k0_hw25 : k0_chk25 i (tbM0_0.view.readAt (Elt F) (Rect.unit (s := S32x2048) (k0_off49 i) S1x1.size (k0_off49_inb i)).toLoadRect xt0 (Shape.Idx.first (numel1_S1x1.symm ▸ Nat.one_pos)))) (k0_hw26 : k0_chk26 i (tbM0_0.view.readAt (Elt F) (Rect.unit (s := S32x2048) (k0_off51 i) S1x1.size (k0_off51_inb i)).toLoadRect xt0 (Shape.Idx.first (numel1_S1x1.symm ▸ Nat.one_pos)))) (k0_hw27 : k0_chk27 i (tbM0_0.view.readAt (Elt F) (Rect.unit (s := S32x2048) (k0_off53 i) S1x1.size (k0_off53_inb i)).toLoadRect xt0 (Shape.Idx.first (numel1_S1x1.symm ▸ Nat.one_pos)))) (k0_hw28 : k0_chk28 i (tbM0_0.view.readAt (Elt F) (Rect.unit (s := S32x2048) (k0_off55 i) S1x1.size (k0_off55_inb i)).toLoadRect xt0 (Shape.Idx.first (numel1_S1x1.symm ▸ Nat.one_pos)))) (k0_hw29 : k0_chk29 i (tbM0_0.view.readAt (Elt F) (Rect.unit (s := S32x2048) (k0_off57 i) S1x1.size (k0_off57_inb i)).toLoadRect xt0 (Shape.Idx.first (numel1_S1x1.symm ▸ Nat.one_pos)))) (k0_hw30 : k0_chk30 i (tbM0_0.view.readAt (Elt F) (Rect.unit (s := S32x2048) (k0_off59 i) S1x1.size (k0_off59_inb i)).toLoadRect xt0 (Shape.Idx.first (numel1_S1x1.symm ▸ Nat.one_pos)))) (k0_hw31 : k0_chk31 i (tbM0_0.view.readAt (Elt F) (Rect.unit (s := S32x2048) (k0_off61 i) S1x1.size (k0_off61_inb i)).toLoadRect xt0 (Shape.Idx.first (numel1_S1x1.symm ▸ Nat.one_pos)))) (k0_hw32 : k0_chk32 i (tbM0_0.view.readAt (Elt F) (Rect.unit (s := S32x2048) (k0_off63 i) S1x1.size (k0_off63_inb i)).toLoadRect xt0 (Shape.Idx.first (numel1_S1x1.symm ▸ Nat.one_pos)))) :
    { L0 : List (View.Piece (Elt F) S1x32x16 .f32) //
      ∀ (W : Waits sig Unit) (K : PUnit → sProp 𝕄),
        iprop((∃ d, owns (c : Thread nD τ) arg4 fullShare d) ∗ (∃ d, owns (c : Thread nD τ) arg5 fullShare d) ∗ tbPt0 c tbM0_0 xt0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ owes (c : Thread nD τ) 0 W
            ∗ (iprop((∃ f, arg4.view.loc (c : Thread nD τ) ↦[arg4.view.set]{fullShare} arg4.view.writes (Elt F) f L0) ∗ (∃ d, owns (c : Thread nD τ) arg5 fullShare d) ∗ tbPt0 c tbM0_0 xt0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ (∃ W', owes (c : Thread nD τ) 0 W')) -∗ K ⟨⟩))
          ⊢ wp frame (wpE (defs₀ (F := F)) Variants.none c none) Set.univ (cc0__gather_kernel i tbM0_0 htbM0_0 (Memref.whole main_arg0) (Memref.isWhole_whole _) arg4 harg4 arg5 harg5 cc0_scratch1) K } := by
  refine ⟨?_, fun W K => ?run⟩
  case run =>
    simp only [cc0__gather_kernel_eq_skeleton]; unfold cc0__gather_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%d0, %f0, -, H0⟩, ⟨%ds0, %fs0, -, HS0⟩, HT0, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hh0, HW, Hk⟩
    ihave T := (hbTok0 c fh0).1 $$ Hh0; icases T with ⟨Hh0, Ht0⟩
    ihave T := (hbTok c fh0 1).1 $$ Hh0; icases T with ⟨Hh0, Ht1⟩
    ihave T := (hbTok c fh0 2).1 $$ Hh0; icases T with ⟨Hh0, Ht2⟩
    ihave T := (hbTok c fh0 3).1 $$ Hh0; icases T with ⟨Hh0, Ht3⟩
    ihave T := (hbTok c fh0 4).1 $$ Hh0; icases T with ⟨Hh0, Ht4⟩
    ihave T := (hbTok c fh0 5).1 $$ Hh0; icases T with ⟨Hh0, Ht5⟩
    ihave T := (hbTok c fh0 6).1 $$ Hh0; icases T with ⟨Hh0, Ht6⟩
    ihave T := (hbTok c fh0 7).1 $$ Hh0; icases T with ⟨Hh0, Ht7⟩
    ihave T := (hbTok c fh0 8).1 $$ Hh0; icases T with ⟨Hh0, Ht8⟩
    ihave T := (hbTok c fh0 9).1 $$ Hh0; icases T with ⟨Hh0, Ht9⟩
    ihave T := (hbTok c fh0 10).1 $$ Hh0; icases T with ⟨Hh0, Ht10⟩
    ihave T := (hbTok c fh0 11).1 $$ Hh0; icases T with ⟨Hh0, Ht11⟩
    ihave T := (hbTok c fh0 12).1 $$ Hh0; icases T with ⟨Hh0, Ht12⟩
    ihave T := (hbTok c fh0 13).1 $$ Hh0; icases T with ⟨Hh0, Ht13⟩
    ihave T := (hbTok c fh0 14).1 $$ Hh0; icases T with ⟨Hh0, Ht14⟩
    ihave T := (hbTok c fh0 15).1 $$ Hh0; icases T with ⟨Hh0, Ht15⟩
    ihave T := (hbTok c fh0 16).1 $$ Hh0; icases T with ⟨Hh0, Ht16⟩
    ihave T := (hbTok c fh0 17).1 $$ Hh0; icases T with ⟨Hh0, Ht17⟩
    ihave T := (hbTok c fh0 18).1 $$ Hh0; icases T with ⟨Hh0, Ht18⟩
    ihave T := (hbTok c fh0 19).1 $$ Hh0; icases T with ⟨Hh0, Ht19⟩
    ihave T := (hbTok c fh0 20).1 $$ Hh0; icases T with ⟨Hh0, Ht20⟩
    ihave T := (hbTok c fh0 21).1 $$ Hh0; icases T with ⟨Hh0, Ht21⟩
    ihave T := (hbTok c fh0 22).1 $$ Hh0; icases T with ⟨Hh0, Ht22⟩
    ihave T := (hbTok c fh0 23).1 $$ Hh0; icases T with ⟨Hh0, Ht23⟩
    ihave T := (hbTok c fh0 24).1 $$ Hh0; icases T with ⟨Hh0, Ht24⟩
    ihave T := (hbTok c fh0 25).1 $$ Hh0; icases T with ⟨Hh0, Ht25⟩
    ihave T := (hbTok c fh0 26).1 $$ Hh0; icases T with ⟨Hh0, Ht26⟩
    ihave T := (hbTok c fh0 27).1 $$ Hh0; icases T with ⟨Hh0, Ht27⟩
    ihave T := (hbTok c fh0 28).1 $$ Hh0; icases T with ⟨Hh0, Ht28⟩
    ihave T := (hbTok c fh0 29).1 $$ Hh0; icases T with ⟨Hh0, Ht29⟩
    ihave T := (hbTok c fh0 30).1 $$ Hh0; icases T with ⟨Hh0, Ht30⟩
    ihave T := (hbTok c fh0 31).1 $$ Hh0; icases T with ⟨Hh0, Ht31⟩
    ihave T := (hbTok c fh0 32).1 $$ Hh0; icases T with ⟨Hh0, Ht32⟩
    ihave T := (hbTok c fh0 33).1 $$ Hh0; icases T with ⟨Hh0, Ht33⟩
    ihave T := (rows_split c arg5 fs0).1 $$ HS0; icases T with ⟨HS0, HS1⟩
    sl_exec (disch := first | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32)
    ihave HS0 := (rows_join c arg5 _ _) $$ [HS0 HS1]
    · isplitl [HS0]
      · iexact HS0
      · iexact HS1
    ihave HS0 := (scratch_canon c arg5 harg5 fs0 (kernelRun0_A.sl.dma1 c i xt0 fh0 k0_hw1) (kernelRun0_A.sl.dma2 c i xt0 fh0 k0_hw2) (kernelRun0_A.sl.dma3 c i xt0 fh0 k0_hw3) (kernelRun0_A.sl.dma4 c i xt0 fh0 k0_hw4) (kernelRun0_A.sl.dma5 c i xt0 fh0 k0_hw5) (kernelRun0_A.sl.dma6 c i xt0 fh0 k0_hw6) (kernelRun0_A.sl.dma7 c i xt0 fh0 k0_hw7) (kernelRun0_A.sl.dma8 c i xt0 fh0 k0_hw8) (kernelRun0_A.sl.dma9 c i xt0 fh0 k0_hw9) (kernelRun0_A.sl.dma10 c i xt0 fh0 k0_hw10) (kernelRun0_A.sl.dma11 c i xt0 fh0 k0_hw11) (kernelRun0_A.sl.dma12 c i xt0 fh0 k0_hw12) (kernelRun0_A.sl.dma13 c i xt0 fh0 k0_hw13) (kernelRun0_A.sl.dma14 c i xt0 fh0 k0_hw14) (kernelRun0_A.sl.dma15 c i xt0 fh0 k0_hw15) (kernelRun0_A.sl.dma16 c i xt0 fh0 k0_hw16) (kernelRun0_A.sl.dma17 c i xt0 fh0 k0_hw17) (kernelRun0_A.sl.dma18 c i xt0 fh0 k0_hw18) (kernelRun0_A.sl.dma19 c i xt0 fh0 k0_hw19) (kernelRun0_A.sl.dma20 c i xt0 fh0 k0_hw20) (kernelRun0_A.sl.dma21 c i xt0 fh0 k0_hw21) (kernelRun0_A.sl.dma22 c i xt0 fh0 k0_hw22) (kernelRun0_A.sl.dma23 c i xt0 fh0 k0_hw23) (kernelRun0_A.sl.dma24 c i xt0 fh0 k0_hw24) (kernelRun0_A.sl.dma25 c i xt0 fh0 k0_hw25) (kernelRun0_A.sl.dma26 c i xt0 fh0 k0_hw26) (kernelRun0_A.sl.dma27 c i xt0 fh0 k0_hw27) (kernelRun0_A.sl.dma28 c i xt0 fh0 k0_hw28) (kernelRun0_A.sl.dma29 c i xt0 fh0 k0_hw29) (kernelRun0_A.sl.dma30 c i xt0 fh0 k0_hw30) (kernelRun0_A.sl.dma31 c i xt0 fh0 k0_hw31) (kernelRun0_A.sl.dma32 c i xt0 fh0 k0_hw32)) $$ HS0
    sl_exec (disch := first | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32)
    ihave Hh0 := (hbTok c fh0 33).2 $$ [Hh0 Ht33]
    · isplitl [Hh0]
      · iexact Hh0
      · iexact Ht33
    ihave Hh0 := (hbTok c fh0 32).2 $$ [Hh0 Ht32]
    · isplitl [Hh0]
      · iexact Hh0
      · iexact Ht32
    ihave Hh0 := (hbTok c fh0 31).2 $$ [Hh0 Ht31]
    · isplitl [Hh0]
      · iexact Hh0
      · iexact Ht31
    ihave Hh0 := (hbTok c fh0 30).2 $$ [Hh0 Ht30]
    · isplitl [Hh0]
      · iexact Hh0
      · iexact Ht30
    ihave Hh0 := (hbTok c fh0 29).2 $$ [Hh0 Ht29]
    · isplitl [Hh0]
      · iexact Hh0
      · iexact Ht29
    ihave Hh0 := (hbTok c fh0 28).2 $$ [Hh0 Ht28]
    · isplitl [Hh0]
      · iexact Hh0
      · iexact Ht28
    ihave Hh0 := (hbTok c fh0 27).2 $$ [Hh0 Ht27]
    · isplitl [Hh0]
      · iexact Hh0
      · iexact Ht27
    ihave Hh0 := (hbTok c fh0 26).2 $$ [Hh0 Ht26]
    · isplitl [Hh0]
      · iexact Hh0
      · iexact Ht26
    ihave Hh0 := (hbTok c fh0 25).2 $$ [Hh0 Ht25]
    · isplitl [Hh0]
      · iexact Hh0
      · iexact Ht25
    ihave Hh0 := (hbTok c fh0 24).2 $$ [Hh0 Ht24]
    · isplitl [Hh0]
      · iexact Hh0
      · iexact Ht24
    ihave Hh0 := (hbTok c fh0 23).2 $$ [Hh0 Ht23]
    · isplitl [Hh0]
      · iexact Hh0
      · iexact Ht23
    ihave Hh0 := (hbTok c fh0 22).2 $$ [Hh0 Ht22]
    · isplitl [Hh0]
      · iexact Hh0
      · iexact Ht22
    ihave Hh0 := (hbTok c fh0 21).2 $$ [Hh0 Ht21]
    · isplitl [Hh0]
      · iexact Hh0
      · iexact Ht21
    ihave Hh0 := (hbTok c fh0 20).2 $$ [Hh0 Ht20]
    · isplitl [Hh0]
      · iexact Hh0
      · iexact Ht20
    ihave Hh0 := (hbTok c fh0 19).2 $$ [Hh0 Ht19]
    · isplitl [Hh0]
      · iexact Hh0
      · iexact Ht19
    ihave Hh0 := (hbTok c fh0 18).2 $$ [Hh0 Ht18]
    · isplitl [Hh0]
      · iexact Hh0
      · iexact Ht18
    ihave Hh0 := (hbTok c fh0 17).2 $$ [Hh0 Ht17]
    · isplitl [Hh0]
      · iexact Hh0
      · iexact Ht17
    ihave Hh0 := (hbTok c fh0 16).2 $$ [Hh0 Ht16]
    · isplitl [Hh0]
      · iexact Hh0
      · iexact Ht16
    ihave Hh0 := (hbTok c fh0 15).2 $$ [Hh0 Ht15]
    · isplitl [Hh0]
      · iexact Hh0
      · iexact Ht15
    ihave Hh0 := (hbTok c fh0 14).2 $$ [Hh0 Ht14]
    · isplitl [Hh0]
      · iexact Hh0
      · iexact Ht14
    ihave Hh0 := (hbTok c fh0 13).2 $$ [Hh0 Ht13]
    · isplitl [Hh0]
      · iexact Hh0
      · iexact Ht13
    ihave Hh0 := (hbTok c fh0 12).2 $$ [Hh0 Ht12]
    · isplitl [Hh0]
      · iexact Hh0
      · iexact Ht12
    ihave Hh0 := (hbTok c fh0 11).2 $$ [Hh0 Ht11]
    · isplitl [Hh0]
      · iexact Hh0
      · iexact Ht11
    ihave Hh0 := (hbTok c fh0 10).2 $$ [Hh0 Ht10]
    · isplitl [Hh0]
      · iexact Hh0
      · iexact Ht10
    ihave Hh0 := (hbTok c fh0 9).2 $$ [Hh0 Ht9]
    · isplitl [Hh0]
      · iexact Hh0
      · iexact Ht9
    ihave Hh0 := (hbTok c fh0 8).2 $$ [Hh0 Ht8]
    · isplitl [Hh0]
      · iexact Hh0
      · iexact Ht8
    ihave Hh0 := (hbTok c fh0 7).2 $$ [Hh0 Ht7]
    · isplitl [Hh0]
      · iexact Hh0
      · iexact Ht7
    ihave Hh0 := (hbTok c fh0 6).2 $$ [Hh0 Ht6]
    · isplitl [Hh0]
      · iexact Hh0
      · iexact Ht6
    ihave Hh0 := (hbTok c fh0 5).2 $$ [Hh0 Ht5]
    · isplitl [Hh0]
      · iexact Hh0
      · iexact Ht5
    ihave Hh0 := (hbTok c fh0 4).2 $$ [Hh0 Ht4]
    · isplitl [Hh0]
      · iexact Hh0
      · iexact Ht4
    ihave Hh0 := (hbTok c fh0 3).2 $$ [Hh0 Ht3]
    · isplitl [Hh0]
      · iexact Hh0
      · iexact Ht3
    ihave Hh0 := (hbTok c fh0 2).2 $$ [Hh0 Ht2]
    · isplitl [Hh0]
      · iexact Hh0
      · iexact Ht2
    ihave Hh0 := (hbTok c fh0 1).2 $$ [Hh0 Ht1]
    · isplitl [Hh0]
      · iexact Hh0
      · iexact Ht1
    ihave Hh0 := (hbTok0 c fh0).2 $$ [Hh0 Ht0]
    · isplitl [Hh0]
      · iexact Hh0
      · iexact Ht0
    sl_step
    iapply Hk
    isplitl [H0]; · iexists _; iexact H0
    isplitl [HS0]
    · iexists _, _; isplitr; swap; · iexact HS0
      ipureintro; rfl
    isplitl [HT0]; · iexact HT0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hh0]; · iexact Hh0
    iexists _; iexact HW

end Cert.KernelIdeal.GenP

end
-- ==== Proof.IdxSpec.lean ====
/-
  The index table both programs compute from the mask, as ONE function of the mask, read at the instance `F`
  (the comparison of the mask with one half is the only float operation in it; everything after is integer).

  For each batch row `b`: the positions where `mask > 1/2` are listed first, in ascending order, by a stable
  sort of the keys `0` (positive) / `1` (not) carrying the positions `0 … N − 1`; `count` is the number of
  positives; entry `p` of the table is the sorted position at `p mod max count 1` when `count > 0`, and `0`
  when the row has no positive. Every entry is therefore a position of the row: a number below `N = 262144`
  (`idxOf_lt`, in the module that proves it).
-/
import Idealize.ShloMosaic.PureOps

noncomputable section

namespace Cert.Spec

open Idealize.ShloMosaic

/-! ## Shapes -/

abbrev SBxNxC : Shape := ⟨3, ![32, 262144, 16]⟩
abbrev SBxN : Shape := ⟨2, ![32, 262144]⟩
abbrev S0 : Shape := ⟨0, ![]⟩
abbrev SB : Shape := ⟨1, ![32]⟩
abbrev SP : Shape := ⟨1, ![2048]⟩
abbrev S1xP : Shape := ⟨2, ![1, 2048]⟩
abbrev SBx1 : Shape := ⟨2, ![32, 1]⟩
abbrev SBxP : Shape := ⟨2, ![32, 2048]⟩
abbrev SBxPx1 : Shape := ⟨3, ![32, 2048, 1]⟩
abbrev S1 : Shape := ⟨1, ![1]⟩
abbrev S1x1x1 : Shape := ⟨3, ![1, 1, 1]⟩
abbrev SBxPxC : Shape := ⟨3, ![32, 2048, 16]⟩

/-- The sort's comparator: the first components compared, signed. -/
def keyBefore : BitVec 32 × BitVec 32 → BitVec 32 × BitVec 32 → BitVec 1 :=
  fun l r =>
    let v2 := IntOp.cmpi .slt l.1 r.1
    v2

/-- The row lookup's dimension numbers: operand `[B, N]`, start indices `[B, P, 1]`, result `[B, P]`, batched along axis 0. -/
def rowTake : GatherDims SBxN SBxPx1 SBxP where
  offsetDims := []
  collapsedSliceDims := [1]
  operandBatchingDims := [0]
  startIndicesBatchingDims := [0]
  startIndexMap := [1]
  indexVectorDim := 2
  sliceSizes := ![1, 1]
  wf := by decide

variable {F : FTy → Type} [FloatOps F]

/-! ## The chain, value by value -/

/-- Where the mask exceeds one half. -/
def pos (mask : (⟨SBxN, .f32⟩ : BufTy).Contents (Elt F)) : (⟨SBxN, .i1⟩ : BufTy).Contents (Elt F) :=
  cmpf .ogt mask (broadcastInDim SBxN ![] (by decide) (constant S0 .f32 0x3F000000#32))

/-- The sort keys: `0` at a positive, `1` elsewhere. -/
def key (mask : (⟨SBxN, .f32⟩ : BufTy).Contents (Elt F)) : (⟨SBxN, .i32⟩ : BufTy).Contents (Elt F) :=
  select (pos mask) (broadcastInDim SBxN ![] (by decide) (constantI S0 32 0#32)) (broadcastInDim SBxN ![] (by decide) (constantI S0 32 1#32))

/-- Each row's positions, the positives first, each group in ascending order. -/
def order (mask : (⟨SBxN, .f32⟩ : BufTy).Contents (Elt F)) : (⟨SBxN, .i32⟩ : BufTy).Contents (Elt F) :=
  (Host.sort2 SBxN 1 keyBefore (key mask) (iotaInDim SBxN 32 1)).2

/-- Each row's number of positives. -/
def count (mask : (⟨SBxN, .f32⟩ : BufTy).Contents (Elt F)) : (⟨SB, .i32⟩ : BufTy).Contents (Elt F) :=
  Host.reduce IntOp.addi (extui 32 (pos mask) (by decide)) (constantI S0 32 0#32) (by decide : SBxN.ReducesTo [1] SB) (by decide)

/-- `max count 1`, as a column. -/
def safe (mask : (⟨SBxN, .f32⟩ : BufTy).Contents (Elt F)) : (⟨SBx1, .i32⟩ : BufTy).Contents (Elt F) :=
  broadcastInDim SBx1 ![0] (by decide) (maxsi (count mask) (broadcastInDim SB ![] (by decide) (constantI S0 32 1#32)))

/-- `0 … P − 1`, as a row. -/
def js : (⟨S1xP, .i32⟩ : BufTy).Contents (Elt F) :=
  broadcastInDim S1xP ![1] (by decide) (iotaInDim SP 32 0)

/-- The divisor of the remainder: the column, with a zero replaced by one. -/
def divisor (mask : (⟨SBxN, .f32⟩ : BufTy).Contents (Elt F)) : (⟨SBx1, .i32⟩ : BufTy).Contents (Elt F) :=
  select (cmpi .eq (safe mask) (broadcastInDim SBx1 ![] (by decide) (constantI S0 32 0#32)))
    (broadcastInDim SBx1 ![] (by decide) (constantI S0 32 1#32)) (safe mask)

/-- The truncated remainder `p rem divisor`. -/
def rem (mask : (⟨SBxN, .f32⟩ : BufTy).Contents (Elt F)) : (⟨SBxP, .i32⟩ : BufTy).Contents (Elt F) :=
  Host.remsi (broadcastInDim SBxP ![0, 1] (by decide) (js (F := F))) (broadcastInDim SBxP ![0, 1] (by decide) (divisor mask))

/-- The floored remainder `p mod max count 1`: the truncated remainder, moved by the divisor where the two differ in sign and it is not zero. -/
def col (mask : (⟨SBxN, .f32⟩ : BufTy).Contents (Elt F)) : (⟨SBxP, .i32⟩ : BufTy).Contents (Elt F) :=
  select
    (andi
      (cmpi .ne (cmpi .slt (rem mask) (broadcastInDim SBxP ![] (by decide) (constantI S0 32 0#32)))
        (broadcastInDim SBxP ![0, 1] (by decide) (cmpi .slt (divisor mask) (broadcastInDim SBx1 ![] (by decide) (constantI S0 32 0#32)))))
      (cmpi .ne (rem mask) (broadcastInDim SBxP ![] (by decide) (constantI S0 32 0#32))))
    (addi (rem mask) (broadcastInDim SBxP ![0, 1] (by decide) (divisor mask)))
    (rem mask)

/-- The column index as the lookup takes it: a negative one wrapped by `N`, then with a unit axis. -/
def colIx (mask : (⟨SBxN, .f32⟩ : BufTy).Contents (Elt F)) : (⟨SBxPx1, .i32⟩ : BufTy).Contents (Elt F) :=
  fun i => shapeCast SBxPx1
    (select (cmpi .slt (col mask) (broadcastInDim SBxP ![] (by decide) (constantI S0 32 0#32)))
      (addi (col mask) (broadcastInDim SBxP ![] (by decide) (constantI S0 32 262144#32))) (col mask))
    (by decide) i

/-- Whether the column index lies in `[0, N − 1]`. -/
def colOk (mask : (⟨SBxN, .f32⟩ : BufTy).Contents (Elt F)) : (⟨SBxP, .i1⟩ : BufTy).Contents (Elt F) :=
  Host.reduce IntOp.andi
    (andi (cmpi .sge (colIx mask) (broadcastInDim SBxPx1 ![] (by decide) (constantI S0 32 0#32)))
      (cmpi .sle (colIx mask)
        (broadcastInDim SBxPx1 ![0, 1, 2] (by decide) (broadcastInDim S1x1x1 ![2] (by decide) (constantI S1 32 262143#32)))))
    (constantI S0 1 1#1) (by decide : SBxPx1.ReducesTo [2] SBxP) (by decide)

/-- The sorted positions looked up at the column index (the fill value where it is out of range). -/
def taken (mask : (⟨SBxN, .f32⟩ : BufTy).Contents (Elt F)) : (⟨SBxP, .i32⟩ : BufTy).Contents (Elt F) :=
  select (colOk mask) (Host.gather rowTake (order mask) (colIx mask))
    (broadcastInDim SBxP ![] (by decide) (constantI S0 32 2147483648#32))

/-- THE INDEX TABLE: the looked-up position where the row has a positive, `0` where it has none. -/
def idxOf (mask : (⟨SBxN, .f32⟩ : BufTy).Contents (Elt F)) : (⟨SBxP, .i32⟩ : BufTy).Contents (Elt F) :=
  select
    (broadcastInDim SBxP ![0, 1] (by decide)
      (cmpi .sgt (broadcastInDim SBx1 ![0] (by decide) (count mask)) (broadcastInDim SBx1 ![] (by decide) (constantI S0 32 0#32))))
    (taken mask)
    (broadcastInDim SBxP ![] (by decide) (id (constantI S0 32 0#32)))

end Cert.Spec

end
-- ==== Proof.KernelIdx.lean ====
/-
  The index table the region finds in its prefetched buffer is the specification's: the host operations before the
  region, taken one function body at a time over an arbitrary valuation of the buffers, compute the named values of
  the specification (positives, sort keys, sorted positions, counts, the column index, the looked-up positions, the
  table) from the mask argument.
-/
import proofs.«139401_j62989990363749_1_alg».proof.Proof.Gen.Kernel.Frame.Runs
import proofs.«139401_j62989990363749_1_alg».proof.Proof.IdxSpec
import Idealize.ShloMosaic.Lib.StableHlo.Run

set_option maxRecDepth 16384

noncomputable section

namespace Cert.Kernel.IdxBridge

open Idealize.ShloMosaic Idealize.ShloMosaic.TcCoe Idealize.SL.Sem Idealize.ShloMosaic.StableHlo
open Cert.Kernel Cert.Kernel.Gen

variable {F : FTy → Type} [FloatOps F]
variable (W : Valuation τ sig (Elt F)) (mask : (⟨Cert.Spec.SBxN, .f32⟩ : BufTy).Contents (Elt F))

/-! ## A typed reference's transports are the identity

A value moved to a reference's own contents type and back is itself, for any typed reference; at a literal reference each
transport by itself is the identity too (the reference's type is the value's by computation). -/

omit [FloatOps F] in
theorem ofBuf_toBuf {T : BufTy} (x : TRef sig T) (v : T.Contents (Elt F)) : x.ofBuf (x.toBuf v) = v := by
  obtain ⟨r, h, _, _⟩ := x; subst h; rfl

omit [FloatOps F] in
theorem of_v9 (v : (⟨S1x2048, .i32⟩ : BufTy).Contents (Elt F)) : (TRef.of main_v9 : TRef sig ⟨S1x2048, .i32⟩).ofBuf v = v := rfl
omit [FloatOps F] in
theorem of_v10 (v : (⟨S32x1, .i32⟩ : BufTy).Contents (Elt F)) : (TRef.of main_v10 : TRef sig ⟨S32x1, .i32⟩).ofBuf v = v := rfl
omit [FloatOps F] in
theorem to_v11 (v : (⟨S32x2048, .i32⟩ : BufTy).Contents (Elt F)) : (TRef.of main_v11 : TRef sig ⟨S32x2048, .i32⟩).toBuf v = v := rfl
omit [FloatOps F] in
theorem of_v11 (v : (⟨S32x2048, .i32⟩ : BufTy).Contents (Elt F)) : (TRef.of main_v11 : TRef sig ⟨S32x2048, .i32⟩).ofBuf v = v := rfl
omit [FloatOps F] in
theorem of_v3 (v : (⟨S32x262144, .i32⟩ : BufTy).Contents (Elt F)) : (TRef.of main_v3 : TRef sig ⟨S32x262144, .i32⟩).ofBuf v = v := rfl
omit [FloatOps F] in
theorem to_v12 (v : (⟨S32x2048, .i32⟩ : BufTy).Contents (Elt F)) : (TRef.of main_v12 : TRef sig ⟨S32x2048, .i32⟩).toBuf v = v := rfl
omit [FloatOps F] in
theorem of_v12 (v : (⟨S32x2048, .i32⟩ : BufTy).Contents (Elt F)) : (TRef.of main_v12 : TRef sig ⟨S32x2048, .i32⟩).ofBuf v = v := rfl
omit [FloatOps F] in
theorem of_c3v5 (v : (⟨S32x2048x1, .i32⟩ : BufTy).Contents (Elt F)) : (TRef.of main_call3_v5 : TRef sig ⟨S32x2048x1, .i32⟩).ofBuf v = v := rfl
omit [FloatOps F] in
theorem to_c3v4 (v : (⟨S32x2048, .i32⟩ : BufTy).Contents (Elt F)) : (TRef.of main_call3_v4 : TRef sig ⟨S32x2048, .i32⟩).toBuf v = v := rfl
omit [FloatOps F] in
theorem of_v15 (v : (⟨S32x1, .i1⟩ : BufTy).Contents (Elt F)) : (TRef.of main_v15 : TRef sig ⟨S32x1, .i1⟩).ofBuf v = v := rfl
omit [FloatOps F] in
theorem of_c_4 (v : (⟨S_, .i32⟩ : BufTy).Contents (Elt F)) : (TRef.of main_c_4 : TRef sig ⟨S_, .i32⟩).ofBuf v = v := rfl
omit [FloatOps F] in
theorem to_v16 (v : (⟨S32x2048, .i32⟩ : BufTy).Contents (Elt F)) : (TRef.of main_v16 : TRef sig ⟨S32x2048, .i32⟩).toBuf v = v := rfl

/-! ## @main's first lines: the positives and the two constants -/

theorem s0_v1 (h : W (Proc.devRef .tc main_arg1) = mask) :
    after (hostOps0 (F := F)) W (Proc.devRef .tc main_v1) = Cert.Spec.pos mask := by
  after_results_simp; rw [h]; rfl
theorem s0_c : after (hostOps0 (F := F)) W (Proc.devRef .tc main_c) = constantI S_ 32 0#32 := by
  after_results_simp
theorem s0_c_0 : after (hostOps0 (F := F)) W (Proc.devRef .tc main_c_0) = constantI S_ 32 1#32 := by
  after_results_simp

/-! ## The keys -/

theorem s1_v2 (h1 : W (Proc.devRef .tc main_v1) = Cert.Spec.pos mask) (hc : W (Proc.devRef .tc main_c) = constantI S_ 32 0#32)
    (hc0 : W (Proc.devRef .tc main_c_0) = constantI S_ 32 1#32) :
    after (hostOps0_1 (F := F)) W (Proc.devRef .tc main_v2) = Cert.Spec.key mask := by
  after_results_simp; rw [h1, hc, hc0]; rfl
theorem s1_v1 : after (hostOps0_1 (F := F)) W (Proc.devRef .tc main_v1) = W (Proc.devRef .tc main_v1) := by
  after_results_simp

/-! ## The sorted positions -/

theorem s2_v3 (h2 : W (Proc.devRef .tc main_v2) = Cert.Spec.key mask) :
    after (hostOps0_2 (F := F)) W (Proc.devRef .tc main_v3) = Cert.Spec.order mask := by
  after_results_simp; rw [h2]; rfl
theorem s2_v1 : after (hostOps0_2 (F := F)) W (Proc.devRef .tc main_v1) = W (Proc.devRef .tc main_v1) := by
  after_results_simp

/-! ## The counts, the column of `max count 1`, the row `0 … P − 1` -/

theorem s3_v5 (h1 : W (Proc.devRef .tc main_v1) = Cert.Spec.pos mask) :
    after (hostOps0_3 (F := F)) W (Proc.devRef .tc main_v5) = Cert.Spec.count mask := by
  after_results_simp; rw [h1]; rfl
theorem s3_v10 (h1 : W (Proc.devRef .tc main_v1) = Cert.Spec.pos mask) :
    after (hostOps0_3 (F := F)) W (Proc.devRef .tc main_v10) = Cert.Spec.safe mask := by
  after_results_simp; rw [h1]; rfl
theorem s3_v9 : after (hostOps0_3 (F := F)) W (Proc.devRef .tc main_v9) = Cert.Spec.js (F := F) := by
  after_results_simp; rfl
theorem s3_v3 : after (hostOps0_3 (F := F)) W (Proc.devRef .tc main_v3) = W (Proc.devRef .tc main_v3) := by
  after_results_simp

/-! ## The remainder -/

theorem s4_v11 (h9 : W (Proc.devRef .tc main_v9) = Cert.Spec.js (F := F)) (h10 : W (Proc.devRef .tc main_v10) = Cert.Spec.safe mask) :
    after (hostOps0_4 (F := F)) W (Proc.devRef .tc main_v11) = Cert.Spec.col mask := by
  after_results_simp; rw [h9, h10]
  simp only [ofBuf_toBuf, of_v9, of_v10, to_v11]
  rfl
theorem s4_v3 : after (hostOps0_4 (F := F)) W (Proc.devRef .tc main_v3) = W (Proc.devRef .tc main_v3) := by
  after_results_simp
theorem s4_v5 : after (hostOps0_4 (F := F)) W (Proc.devRef .tc main_v5) = W (Proc.devRef .tc main_v5) := by
  after_results_simp

/-! ## The lookup -/

theorem s5_v12 (h3 : W (Proc.devRef .tc main_v3) = Cert.Spec.order mask) (h11 : W (Proc.devRef .tc main_v11) = Cert.Spec.col mask) :
    after (hostOps0_5 (F := F)) W (Proc.devRef .tc main_v12) = Cert.Spec.taken mask := by
  after_results_simp; rw [h3, h11]
  simp only [ofBuf_toBuf, of_v11, of_v3, to_v12, of_c3v5, to_c3v4]
  rfl
theorem s5_v5 : after (hostOps0_5 (F := F)) W (Proc.devRef .tc main_v5) = W (Proc.devRef .tc main_v5) := by
  after_results_simp

/-! ## The table -/

theorem s67_v16 (h5 : W (Proc.devRef .tc main_v5) = Cert.Spec.count mask) (h12 : W (Proc.devRef .tc main_v12) = Cert.Spec.taken mask) :
    after (hostOps0_7 (F := F)) (after (hostOps0_6 (F := F)) W) (Proc.devRef .tc main_v16) = Cert.Spec.idxOf mask := by
  after_results_simp; rw [h5, h12]
  simp only [ofBuf_toBuf, of_v15, of_v12, of_c_4, to_v16]
  rfl

/-! ## The stretches in order -/

omit [FloatOps F] in
/-- The fold over two lines of operations one after the other is the second's fold at the first's. -/
theorem after_append (l₁ l₂ : List (HloOp τ sig (Elt F))) (V₀ : Valuation τ sig (Elt F)) :
    after (l₁ ++ l₂) V₀ = after l₂ (after l₁ V₀) := by
  induction l₁ generalizing V₀ with
  | nil => rfl
  | cons op l ih => simp only [List.cons_append, after_cons, ih]

/-- The region-entry contents are the eight function bodies' folds, one inside the next. -/
theorem V_eq (m : (ℓ : Loc nD τ sig) → Buf (Elt F) ℓ) (c : Dev nD) :
    (fun b => V m c b) = fun b => after (hostOps0_7 (F := F)) (after (hostOps0_6 (F := F)) (after (hostOps0_5 (F := F)) (after (hostOps0_4 (F := F))
      (after (hostOps0_3 (F := F)) (after (hostOps0_2 (F := F)) (after (hostOps0_1 (F := F)) (after (hostOps0 (F := F)) (fun b => m (c, b)))))))))
      (Proc.devRef .tc b) := by
  funext b
  show after (List.flatten [hostOps0, hostOps0_1, hostOps0_2, hostOps0_3, hostOps0_4, hostOps0_5, hostOps0_6, hostOps0_7]) (fun b => m (c, b)) (Proc.devRef .tc b) = _
  simp only [List.flatten_cons, List.flatten_nil, List.append_nil, after_append]

/-- THE TABLE THE REGION FINDS is the specification's table of the mask argument. -/
theorem V_idx (m : (ℓ : Loc nD τ sig) → Buf (Elt F) ℓ) (c : Dev nD) :
    V m c main_v16 = Cert.Spec.idxOf (F := F) (m ((c : Thread nD τ).loc main_arg1)) := by
  have e := congrFun (V_eq m c) main_v16
  refine e.trans ?_
  generalize hm : m ((c : Thread nD τ).loc main_arg1) = mask
  have a1 : after (hostOps0 (F := F)) (fun b => m (c, b)) (Proc.devRef .tc main_v1) = Cert.Spec.pos mask := s0_v1 _ mask hm
  have ac := s0_c (F := F) (fun b => m (c, b))
  have ac0 := s0_c_0 (F := F) (fun b => m (c, b))
  generalize after (hostOps0 (F := F)) (fun b => m (c, b)) = W1 at a1 ac ac0 ⊢
  have b2 := s1_v2 W1 mask a1 ac ac0
  have b1 := (s1_v1 W1).trans a1
  generalize after (hostOps0_1 (F := F)) W1 = W2 at b2 b1 ⊢
  have c3 := s2_v3 W2 mask b2
  have c1 := (s2_v1 W2).trans b1
  generalize after (hostOps0_2 (F := F)) W2 = W3 at c3 c1 ⊢
  have d5 := s3_v5 W3 mask c1
  have d10 := s3_v10 W3 mask c1
  have d9 := s3_v9 (F := F) W3
  have d3 := (s3_v3 W3).trans c3
  generalize after (hostOps0_3 (F := F)) W3 = W4 at d5 d10 d9 d3 ⊢
  have e11 := s4_v11 W4 mask d9 d10
  have e3 := (s4_v3 W4).trans d3
  have e5 := (s4_v5 W4).trans d5
  generalize after (hostOps0_4 (F := F)) W4 = W5 at e11 e3 e5 ⊢
  have f12 := s5_v12 W5 mask e3 e11
  have f5 := (s5_v5 W5).trans e5
  generalize after (hostOps0_5 (F := F)) W5 = W6 at f12 f5 ⊢
  exact s67_v16 W6 mask f5 f12

end Cert.Kernel.IdxBridge

end
-- ==== Proof.IdxRangeA.lean ====
/-
  Every entry of the index table is a row number: read as an unsigned 32-bit number it is below `N = 262144`.

  The table's entry at `(b, p)` is `0` when row `b` of the mask has no positive, and otherwise the sorted position
  at column `p mod max count 1`. Three facts give the bound, and none of them needs the value of `count`:

  * `max count 1 ≥ 1` (signed), so the divisor of the remainder is positive; the dividend `p` lies in `[0, 2047]`;
    the truncated remainder of a nonnegative number by a positive one lies between `0` and the dividend. So the
    remainder is nonnegative, the sign fix-up that turns a truncated remainder into a floored one does not fire, the
    column is the remainder itself, it is
    not wrapped by `N`, and it lies in `[0, 2047] ⊆ [0, N − 1]`: the lookup's range check passes everywhere and the
    fill value is never taken.
  * A lookup's result is the operand at SOME index (whichever index the dimension numbers compute).
  * A sort that carries a second operand returns, at every index, the carried operand at SOME index of the same
    shape; the carried operand is the position `0 … N − 1` along the row, so every entry of the sorted positions is
    below `N`. No property of the sorting permutation is used, and it is never computed.
-/
import Idealize.ShloMosaic.Lib.ValueIdx
import proofs.«139401_j62989990363749_1_alg».proof.Proof.IdxSpec

namespace Cert.Spec

open Idealize.ShloMosaic Idealize.ShloMosaic.ValueIdx

/-! ## Words: signed readings of 32-bit words -/

theorem toInt_zero32 : (0#32 : BitVec 32).toInt = 0 := by decide
theorem toInt_one32 : (1#32 : BitVec 32).toInt = 1 := by decide

/-- A small natural number, as a word, reads as itself. -/
theorem toInt_ofNat_small (n : Nat) (h : n < 2 ^ 31) : (BitVec.ofNat 32 n).toInt = n := by
  rw [BitVec.toInt_ofNat']
  exact Int.bmod_eq_of_le (by omega) (by omega)

/-- The signed maximum with `1` is at least `1`. -/
theorem one_le_maxsi_one (c : BitVec 32) : 1 ≤ (IntOp.maxsi c 1#32).toInt := by
  unfold IntOp.maxsi
  by_cases hs : (1#32 : BitVec 32).slt c
  · rw [if_pos hs]; rw [BitVec.slt_iff_toInt_lt, toInt_one32] at hs; omega
  · rw [if_neg hs, toInt_one32]

/-- A selection between `1` and a word that is at least `1` is at least `1`, whatever the condition. -/
theorem one_le_select_one (e : BitVec 1) (s : BitVec 32) (hs : 1 ≤ s.toInt) :
    1 ≤ (Scalar.select e 1#32 s).toInt := by
  unfold Scalar.select
  split
  · rw [toInt_one32]
  · exact hs

/-- The truncated remainder of a dividend in `[0, 2047]` by a positive divisor lies in `[0, 2047]`: no division
    corner arises, the remainder of a nonnegative number is nonnegative, and it is the dividend itself or below the
    divisor, which is then at most the dividend. -/
theorem remsi_host_range (x d : BitVec 32) (hx0 : 0 ≤ x.toInt) (hx : x.toInt ≤ 2047) (hd : 1 ≤ d.toInt) :
    0 ≤ (IntOp.remsi .host x d).toInt ∧ (IntOp.remsi .host x d).toInt ≤ 2047 := by
  have hnc : ¬IntOp.SDivCorner x d := by
    rintro (h0 | ⟨-, h1⟩)
    · subst h0
      have : (0 : BitVec 32).toInt = 0 := by decide
      omega
    · subst h1
      have : (-1 : BitVec 32).toInt = -1 := by decide
      omega
  rw [IntOp.remsi, if_neg hnc, BitVec.toInt_srem]
  constructor
  · exact Int.tmod_nonneg _ hx0
  · by_cases h : x.toInt < d.toInt
    · rw [Int.tmod_eq_of_lt hx0 h]; exact hx
    · have := Int.tmod_lt_of_pos x.toInt (b := d.toInt) (by omega)
      omega

/-- "Is negative" of a nonnegative word is the bit `0`. -/
theorem cmpi_slt_zero (r : BitVec 32) (h : 0 ≤ r.toInt) : IntOp.cmpi .slt r 0#32 = 0#1 := by
  have e : r.slt 0#32 = false := by
    rw [BitVec.slt_eq_decide, toInt_zero32]; exact decide_eq_false (by omega)
  show BitVec.ofBool (r.slt 0#32) = 0#1
  rw [e]; rfl

/-- The sign fix-up of the remainder (add the divisor where remainder and divisor differ in sign and the remainder is
    not zero) does not fire when the remainder is nonnegative and the divisor positive:
    the two "is negative" bits are both `0`, so they do not differ. -/
theorem col_word (r d₁ d₂ : BitVec 32) (hr : 0 ≤ r.toInt) (hd : 1 ≤ d₁.toInt) :
    Scalar.select
      (IntOp.andi (IntOp.cmpi .ne (IntOp.cmpi .slt r 0#32) (IntOp.cmpi .slt d₁ 0#32)) (IntOp.cmpi .ne r 0#32))
      (IntOp.addi r d₂) r = r := by
  rw [cmpi_slt_zero r hr, cmpi_slt_zero d₁ (by omega)]
  have e : IntOp.cmpi .ne (0#1 : BitVec 1) 0#1 = 0#1 := by decide
  rw [e]
  have z : ∀ y : BitVec 1, IntOp.andi 0#1 y = 0#1 := fun y => by unfold IntOp.andi; exact BitVec.zero_and
  rw [z, select_zero]

/-- A nonnegative column index is not wrapped by `N`. -/
theorem colIx_word (c : BitVec 32) (h0 : 0 ≤ c.toInt) :
    Scalar.select (IntOp.cmpi .slt c 0#32) (IntOp.addi c 262144#32) c = c := by
  rw [cmpi_slt_zero c h0, select_zero]

/-- A word in `[0, 2047]` passes the range check `0 ≤ · ≤ N − 1`. -/
theorem range_word (c : BitVec 32) (h0 : 0 ≤ c.toInt) (h1 : c.toInt ≤ 2047) :
    IntOp.andi (IntOp.cmpi .sge c 0#32) (IntOp.cmpi .sle c 262143#32) = 1#1 := by
  have hN : (262143#32 : BitVec 32).toInt = 262143 := by decide
  have a : (0#32 : BitVec 32).sle c = true := by rw [BitVec.sle_iff_toInt_le, toInt_zero32]; exact h0
  have b : c.sle 262143#32 = true := by rw [BitVec.sle_iff_toInt_le, hN]; omega
  show IntOp.andi (BitVec.ofBool ((0#32 : BitVec 32).sle c)) (BitVec.ofBool (c.sle 262143#32)) = 1#1
  rw [a, b]; decide

/-- A selection between two words below a bound is below it. -/
theorem select_toNat_lt (e : BitVec 1) (a b : BitVec 32) (n : Nat) (ha : a.toNat < n) (hb : b.toNat < n) :
    (Scalar.select e a b).toNat < n := by
  unfold Scalar.select
  split
  · exact ha
  · exact hb

/-! ## A reduction by `and` of an array of ones is one -/

/-- A left fold by `and` from `1` over ones is `1`. -/
theorem foldl_andi_one {ι : Type} (g : ι → BitVec 1) (hg : ∀ n, g n = 1#1) :
    ∀ l : List ι, l.foldl (fun r n => IntOp.andi r (g n)) 1#1 = 1#1
  | [] => rfl
  | a :: l => by
    have e : IntOp.andi (1#1 : BitVec 1) 1#1 = 1#1 := by decide
    rw [List.foldl_cons, hg a, e]
    exact foldl_andi_one g hg l

/-- A reduction by `and`, from an initial value of ones, of an array of ones is `1` at every index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_one (fun n => x (s.rowMajor.symm n)) (fun n => hx _) _

/-! ## A sort's carried operand, read at an index, is that operand at some index -/

theorem sort2_snd_mem {s : Shape} {d : Nat} {α β : Type} (cmp : α × β → α × β → BitVec 1) (x : s.Idx → α)
    (y : s.Idx → β) (k : s.Idx) : ∃ k' : s.Idx, (Host.sort2 s d cmp x y).2 k = y k' := by
  unfold Host.sort2
  split
  · exact ⟨_, rfl⟩
  · exact ⟨k, rfl⟩

end Cert.Spec
-- ==== Proof.IdxRange.lean ====
/-
  The index table's chain of values, bounded one value at a time (the word facts are in the module this one imports).
  Every statement is "at EVERY index the value satisfies …", so a broadcast, a reshape or a lookup — each of which reads
  its operand at some index — carries it along without any index arithmetic:

    max count 1 ≥ 1  ⟹  divisor ≥ 1;   0 ≤ p ≤ 2047;   hence 0 ≤ p rem divisor ≤ 2047;   the column is that remainder;
    the column index is the column, in [0, 2047];   the range check holds everywhere;   the looked-up value is a sorted
    position;   every sorted position is a position of the row, below N = 262144;   the table's entry is that or 0.
-/
import Idealize.ShloMosaic.Lib.ValueIdx
import proofs.«139401_j62989990363749_1_alg».proof.Proof.IdxSpec
import proofs.«139401_j62989990363749_1_alg».proof.Proof.IdxRangeA

namespace Cert.Spec

open Idealize.ShloMosaic Idealize.ShloMosaic.ValueIdx

variable {F : FTy → Type} [FloatOps F]

/-- `max count 1` is at least `1` everywhere. -/
theorem safe_pos (mask : (⟨SBxN, .f32⟩ : BufTy).Contents (Elt F)) (k : SBx1.Idx) : 1 ≤ (safe mask k).toInt := by
  unfold safe
  generalize count mask = cnt
  exact one_le_maxsi_one _

/-- The divisor (`max count 1`, a zero replaced by one) is at least `1` everywhere. -/
theorem divisor_pos (mask : (⟨SBxN, .f32⟩ : BufTy).Contents (Elt F)) (k : SBx1.Idx) : 1 ≤ (divisor mask k).toInt := by
  have hS := safe_pos mask
  unfold divisor
  generalize safe mask = S at hS ⊢
  exact one_le_select_one _ _ (hS k)

/-- The positions `0 … P − 1` along a row of length `P = 2048` lie in `[0, 2047]`. -/
theorem iota_range (k : SP.Idx) : 0 ≤ (iotaInDim SP 32 0 k).toInt ∧ (iotaInDim SP 32 0 k).toInt ≤ 2047 := by
  have h : (k 0).val < 2048 := (k 0).isLt
  unfold iotaInDim
  rw [toInt_ofNat_small _ (by omega)]
  omega

/-- The dividends `p` lie in `[0, 2047]`. -/
theorem js_range (k : S1xP.Idx) : 0 ≤ (js (F := F) k).toInt ∧ (js (F := F) k).toInt ≤ 2047 := by
  unfold js
  exact iota_range _

/-- The truncated remainder `p rem divisor` lies in `[0, 2047]` everywhere. -/
theorem rem_range (mask : (⟨SBxN, .f32⟩ : BufTy).Contents (Elt F)) (k : SBxP.Idx) :
    0 ≤ (rem mask k).toInt ∧ (rem mask k).toInt ≤ 2047 := by
  have hD := divisor_pos mask
  have hJ := js_range (F := F)
  unfold rem
  generalize divisor mask = D at hD ⊢
  generalize js (F := F) = J at hJ ⊢
  exact remsi_host_range _ _ (hJ _).1 (hJ _).2 (hD _)

/-- The column is the truncated remainder: the sign fix-up does not fire. -/
theorem col_eq_rem (mask : (⟨SBxN, .f32⟩ : BufTy).Contents (Elt F)) (k : SBxP.Idx) : col mask k = rem mask k := by
  have hR := rem_range mask
  have hD := divisor_pos mask
  unfold col
  generalize rem mask = R at hR ⊢
  generalize divisor mask = D at hD ⊢
  exact col_word (R k) (D _) (D _) (hR k).1 (hD _)

/-- The column lies in `[0, 2047]` everywhere. -/
theorem col_range (mask : (⟨SBxN, .f32⟩ : BufTy).Contents (Elt F)) (k : SBxP.Idx) :
    0 ≤ (col mask k).toInt ∧ (col mask k).toInt ≤ 2047 := by
  rw [col_eq_rem]; exact rem_range mask k

/-- A nonnegative word in range, after the wrap by `N` that only moves negative words, is in range. -/
theorem colIx_word_range (c : BitVec 32) (h0 : 0 ≤ c.toInt) (h1 : c.toInt ≤ 2047) :
    0 ≤ (Scalar.select (IntOp.cmpi .slt c 0#32) (IntOp.addi c 262144#32) c).toInt
      ∧ (Scalar.select (IntOp.cmpi .slt c 0#32) (IntOp.addi c 262144#32) c).toInt ≤ 2047 := by
  rw [colIx_word c h0]; exact ⟨h0, h1⟩

/-- The column index the lookup takes lies in `[0, 2047]` everywhere. -/
theorem colIx_range (mask : (⟨SBxN, .f32⟩ : BufTy).Contents (Elt F)) (i : SBxPx1.Idx) :
    0 ≤ (colIx mask i).toInt ∧ (colIx mask i).toInt ≤ 2047 := by
  have hC := col_range mask
  unfold colIx
  generalize col mask = C at hC ⊢
  exact colIx_word_range (C _) (hC _).1 (hC _).2

/-- The lookup's range check holds everywhere. -/
theorem colOk_one (mask : (⟨SBxN, .f32⟩ : BufTy).Contents (Elt F)) (j : SBxP.Idx) : colOk mask j = 1#1 := by
  have hX := colIx_range mask
  unfold colOk
  generalize colIx mask = X at hX ⊢
  exact reduce_andi_one _ _ _ _ (fun i => range_word (X i) (hX i).1 (hX i).2) (fun _ => rfl) j

/-- Every sorted position is a position of the row: below `N`. -/
theorem order_lt (mask : (⟨SBxN, .f32⟩ : BufTy).Contents (Elt F)) (k : SBxN.Idx) : (order mask k).toNat < 262144 := by
  unfold order
  generalize key mask = K
  obtain ⟨k', hk'⟩ := sort2_snd_mem (d := 1) keyBefore K (iotaInDim SBxN 32 1) k
  rw [hk']
  have h : (k' 1).val < 262144 := (k' 1).isLt
  unfold iotaInDim
  rw [BitVec.toNat_ofNat]
  omega

/-- The looked-up value is a sorted position (the range check holds, so the fill value is not taken), hence below `N`. -/
theorem taken_lt (mask : (⟨SBxN, .f32⟩ : BufTy).Contents (Elt F)) (j : SBxP.Idx) : (taken mask j).toNat < 262144 := by
  unfold taken
  rw [select_apply, colOk_one, select_one]
  unfold Host.gather
  exact order_lt mask _

/-- EVERY ENTRY OF THE INDEX TABLE IS A ROW NUMBER: it is a looked-up sorted position or `0`. -/
theorem idxOf_lt {F : FTy → Type} [FloatOps F] (mask : (⟨SBxN, .f32⟩ : BufTy).Contents (Elt F)) (j : SBxP.Idx) :
    (idxOf (F := F) mask j).toNat < 262144 := by
  have hT := taken_lt mask j
  unfold idxOf
  generalize taken mask = T at hT ⊢
  exact select_toNat_lt _ _ _ 262144 hT (show (0#32 : BitVec 32).toNat < 262144 by decide)

end Cert.Spec
-- ==== Proof.KernelHyps.lean ====
/-
  The side conditions the kernel body assumes of the words it loads from the prefetched index table hold of the table the
  region finds: each word addresses row `w` of a batch of the point cloud, which exists when `w < 262144`, and every entry
  of the table is a sorted position of a row of the mask or zero, hence below `262144`.
-/
import proofs.«139401_j62989990363749_1_alg».proof.Proof.Gen.Kernel.Frame.Runs
import proofs.«139401_j62989990363749_1_alg».proof.Proof.KernelIdx
import proofs.«139401_j62989990363749_1_alg».proof.Proof.IdxRange

set_option maxRecDepth 16384

noncomputable section

namespace Cert.Kernel.HypsProof

open Idealize.ShloMosaic Idealize.ShloMosaic.TcCoe Idealize.SL.Sem
open Cert.Kernel Cert.Kernel.Gen

variable {F : FTy → Type} [FloatOps F]

/-! ## A row number below the number of rows addresses a row -/

theorem chk1_of_lt (i : grid0.Coords) (w : BitVec 32) (h : w.toNat < 262144) : k0_chk1 i w := by
  have hi : (i 0).val < 32 := (i 0).isLt
  unfold k0_chk1 k0_off2 k0_off65
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk2_of_lt (i : grid0.Coords) (w : BitVec 32) (h : w.toNat < 262144) : k0_chk2 i w := by
  have hi : (i 0).val < 32 := (i 0).isLt
  unfold k0_chk2 k0_off4 k0_off66
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk3_of_lt (i : grid0.Coords) (w : BitVec 32) (h : w.toNat < 262144) : k0_chk3 i w := by
  have hi : (i 0).val < 32 := (i 0).isLt
  unfold k0_chk3 k0_off6 k0_off67
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk4_of_lt (i : grid0.Coords) (w : BitVec 32) (h : w.toNat < 262144) : k0_chk4 i w := by
  have hi : (i 0).val < 32 := (i 0).isLt
  unfold k0_chk4 k0_off8 k0_off68
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk5_of_lt (i : grid0.Coords) (w : BitVec 32) (h : w.toNat < 262144) : k0_chk5 i w := by
  have hi : (i 0).val < 32 := (i 0).isLt
  unfold k0_chk5 k0_off10 k0_off69
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk6_of_lt (i : grid0.Coords) (w : BitVec 32) (h : w.toNat < 262144) : k0_chk6 i w := by
  have hi : (i 0).val < 32 := (i 0).isLt
  unfold k0_chk6 k0_off12 k0_off70
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk7_of_lt (i : grid0.Coords) (w : BitVec 32) (h : w.toNat < 262144) : k0_chk7 i w := by
  have hi : (i 0).val < 32 := (i 0).isLt
  unfold k0_chk7 k0_off14 k0_off71
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk8_of_lt (i : grid0.Coords) (w : BitVec 32) (h : w.toNat < 262144) : k0_chk8 i w := by
  have hi : (i 0).val < 32 := (i 0).isLt
  unfold k0_chk8 k0_off16 k0_off72
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk9_of_lt (i : grid0.Coords) (w : BitVec 32) (h : w.toNat < 262144) : k0_chk9 i w := by
  have hi : (i 0).val < 32 := (i 0).isLt
  unfold k0_chk9 k0_off18 k0_off73
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk10_of_lt (i : grid0.Coords) (w : BitVec 32) (h : w.toNat < 262144) : k0_chk10 i w := by
  have hi : (i 0).val < 32 := (i 0).isLt
  unfold k0_chk10 k0_off20 k0_off74
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk11_of_lt (i : grid0.Coords) (w : BitVec 32) (h : w.toNat < 262144) : k0_chk11 i w := by
  have hi : (i 0).val < 32 := (i 0).isLt
  unfold k0_chk11 k0_off22 k0_off75
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk12_of_lt (i : grid0.Coords) (w : BitVec 32) (h : w.toNat < 262144) : k0_chk12 i w := by
  have hi : (i 0).val < 32 := (i 0).isLt
  unfold k0_chk12 k0_off24 k0_off76
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk13_of_lt (i : grid0.Coords) (w : BitVec 32) (h : w.toNat < 262144) : k0_chk13 i w := by
  have hi : (i 0).val < 32 := (i 0).isLt
  unfold k0_chk13 k0_off26 k0_off77
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk14_of_lt (i : grid0.Coords) (w : BitVec 32) (h : w.toNat < 262144) : k0_chk14 i w := by
  have hi : (i 0).val < 32 := (i 0).isLt
  unfold k0_chk14 k0_off28 k0_off78
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk15_of_lt (i : grid0.Coords) (w : BitVec 32) (h : w.toNat < 262144) : k0_chk15 i w := by
  have hi : (i 0).val < 32 := (i 0).isLt
  unfold k0_chk15 k0_off30 k0_off79
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk16_of_lt (i : grid0.Coords) (w : BitVec 32) (h : w.toNat < 262144) : k0_chk16 i w := by
  have hi : (i 0).val < 32 := (i 0).isLt
  unfold k0_chk16 k0_off32 k0_off80
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk17_of_lt (i : grid0.Coords) (w : BitVec 32) (h : w.toNat < 262144) : k0_chk17 i w := by
  have hi : (i 0).val < 32 := (i 0).isLt
  unfold k0_chk17 k0_off34 k0_off81
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk18_of_lt (i : grid0.Coords) (w : BitVec 32) (h : w.toNat < 262144) : k0_chk18 i w := by
  have hi : (i 0).val < 32 := (i 0).isLt
  unfold k0_chk18 k0_off36 k0_off82
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk19_of_lt (i : grid0.Coords) (w : BitVec 32) (h : w.toNat < 262144) : k0_chk19 i w := by
  have hi : (i 0).val < 32 := (i 0).isLt
  unfold k0_chk19 k0_off38 k0_off83
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk20_of_lt (i : grid0.Coords) (w : BitVec 32) (h : w.toNat < 262144) : k0_chk20 i w := by
  have hi : (i 0).val < 32 := (i 0).isLt
  unfold k0_chk20 k0_off40 k0_off84
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk21_of_lt (i : grid0.Coords) (w : BitVec 32) (h : w.toNat < 262144) : k0_chk21 i w := by
  have hi : (i 0).val < 32 := (i 0).isLt
  unfold k0_chk21 k0_off42 k0_off85
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk22_of_lt (i : grid0.Coords) (w : BitVec 32) (h : w.toNat < 262144) : k0_chk22 i w := by
  have hi : (i 0).val < 32 := (i 0).isLt
  unfold k0_chk22 k0_off44 k0_off86
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk23_of_lt (i : grid0.Coords) (w : BitVec 32) (h : w.toNat < 262144) : k0_chk23 i w := by
  have hi : (i 0).val < 32 := (i 0).isLt
  unfold k0_chk23 k0_off46 k0_off87
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk24_of_lt (i : grid0.Coords) (w : BitVec 32) (h : w.toNat < 262144) : k0_chk24 i w := by
  have hi : (i 0).val < 32 := (i 0).isLt
  unfold k0_chk24 k0_off48 k0_off88
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk25_of_lt (i : grid0.Coords) (w : BitVec 32) (h : w.toNat < 262144) : k0_chk25 i w := by
  have hi : (i 0).val < 32 := (i 0).isLt
  unfold k0_chk25 k0_off50 k0_off89
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk26_of_lt (i : grid0.Coords) (w : BitVec 32) (h : w.toNat < 262144) : k0_chk26 i w := by
  have hi : (i 0).val < 32 := (i 0).isLt
  unfold k0_chk26 k0_off52 k0_off90
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk27_of_lt (i : grid0.Coords) (w : BitVec 32) (h : w.toNat < 262144) : k0_chk27 i w := by
  have hi : (i 0).val < 32 := (i 0).isLt
  unfold k0_chk27 k0_off54 k0_off91
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk28_of_lt (i : grid0.Coords) (w : BitVec 32) (h : w.toNat < 262144) : k0_chk28 i w := by
  have hi : (i 0).val < 32 := (i 0).isLt
  unfold k0_chk28 k0_off56 k0_off92
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk29_of_lt (i : grid0.Coords) (w : BitVec 32) (h : w.toNat < 262144) : k0_chk29 i w := by
  have hi : (i 0).val < 32 := (i 0).isLt
  unfold k0_chk29 k0_off58 k0_off93
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk30_of_lt (i : grid0.Coords) (w : BitVec 32) (h : w.toNat < 262144) : k0_chk30 i w := by
  have hi : (i 0).val < 32 := (i 0).isLt
  unfold k0_chk30 k0_off60 k0_off94
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk31_of_lt (i : grid0.Coords) (w : BitVec 32) (h : w.toNat < 262144) : k0_chk31 i w := by
  have hi : (i 0).val < 32 := (i 0).isLt
  unfold k0_chk31 k0_off62 k0_off95
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk32_of_lt (i : grid0.Coords) (w : BitVec 32) (h : w.toNat < 262144) : k0_chk32 i w := by
  have hi : (i 0).val < 32 := (i 0).isLt
  unfold k0_chk32 k0_off64
  intro a
  match a with
  | ⟨0, _⟩ => show (BitVec.ofNat 32 (i 0).val).toNat + 1 ≤ 32; rw [BitVec.toNat_ofNat]; omega
  | ⟨1, _⟩ => show w.toNat + 1 ≤ 262144; omega
  | ⟨2, _⟩ => show 0 + 16 ≤ 16; omega

/-! ## Every word of the table is below the number of rows -/

variable (m : (ℓ : Loc nD τ sig) → Buf (Elt F) ℓ)

/-- The table is the specification's table of the mask argument (the program runs on one device). -/
theorem tbl_eq : tbl m 0 = Cert.Spec.idxOf (F := F) (m (((0 : Dev nD) : Thread nD τ).loc main_arg1)) :=
  Cert.Kernel.IdxBridge.V_idx m 0

omit [FloatOps F] in
/-- The table's memref is its whole buffer: what it reads at an index is the contents at that index's place. -/
theorem read_tb (f : (⟨S32x2048, .i32⟩ : BufTy).Contents (Elt F)) (k : S32x2048.Idx) :
    tbM0_0.view.read (Elt F) f k = f (tbM0_0.view.emb k) := rfl

/-- A load of one word of the table, wherever it is, reads an entry of the table. -/
theorem word_lt (R : LoadRect S32x2048) (x : R.shape.Idx) :
    (tbM0_0.view.readAt (Elt F) R (tbl m 0) x : BitVec 32).toNat < 262144 := by
  rw [tbl_eq, View.readAt_apply, read_tb]
  exact Cert.Spec.idxOf_lt _ _

/-- The table's side condition is empty: no window's index map reads it. -/
theorem ok : Ok m := trivial

/-- THE BODY'S ASSUMPTIONS, at every point. -/
theorem hyps : Hyps m (ok m) :=
  Hyps.of
    (fun c t => chk1_of_lt _ _ (word_lt m _ _))
    (fun c t => chk2_of_lt _ _ (word_lt m _ _))
    (fun c t => chk3_of_lt _ _ (word_lt m _ _))
    (fun c t => chk4_of_lt _ _ (word_lt m _ _))
    (fun c t => chk5_of_lt _ _ (word_lt m _ _))
    (fun c t => chk6_of_lt _ _ (word_lt m _ _))
    (fun c t => chk7_of_lt _ _ (word_lt m _ _))
    (fun c t => chk8_of_lt _ _ (word_lt m _ _))
    (fun c t => chk9_of_lt _ _ (word_lt m _ _))
    (fun c t => chk10_of_lt _ _ (word_lt m _ _))
    (fun c t => chk11_of_lt _ _ (word_lt m _ _))
    (fun c t => chk12_of_lt _ _ (word_lt m _ _))
    (fun c t => chk13_of_lt _ _ (word_lt m _ _))
    (fun c t => chk14_of_lt _ _ (word_lt m _ _))
    (fun c t => chk15_of_lt _ _ (word_lt m _ _))
    (fun c t => chk16_of_lt _ _ (word_lt m _ _))
    (fun c t => chk17_of_lt _ _ (word_lt m _ _))
    (fun c t => chk18_of_lt _ _ (word_lt m _ _))
    (fun c t => chk19_of_lt _ _ (word_lt m _ _))
    (fun c t => chk20_of_lt _ _ (word_lt m _ _))
    (fun c t => chk21_of_lt _ _ (word_lt m _ _))
    (fun c t => chk22_of_lt _ _ (word_lt m _ _))
    (fun c t => chk23_of_lt _ _ (word_lt m _ _))
    (fun c t => chk24_of_lt _ _ (word_lt m _ _))
    (fun c t => chk25_of_lt _ _ (word_lt m _ _))
    (fun c t => chk26_of_lt _ _ (word_lt m _ _))
    (fun c t => chk27_of_lt _ _ (word_lt m _ _))
    (fun c t => chk28_of_lt _ _ (word_lt m _ _))
    (fun c t => chk29_of_lt _ _ (word_lt m _ _))
    (fun c t => chk30_of_lt _ _ (word_lt m _ _))
    (fun c t => chk31_of_lt _ _ (word_lt m _ _))
    (fun c t => chk32_of_lt _ _ (word_lt m _ _))

end Cert.Kernel.HypsProof

end
-- ==== Proof.KernelIdealIdx.lean ====
/-
  The index table the region finds in its prefetched buffer is the specification's: the host operations before the
  region, taken one function body at a time over an arbitrary valuation of the buffers, compute the named values of
  the specification (positives, sort keys, sorted positions, counts, the column index, the looked-up positions, the
  table) from the mask argument.
-/
import proofs.«139401_j62989990363749_1_alg».proof.Proof.Gen.KernelIdeal.Frame.Runs
import proofs.«139401_j62989990363749_1_alg».proof.Proof.IdxSpec
import Idealize.ShloMosaic.Lib.StableHlo.Run

set_option maxRecDepth 16384

noncomputable section

namespace Cert.KernelIdeal.IdxBridge

open Idealize.ShloMosaic Idealize.ShloMosaic.TcCoe Idealize.SL.Sem Idealize.ShloMosaic.StableHlo
open Cert.KernelIdeal Cert.KernelIdeal.Gen

variable {F : FTy → Type} [FloatOps F]
variable (W : Valuation τ sig (Elt F)) (mask : (⟨Cert.Spec.SBxN, .f32⟩ : BufTy).Contents (Elt F))

/-! ## A typed reference's transports are the identity

A value moved to a reference's own contents type and back is itself, for any typed reference; at a literal reference each
transport by itself is the identity too (the reference's type is the value's by computation). -/

omit [FloatOps F] in
theorem ofBuf_toBuf {T : BufTy} (x : TRef sig T) (v : T.Contents (Elt F)) : x.ofBuf (x.toBuf v) = v := by
  obtain ⟨r, h, _, _⟩ := x; subst h; rfl

omit [FloatOps F] in
theorem of_v9 (v : (⟨S1x2048, .i32⟩ : BufTy).Contents (Elt F)) : (TRef.of main_v9 : TRef sig ⟨S1x2048, .i32⟩).ofBuf v = v := rfl
omit [FloatOps F] in
theorem of_v10 (v : (⟨S32x1, .i32⟩ : BufTy).Contents (Elt F)) : (TRef.of main_v10 : TRef sig ⟨S32x1, .i32⟩).ofBuf v = v := rfl
omit [FloatOps F] in
theorem to_v11 (v : (⟨S32x2048, .i32⟩ : BufTy).Contents (Elt F)) : (TRef.of main_v11 : TRef sig ⟨S32x2048, .i32⟩).toBuf v = v := rfl
omit [FloatOps F] in
theorem of_v11 (v : (⟨S32x2048, .i32⟩ : BufTy).Contents (Elt F)) : (TRef.of main_v11 : TRef sig ⟨S32x2048, .i32⟩).ofBuf v = v := rfl
omit [FloatOps F] in
theorem of_v3 (v : (⟨S32x262144, .i32⟩ : BufTy).Contents (Elt F)) : (TRef.of main_v3 : TRef sig ⟨S32x262144, .i32⟩).ofBuf v = v := rfl
omit [FloatOps F] in
theorem to_v12 (v : (⟨S32x2048, .i32⟩ : BufTy).Contents (Elt F)) : (TRef.of main_v12 : TRef sig ⟨S32x2048, .i32⟩).toBuf v = v := rfl
omit [FloatOps F] in
theorem of_v12 (v : (⟨S32x2048, .i32⟩ : BufTy).Contents (Elt F)) : (TRef.of main_v12 : TRef sig ⟨S32x2048, .i32⟩).ofBuf v = v := rfl
omit [FloatOps F] in
theorem of_c3v5 (v : (⟨S32x2048x1, .i32⟩ : BufTy).Contents (Elt F)) : (TRef.of main_call3_v5 : TRef sig ⟨S32x2048x1, .i32⟩).ofBuf v = v := rfl
omit [FloatOps F] in
theorem to_c3v4 (v : (⟨S32x2048, .i32⟩ : BufTy).Contents (Elt F)) : (TRef.of main_call3_v4 : TRef sig ⟨S32x2048, .i32⟩).toBuf v = v := rfl
omit [FloatOps F] in
theorem of_v15 (v : (⟨S32x1, .i1⟩ : BufTy).Contents (Elt F)) : (TRef.of main_v15 : TRef sig ⟨S32x1, .i1⟩).ofBuf v = v := rfl
omit [FloatOps F] in
theorem of_c_4 (v : (⟨S_, .i32⟩ : BufTy).Contents (Elt F)) : (TRef.of main_c_4 : TRef sig ⟨S_, .i32⟩).ofBuf v = v := rfl
omit [FloatOps F] in
theorem to_v16 (v : (⟨S32x2048, .i32⟩ : BufTy).Contents (Elt F)) : (TRef.of main_v16 : TRef sig ⟨S32x2048, .i32⟩).toBuf v = v := rfl

/-! ## @main's first lines: the positives and the two constants -/

theorem s0_v1 (h : W (Proc.devRef .tc main_arg1) = mask) :
    after (hostOps0 (F := F)) W (Proc.devRef .tc main_v1) = Cert.Spec.pos mask := by
  after_results_simp; rw [h]; rfl
theorem s0_c : after (hostOps0 (F := F)) W (Proc.devRef .tc main_c) = constantI S_ 32 0#32 := by
  after_results_simp
theorem s0_c_0 : after (hostOps0 (F := F)) W (Proc.devRef .tc main_c_0) = constantI S_ 32 1#32 := by
  after_results_simp

/-! ## The keys -/

theorem s1_v2 (h1 : W (Proc.devRef .tc main_v1) = Cert.Spec.pos mask) (hc : W (Proc.devRef .tc main_c) = constantI S_ 32 0#32)
    (hc0 : W (Proc.devRef .tc main_c_0) = constantI S_ 32 1#32) :
    after (hostOps0_1 (F := F)) W (Proc.devRef .tc main_v2) = Cert.Spec.key mask := by
  after_results_simp; rw [h1, hc, hc0]; rfl
theorem s1_v1 : after (hostOps0_1 (F := F)) W (Proc.devRef .tc main_v1) = W (Proc.devRef .tc main_v1) := by
  after_results_simp

/-! ## The sorted positions -/

theorem s2_v3 (h2 : W (Proc.devRef .tc main_v2) = Cert.Spec.key mask) :
    after (hostOps0_2 (F := F)) W (Proc.devRef .tc main_v3) = Cert.Spec.order mask := by
  after_results_simp; rw [h2]; rfl
theorem s2_v1 : after (hostOps0_2 (F := F)) W (Proc.devRef .tc main_v1) = W (Proc.devRef .tc main_v1) := by
  after_results_simp

/-! ## The counts, the column of `max count 1`, the row `0 … P − 1` -/

theorem s3_v5 (h1 : W (Proc.devRef .tc main_v1) = Cert.Spec.pos mask) :
    after (hostOps0_3 (F := F)) W (Proc.devRef .tc main_v5) = Cert.Spec.count mask := by
  after_results_simp; rw [h1]; rfl
theorem s3_v10 (h1 : W (Proc.devRef .tc main_v1) = Cert.Spec.pos mask) :
    after (hostOps0_3 (F := F)) W (Proc.devRef .tc main_v10) = Cert.Spec.safe mask := by
  after_results_simp; rw [h1]; rfl
theorem s3_v9 : after (hostOps0_3 (F := F)) W (Proc.devRef .tc main_v9) = Cert.Spec.js (F := F) := by
  after_results_simp; rfl
theorem s3_v3 : after (hostOps0_3 (F := F)) W (Proc.devRef .tc main_v3) = W (Proc.devRef .tc main_v3) := by
  after_results_simp

/-! ## The remainder -/

theorem s4_v11 (h9 : W (Proc.devRef .tc main_v9) = Cert.Spec.js (F := F)) (h10 : W (Proc.devRef .tc main_v10) = Cert.Spec.safe mask) :
    after (hostOps0_4 (F := F)) W (Proc.devRef .tc main_v11) = Cert.Spec.col mask := by
  after_results_simp; rw [h9, h10]
  simp only [ofBuf_toBuf, of_v9, of_v10, to_v11]
  rfl
theorem s4_v3 : after (hostOps0_4 (F := F)) W (Proc.devRef .tc main_v3) = W (Proc.devRef .tc main_v3) := by
  after_results_simp
theorem s4_v5 : after (hostOps0_4 (F := F)) W (Proc.devRef .tc main_v5) = W (Proc.devRef .tc main_v5) := by
  after_results_simp

/-! ## The lookup -/

theorem s5_v12 (h3 : W (Proc.devRef .tc main_v3) = Cert.Spec.order mask) (h11 : W (Proc.devRef .tc main_v11) = Cert.Spec.col mask) :
    after (hostOps0_5 (F := F)) W (Proc.devRef .tc main_v12) = Cert.Spec.taken mask := by
  after_results_simp; rw [h3, h11]
  simp only [ofBuf_toBuf, of_v11, of_v3, to_v12, of_c3v5, to_c3v4]
  rfl
theorem s5_v5 : after (hostOps0_5 (F := F)) W (Proc.devRef .tc main_v5) = W (Proc.devRef .tc main_v5) := by
  after_results_simp

/-! ## The table -/

theorem s67_v16 (h5 : W (Proc.devRef .tc main_v5) = Cert.Spec.count mask) (h12 : W (Proc.devRef .tc main_v12) = Cert.Spec.taken mask) :
    after (hostOps0_7 (F := F)) (after (hostOps0_6 (F := F)) W) (Proc.devRef .tc main_v16) = Cert.Spec.idxOf mask := by
  after_results_simp; rw [h5, h12]
  simp only [ofBuf_toBuf, of_v15, of_v12, of_c_4, to_v16]
  rfl

/-! ## The stretches in order -/

omit [FloatOps F] in
/-- The fold over two lines of operations one after the other is the second's fold at the first's. -/
theorem after_append (l₁ l₂ : List (HloOp τ sig (Elt F))) (V₀ : Valuation τ sig (Elt F)) :
    after (l₁ ++ l₂) V₀ = after l₂ (after l₁ V₀) := by
  induction l₁ generalizing V₀ with
  | nil => rfl
  | cons op l ih => simp only [List.cons_append, after_cons, ih]

/-- The region-entry contents are the eight function bodies' folds, one inside the next. -/
theorem V_eq (m : (ℓ : Loc nD τ sig) → Buf (Elt F) ℓ) (c : Dev nD) :
    (fun b => V m c b) = fun b => after (hostOps0_7 (F := F)) (after (hostOps0_6 (F := F)) (after (hostOps0_5 (F := F)) (after (hostOps0_4 (F := F))
      (after (hostOps0_3 (F := F)) (after (hostOps0_2 (F := F)) (after (hostOps0_1 (F := F)) (after (hostOps0 (F := F)) (fun b => m (c, b)))))))))
      (Proc.devRef .tc b) := by
  funext b
  show after (List.flatten [hostOps0, hostOps0_1, hostOps0_2, hostOps0_3, hostOps0_4, hostOps0_5, hostOps0_6, hostOps0_7]) (fun b => m (c, b)) (Proc.devRef .tc b) = _
  simp only [List.flatten_cons, List.flatten_nil, List.append_nil, after_append]

/-- THE TABLE THE REGION FINDS is the specification's table of the mask argument. -/
theorem V_idx (m : (ℓ : Loc nD τ sig) → Buf (Elt F) ℓ) (c : Dev nD) :
    V m c main_v16 = Cert.Spec.idxOf (F := F) (m ((c : Thread nD τ).loc main_arg1)) := by
  have e := congrFun (V_eq m c) main_v16
  refine e.trans ?_
  generalize hm : m ((c : Thread nD τ).loc main_arg1) = mask
  have a1 : after (hostOps0 (F := F)) (fun b => m (c, b)) (Proc.devRef .tc main_v1) = Cert.Spec.pos mask := s0_v1 _ mask hm
  have ac := s0_c (F := F) (fun b => m (c, b))
  have ac0 := s0_c_0 (F := F) (fun b => m (c, b))
  generalize after (hostOps0 (F := F)) (fun b => m (c, b)) = W1 at a1 ac ac0 ⊢
  have b2 := s1_v2 W1 mask a1 ac ac0
  have b1 := (s1_v1 W1).trans a1
  generalize after (hostOps0_1 (F := F)) W1 = W2 at b2 b1 ⊢
  have c3 := s2_v3 W2 mask b2
  have c1 := (s2_v1 W2).trans b1
  generalize after (hostOps0_2 (F := F)) W2 = W3 at c3 c1 ⊢
  have d5 := s3_v5 W3 mask c1
  have d10 := s3_v10 W3 mask c1
  have d9 := s3_v9 (F := F) W3
  have d3 := (s3_v3 W3).trans c3
  generalize after (hostOps0_3 (F := F)) W3 = W4 at d5 d10 d9 d3 ⊢
  have e11 := s4_v11 W4 mask d9 d10
  have e3 := (s4_v3 W4).trans d3
  have e5 := (s4_v5 W4).trans d5
  generalize after (hostOps0_4 (F := F)) W4 = W5 at e11 e3 e5 ⊢
  have f12 := s5_v12 W5 mask e3 e11
  have f5 := (s5_v5 W5).trans e5
  generalize after (hostOps0_5 (F := F)) W5 = W6 at f12 f5 ⊢
  exact s67_v16 W6 mask f5 f12

end Cert.KernelIdeal.IdxBridge

end
-- ==== Proof.KernelIdealHyps.lean ====
/-
  The side conditions the kernel body assumes of the words it loads from the prefetched index table hold of the table the
  region finds: each word addresses row `w` of a batch of the point cloud, which exists when `w < 262144`, and every entry
  of the table is a sorted position of a row of the mask or zero, hence below `262144`.
-/
import proofs.«139401_j62989990363749_1_alg».proof.Proof.Gen.KernelIdeal.Frame.Runs
import proofs.«139401_j62989990363749_1_alg».proof.Proof.KernelIdealIdx
import proofs.«139401_j62989990363749_1_alg».proof.Proof.IdxRange

set_option maxRecDepth 16384

noncomputable section

namespace Cert.KernelIdeal.HypsProof

open Idealize.ShloMosaic Idealize.ShloMosaic.TcCoe Idealize.SL.Sem
open Cert.KernelIdeal Cert.KernelIdeal.Gen

variable {F : FTy → Type} [FloatOps F]

/-! ## A row number below the number of rows addresses a row -/

theorem chk1_of_lt (i : grid0.Coords) (w : BitVec 32) (h : w.toNat < 262144) : k0_chk1 i w := by
  have hi : (i 0).val < 32 := (i 0).isLt
  unfold k0_chk1 k0_off2 k0_off65
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk2_of_lt (i : grid0.Coords) (w : BitVec 32) (h : w.toNat < 262144) : k0_chk2 i w := by
  have hi : (i 0).val < 32 := (i 0).isLt
  unfold k0_chk2 k0_off4 k0_off66
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk3_of_lt (i : grid0.Coords) (w : BitVec 32) (h : w.toNat < 262144) : k0_chk3 i w := by
  have hi : (i 0).val < 32 := (i 0).isLt
  unfold k0_chk3 k0_off6 k0_off67
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk4_of_lt (i : grid0.Coords) (w : BitVec 32) (h : w.toNat < 262144) : k0_chk4 i w := by
  have hi : (i 0).val < 32 := (i 0).isLt
  unfold k0_chk4 k0_off8 k0_off68
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk5_of_lt (i : grid0.Coords) (w : BitVec 32) (h : w.toNat < 262144) : k0_chk5 i w := by
  have hi : (i 0).val < 32 := (i 0).isLt
  unfold k0_chk5 k0_off10 k0_off69
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk6_of_lt (i : grid0.Coords) (w : BitVec 32) (h : w.toNat < 262144) : k0_chk6 i w := by
  have hi : (i 0).val < 32 := (i 0).isLt
  unfold k0_chk6 k0_off12 k0_off70
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk7_of_lt (i : grid0.Coords) (w : BitVec 32) (h : w.toNat < 262144) : k0_chk7 i w := by
  have hi : (i 0).val < 32 := (i 0).isLt
  unfold k0_chk7 k0_off14 k0_off71
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk8_of_lt (i : grid0.Coords) (w : BitVec 32) (h : w.toNat < 262144) : k0_chk8 i w := by
  have hi : (i 0).val < 32 := (i 0).isLt
  unfold k0_chk8 k0_off16 k0_off72
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk9_of_lt (i : grid0.Coords) (w : BitVec 32) (h : w.toNat < 262144) : k0_chk9 i w := by
  have hi : (i 0).val < 32 := (i 0).isLt
  unfold k0_chk9 k0_off18 k0_off73
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk10_of_lt (i : grid0.Coords) (w : BitVec 32) (h : w.toNat < 262144) : k0_chk10 i w := by
  have hi : (i 0).val < 32 := (i 0).isLt
  unfold k0_chk10 k0_off20 k0_off74
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk11_of_lt (i : grid0.Coords) (w : BitVec 32) (h : w.toNat < 262144) : k0_chk11 i w := by
  have hi : (i 0).val < 32 := (i 0).isLt
  unfold k0_chk11 k0_off22 k0_off75
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk12_of_lt (i : grid0.Coords) (w : BitVec 32) (h : w.toNat < 262144) : k0_chk12 i w := by
  have hi : (i 0).val < 32 := (i 0).isLt
  unfold k0_chk12 k0_off24 k0_off76
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk13_of_lt (i : grid0.Coords) (w : BitVec 32) (h : w.toNat < 262144) : k0_chk13 i w := by
  have hi : (i 0).val < 32 := (i 0).isLt
  unfold k0_chk13 k0_off26 k0_off77
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk14_of_lt (i : grid0.Coords) (w : BitVec 32) (h : w.toNat < 262144) : k0_chk14 i w := by
  have hi : (i 0).val < 32 := (i 0).isLt
  unfold k0_chk14 k0_off28 k0_off78
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk15_of_lt (i : grid0.Coords) (w : BitVec 32) (h : w.toNat < 262144) : k0_chk15 i w := by
  have hi : (i 0).val < 32 := (i 0).isLt
  unfold k0_chk15 k0_off30 k0_off79
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk16_of_lt (i : grid0.Coords) (w : BitVec 32) (h : w.toNat < 262144) : k0_chk16 i w := by
  have hi : (i 0).val < 32 := (i 0).isLt
  unfold k0_chk16 k0_off32 k0_off80
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk17_of_lt (i : grid0.Coords) (w : BitVec 32) (h : w.toNat < 262144) : k0_chk17 i w := by
  have hi : (i 0).val < 32 := (i 0).isLt
  unfold k0_chk17 k0_off34 k0_off81
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk18_of_lt (i : grid0.Coords) (w : BitVec 32) (h : w.toNat < 262144) : k0_chk18 i w := by
  have hi : (i 0).val < 32 := (i 0).isLt
  unfold k0_chk18 k0_off36 k0_off82
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk19_of_lt (i : grid0.Coords) (w : BitVec 32) (h : w.toNat < 262144) : k0_chk19 i w := by
  have hi : (i 0).val < 32 := (i 0).isLt
  unfold k0_chk19 k0_off38 k0_off83
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk20_of_lt (i : grid0.Coords) (w : BitVec 32) (h : w.toNat < 262144) : k0_chk20 i w := by
  have hi : (i 0).val < 32 := (i 0).isLt
  unfold k0_chk20 k0_off40 k0_off84
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk21_of_lt (i : grid0.Coords) (w : BitVec 32) (h : w.toNat < 262144) : k0_chk21 i w := by
  have hi : (i 0).val < 32 := (i 0).isLt
  unfold k0_chk21 k0_off42 k0_off85
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk22_of_lt (i : grid0.Coords) (w : BitVec 32) (h : w.toNat < 262144) : k0_chk22 i w := by
  have hi : (i 0).val < 32 := (i 0).isLt
  unfold k0_chk22 k0_off44 k0_off86
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk23_of_lt (i : grid0.Coords) (w : BitVec 32) (h : w.toNat < 262144) : k0_chk23 i w := by
  have hi : (i 0).val < 32 := (i 0).isLt
  unfold k0_chk23 k0_off46 k0_off87
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk24_of_lt (i : grid0.Coords) (w : BitVec 32) (h : w.toNat < 262144) : k0_chk24 i w := by
  have hi : (i 0).val < 32 := (i 0).isLt
  unfold k0_chk24 k0_off48 k0_off88
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk25_of_lt (i : grid0.Coords) (w : BitVec 32) (h : w.toNat < 262144) : k0_chk25 i w := by
  have hi : (i 0).val < 32 := (i 0).isLt
  unfold k0_chk25 k0_off50 k0_off89
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk26_of_lt (i : grid0.Coords) (w : BitVec 32) (h : w.toNat < 262144) : k0_chk26 i w := by
  have hi : (i 0).val < 32 := (i 0).isLt
  unfold k0_chk26 k0_off52 k0_off90
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk27_of_lt (i : grid0.Coords) (w : BitVec 32) (h : w.toNat < 262144) : k0_chk27 i w := by
  have hi : (i 0).val < 32 := (i 0).isLt
  unfold k0_chk27 k0_off54 k0_off91
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk28_of_lt (i : grid0.Coords) (w : BitVec 32) (h : w.toNat < 262144) : k0_chk28 i w := by
  have hi : (i 0).val < 32 := (i 0).isLt
  unfold k0_chk28 k0_off56 k0_off92
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk29_of_lt (i : grid0.Coords) (w : BitVec 32) (h : w.toNat < 262144) : k0_chk29 i w := by
  have hi : (i 0).val < 32 := (i 0).isLt
  unfold k0_chk29 k0_off58 k0_off93
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk30_of_lt (i : grid0.Coords) (w : BitVec 32) (h : w.toNat < 262144) : k0_chk30 i w := by
  have hi : (i 0).val < 32 := (i 0).isLt
  unfold k0_chk30 k0_off60 k0_off94
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk31_of_lt (i : grid0.Coords) (w : BitVec 32) (h : w.toNat < 262144) : k0_chk31 i w := by
  have hi : (i 0).val < 32 := (i 0).isLt
  unfold k0_chk31 k0_off62 k0_off95
  refine ⟨fun a => ?_, fun a => ?_⟩ <;>
  · match a with
    | ⟨0, _⟩ => show (BitVec.ofNat 32 (i 0).val).toNat + 1 ≤ 32; rw [BitVec.toNat_ofNat]; omega
    | ⟨1, _⟩ => show w.toNat + 1 ≤ 262144; omega
    | ⟨2, _⟩ => show 0 + 16 ≤ 16; omega

theorem chk32_of_lt (i : grid0.Coords) (w : BitVec 32) (h : w.toNat < 262144) : k0_chk32 i w := by
  have hi : (i 0).val < 32 := (i 0).isLt
  unfold k0_chk32 k0_off64
  intro a
  match a with
  | ⟨0, _⟩ => show (BitVec.ofNat 32 (i 0).val).toNat + 1 ≤ 32; rw [BitVec.toNat_ofNat]; omega
  | ⟨1, _⟩ => show w.toNat + 1 ≤ 262144; omega
  | ⟨2, _⟩ => show 0 + 16 ≤ 16; omega

/-! ## Every word of the table is below the number of rows -/

variable (m : (ℓ : Loc nD τ sig) → Buf (Elt F) ℓ)

/-- The table is the specification's table of the mask argument (the program runs on one device). -/
theorem tbl_eq : tbl m 0 = Cert.Spec.idxOf (F := F) (m (((0 : Dev nD) : Thread nD τ).loc main_arg1)) :=
  Cert.KernelIdeal.IdxBridge.V_idx m 0

omit [FloatOps F] in
/-- The table's memref is its whole buffer: what it reads at an index is the contents at that index's place. -/
theorem read_tb (f : (⟨S32x2048, .i32⟩ : BufTy).Contents (Elt F)) (k : S32x2048.Idx) :
    tbM0_0.view.read (Elt F) f k = f (tbM0_0.view.emb k) := rfl

/-- A load of one word of the table, wherever it is, reads an entry of the table. -/
theorem word_lt (R : LoadRect S32x2048) (x : R.shape.Idx) :
    (tbM0_0.view.readAt (Elt F) R (tbl m 0) x : BitVec 32).toNat < 262144 := by
  rw [tbl_eq, View.readAt_apply, read_tb]
  exact Cert.Spec.idxOf_lt _ _

/-- The table's side condition is empty: no window's index map reads it. -/
theorem ok : Ok m := trivial

/-- THE BODY'S ASSUMPTIONS, at every point. -/
theorem hyps : Hyps m (ok m) :=
  Hyps.of
    (fun c t => chk1_of_lt _ _ (word_lt m _ _))
    (fun c t => chk2_of_lt _ _ (word_lt m _ _))
    (fun c t => chk3_of_lt _ _ (word_lt m _ _))
    (fun c t => chk4_of_lt _ _ (word_lt m _ _))
    (fun c t => chk5_of_lt _ _ (word_lt m _ _))
    (fun c t => chk6_of_lt _ _ (word_lt m _ _))
    (fun c t => chk7_of_lt _ _ (word_lt m _ _))
    (fun c t => chk8_of_lt _ _ (word_lt m _ _))
    (fun c t => chk9_of_lt _ _ (word_lt m _ _))
    (fun c t => chk10_of_lt _ _ (word_lt m _ _))
    (fun c t => chk11_of_lt _ _ (word_lt m _ _))
    (fun c t => chk12_of_lt _ _ (word_lt m _ _))
    (fun c t => chk13_of_lt _ _ (word_lt m _ _))
    (fun c t => chk14_of_lt _ _ (word_lt m _ _))
    (fun c t => chk15_of_lt _ _ (word_lt m _ _))
    (fun c t => chk16_of_lt _ _ (word_lt m _ _))
    (fun c t => chk17_of_lt _ _ (word_lt m _ _))
    (fun c t => chk18_of_lt _ _ (word_lt m _ _))
    (fun c t => chk19_of_lt _ _ (word_lt m _ _))
    (fun c t => chk20_of_lt _ _ (word_lt m _ _))
    (fun c t => chk21_of_lt _ _ (word_lt m _ _))
    (fun c t => chk22_of_lt _ _ (word_lt m _ _))
    (fun c t => chk23_of_lt _ _ (word_lt m _ _))
    (fun c t => chk24_of_lt _ _ (word_lt m _ _))
    (fun c t => chk25_of_lt _ _ (word_lt m _ _))
    (fun c t => chk26_of_lt _ _ (word_lt m _ _))
    (fun c t => chk27_of_lt _ _ (word_lt m _ _))
    (fun c t => chk28_of_lt _ _ (word_lt m _ _))
    (fun c t => chk29_of_lt _ _ (word_lt m _ _))
    (fun c t => chk30_of_lt _ _ (word_lt m _ _))
    (fun c t => chk31_of_lt _ _ (word_lt m _ _))
    (fun c t => chk32_of_lt _ _ (word_lt m _ _))

end Cert.KernelIdeal.HypsProof

end
-- ==== Proof.KernelIdealWords.lean ====
/-
  The words and rows the kernel body touches at a grid point (b, pb). For r = 0 … 31 the body loads the table's word at
  (b, 32 · pb + r) — the offsets are computed in 32-bit arithmetic, which does not wrap on numbers this small — and, the
  word being w, starts a transfer from the 16 channels of row w of batch b of the point cloud: the 1 × 1 × 16 rectangle
  at (b, w, 0), its two unit axes dropped.
-/
import proofs.«139401_j62989990363749_1_alg».proof.Proof.Gen.KernelIdeal.Frame.Runs
import Idealize.ShloMosaic.Lib.ValueIdx
import Idealize.ShloMosaic.Lib.Pipeline.Value

noncomputable section

namespace Cert.KernelIdeal.Words

open Cert.KernelIdeal Cert.KernelIdeal.Gen Idealize.ShloMosaic Idealize.ShloMosaic.ValueIdx

variable {F : FTy → Type} [FloatOps F]

/-! ## The offsets' 32-bit arithmetic -/

/-- A grid coordinate as a 32-bit word, read back as an index, is the coordinate. -/
theorem ofs_row (g0 : Nat) (h0 : g0 < 32) : (Scalar.indexCast (BitVec.ofNat 32 g0)).toNat = g0 := by
  show (BitVec.ofNat 32 g0).toNat = g0
  rw [BitVec.toNat_ofNat]; exact Nat.mod_eq_of_lt (by omega)

/-- "32 · g1 + r" in 32-bit arithmetic, for g1 below 64 and r below 32, is that number. -/
theorem ofs_col (g1 : Nat) (h1 : g1 < 64) (r : Nat) (hr : r < 32) :
    (Scalar.indexCast (Scalar.addi (Scalar.muli (BitVec.ofNat 32 g1) 32#32) (BitVec.ofNat 32 r))).toNat = g1 * 32 + r := by
  show (BitVec.ofNat 32 g1 * 32#32 + BitVec.ofNat 32 r).toNat = g1 * 32 + r
  rw [BitVec.toNat_add, BitVec.toNat_mul, BitVec.toNat_ofNat, BitVec.toNat_ofNat, BitVec.toNat_ofNat]
  have e : (2 : Nat) ^ 32 = 4294967296 := by norm_num
  rw [e]
  omega

/-! ## A load of one word of the table, and a read of one row of the point cloud -/

/-- The table's memref is its whole buffer: what it reads at an index is the contents there. -/
theorem read_tb (f : (⟨S32x2048, .i32⟩ : BufTy).Contents (Elt F)) (k : S32x2048.Idx) :
    tbM0_0.view.read (Elt F) f k = f k := rfl

/-- A load of the one word at offsets (o0, o1) reads the table there. -/
theorem word_at (off : Fin 2 → Nat) (inb : ∀ a, off a + S1x1.size a ≤ S32x2048.size a) (xt : (⟨S32x2048, .i32⟩ : BufTy).Contents (Elt F))
    (x : S1x1.Idx) (c0 : Fin 32) (c1 : Fin 2048) (e0 : off 0 = c0.val) (e1 : off 1 = c1.val) :
    tbM0_0.view.readAt (Elt F) (Rect.unit (s := S32x2048) off S1x1.size inb).toLoadRect xt x = xt (ix2 c0 c1) := by
  rw [View.readAt_apply, read_tb]
  refine congrArg xt (funext fun d => Fin.ext ?_)
  have hx0 : (x 0).val < 1 := (x 0).isLt
  have hx1 : (x 1).val < 1 := (x 1).isLt
  match d with
  | ⟨0, _⟩ => show off 0 + 1 * (x 0).val = c0.val; omega
  | ⟨1, _⟩ => show off 1 + 1 * (x 1).val = c1.val; omega

/-- The 16 channels at offsets (o0, o1, o2) of the point cloud, the two unit axes dropped, read at channel ch. -/
theorem row_at (off : Fin 3 → Nat) (inb : ∀ a, off a + S1x1x16.size a ≤ S32x262144x16.size a)
    (pc : (⟨S32x262144x16, .f32⟩ : BufTy).Contents (Elt F)) (ch : Fin 16) (c0 : Fin 32) (c1 : Fin 262144)
    (e0 : off 0 = c0.val) (e1 : off 1 = c1.val) (e2 : off 2 = 0) :
    (((Memref.whole main_arg0).slice (Rect.unit (s := S32x262144x16) off S1x1x16.size inb) (fun _ => rfl)).squeeze S16 squeezes_S1x1x16_S16).view.read (Elt F) pc (ix1 ch)
      = pc (ix3 c0 c1 ch) := by
  refine (congrFun (Memref.read_squeeze_slice (Val := Elt F) (Memref.whole main_arg0)
    (Rect.unit (s := S32x262144x16) off S1x1x16.size inb) (fun _ => rfl) squeezes_S1x1x16_S16 rfl pc) (ix1 ch)).trans ?_
  refine (shapeCast_apply _ _ (ix1 ch) (ix3 (n0 := 1) (n1 := 1) (n2 := 16) 0 0 ch)
    (by rw [Shape.rowMajor_val_three, Shape.rowMajor_val_one]; show (0 * 1 + 0) * 16 + ch.val = ch.val; omega)).trans ?_
  show pc _ = pc _
  refine congrArg pc (funext fun d => Fin.ext ?_)
  match d with
  | ⟨0, _⟩ => show off 0 + 1 * 0 = c0.val; omega
  | ⟨1, _⟩ => show off 1 + 1 * 0 = c1.val; omega
  | ⟨2, _⟩ => show off 2 + 1 * ch.val = ch.val; omega

/-! ## The thirty-two loads and transfers -/

/-- Load 0: the table's word at (b, 32 · pb + 0). -/
theorem word_0 (i : grid0.Coords) (xt : (⟨S32x2048, .i32⟩ : BufTy).Contents (Elt F)) :
    tbM0_0.view.readAt (Elt F) (Rect.unit (s := S32x2048) (k0_off1 i) S1x1.size (k0_off1_inb i)).toLoadRect xt (Shape.Idx.first (numel1_S1x1.symm ▸ Nat.one_pos))
      = xt (ix2 (n0 := 32) (n1 := 2048) ⟨(i 0).val, (i 0).isLt⟩ ⟨(i 1).val * 32 + 0, by have h : (i 1).val < 64 := (i 1).isLt; omega⟩) :=
  word_at _ _ xt _ _ _ (ofs_row _ (i 0).isLt) (ofs_col _ (i 1).isLt 0 (by decide))

/-- Transfer 0's source: the 16 channels of row w of batch b. -/
theorem row_0 (i : grid0.Coords) (w : BitVec 32) (hw : k0_chk1 i w) (pc : (⟨S32x262144x16, .f32⟩ : BufTy).Contents (Elt F)) (ch : Fin 16) :
    (((Memref.whole main_arg0).slice (Rect.unit (s := S32x262144x16) (k0_off2 i w) S1x1x16.size (k0_off2_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off2_inb i w hw (1 : Fin 3); omega⟩ ch) :=
  row_at _ _ pc ch _ _ (ofs_row _ (i 0).isLt) rfl rfl

/-- Load 1: the table's word at (b, 32 · pb + 1). -/
theorem word_1 (i : grid0.Coords) (xt : (⟨S32x2048, .i32⟩ : BufTy).Contents (Elt F)) :
    tbM0_0.view.readAt (Elt F) (Rect.unit (s := S32x2048) (k0_off3 i) S1x1.size (k0_off3_inb i)).toLoadRect xt (Shape.Idx.first (numel1_S1x1.symm ▸ Nat.one_pos))
      = xt (ix2 (n0 := 32) (n1 := 2048) ⟨(i 0).val, (i 0).isLt⟩ ⟨(i 1).val * 32 + 1, by have h : (i 1).val < 64 := (i 1).isLt; omega⟩) :=
  word_at _ _ xt _ _ _ (ofs_row _ (i 0).isLt) (ofs_col _ (i 1).isLt 1 (by decide))

/-- Transfer 1's source: the 16 channels of row w of batch b. -/
theorem row_1 (i : grid0.Coords) (w : BitVec 32) (hw : k0_chk2 i w) (pc : (⟨S32x262144x16, .f32⟩ : BufTy).Contents (Elt F)) (ch : Fin 16) :
    (((Memref.whole main_arg0).slice (Rect.unit (s := S32x262144x16) (k0_off4 i w) S1x1x16.size (k0_off4_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off4_inb i w hw (1 : Fin 3); omega⟩ ch) :=
  row_at _ _ pc ch _ _ (ofs_row _ (i 0).isLt) rfl rfl

/-- Load 2: the table's word at (b, 32 · pb + 2). -/
theorem word_2 (i : grid0.Coords) (xt : (⟨S32x2048, .i32⟩ : BufTy).Contents (Elt F)) :
    tbM0_0.view.readAt (Elt F) (Rect.unit (s := S32x2048) (k0_off5 i) S1x1.size (k0_off5_inb i)).toLoadRect xt (Shape.Idx.first (numel1_S1x1.symm ▸ Nat.one_pos))
      = xt (ix2 (n0 := 32) (n1 := 2048) ⟨(i 0).val, (i 0).isLt⟩ ⟨(i 1).val * 32 + 2, by have h : (i 1).val < 64 := (i 1).isLt; omega⟩) :=
  word_at _ _ xt _ _ _ (ofs_row _ (i 0).isLt) (ofs_col _ (i 1).isLt 2 (by decide))

/-- Transfer 2's source: the 16 channels of row w of batch b. -/
theorem row_2 (i : grid0.Coords) (w : BitVec 32) (hw : k0_chk3 i w) (pc : (⟨S32x262144x16, .f32⟩ : BufTy).Contents (Elt F)) (ch : Fin 16) :
    (((Memref.whole main_arg0).slice (Rect.unit (s := S32x262144x16) (k0_off6 i w) S1x1x16.size (k0_off6_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off6_inb i w hw (1 : Fin 3); omega⟩ ch) :=
  row_at _ _ pc ch _ _ (ofs_row _ (i 0).isLt) rfl rfl

/-- Load 3: the table's word at (b, 32 · pb + 3). -/
theorem word_3 (i : grid0.Coords) (xt : (⟨S32x2048, .i32⟩ : BufTy).Contents (Elt F)) :
    tbM0_0.view.readAt (Elt F) (Rect.unit (s := S32x2048) (k0_off7 i) S1x1.size (k0_off7_inb i)).toLoadRect xt (Shape.Idx.first (numel1_S1x1.symm ▸ Nat.one_pos))
      = xt (ix2 (n0 := 32) (n1 := 2048) ⟨(i 0).val, (i 0).isLt⟩ ⟨(i 1).val * 32 + 3, by have h : (i 1).val < 64 := (i 1).isLt; omega⟩) :=
  word_at _ _ xt _ _ _ (ofs_row _ (i 0).isLt) (ofs_col _ (i 1).isLt 3 (by decide))

/-- Transfer 3's source: the 16 channels of row w of batch b. -/
theorem row_3 (i : grid0.Coords) (w : BitVec 32) (hw : k0_chk4 i w) (pc : (⟨S32x262144x16, .f32⟩ : BufTy).Contents (Elt F)) (ch : Fin 16) :
    (((Memref.whole main_arg0).slice (Rect.unit (s := S32x262144x16) (k0_off8 i w) S1x1x16.size (k0_off8_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off8_inb i w hw (1 : Fin 3); omega⟩ ch) :=
  row_at _ _ pc ch _ _ (ofs_row _ (i 0).isLt) rfl rfl

/-- Load 4: the table's word at (b, 32 · pb + 4). -/
theorem word_4 (i : grid0.Coords) (xt : (⟨S32x2048, .i32⟩ : BufTy).Contents (Elt F)) :
    tbM0_0.view.readAt (Elt F) (Rect.unit (s := S32x2048) (k0_off9 i) S1x1.size (k0_off9_inb i)).toLoadRect xt (Shape.Idx.first (numel1_S1x1.symm ▸ Nat.one_pos))
      = xt (ix2 (n0 := 32) (n1 := 2048) ⟨(i 0).val, (i 0).isLt⟩ ⟨(i 1).val * 32 + 4, by have h : (i 1).val < 64 := (i 1).isLt; omega⟩) :=
  word_at _ _ xt _ _ _ (ofs_row _ (i 0).isLt) (ofs_col _ (i 1).isLt 4 (by decide))

/-- Transfer 4's source: the 16 channels of row w of batch b. -/
theorem row_4 (i : grid0.Coords) (w : BitVec 32) (hw : k0_chk5 i w) (pc : (⟨S32x262144x16, .f32⟩ : BufTy).Contents (Elt F)) (ch : Fin 16) :
    (((Memref.whole main_arg0).slice (Rect.unit (s := S32x262144x16) (k0_off10 i w) S1x1x16.size (k0_off10_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off10_inb i w hw (1 : Fin 3); omega⟩ ch) :=
  row_at _ _ pc ch _ _ (ofs_row _ (i 0).isLt) rfl rfl

/-- Load 5: the table's word at (b, 32 · pb + 5). -/
theorem word_5 (i : grid0.Coords) (xt : (⟨S32x2048, .i32⟩ : BufTy).Contents (Elt F)) :
    tbM0_0.view.readAt (Elt F) (Rect.unit (s := S32x2048) (k0_off11 i) S1x1.size (k0_off11_inb i)).toLoadRect xt (Shape.Idx.first (numel1_S1x1.symm ▸ Nat.one_pos))
      = xt (ix2 (n0 := 32) (n1 := 2048) ⟨(i 0).val, (i 0).isLt⟩ ⟨(i 1).val * 32 + 5, by have h : (i 1).val < 64 := (i 1).isLt; omega⟩) :=
  word_at _ _ xt _ _ _ (ofs_row _ (i 0).isLt) (ofs_col _ (i 1).isLt 5 (by decide))

/-- Transfer 5's source: the 16 channels of row w of batch b. -/
theorem row_5 (i : grid0.Coords) (w : BitVec 32) (hw : k0_chk6 i w) (pc : (⟨S32x262144x16, .f32⟩ : BufTy).Contents (Elt F)) (ch : Fin 16) :
    (((Memref.whole main_arg0).slice (Rect.unit (s := S32x262144x16) (k0_off12 i w) S1x1x16.size (k0_off12_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off12_inb i w hw (1 : Fin 3); omega⟩ ch) :=
  row_at _ _ pc ch _ _ (ofs_row _ (i 0).isLt) rfl rfl

/-- Load 6: the table's word at (b, 32 · pb + 6). -/
theorem word_6 (i : grid0.Coords) (xt : (⟨S32x2048, .i32⟩ : BufTy).Contents (Elt F)) :
    tbM0_0.view.readAt (Elt F) (Rect.unit (s := S32x2048) (k0_off13 i) S1x1.size (k0_off13_inb i)).toLoadRect xt (Shape.Idx.first (numel1_S1x1.symm ▸ Nat.one_pos))
      = xt (ix2 (n0 := 32) (n1 := 2048) ⟨(i 0).val, (i 0).isLt⟩ ⟨(i 1).val * 32 + 6, by have h : (i 1).val < 64 := (i 1).isLt; omega⟩) :=
  word_at _ _ xt _ _ _ (ofs_row _ (i 0).isLt) (ofs_col _ (i 1).isLt 6 (by decide))

/-- Transfer 6's source: the 16 channels of row w of batch b. -/
theorem row_6 (i : grid0.Coords) (w : BitVec 32) (hw : k0_chk7 i w) (pc : (⟨S32x262144x16, .f32⟩ : BufTy).Contents (Elt F)) (ch : Fin 16) :
    (((Memref.whole main_arg0).slice (Rect.unit (s := S32x262144x16) (k0_off14 i w) S1x1x16.size (k0_off14_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off14_inb i w hw (1 : Fin 3); omega⟩ ch) :=
  row_at _ _ pc ch _ _ (ofs_row _ (i 0).isLt) rfl rfl

/-- Load 7: the table's word at (b, 32 · pb + 7). -/
theorem word_7 (i : grid0.Coords) (xt : (⟨S32x2048, .i32⟩ : BufTy).Contents (Elt F)) :
    tbM0_0.view.readAt (Elt F) (Rect.unit (s := S32x2048) (k0_off15 i) S1x1.size (k0_off15_inb i)).toLoadRect xt (Shape.Idx.first (numel1_S1x1.symm ▸ Nat.one_pos))
      = xt (ix2 (n0 := 32) (n1 := 2048) ⟨(i 0).val, (i 0).isLt⟩ ⟨(i 1).val * 32 + 7, by have h : (i 1).val < 64 := (i 1).isLt; omega⟩) :=
  word_at _ _ xt _ _ _ (ofs_row _ (i 0).isLt) (ofs_col _ (i 1).isLt 7 (by decide))

/-- Transfer 7's source: the 16 channels of row w of batch b. -/
theorem row_7 (i : grid0.Coords) (w : BitVec 32) (hw : k0_chk8 i w) (pc : (⟨S32x262144x16, .f32⟩ : BufTy).Contents (Elt F)) (ch : Fin 16) :
    (((Memref.whole main_arg0).slice (Rect.unit (s := S32x262144x16) (k0_off16 i w) S1x1x16.size (k0_off16_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off16_inb i w hw (1 : Fin 3); omega⟩ ch) :=
  row_at _ _ pc ch _ _ (ofs_row _ (i 0).isLt) rfl rfl

/-- Load 8: the table's word at (b, 32 · pb + 8). -/
theorem word_8 (i : grid0.Coords) (xt : (⟨S32x2048, .i32⟩ : BufTy).Contents (Elt F)) :
    tbM0_0.view.readAt (Elt F) (Rect.unit (s := S32x2048) (k0_off17 i) S1x1.size (k0_off17_inb i)).toLoadRect xt (Shape.Idx.first (numel1_S1x1.symm ▸ Nat.one_pos))
      = xt (ix2 (n0 := 32) (n1 := 2048) ⟨(i 0).val, (i 0).isLt⟩ ⟨(i 1).val * 32 + 8, by have h : (i 1).val < 64 := (i 1).isLt; omega⟩) :=
  word_at _ _ xt _ _ _ (ofs_row _ (i 0).isLt) (ofs_col _ (i 1).isLt 8 (by decide))

/-- Transfer 8's source: the 16 channels of row w of batch b. -/
theorem row_8 (i : grid0.Coords) (w : BitVec 32) (hw : k0_chk9 i w) (pc : (⟨S32x262144x16, .f32⟩ : BufTy).Contents (Elt F)) (ch : Fin 16) :
    (((Memref.whole main_arg0).slice (Rect.unit (s := S32x262144x16) (k0_off18 i w) S1x1x16.size (k0_off18_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off18_inb i w hw (1 : Fin 3); omega⟩ ch) :=
  row_at _ _ pc ch _ _ (ofs_row _ (i 0).isLt) rfl rfl

/-- Load 9: the table's word at (b, 32 · pb + 9). -/
theorem word_9 (i : grid0.Coords) (xt : (⟨S32x2048, .i32⟩ : BufTy).Contents (Elt F)) :
    tbM0_0.view.readAt (Elt F) (Rect.unit (s := S32x2048) (k0_off19 i) S1x1.size (k0_off19_inb i)).toLoadRect xt (Shape.Idx.first (numel1_S1x1.symm ▸ Nat.one_pos))
      = xt (ix2 (n0 := 32) (n1 := 2048) ⟨(i 0).val, (i 0).isLt⟩ ⟨(i 1).val * 32 + 9, by have h : (i 1).val < 64 := (i 1).isLt; omega⟩) :=
  word_at _ _ xt _ _ _ (ofs_row _ (i 0).isLt) (ofs_col _ (i 1).isLt 9 (by decide))

/-- Transfer 9's source: the 16 channels of row w of batch b. -/
theorem row_9 (i : grid0.Coords) (w : BitVec 32) (hw : k0_chk10 i w) (pc : (⟨S32x262144x16, .f32⟩ : BufTy).Contents (Elt F)) (ch : Fin 16) :
    (((Memref.whole main_arg0).slice (Rect.unit (s := S32x262144x16) (k0_off20 i w) S1x1x16.size (k0_off20_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off20_inb i w hw (1 : Fin 3); omega⟩ ch) :=
  row_at _ _ pc ch _ _ (ofs_row _ (i 0).isLt) rfl rfl

/-- Load 10: the table's word at (b, 32 · pb + 10). -/
theorem word_10 (i : grid0.Coords) (xt : (⟨S32x2048, .i32⟩ : BufTy).Contents (Elt F)) :
    tbM0_0.view.readAt (Elt F) (Rect.unit (s := S32x2048) (k0_off21 i) S1x1.size (k0_off21_inb i)).toLoadRect xt (Shape.Idx.first (numel1_S1x1.symm ▸ Nat.one_pos))
      = xt (ix2 (n0 := 32) (n1 := 2048) ⟨(i 0).val, (i 0).isLt⟩ ⟨(i 1).val * 32 + 10, by have h : (i 1).val < 64 := (i 1).isLt; omega⟩) :=
  word_at _ _ xt _ _ _ (ofs_row _ (i 0).isLt) (ofs_col _ (i 1).isLt 10 (by decide))

/-- Transfer 10's source: the 16 channels of row w of batch b. -/
theorem row_10 (i : grid0.Coords) (w : BitVec 32) (hw : k0_chk11 i w) (pc : (⟨S32x262144x16, .f32⟩ : BufTy).Contents (Elt F)) (ch : Fin 16) :
    (((Memref.whole main_arg0).slice (Rect.unit (s := S32x262144x16) (k0_off22 i w) S1x1x16.size (k0_off22_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off22_inb i w hw (1 : Fin 3); omega⟩ ch) :=
  row_at _ _ pc ch _ _ (ofs_row _ (i 0).isLt) rfl rfl

/-- Load 11: the table's word at (b, 32 · pb + 11). -/
theorem word_11 (i : grid0.Coords) (xt : (⟨S32x2048, .i32⟩ : BufTy).Contents (Elt F)) :
    tbM0_0.view.readAt (Elt F) (Rect.unit (s := S32x2048) (k0_off23 i) S1x1.size (k0_off23_inb i)).toLoadRect xt (Shape.Idx.first (numel1_S1x1.symm ▸ Nat.one_pos))
      = xt (ix2 (n0 := 32) (n1 := 2048) ⟨(i 0).val, (i 0).isLt⟩ ⟨(i 1).val * 32 + 11, by have h : (i 1).val < 64 := (i 1).isLt; omega⟩) :=
  word_at _ _ xt _ _ _ (ofs_row _ (i 0).isLt) (ofs_col _ (i 1).isLt 11 (by decide))

/-- Transfer 11's source: the 16 channels of row w of batch b. -/
theorem row_11 (i : grid0.Coords) (w : BitVec 32) (hw : k0_chk12 i w) (pc : (⟨S32x262144x16, .f32⟩ : BufTy).Contents (Elt F)) (ch : Fin 16) :
    (((Memref.whole main_arg0).slice (Rect.unit (s := S32x262144x16) (k0_off24 i w) S1x1x16.size (k0_off24_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off24_inb i w hw (1 : Fin 3); omega⟩ ch) :=
  row_at _ _ pc ch _ _ (ofs_row _ (i 0).isLt) rfl rfl

/-- Load 12: the table's word at (b, 32 · pb + 12). -/
theorem word_12 (i : grid0.Coords) (xt : (⟨S32x2048, .i32⟩ : BufTy).Contents (Elt F)) :
    tbM0_0.view.readAt (Elt F) (Rect.unit (s := S32x2048) (k0_off25 i) S1x1.size (k0_off25_inb i)).toLoadRect xt (Shape.Idx.first (numel1_S1x1.symm ▸ Nat.one_pos))
      = xt (ix2 (n0 := 32) (n1 := 2048) ⟨(i 0).val, (i 0).isLt⟩ ⟨(i 1).val * 32 + 12, by have h : (i 1).val < 64 := (i 1).isLt; omega⟩) :=
  word_at _ _ xt _ _ _ (ofs_row _ (i 0).isLt) (ofs_col _ (i 1).isLt 12 (by decide))

/-- Transfer 12's source: the 16 channels of row w of batch b. -/
theorem row_12 (i : grid0.Coords) (w : BitVec 32) (hw : k0_chk13 i w) (pc : (⟨S32x262144x16, .f32⟩ : BufTy).Contents (Elt F)) (ch : Fin 16) :
    (((Memref.whole main_arg0).slice (Rect.unit (s := S32x262144x16) (k0_off26 i w) S1x1x16.size (k0_off26_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off26_inb i w hw (1 : Fin 3); omega⟩ ch) :=
  row_at _ _ pc ch _ _ (ofs_row _ (i 0).isLt) rfl rfl

/-- Load 13: the table's word at (b, 32 · pb + 13). -/
theorem word_13 (i : grid0.Coords) (xt : (⟨S32x2048, .i32⟩ : BufTy).Contents (Elt F)) :
    tbM0_0.view.readAt (Elt F) (Rect.unit (s := S32x2048) (k0_off27 i) S1x1.size (k0_off27_inb i)).toLoadRect xt (Shape.Idx.first (numel1_S1x1.symm ▸ Nat.one_pos))
      = xt (ix2 (n0 := 32) (n1 := 2048) ⟨(i 0).val, (i 0).isLt⟩ ⟨(i 1).val * 32 + 13, by have h : (i 1).val < 64 := (i 1).isLt; omega⟩) :=
  word_at _ _ xt _ _ _ (ofs_row _ (i 0).isLt) (ofs_col _ (i 1).isLt 13 (by decide))

/-- Transfer 13's source: the 16 channels of row w of batch b. -/
theorem row_13 (i : grid0.Coords) (w : BitVec 32) (hw : k0_chk14 i w) (pc : (⟨S32x262144x16, .f32⟩ : BufTy).Contents (Elt F)) (ch : Fin 16) :
    (((Memref.whole main_arg0).slice (Rect.unit (s := S32x262144x16) (k0_off28 i w) S1x1x16.size (k0_off28_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off28_inb i w hw (1 : Fin 3); omega⟩ ch) :=
  row_at _ _ pc ch _ _ (ofs_row _ (i 0).isLt) rfl rfl

/-- Load 14: the table's word at (b, 32 · pb + 14). -/
theorem word_14 (i : grid0.Coords) (xt : (⟨S32x2048, .i32⟩ : BufTy).Contents (Elt F)) :
    tbM0_0.view.readAt (Elt F) (Rect.unit (s := S32x2048) (k0_off29 i) S1x1.size (k0_off29_inb i)).toLoadRect xt (Shape.Idx.first (numel1_S1x1.symm ▸ Nat.one_pos))
      = xt (ix2 (n0 := 32) (n1 := 2048) ⟨(i 0).val, (i 0).isLt⟩ ⟨(i 1).val * 32 + 14, by have h : (i 1).val < 64 := (i 1).isLt; omega⟩) :=
  word_at _ _ xt _ _ _ (ofs_row _ (i 0).isLt) (ofs_col _ (i 1).isLt 14 (by decide))

/-- Transfer 14's source: the 16 channels of row w of batch b. -/
theorem row_14 (i : grid0.Coords) (w : BitVec 32) (hw : k0_chk15 i w) (pc : (⟨S32x262144x16, .f32⟩ : BufTy).Contents (Elt F)) (ch : Fin 16) :
    (((Memref.whole main_arg0).slice (Rect.unit (s := S32x262144x16) (k0_off30 i w) S1x1x16.size (k0_off30_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off30_inb i w hw (1 : Fin 3); omega⟩ ch) :=
  row_at _ _ pc ch _ _ (ofs_row _ (i 0).isLt) rfl rfl

/-- Load 15: the table's word at (b, 32 · pb + 15). -/
theorem word_15 (i : grid0.Coords) (xt : (⟨S32x2048, .i32⟩ : BufTy).Contents (Elt F)) :
    tbM0_0.view.readAt (Elt F) (Rect.unit (s := S32x2048) (k0_off31 i) S1x1.size (k0_off31_inb i)).toLoadRect xt (Shape.Idx.first (numel1_S1x1.symm ▸ Nat.one_pos))
      = xt (ix2 (n0 := 32) (n1 := 2048) ⟨(i 0).val, (i 0).isLt⟩ ⟨(i 1).val * 32 + 15, by have h : (i 1).val < 64 := (i 1).isLt; omega⟩) :=
  word_at _ _ xt _ _ _ (ofs_row _ (i 0).isLt) (ofs_col _ (i 1).isLt 15 (by decide))

/-- Transfer 15's source: the 16 channels of row w of batch b. -/
theorem row_15 (i : grid0.Coords) (w : BitVec 32) (hw : k0_chk16 i w) (pc : (⟨S32x262144x16, .f32⟩ : BufTy).Contents (Elt F)) (ch : Fin 16) :
    (((Memref.whole main_arg0).slice (Rect.unit (s := S32x262144x16) (k0_off32 i w) S1x1x16.size (k0_off32_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off32_inb i w hw (1 : Fin 3); omega⟩ ch) :=
  row_at _ _ pc ch _ _ (ofs_row _ (i 0).isLt) rfl rfl

/-- Load 16: the table's word at (b, 32 · pb + 16). -/
theorem word_16 (i : grid0.Coords) (xt : (⟨S32x2048, .i32⟩ : BufTy).Contents (Elt F)) :
    tbM0_0.view.readAt (Elt F) (Rect.unit (s := S32x2048) (k0_off33 i) S1x1.size (k0_off33_inb i)).toLoadRect xt (Shape.Idx.first (numel1_S1x1.symm ▸ Nat.one_pos))
      = xt (ix2 (n0 := 32) (n1 := 2048) ⟨(i 0).val, (i 0).isLt⟩ ⟨(i 1).val * 32 + 16, by have h : (i 1).val < 64 := (i 1).isLt; omega⟩) :=
  word_at _ _ xt _ _ _ (ofs_row _ (i 0).isLt) (ofs_col _ (i 1).isLt 16 (by decide))

/-- Transfer 16's source: the 16 channels of row w of batch b. -/
theorem row_16 (i : grid0.Coords) (w : BitVec 32) (hw : k0_chk17 i w) (pc : (⟨S32x262144x16, .f32⟩ : BufTy).Contents (Elt F)) (ch : Fin 16) :
    (((Memref.whole main_arg0).slice (Rect.unit (s := S32x262144x16) (k0_off34 i w) S1x1x16.size (k0_off34_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off34_inb i w hw (1 : Fin 3); omega⟩ ch) :=
  row_at _ _ pc ch _ _ (ofs_row _ (i 0).isLt) rfl rfl

/-- Load 17: the table's word at (b, 32 · pb + 17). -/
theorem word_17 (i : grid0.Coords) (xt : (⟨S32x2048, .i32⟩ : BufTy).Contents (Elt F)) :
    tbM0_0.view.readAt (Elt F) (Rect.unit (s := S32x2048) (k0_off35 i) S1x1.size (k0_off35_inb i)).toLoadRect xt (Shape.Idx.first (numel1_S1x1.symm ▸ Nat.one_pos))
      = xt (ix2 (n0 := 32) (n1 := 2048) ⟨(i 0).val, (i 0).isLt⟩ ⟨(i 1).val * 32 + 17, by have h : (i 1).val < 64 := (i 1).isLt; omega⟩) :=
  word_at _ _ xt _ _ _ (ofs_row _ (i 0).isLt) (ofs_col _ (i 1).isLt 17 (by decide))

/-- Transfer 17's source: the 16 channels of row w of batch b. -/
theorem row_17 (i : grid0.Coords) (w : BitVec 32) (hw : k0_chk18 i w) (pc : (⟨S32x262144x16, .f32⟩ : BufTy).Contents (Elt F)) (ch : Fin 16) :
    (((Memref.whole main_arg0).slice (Rect.unit (s := S32x262144x16) (k0_off36 i w) S1x1x16.size (k0_off36_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off36_inb i w hw (1 : Fin 3); omega⟩ ch) :=
  row_at _ _ pc ch _ _ (ofs_row _ (i 0).isLt) rfl rfl

/-- Load 18: the table's word at (b, 32 · pb + 18). -/
theorem word_18 (i : grid0.Coords) (xt : (⟨S32x2048, .i32⟩ : BufTy).Contents (Elt F)) :
    tbM0_0.view.readAt (Elt F) (Rect.unit (s := S32x2048) (k0_off37 i) S1x1.size (k0_off37_inb i)).toLoadRect xt (Shape.Idx.first (numel1_S1x1.symm ▸ Nat.one_pos))
      = xt (ix2 (n0 := 32) (n1 := 2048) ⟨(i 0).val, (i 0).isLt⟩ ⟨(i 1).val * 32 + 18, by have h : (i 1).val < 64 := (i 1).isLt; omega⟩) :=
  word_at _ _ xt _ _ _ (ofs_row _ (i 0).isLt) (ofs_col _ (i 1).isLt 18 (by decide))

/-- Transfer 18's source: the 16 channels of row w of batch b. -/
theorem row_18 (i : grid0.Coords) (w : BitVec 32) (hw : k0_chk19 i w) (pc : (⟨S32x262144x16, .f32⟩ : BufTy).Contents (Elt F)) (ch : Fin 16) :
    (((Memref.whole main_arg0).slice (Rect.unit (s := S32x262144x16) (k0_off38 i w) S1x1x16.size (k0_off38_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off38_inb i w hw (1 : Fin 3); omega⟩ ch) :=
  row_at _ _ pc ch _ _ (ofs_row _ (i 0).isLt) rfl rfl

/-- Load 19: the table's word at (b, 32 · pb + 19). -/
theorem word_19 (i : grid0.Coords) (xt : (⟨S32x2048, .i32⟩ : BufTy).Contents (Elt F)) :
    tbM0_0.view.readAt (Elt F) (Rect.unit (s := S32x2048) (k0_off39 i) S1x1.size (k0_off39_inb i)).toLoadRect xt (Shape.Idx.first (numel1_S1x1.symm ▸ Nat.one_pos))
      = xt (ix2 (n0 := 32) (n1 := 2048) ⟨(i 0).val, (i 0).isLt⟩ ⟨(i 1).val * 32 + 19, by have h : (i 1).val < 64 := (i 1).isLt; omega⟩) :=
  word_at _ _ xt _ _ _ (ofs_row _ (i 0).isLt) (ofs_col _ (i 1).isLt 19 (by decide))

/-- Transfer 19's source: the 16 channels of row w of batch b. -/
theorem row_19 (i : grid0.Coords) (w : BitVec 32) (hw : k0_chk20 i w) (pc : (⟨S32x262144x16, .f32⟩ : BufTy).Contents (Elt F)) (ch : Fin 16) :
    (((Memref.whole main_arg0).slice (Rect.unit (s := S32x262144x16) (k0_off40 i w) S1x1x16.size (k0_off40_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off40_inb i w hw (1 : Fin 3); omega⟩ ch) :=
  row_at _ _ pc ch _ _ (ofs_row _ (i 0).isLt) rfl rfl

/-- Load 20: the table's word at (b, 32 · pb + 20). -/
theorem word_20 (i : grid0.Coords) (xt : (⟨S32x2048, .i32⟩ : BufTy).Contents (Elt F)) :
    tbM0_0.view.readAt (Elt F) (Rect.unit (s := S32x2048) (k0_off41 i) S1x1.size (k0_off41_inb i)).toLoadRect xt (Shape.Idx.first (numel1_S1x1.symm ▸ Nat.one_pos))
      = xt (ix2 (n0 := 32) (n1 := 2048) ⟨(i 0).val, (i 0).isLt⟩ ⟨(i 1).val * 32 + 20, by have h : (i 1).val < 64 := (i 1).isLt; omega⟩) :=
  word_at _ _ xt _ _ _ (ofs_row _ (i 0).isLt) (ofs_col _ (i 1).isLt 20 (by decide))

/-- Transfer 20's source: the 16 channels of row w of batch b. -/
theorem row_20 (i : grid0.Coords) (w : BitVec 32) (hw : k0_chk21 i w) (pc : (⟨S32x262144x16, .f32⟩ : BufTy).Contents (Elt F)) (ch : Fin 16) :
    (((Memref.whole main_arg0).slice (Rect.unit (s := S32x262144x16) (k0_off42 i w) S1x1x16.size (k0_off42_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off42_inb i w hw (1 : Fin 3); omega⟩ ch) :=
  row_at _ _ pc ch _ _ (ofs_row _ (i 0).isLt) rfl rfl

/-- Load 21: the table's word at (b, 32 · pb + 21). -/
theorem word_21 (i : grid0.Coords) (xt : (⟨S32x2048, .i32⟩ : BufTy).Contents (Elt F)) :
    tbM0_0.view.readAt (Elt F) (Rect.unit (s := S32x2048) (k0_off43 i) S1x1.size (k0_off43_inb i)).toLoadRect xt (Shape.Idx.first (numel1_S1x1.symm ▸ Nat.one_pos))
      = xt (ix2 (n0 := 32) (n1 := 2048) ⟨(i 0).val, (i 0).isLt⟩ ⟨(i 1).val * 32 + 21, by have h : (i 1).val < 64 := (i 1).isLt; omega⟩) :=
  word_at _ _ xt _ _ _ (ofs_row _ (i 0).isLt) (ofs_col _ (i 1).isLt 21 (by decide))

/-- Transfer 21's source: the 16 channels of row w of batch b. -/
theorem row_21 (i : grid0.Coords) (w : BitVec 32) (hw : k0_chk22 i w) (pc : (⟨S32x262144x16, .f32⟩ : BufTy).Contents (Elt F)) (ch : Fin 16) :
    (((Memref.whole main_arg0).slice (Rect.unit (s := S32x262144x16) (k0_off44 i w) S1x1x16.size (k0_off44_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off44_inb i w hw (1 : Fin 3); omega⟩ ch) :=
  row_at _ _ pc ch _ _ (ofs_row _ (i 0).isLt) rfl rfl

/-- Load 22: the table's word at (b, 32 · pb + 22). -/
theorem word_22 (i : grid0.Coords) (xt : (⟨S32x2048, .i32⟩ : BufTy).Contents (Elt F)) :
    tbM0_0.view.readAt (Elt F) (Rect.unit (s := S32x2048) (k0_off45 i) S1x1.size (k0_off45_inb i)).toLoadRect xt (Shape.Idx.first (numel1_S1x1.symm ▸ Nat.one_pos))
      = xt (ix2 (n0 := 32) (n1 := 2048) ⟨(i 0).val, (i 0).isLt⟩ ⟨(i 1).val * 32 + 22, by have h : (i 1).val < 64 := (i 1).isLt; omega⟩) :=
  word_at _ _ xt _ _ _ (ofs_row _ (i 0).isLt) (ofs_col _ (i 1).isLt 22 (by decide))

/-- Transfer 22's source: the 16 channels of row w of batch b. -/
theorem row_22 (i : grid0.Coords) (w : BitVec 32) (hw : k0_chk23 i w) (pc : (⟨S32x262144x16, .f32⟩ : BufTy).Contents (Elt F)) (ch : Fin 16) :
    (((Memref.whole main_arg0).slice (Rect.unit (s := S32x262144x16) (k0_off46 i w) S1x1x16.size (k0_off46_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off46_inb i w hw (1 : Fin 3); omega⟩ ch) :=
  row_at _ _ pc ch _ _ (ofs_row _ (i 0).isLt) rfl rfl

/-- Load 23: the table's word at (b, 32 · pb + 23). -/
theorem word_23 (i : grid0.Coords) (xt : (⟨S32x2048, .i32⟩ : BufTy).Contents (Elt F)) :
    tbM0_0.view.readAt (Elt F) (Rect.unit (s := S32x2048) (k0_off47 i) S1x1.size (k0_off47_inb i)).toLoadRect xt (Shape.Idx.first (numel1_S1x1.symm ▸ Nat.one_pos))
      = xt (ix2 (n0 := 32) (n1 := 2048) ⟨(i 0).val, (i 0).isLt⟩ ⟨(i 1).val * 32 + 23, by have h : (i 1).val < 64 := (i 1).isLt; omega⟩) :=
  word_at _ _ xt _ _ _ (ofs_row _ (i 0).isLt) (ofs_col _ (i 1).isLt 23 (by decide))

/-- Transfer 23's source: the 16 channels of row w of batch b. -/
theorem row_23 (i : grid0.Coords) (w : BitVec 32) (hw : k0_chk24 i w) (pc : (⟨S32x262144x16, .f32⟩ : BufTy).Contents (Elt F)) (ch : Fin 16) :
    (((Memref.whole main_arg0).slice (Rect.unit (s := S32x262144x16) (k0_off48 i w) S1x1x16.size (k0_off48_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off48_inb i w hw (1 : Fin 3); omega⟩ ch) :=
  row_at _ _ pc ch _ _ (ofs_row _ (i 0).isLt) rfl rfl

/-- Load 24: the table's word at (b, 32 · pb + 24). -/
theorem word_24 (i : grid0.Coords) (xt : (⟨S32x2048, .i32⟩ : BufTy).Contents (Elt F)) :
    tbM0_0.view.readAt (Elt F) (Rect.unit (s := S32x2048) (k0_off49 i) S1x1.size (k0_off49_inb i)).toLoadRect xt (Shape.Idx.first (numel1_S1x1.symm ▸ Nat.one_pos))
      = xt (ix2 (n0 := 32) (n1 := 2048) ⟨(i 0).val, (i 0).isLt⟩ ⟨(i 1).val * 32 + 24, by have h : (i 1).val < 64 := (i 1).isLt; omega⟩) :=
  word_at _ _ xt _ _ _ (ofs_row _ (i 0).isLt) (ofs_col _ (i 1).isLt 24 (by decide))

/-- Transfer 24's source: the 16 channels of row w of batch b. -/
theorem row_24 (i : grid0.Coords) (w : BitVec 32) (hw : k0_chk25 i w) (pc : (⟨S32x262144x16, .f32⟩ : BufTy).Contents (Elt F)) (ch : Fin 16) :
    (((Memref.whole main_arg0).slice (Rect.unit (s := S32x262144x16) (k0_off50 i w) S1x1x16.size (k0_off50_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off50_inb i w hw (1 : Fin 3); omega⟩ ch) :=
  row_at _ _ pc ch _ _ (ofs_row _ (i 0).isLt) rfl rfl

/-- Load 25: the table's word at (b, 32 · pb + 25). -/
theorem word_25 (i : grid0.Coords) (xt : (⟨S32x2048, .i32⟩ : BufTy).Contents (Elt F)) :
    tbM0_0.view.readAt (Elt F) (Rect.unit (s := S32x2048) (k0_off51 i) S1x1.size (k0_off51_inb i)).toLoadRect xt (Shape.Idx.first (numel1_S1x1.symm ▸ Nat.one_pos))
      = xt (ix2 (n0 := 32) (n1 := 2048) ⟨(i 0).val, (i 0).isLt⟩ ⟨(i 1).val * 32 + 25, by have h : (i 1).val < 64 := (i 1).isLt; omega⟩) :=
  word_at _ _ xt _ _ _ (ofs_row _ (i 0).isLt) (ofs_col _ (i 1).isLt 25 (by decide))

/-- Transfer 25's source: the 16 channels of row w of batch b. -/
theorem row_25 (i : grid0.Coords) (w : BitVec 32) (hw : k0_chk26 i w) (pc : (⟨S32x262144x16, .f32⟩ : BufTy).Contents (Elt F)) (ch : Fin 16) :
    (((Memref.whole main_arg0).slice (Rect.unit (s := S32x262144x16) (k0_off52 i w) S1x1x16.size (k0_off52_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off52_inb i w hw (1 : Fin 3); omega⟩ ch) :=
  row_at _ _ pc ch _ _ (ofs_row _ (i 0).isLt) rfl rfl

/-- Load 26: the table's word at (b, 32 · pb + 26). -/
theorem word_26 (i : grid0.Coords) (xt : (⟨S32x2048, .i32⟩ : BufTy).Contents (Elt F)) :
    tbM0_0.view.readAt (Elt F) (Rect.unit (s := S32x2048) (k0_off53 i) S1x1.size (k0_off53_inb i)).toLoadRect xt (Shape.Idx.first (numel1_S1x1.symm ▸ Nat.one_pos))
      = xt (ix2 (n0 := 32) (n1 := 2048) ⟨(i 0).val, (i 0).isLt⟩ ⟨(i 1).val * 32 + 26, by have h : (i 1).val < 64 := (i 1).isLt; omega⟩) :=
  word_at _ _ xt _ _ _ (ofs_row _ (i 0).isLt) (ofs_col _ (i 1).isLt 26 (by decide))

/-- Transfer 26's source: the 16 channels of row w of batch b. -/
theorem row_26 (i : grid0.Coords) (w : BitVec 32) (hw : k0_chk27 i w) (pc : (⟨S32x262144x16, .f32⟩ : BufTy).Contents (Elt F)) (ch : Fin 16) :
    (((Memref.whole main_arg0).slice (Rect.unit (s := S32x262144x16) (k0_off54 i w) S1x1x16.size (k0_off54_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off54_inb i w hw (1 : Fin 3); omega⟩ ch) :=
  row_at _ _ pc ch _ _ (ofs_row _ (i 0).isLt) rfl rfl

/-- Load 27: the table's word at (b, 32 · pb + 27). -/
theorem word_27 (i : grid0.Coords) (xt : (⟨S32x2048, .i32⟩ : BufTy).Contents (Elt F)) :
    tbM0_0.view.readAt (Elt F) (Rect.unit (s := S32x2048) (k0_off55 i) S1x1.size (k0_off55_inb i)).toLoadRect xt (Shape.Idx.first (numel1_S1x1.symm ▸ Nat.one_pos))
      = xt (ix2 (n0 := 32) (n1 := 2048) ⟨(i 0).val, (i 0).isLt⟩ ⟨(i 1).val * 32 + 27, by have h : (i 1).val < 64 := (i 1).isLt; omega⟩) :=
  word_at _ _ xt _ _ _ (ofs_row _ (i 0).isLt) (ofs_col _ (i 1).isLt 27 (by decide))

/-- Transfer 27's source: the 16 channels of row w of batch b. -/
theorem row_27 (i : grid0.Coords) (w : BitVec 32) (hw : k0_chk28 i w) (pc : (⟨S32x262144x16, .f32⟩ : BufTy).Contents (Elt F)) (ch : Fin 16) :
    (((Memref.whole main_arg0).slice (Rect.unit (s := S32x262144x16) (k0_off56 i w) S1x1x16.size (k0_off56_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off56_inb i w hw (1 : Fin 3); omega⟩ ch) :=
  row_at _ _ pc ch _ _ (ofs_row _ (i 0).isLt) rfl rfl

/-- Load 28: the table's word at (b, 32 · pb + 28). -/
theorem word_28 (i : grid0.Coords) (xt : (⟨S32x2048, .i32⟩ : BufTy).Contents (Elt F)) :
    tbM0_0.view.readAt (Elt F) (Rect.unit (s := S32x2048) (k0_off57 i) S1x1.size (k0_off57_inb i)).toLoadRect xt (Shape.Idx.first (numel1_S1x1.symm ▸ Nat.one_pos))
      = xt (ix2 (n0 := 32) (n1 := 2048) ⟨(i 0).val, (i 0).isLt⟩ ⟨(i 1).val * 32 + 28, by have h : (i 1).val < 64 := (i 1).isLt; omega⟩) :=
  word_at _ _ xt _ _ _ (ofs_row _ (i 0).isLt) (ofs_col _ (i 1).isLt 28 (by decide))

/-- Transfer 28's source: the 16 channels of row w of batch b. -/
theorem row_28 (i : grid0.Coords) (w : BitVec 32) (hw : k0_chk29 i w) (pc : (⟨S32x262144x16, .f32⟩ : BufTy).Contents (Elt F)) (ch : Fin 16) :
    (((Memref.whole main_arg0).slice (Rect.unit (s := S32x262144x16) (k0_off58 i w) S1x1x16.size (k0_off58_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off58_inb i w hw (1 : Fin 3); omega⟩ ch) :=
  row_at _ _ pc ch _ _ (ofs_row _ (i 0).isLt) rfl rfl

/-- Load 29: the table's word at (b, 32 · pb + 29). -/
theorem word_29 (i : grid0.Coords) (xt : (⟨S32x2048, .i32⟩ : BufTy).Contents (Elt F)) :
    tbM0_0.view.readAt (Elt F) (Rect.unit (s := S32x2048) (k0_off59 i) S1x1.size (k0_off59_inb i)).toLoadRect xt (Shape.Idx.first (numel1_S1x1.symm ▸ Nat.one_pos))
      = xt (ix2 (n0 := 32) (n1 := 2048) ⟨(i 0).val, (i 0).isLt⟩ ⟨(i 1).val * 32 + 29, by have h : (i 1).val < 64 := (i 1).isLt; omega⟩) :=
  word_at _ _ xt _ _ _ (ofs_row _ (i 0).isLt) (ofs_col _ (i 1).isLt 29 (by decide))

/-- Transfer 29's source: the 16 channels of row w of batch b. -/
theorem row_29 (i : grid0.Coords) (w : BitVec 32) (hw : k0_chk30 i w) (pc : (⟨S32x262144x16, .f32⟩ : BufTy).Contents (Elt F)) (ch : Fin 16) :
    (((Memref.whole main_arg0).slice (Rect.unit (s := S32x262144x16) (k0_off60 i w) S1x1x16.size (k0_off60_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off60_inb i w hw (1 : Fin 3); omega⟩ ch) :=
  row_at _ _ pc ch _ _ (ofs_row _ (i 0).isLt) rfl rfl

/-- Load 30: the table's word at (b, 32 · pb + 30). -/
theorem word_30 (i : grid0.Coords) (xt : (⟨S32x2048, .i32⟩ : BufTy).Contents (Elt F)) :
    tbM0_0.view.readAt (Elt F) (Rect.unit (s := S32x2048) (k0_off61 i) S1x1.size (k0_off61_inb i)).toLoadRect xt (Shape.Idx.first (numel1_S1x1.symm ▸ Nat.one_pos))
      = xt (ix2 (n0 := 32) (n1 := 2048) ⟨(i 0).val, (i 0).isLt⟩ ⟨(i 1).val * 32 + 30, by have h : (i 1).val < 64 := (i 1).isLt; omega⟩) :=
  word_at _ _ xt _ _ _ (ofs_row _ (i 0).isLt) (ofs_col _ (i 1).isLt 30 (by decide))

/-- Transfer 30's source: the 16 channels of row w of batch b. -/
theorem row_30 (i : grid0.Coords) (w : BitVec 32) (hw : k0_chk31 i w) (pc : (⟨S32x262144x16, .f32⟩ : BufTy).Contents (Elt F)) (ch : Fin 16) :
    (((Memref.whole main_arg0).slice (Rect.unit (s := S32x262144x16) (k0_off62 i w) S1x1x16.size (k0_off62_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off62_inb i w hw (1 : Fin 3); omega⟩ ch) :=
  row_at _ _ pc ch _ _ (ofs_row _ (i 0).isLt) rfl rfl

/-- Load 31: the table's word at (b, 32 · pb + 31). -/
theorem word_31 (i : grid0.Coords) (xt : (⟨S32x2048, .i32⟩ : BufTy).Contents (Elt F)) :
    tbM0_0.view.readAt (Elt F) (Rect.unit (s := S32x2048) (k0_off63 i) S1x1.size (k0_off63_inb i)).toLoadRect xt (Shape.Idx.first (numel1_S1x1.symm ▸ Nat.one_pos))
      = xt (ix2 (n0 := 32) (n1 := 2048) ⟨(i 0).val, (i 0).isLt⟩ ⟨(i 1).val * 32 + 31, by have h : (i 1).val < 64 := (i 1).isLt; omega⟩) :=
  word_at _ _ xt _ _ _ (ofs_row _ (i 0).isLt) (ofs_col _ (i 1).isLt 31 (by decide))

/-- Transfer 31's source: the 16 channels of row w of batch b. -/
theorem row_31 (i : grid0.Coords) (w : BitVec 32) (hw : k0_chk32 i w) (pc : (⟨S32x262144x16, .f32⟩ : BufTy).Contents (Elt F)) (ch : Fin 16) :
    (((Memref.whole main_arg0).slice (Rect.unit (s := S32x262144x16) (k0_off64 i w) S1x1x16.size (k0_off64_inb i w hw)) (fun _ => rfl)).squeeze S16 squeezes_S1x1x16_S16).view.read (Elt F) pc (ix1 ch)
      = pc (ix3 (n0 := 32) (n1 := 262144) (n2 := 16) ⟨(i 0).val, (i 0).isLt⟩ ⟨w.toNat, by
          have h : w.toNat + 1 ≤ 262144 := k0_off64_inb i w hw (1 : Fin 3); omega⟩ ch) :=
  row_at _ _ pc ch _ _ (ofs_row _ (i 0).isLt) rfl rfl

end Cert.KernelIdeal.Words

end
-- ==== Proof.KernelIdealOut.lean ====
/-
  The kernel body's value at one grid point. At the point (b, pb) the body reads the thirty-two words idx[b, 32·pb + r] of
  the index table, copies row idx[b, 32·pb + r] of batch b of the point cloud into row r of a scratch buffer, and stores the
  scratch, a unit axis put in front, as the output block: element (0, r, ch) of the block is element
  (b, idx[b, 32·pb + r], ch) of the point cloud.
-/
import proofs.«139401_j62989990363749_1_alg».proof.Proof.KernelIdealFrame
import proofs.«139401_j62989990363749_1_alg».proof.Proof.KernelIdealWords
import Idealize.ShloMosaic.Lib.Pipeline.Value
import Idealize.ShloMosaic.Lib.ValueIdx
import Idealize.ShloMosaic.Lib.Tactic

set_option maxRecDepth 131072

noncomputable section

namespace Cert.KernelIdeal.KOut

open Cert.KernelIdeal Cert.KernelIdeal.Gen Cert.KernelIdeal.GenP
open Idealize.ShloMosaic Idealize.ShloMosaic.TcCoe Idealize.SL.Sem Idealize.ShloMosaic.ValueIdx Idealize.ShloMosaic.Tactic
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

omit [FloatOps F] in
/-- The point cloud read at equal row numbers. -/
theorem pc_congr (pc : (⟨S32x262144x16, .f32⟩ : BufTy).Contents (Elt F)) (b : Fin 32) (ch : Fin 16) {w w' : BitVec 32} (e : w = w')
    (h : w.toNat < 262144) (h' : w'.toNat < 262144) :
    pc (ix3 (n0 := 32) (n1 := 262144) (n2 := 16) b ⟨w.toNat, h⟩ ch) = pc (ix3 (n0 := 32) (n1 := 262144) (n2 := 16) b ⟨w'.toNat, h'⟩ ch) := by
  subst e; rfl

set_option maxHeartbeats 4000000 in
/-- THE BODY'S VALUE at the point (b, pb): element (0, r, ch) of what it leaves in the output block is element
    (b, idx[b, 32·pb + r], ch) of the point cloud. -/
theorem out_A (c : Dev nD) (i : grid0.Coords) (arg4 : Memref sig .tc .vmem S1x32x16 .f32) (harg4 : arg4.IsWhole) (arg5 : Memref sig .tc .vmem S32x16 .f32) (harg5 : arg5.IsWhole)
    (xt0 : TbBuf0 (F := F) c tbM0_0) (fh0 : HbBuf0 (F := F) c hbM0_0) (k0_hw1 : k0_chk1 i (tbM0_0.view.readAt (Elt F) (Rect.unit (s := S32x2048) (k0_off1 i) S1x1.size (k0_off1_inb i)).toLoadRect xt0 (Shape.Idx.first (numel1_S1x1.symm ▸ Nat.one_pos)))) (k0_hw2 : k0_chk2 i (tbM0_0.view.readAt (Elt F) (Rect.unit (s := S32x2048) (k0_off3 i) S1x1.size (k0_off3_inb i)).toLoadRect xt0 (Shape.Idx.first (numel1_S1x1.symm ▸ Nat.one_pos)))) (k0_hw3 : k0_chk3 i (tbM0_0.view.readAt (Elt F) (Rect.unit (s := S32x2048) (k0_off5 i) S1x1.size (k0_off5_inb i)).toLoadRect xt0 (Shape.Idx.first (numel1_S1x1.symm ▸ Nat.one_pos)))) (k0_hw4 : k0_chk4 i (tbM0_0.view.readAt (Elt F) (Rect.unit (s := S32x2048) (k0_off7 i) S1x1.size (k0_off7_inb i)).toLoadRect xt0 (Shape.Idx.first (numel1_S1x1.symm ▸ Nat.one_pos)))) (k0_hw5 : k0_chk5 i (tbM0_0.view.readAt (Elt F) (Rect.unit (s := S32x2048) (k0_off9 i) S1x1.size (k0_off9_inb i)).toLoadRect xt0 (Shape.Idx.first (numel1_S1x1.symm ▸ Nat.one_pos)))) (k0_hw6 : k0_chk6 i (tbM0_0.view.readAt (Elt F) (Rect.unit (s := S32x2048) (k0_off11 i) S1x1.size (k0_off11_inb i)).toLoadRect xt0 (Shape.Idx.first (numel1_S1x1.symm ▸ Nat.one_pos)))) (k0_hw7 : k0_chk7 i (tbM0_0.view.readAt (Elt F) (Rect.unit (s := S32x2048) (k0_off13 i) S1x1.size (k0_off13_inb i)).toLoadRect xt0 (Shape.Idx.first (numel1_S1x1.symm ▸ Nat.one_pos)))) (k0_hw8 : k0_chk8 i (tbM0_0.view.readAt (Elt F) (Rect.unit (s := S32x2048) (k0_off15 i) S1x1.size (k0_off15_inb i)).toLoadRect xt0 (Shape.Idx.first (numel1_S1x1.symm ▸ Nat.one_pos)))) (k0_hw9 : k0_chk9 i (tbM0_0.view.readAt (Elt F) (Rect.unit (s := S32x2048) (k0_off17 i) S1x1.size (k0_off17_inb i)).toLoadRect xt0 (Shape.Idx.first (numel1_S1x1.symm ▸ Nat.one_pos)))) (k0_hw10 : k0_chk10 i (tbM0_0.view.readAt (Elt F) (Rect.unit (s := S32x2048) (k0_off19 i) S1x1.size (k0_off19_inb i)).toLoadRect xt0 (Shape.Idx.first (numel1_S1x1.symm ▸ Nat.one_pos)))) (k0_hw11 : k0_chk11 i (tbM0_0.view.readAt (Elt F) (Rect.unit (s := S32x2048) (k0_off21 i) S1x1.size (k0_off21_inb i)).toLoadRect xt0 (Shape.Idx.first (numel1_S1x1.symm ▸ Nat.one_pos)))) (k0_hw12 : k0_chk12 i (tbM0_0.view.readAt (Elt F) (Rect.unit (s := S32x2048) (k0_off23 i) S1x1.size (k0_off23_inb i)).toLoadRect xt0 (Shape.Idx.first (numel1_S1x1.symm ▸ Nat.one_pos)))) (k0_hw13 : k0_chk13 i (tbM0_0.view.readAt (Elt F) (Rect.unit (s := S32x2048) (k0_off25 i) S1x1.size (k0_off25_inb i)).toLoadRect xt0 (Shape.Idx.first (numel1_S1x1.symm ▸ Nat.one_pos)))) (k0_hw14 : k0_chk14 i (tbM0_0.view.readAt (Elt F) (Rect.unit (s := S32x2048) (k0_off27 i) S1x1.size (k0_off27_inb i)).toLoadRect xt0 (Shape.Idx.first (numel1_S1x1.symm ▸ Nat.one_pos)))) (k0_hw15 : k0_chk15 i (tbM0_0.view.readAt (Elt F) (Rect.unit (s := S32x2048) (k0_off29 i) S1x1.size (k0_off29_inb i)).toLoadRect xt0 (Shape.Idx.first (numel1_S1x1.symm ▸ Nat.one_pos)))) (k0_hw16 : k0_chk16 i (tbM0_0.view.readAt (Elt F) (Rect.unit (s := S32x2048) (k0_off31 i) S1x1.size (k0_off31_inb i)).toLoadRect xt0 (Shape.Idx.first (numel1_S1x1.symm ▸ Nat.one_pos)))) (k0_hw17 : k0_chk17 i (tbM0_0.view.readAt (Elt F) (Rect.unit (s := S32x2048) (k0_off33 i) S1x1.size (k0_off33_inb i)).toLoadRect xt0 (Shape.Idx.first (numel1_S1x1.symm ▸ Nat.one_pos)))) (k0_hw18 : k0_chk18 i (tbM0_0.view.readAt (Elt F) (Rect.unit (s := S32x2048) (k0_off35 i) S1x1.size (k0_off35_inb i)).toLoadRect xt0 (Shape.Idx.first (numel1_S1x1.symm ▸ Nat.one_pos)))) (k0_hw19 : k0_chk19 i (tbM0_0.view.readAt (Elt F) (Rect.unit (s := S32x2048) (k0_off37 i) S1x1.size (k0_off37_inb i)).toLoadRect xt0 (Shape.Idx.first (numel1_S1x1.symm ▸ Nat.one_pos)))) (k0_hw20 : k0_chk20 i (tbM0_0.view.readAt (Elt F) (Rect.unit (s := S32x2048) (k0_off39 i) S1x1.size (k0_off39_inb i)).toLoadRect xt0 (Shape.Idx.first (numel1_S1x1.symm ▸ Nat.one_pos)))) (k0_hw21 : k0_chk21 i (tbM0_0.view.readAt (Elt F) (Rect.unit (s := S32x2048) (k0_off41 i) S1x1.size (k0_off41_inb i)).toLoadRect xt0 (Shape.Idx.first (numel1_S1x1.symm ▸ Nat.one_pos)))) (k0_hw22 : k0_chk22 i (tbM0_0.view.readAt (Elt F) (Rect.unit (s := S32x2048) (k0_off43 i) S1x1.size (k0_off43_inb i)).toLoadRect xt0 (Shape.Idx.first (numel1_S1x1.symm ▸ Nat.one_pos)))) (k0_hw23 : k0_chk23 i (tbM0_0.view.readAt (Elt F) (Rect.unit (s := S32x2048) (k0_off45 i) S1x1.size (k0_off45_inb i)).toLoadRect xt0 (Shape.Idx.first (numel1_S1x1.symm ▸ Nat.one_pos)))) (k0_hw24 : k0_chk24 i (tbM0_0.view.readAt (Elt F) (Rect.unit (s := S32x2048) (k0_off47 i) S1x1.size (k0_off47_inb i)).toLoadRect xt0 (Shape.Idx.first (numel1_S1x1.symm ▸ Nat.one_pos)))) (k0_hw25 : k0_chk25 i (tbM0_0.view.readAt (Elt F) (Rect.unit (s := S32x2048) (k0_off49 i) S1x1.size (k0_off49_inb i)).toLoadRect xt0 (Shape.Idx.first (numel1_S1x1.symm ▸ Nat.one_pos)))) (k0_hw26 : k0_chk26 i (tbM0_0.view.readAt (Elt F) (Rect.unit (s := S32x2048) (k0_off51 i) S1x1.size (k0_off51_inb i)).toLoadRect xt0 (Shape.Idx.first (numel1_S1x1.symm ▸ Nat.one_pos)))) (k0_hw27 : k0_chk27 i (tbM0_0.view.readAt (Elt F) (Rect.unit (s := S32x2048) (k0_off53 i) S1x1.size (k0_off53_inb i)).toLoadRect xt0 (Shape.Idx.first (numel1_S1x1.symm ▸ Nat.one_pos)))) (k0_hw28 : k0_chk28 i (tbM0_0.view.readAt (Elt F) (Rect.unit (s := S32x2048) (k0_off55 i) S1x1.size (k0_off55_inb i)).toLoadRect xt0 (Shape.Idx.first (numel1_S1x1.symm ▸ Nat.one_pos)))) (k0_hw29 : k0_chk29 i (tbM0_0.view.readAt (Elt F) (Rect.unit (s := S32x2048) (k0_off57 i) S1x1.size (k0_off57_inb i)).toLoadRect xt0 (Shape.Idx.first (numel1_S1x1.symm ▸ Nat.one_pos)))) (k0_hw30 : k0_chk30 i (tbM0_0.view.readAt (Elt F) (Rect.unit (s := S32x2048) (k0_off59 i) S1x1.size (k0_off59_inb i)).toLoadRect xt0 (Shape.Idx.first (numel1_S1x1.symm ▸ Nat.one_pos)))) (k0_hw31 : k0_chk31 i (tbM0_0.view.readAt (Elt F) (Rect.unit (s := S32x2048) (k0_off61 i) S1x1.size (k0_off61_inb i)).toLoadRect xt0 (Shape.Idx.first (numel1_S1x1.symm ▸ Nat.one_pos)))) (k0_hw32 : k0_chk32 i (tbM0_0.view.readAt (Elt F) (Rect.unit (s := S32x2048) (k0_off63 i) S1x1.size (k0_off63_inb i)).toLoadRect xt0 (Shape.Idx.first (numel1_S1x1.symm ▸ Nat.one_pos))))
    (hlt : ∀ j : S32x2048.Idx, ((xt0 : (⟨S32x2048, .i32⟩ : BufTy).Contents (Elt F)) j).toNat < 262144) (y0 : Fin 1) (r : Fin 32) (ch : Fin 16) :
    out0_A_0 c i arg4 harg4 arg5 harg5 xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 (ix3 (n0 := 1) (n1 := 32) (n2 := 16) y0 r ch)
      = (fh0 : (⟨S32x262144x16, .f32⟩ : BufTy).Contents (Elt F)) (ix3 (n0 := 32) (n1 := 262144) (n2 := 16) ⟨(i 0).val, (i 0).isLt⟩
          ⟨((xt0 : (⟨S32x2048, .i32⟩ : BufTy).Contents (Elt F)) (ix2 (n0 := 32) (n1 := 2048) ⟨(i 0).val, (i 0).isLt⟩
            ⟨(i 1).val * 32 + r.val, by have h1 : (i 1).val < 64 := (i 1).isLt; have h2 := r.isLt; omega⟩)).toNat, hlt _⟩ ch) := by
  unfold out0_A_0
  rw [View.read_writes_eq_canon _ _ _ (cover0_A_0 c i arg4 harg4 arg5 harg5 xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32)]
  unfold kernelRun0_A
  dsimp only
  sl_unfold_words
  rw [View.canon_unit_zero hz3]
  unfold k0_pay1
  dsimp only
  rw [shapeCast_addUnit_apply]
  rw [View.readAt_eq_ld, harg5.read_unread, View.ld_unit_zero (S := S32x16) hz2]
  have e : (fun a : Fin 2 => ix3 (n0 := 1) (n1 := 32) (n2 := 16) y0 r ch a.succ) = ix2 (n0 := 32) (n1 := 16) r ch :=
    funext fun a => by match a with | ⟨0, _⟩ => rfl | ⟨1, _⟩ => rfl
  rw [e, Cert.KernelIdeal.Rows.table_ix2]
  obtain ⟨k, hk⟩ := r
  interval_cases k
  · exact (Cert.KernelIdeal.Words.row_0 i _ k0_hw1 fh0 ch).trans (pc_congr fh0 _ ch (Cert.KernelIdeal.Words.word_0 i xt0) _ _)
  · exact (Cert.KernelIdeal.Words.row_1 i _ k0_hw2 fh0 ch).trans (pc_congr fh0 _ ch (Cert.KernelIdeal.Words.word_1 i xt0) _ _)
  · exact (Cert.KernelIdeal.Words.row_2 i _ k0_hw3 fh0 ch).trans (pc_congr fh0 _ ch (Cert.KernelIdeal.Words.word_2 i xt0) _ _)
  · exact (Cert.KernelIdeal.Words.row_3 i _ k0_hw4 fh0 ch).trans (pc_congr fh0 _ ch (Cert.KernelIdeal.Words.word_3 i xt0) _ _)
  · exact (Cert.KernelIdeal.Words.row_4 i _ k0_hw5 fh0 ch).trans (pc_congr fh0 _ ch (Cert.KernelIdeal.Words.word_4 i xt0) _ _)
  · exact (Cert.KernelIdeal.Words.row_5 i _ k0_hw6 fh0 ch).trans (pc_congr fh0 _ ch (Cert.KernelIdeal.Words.word_5 i xt0) _ _)
  · exact (Cert.KernelIdeal.Words.row_6 i _ k0_hw7 fh0 ch).trans (pc_congr fh0 _ ch (Cert.KernelIdeal.Words.word_6 i xt0) _ _)
  · exact (Cert.KernelIdeal.Words.row_7 i _ k0_hw8 fh0 ch).trans (pc_congr fh0 _ ch (Cert.KernelIdeal.Words.word_7 i xt0) _ _)
  · exact (Cert.KernelIdeal.Words.row_8 i _ k0_hw9 fh0 ch).trans (pc_congr fh0 _ ch (Cert.KernelIdeal.Words.word_8 i xt0) _ _)
  · exact (Cert.KernelIdeal.Words.row_9 i _ k0_hw10 fh0 ch).trans (pc_congr fh0 _ ch (Cert.KernelIdeal.Words.word_9 i xt0) _ _)
  · exact (Cert.KernelIdeal.Words.row_10 i _ k0_hw11 fh0 ch).trans (pc_congr fh0 _ ch (Cert.KernelIdeal.Words.word_10 i xt0) _ _)
  · exact (Cert.KernelIdeal.Words.row_11 i _ k0_hw12 fh0 ch).trans (pc_congr fh0 _ ch (Cert.KernelIdeal.Words.word_11 i xt0) _ _)
  · exact (Cert.KernelIdeal.Words.row_12 i _ k0_hw13 fh0 ch).trans (pc_congr fh0 _ ch (Cert.KernelIdeal.Words.word_12 i xt0) _ _)
  · exact (Cert.KernelIdeal.Words.row_13 i _ k0_hw14 fh0 ch).trans (pc_congr fh0 _ ch (Cert.KernelIdeal.Words.word_13 i xt0) _ _)
  · exact (Cert.KernelIdeal.Words.row_14 i _ k0_hw15 fh0 ch).trans (pc_congr fh0 _ ch (Cert.KernelIdeal.Words.word_14 i xt0) _ _)
  · exact (Cert.KernelIdeal.Words.row_15 i _ k0_hw16 fh0 ch).trans (pc_congr fh0 _ ch (Cert.KernelIdeal.Words.word_15 i xt0) _ _)
  · exact (Cert.KernelIdeal.Words.row_16 i _ k0_hw17 fh0 ch).trans (pc_congr fh0 _ ch (Cert.KernelIdeal.Words.word_16 i xt0) _ _)
  · exact (Cert.KernelIdeal.Words.row_17 i _ k0_hw18 fh0 ch).trans (pc_congr fh0 _ ch (Cert.KernelIdeal.Words.word_17 i xt0) _ _)
  · exact (Cert.KernelIdeal.Words.row_18 i _ k0_hw19 fh0 ch).trans (pc_congr fh0 _ ch (Cert.KernelIdeal.Words.word_18 i xt0) _ _)
  · exact (Cert.KernelIdeal.Words.row_19 i _ k0_hw20 fh0 ch).trans (pc_congr fh0 _ ch (Cert.KernelIdeal.Words.word_19 i xt0) _ _)
  · exact (Cert.KernelIdeal.Words.row_20 i _ k0_hw21 fh0 ch).trans (pc_congr fh0 _ ch (Cert.KernelIdeal.Words.word_20 i xt0) _ _)
  · exact (Cert.KernelIdeal.Words.row_21 i _ k0_hw22 fh0 ch).trans (pc_congr fh0 _ ch (Cert.KernelIdeal.Words.word_21 i xt0) _ _)
  · exact (Cert.KernelIdeal.Words.row_22 i _ k0_hw23 fh0 ch).trans (pc_congr fh0 _ ch (Cert.KernelIdeal.Words.word_22 i xt0) _ _)
  · exact (Cert.KernelIdeal.Words.row_23 i _ k0_hw24 fh0 ch).trans (pc_congr fh0 _ ch (Cert.KernelIdeal.Words.word_23 i xt0) _ _)
  · exact (Cert.KernelIdeal.Words.row_24 i _ k0_hw25 fh0 ch).trans (pc_congr fh0 _ ch (Cert.KernelIdeal.Words.word_24 i xt0) _ _)
  · exact (Cert.KernelIdeal.Words.row_25 i _ k0_hw26 fh0 ch).trans (pc_congr fh0 _ ch (Cert.KernelIdeal.Words.word_25 i xt0) _ _)
  · exact (Cert.KernelIdeal.Words.row_26 i _ k0_hw27 fh0 ch).trans (pc_congr fh0 _ ch (Cert.KernelIdeal.Words.word_26 i xt0) _ _)
  · exact (Cert.KernelIdeal.Words.row_27 i _ k0_hw28 fh0 ch).trans (pc_congr fh0 _ ch (Cert.KernelIdeal.Words.word_27 i xt0) _ _)
  · exact (Cert.KernelIdeal.Words.row_28 i _ k0_hw29 fh0 ch).trans (pc_congr fh0 _ ch (Cert.KernelIdeal.Words.word_28 i xt0) _ _)
  · exact (Cert.KernelIdeal.Words.row_29 i _ k0_hw30 fh0 ch).trans (pc_congr fh0 _ ch (Cert.KernelIdeal.Words.word_29 i xt0) _ _)
  · exact (Cert.KernelIdeal.Words.row_30 i _ k0_hw31 fh0 ch).trans (pc_congr fh0 _ ch (Cert.KernelIdeal.Words.word_30 i xt0) _ _)
  · exact (Cert.KernelIdeal.Words.row_31 i _ k0_hw32 fh0 ch).trans (pc_congr fh0 _ ch (Cert.KernelIdeal.Words.word_31 i xt0) _ _)

end Cert.KernelIdeal.KOut

end
-- ==== Proof.KernelIdealBlocks.lean ====
/-
  The output window's block geometry. The grid is 32 × 64; at the point with coordinates (g0, g1) the window's block index
  is (g0, g1, 0), the block is 1 × 32 × 16 of the 32 × 2048 × 16 array: element (y0, y1, y2) of the block sits at
  (g0, 32 · g1 + y1, y2). Every index (i0, i1, i2) of the array is therefore in the block of the point (i0, i1 / 32), every
  point writes its block back, and an array that receives at every point the block of one function G ends at G.
  Stated at ANY admissible contents of the prefetched table: the window's index map reads none of it.
-/
import proofs.«139401_j62989990363749_1_alg».proof.Proof.Gen.KernelIdeal.Points
import proofs.«139401_j62989990363749_1_alg».proof.Proof.Gen.KernelIdeal.Launch
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.ValueIdx
open Idealize.ShloMosaic.Pipeline (Dat Cfg Window)

variable {F : FTy → Type} [FloatOps F]

/-! ## The grid's coordinates and the index map -/

/-- A point's first coordinate: its number divided by 64. -/
theorem coords0 (t : Fin grid0.N) : (grid0.coords t 0).val = t.val / 64 % 32 := rfl
/-- A point's second coordinate: its number modulo 64. -/
theorem coords1 (t : Fin grid0.N) : (grid0.coords t 1).val = t.val / 1 % 64 := rfl

theorem coords0_lt (t : Fin grid0.N) : (grid0.coords t 0).val < 32 := (grid0.coords t 0).isLt
theorem coords1_lt (t : Fin grid0.N) : (grid0.coords t 1).val < 64 := (grid0.coords t 1).isLt

/-- The index map returns the two grid coordinates, then 0 (each a word below 2³²). -/
theorem transform_0 (i : grid0.Coords) : cc0_transform_1 i 0 = (i 0).val := by
  show (BitVec.ofNat 32 (i 0).val).toNat = (i 0).val
  have h : (i 0).val < 32 := (i 0).isLt
  rw [BitVec.toNat_ofNat]; exact Nat.mod_eq_of_lt (by omega)
theorem transform_1 (i : grid0.Coords) : cc0_transform_1 i 1 = (i 1).val := by
  show (BitVec.ofNat 32 (i 1).val).toNat = (i 1).val
  have h : (i 1).val < 64 := (i 1).isLt
  rw [BitVec.toNat_ofNat]; exact Nat.mod_eq_of_lt (by omega)
theorem transform_2 (i : grid0.Coords) : cc0_transform_1 i 2 = 0 := rfl

/-- The window's block index at point t is the index map at t's coordinates, at any contents of the table. -/
theorem index_eq (a : (pcfg0 (F := F)).Adm) (t : Fin (cfg0 a).N) :
    ((cfg0 a).win 0).index t = cc0_transform_1 (grid0.coords t) := rfl

/-! ## A block's elements in the array -/

/-- ELEMENT y OF POINT t'S BLOCK sits in the array at (g0, 32 · g1 + y1, y2), (g0, g1) the point's coordinates. -/
theorem emb_blk (a : (pcfg0 (F := F)).Adm) (t : Fin (cfg0 a).N) (y : S1x32x16.Idx) :
    (((cfg0 a).win 0).blk t).view.emb y
      = ix3 (n0 := 32) (n1 := 2048) (n2 := 16) ⟨(grid0.coords t 0).val, coords0_lt t⟩
          ⟨(grid0.coords t 1).val * 32 + (y 1).val, by
            have h1 := coords1_lt t; have h2 : (y 1).val < 32 := (y 1).isLt; omega⟩
          ⟨(y 2).val, (y 2).isLt⟩ := by
  funext d; refine Fin.ext ?_
  match d with
  | ⟨0, _⟩ =>
    have hy : (y 0).val < 1 := (y 0).isLt
    show ((((cfg0 a).win 0).rect t).emb y (0 : Fin 3) : Nat) = (grid0.coords t 0).val
    rw [Window.rect_emb_val ((cfg0 a).win 0) t y (0 : Fin 3), index_eq, transform_0]
    show (grid0.coords t 0).val * 1 + (y 0).val = (grid0.coords t 0).val
    omega
  | ⟨1, _⟩ =>
    show ((((cfg0 a).win 0).rect t).emb y (1 : Fin 3) : Nat) = (grid0.coords t 1).val * 32 + (y 1).val
    rw [Window.rect_emb_val ((cfg0 a).win 0) t y (1 : Fin 3), index_eq, transform_1]
    rfl
  | ⟨2, _⟩ =>
    show ((((cfg0 a).win 0).rect t).emb y (2 : Fin 3) : Nat) = (y 2).val
    rw [Window.rect_emb_val ((cfg0 a).win 0) t y (2 : Fin 3), index_eq, transform_2]
    show 0 * 16 + (y 2).val = (y 2).val
    omega

/-- An index of the array is in point t's block iff each coordinate is in the block's range on its axis. -/
theorem mem_blk (a : (pcfg0 (F := F)).Adm) (t : Fin (cfg0 a).N) (i : S32x2048x16.Idx) :
    i ∈ (((cfg0 a).win 0).blk t).view.set ↔ ∀ d : Fin 3, ((cfg0 a).win 0).index t d * S1x32x16.size d ≤ (i d).val
      ∧ (i d).val < ((cfg0 a).win 0).index t d * S1x32x16.size d + S1x32x16.size d := by
  have e : (((cfg0 a).win 0).blk t).view.set = (((cfg0 a).win 0).rect t).set := View.set_slice_whole main_v17 _
  rw [e]
  exact Rect.mem_set_unit

/-! ## The blocks cover the array -/

/-- EVERY INDEX OF THE ARRAY is in the block of a point that writes its block back: the point (i0, i1 / 32). -/
theorem cover (a : (pcfg0 (F := F)).Adm) (i : S32x2048x16.Idx) :
    ∃ t : Fin (cfg0 a).N, ((cfg0 a).win 0).flush t = true ∧ i ∈ (((cfg0 a).win 0).blk t).view.set := by
  have h0 : (i 0).val < 32 := (i 0).isLt
  have h1 : (i 1).val < 2048 := (i 1).isLt
  have h2 : (i 2).val < 16 := (i 2).isLt
  have hN : grid0.N = 2048 := N_0
  let t : Fin grid0.N := ⟨(i 0).val * 64 + (i 1).val / 32, by rw [hN]; omega⟩
  have ht : t.val = (i 0).val * 64 + (i 1).val / 32 := rfl
  have c0 : (grid0.coords t 0).val = (i 0).val := by rw [coords0, ht]; omega
  have c1 : (grid0.coords t 1).val = (i 1).val / 32 := by rw [coords1, ht]; omega
  refine ⟨t, flush0_0 a t, ?_⟩
  rw [mem_blk, index_eq]
  intro d
  match d with
  | ⟨0, _⟩ =>
    show cc0_transform_1 (grid0.coords t) 0 * 1 ≤ (i 0).val ∧ (i 0).val < cc0_transform_1 (grid0.coords t) 0 * 1 + 1
    rw [transform_0, c0]
    omega
  | ⟨1, _⟩ =>
    show cc0_transform_1 (grid0.coords t) 1 * 32 ≤ (i 1).val ∧ (i 1).val < cc0_transform_1 (grid0.coords t) 1 * 32 + 32
    rw [transform_1, c1]
    omega
  | ⟨2, _⟩ =>
    show cc0_transform_1 (grid0.coords t) 2 * 16 ≤ (i 2).val ∧ (i 2).val < cc0_transform_1 (grid0.coords t) 2 * 16 + 16
    rw [transform_2]
    omega

/-! ## From the blocks to the array -/

/-- An array that receives, at every point, that point's block of one function G ends holding G. -/
theorem final_of (a : (pcfg0 (F := F)).Adm) (c : Dev nD)
    (D : Dat τ (Elt F) Unit ℕ (Pipeline.UD sig nD τ) ℕ (cfg0 a) c) (G : S32x2048x16.Idx → Elt F .f32)
    (hfl : ∀ t : Fin (cfg0 a).N, D.flushed 0 t = (((cfg0 a).win 0).blk t).view.read (Elt F) G) :
    D.arrAt 0 (cfg0 a).N = G :=
  D.arrAt_eq_of_cover 0 G (fun t _ => hfl t) (cover a)

end Cert.KernelIdeal.Blocks

end
-- ==== Proof.GatherSpec.lean ====
/-
  The result both programs compute, as ONE function of the point cloud and the index table: result row `(b, p)` is
  row `idx[b, p]` of batch `b` of the point cloud, channel by channel. The table's entries are read as unsigned numbers; they are
  below the number of rows (the hypothesis `h`), so the row exists.
-/
import Idealize.ShloMosaic.Lib.ValueIdx
import proofs.«139401_j62989990363749_1_alg».proof.Proof.IdxSpec

noncomputable section

namespace Cert.Spec

open Idealize.ShloMosaic Idealize.ShloMosaic.ValueIdx

/-- `rowsAt pc idx h (b, p, ch) = pc (b, idx (b, p), ch)`. -/
def rowsAt {α : Type} (pc : SBxNxC.Idx → α) (idx : SBxP.Idx → BitVec 32) (h : ∀ j, (idx j).toNat < 262144) : SBxPxC.Idx → α :=
  fun j => pc (ix3 (n0 := 32) (n1 := 262144) (n2 := 16) ⟨(j 0).val, (j 0).isLt⟩
    ⟨(idx (ix2 (n0 := 32) (n1 := 2048) ⟨(j 0).val, (j 0).isLt⟩ ⟨(j 1).val, (j 1).isLt⟩)).toNat, h _⟩ ⟨(j 2).val, (j 2).isLt⟩)

/-- The same at explicit coordinates. -/
theorem rowsAt_ix3 {α : Type} (pc : SBxNxC.Idx → α) (idx : SBxP.Idx → BitVec 32) (h : ∀ j, (idx j).toNat < 262144)
    (b : Fin 32) (p : Fin 2048) (ch : Fin 16) :
    rowsAt pc idx h (ix3 b p ch) = pc (ix3 b ⟨(idx (ix2 b p)).toNat, h _⟩ ch) := rfl

end Cert.Spec

end
-- ==== Proof.KernelIdealValue.lean ====
/-
  What the kernel leaves in its result array. At the grid point (b, pb) the body reads the thirty-two words
  idx[b, 32·pb + r], r = 0 … 31, of the index table, copies row idx[b, 32·pb + r] of batch b of the point cloud into row
  r of a scratch buffer, and stores the scratch, a unit axis put in front, as the output block; block (b, pb) of the
  result is its rows 32·pb … 32·pb + 31 of batch b. So element (b, p, ch) of the result is element
  (b, idx[b, p], ch) of the point cloud: the specification's function of the point cloud and the table.
-/
import proofs.«139401_j62989990363749_1_alg».proof.Proof.KernelIdealFrame
import proofs.«139401_j62989990363749_1_alg».proof.Proof.KernelIdealOut
import proofs.«139401_j62989990363749_1_alg».proof.Proof.KernelIdealWords
import proofs.«139401_j62989990363749_1_alg».proof.Proof.KernelIdealBlocks
import proofs.«139401_j62989990363749_1_alg».proof.Proof.KernelIdealHyps
import proofs.«139401_j62989990363749_1_alg».proof.Proof.GatherSpec
import proofs.«139401_j62989990363749_1_alg».proof.Proof.IdxRange
import Idealize.ShloMosaic.Lib.Pipeline.Value
import Idealize.ShloMosaic.Lib.ValueIdx
import Idealize.ShloMosaic.Lib.Tactic

set_option maxRecDepth 131072

noncomputable section

namespace Cert.KernelIdeal.KValue

open Cert.KernelIdeal.KOut Cert.KernelIdeal Cert.KernelIdeal.Gen Cert.KernelIdeal.GenP Cert.KernelIdeal.HypsProof
open Idealize.ShloMosaic Idealize.ShloMosaic.TcCoe Idealize.SL.Sem Idealize.ShloMosaic.ValueIdx Idealize.ShloMosaic.Tactic
open Idealize.ShloMosaic.Pipeline (Dat)

variable {F : FTy → Type} [FloatOps F]

omit [FloatOps F] in
/-- The specification's function at equal point clouds and equal tables. -/
theorem rowsAt_congr {α : Type} {pc pc' : Cert.Spec.SBxNxC.Idx → α} {idx idx' : Cert.Spec.SBxP.Idx → BitVec 32}
    {h : ∀ j, (idx j).toNat < 262144} {h' : ∀ j, (idx' j).toNat < 262144} (e0 : pc = pc') (e1 : idx = idx') :
    Cert.Spec.rowsAt pc idx h = Cert.Spec.rowsAt pc' idx' h' := by
  subst e0 e1; rfl

variable (m : (ℓ : Loc nD τ sig) → Buf (Elt F) ℓ) (ρ : Dev nD → PrngReg)

/-- Every entry of the table the region finds is a row number. -/
theorem tbl_lt (j : S32x2048.Idx) : ((tbl m 0 : (⟨S32x2048, .i32⟩ : BufTy).Contents (Elt F)) j).toNat < 262144 := by
  rw [tbl_eq]; exact Cert.Spec.idxOf_lt _ _

/-- The result: the rows of the point cloud the table names. -/
abbrev result (c : Dev nD) : S32x2048x16.Idx → Elt F .f32 :=
  Cert.Spec.rowsAt (V m c main_arg0) (tbl m 0) (tbl_lt m)

/-- After the body at point t the output block holds the result's block. -/
theorem outsAt_eq (c : Dev nD) (t : Fin (cfgM m (ok m)).N) (y0 : Fin 1) (r : Fin 32) (ch : Fin 16) :
    outsAt0 m (ok m) (hyps m) c t (ix3 (n0 := 1) (n1 := 32) (n2 := 16) y0 r ch)
      = result m c (ix3 (n0 := 32) (n1 := 2048) (n2 := 16) ⟨(grid0.coords t 0).val, Blocks.coords0_lt t⟩
          ⟨(grid0.coords t 1).val * 32 + r.val, by have h1 := Blocks.coords1_lt t; have h2 := r.isLt; omega⟩ ch) := by
  unfold outsAt0
  exact out_A (F := F) c (grid0.coords t) (ms0_0 m (ok m) t) (hs0_0 m (ok m) t) scM0_0 (Memref.isWhole_whole _) (tbl m 0) (V m c main_arg0)
    (Hyps.c0 (hyps m) c t) (Hyps.c1 (hyps m) c t) (Hyps.c2 (hyps m) c t) (Hyps.c3 (hyps m) c t) (Hyps.c4 (hyps m) c t) (Hyps.c5 (hyps m) c t) (Hyps.c6 (hyps m) c t) (Hyps.c7 (hyps m) c t) (Hyps.c8 (hyps m) c t) (Hyps.c9 (hyps m) c t) (Hyps.c10 (hyps m) c t) (Hyps.c11 (hyps m) c t) (Hyps.c12 (hyps m) c t) (Hyps.c13 (hyps m) c t) (Hyps.c14 (hyps m) c t) (Hyps.c15 (hyps m) c t) (Hyps.c16 (hyps m) c t) (Hyps.c17 (hyps m) c t) (Hyps.c18 (hyps m) c t) (Hyps.c19 (hyps m) c t) (Hyps.c20 (hyps m) c t) (Hyps.c21 (hyps m) c t) (Hyps.c22 (hyps m) c t) (Hyps.c23 (hyps m) c t) (Hyps.c24 (hyps m) c t) (Hyps.c25 (hyps m) c t) (Hyps.c26 (hyps m) c t) (Hyps.c27 (hyps m) c t) (Hyps.c28 (hyps m) c t) (Hyps.c29 (hyps m) c t) (Hyps.c30 (hyps m) c t) (Hyps.c31 (hyps m) c t) (tbl_lt m) y0 r ch

set_option maxHeartbeats 4000000 in
/-- What each point writes back is the result's block at that point. -/
theorem flushed_eq (c : Dev nD) (t : Fin (cfgM m (ok m)).N) :
    (dats m (ok m) (hyps m) 0 c).flushed 0 t = (((cfgM m (ok m)).win 0).blk t).view.read (Elt F) (result m c) := by
  refine funext fun (y : S1x32x16.Idx) => ?_
  have hy : y = ix3 (n0 := 1) (n1 := 32) (n2 := 16) (y 0) (y 1) (y 2) := eq_ix3 (n0 := 1) (n1 := 32) (n2 := 16) y
  have he := Blocks.emb_blk (F := F) (adm m (ok m)) t y
  have h1 : (dats m (ok m) (hyps m) 0 c).flushed 0 t y = outsAt0 m (ok m) (hyps m) c t y :=
    congrFun (after0_0 m (ok m) (hyps m) c t) y
  have h2 : (((cfgM m (ok m)).win 0).blk t).view.read (Elt F) (result m c) y
      = result m c ((((cfgM m (ok m)).win 0).blk t).view.emb y) := rfl
  exact h1.trans (((congrArg (outsAt0 m (ok m) (hyps m) c t) hy).trans (outsAt_eq m c t (y 0) (y 1) (y 2))).trans
    ((congrArg (result m c) he).symm.trans h2.symm))

/-- So the result array ends holding the result. -/
theorem final (c : Dev nD) : (dats m (ok m) (hyps m) 0 c).arrAt 0 (cfgM m (ok m)).N = result m c :=
  Blocks.final_of (adm m (ok m)) c (dats m (ok m) (hyps m) 0 c) (result m c) (flushed_eq m c)

/-- The run, read: the result array at the rows the specification's table names, the arguments unchanged. -/
theorem run : θ_run defs (onTc (τ := τ) (main (F := F))) ⟨m, fun _ => 0, ρ⟩ (fun r => ∀ c : Dev nD,
      r.2.mem ((c.tc : Thread nD τ).loc main_v17) = Cert.Spec.rowsAt (m ((c.tc : Thread nD τ).loc main_arg0))
          (Cert.Spec.idxOf (F := F) (m ((c.tc : Thread nD τ).loc main_arg1))) (Cert.Spec.idxOf_lt _)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => by
    refine ⟨?_, ((h c).2 main_arg0 (by decide : main_arg0 ∈ Pipeline.restRefs sig spec0)).trans (V_main_arg0 m c),
      ((h c).2 main_arg1 (by decide : main_arg1 ∈ Pipeline.restRefs sig spec0)).trans (V_main_arg1 m c)⟩
    refine (((h c).1 0).trans (final m c)).trans ?_
    obtain rfl : c = 0 := Subsingleton.elim _ _
    exact rowsAt_congr (V_main_arg0 m 0) (tbl_eq m)) (run_main m ρ (ok m) (hyps m))

end Cert.KernelIdeal.KValue

end
-- ==== Proof.RefOps.lean ====
/-
  The reference program as a line of operations. Its @main is a straight line of 98 host operations once the functions it
  calls are opened at their calls; the line is cut into six stretches, each computing one named stage of the result from
  what the stretches before it left: the sorted positions, the counts, the reduced row, the looked-up positions, the index
  table, the rows. Here: the six lists, @main as their concatenation run in order, and the run of the whole line as the
  fold of the operations' results over the launch contents.
-/
import proofs.«139401_j62989990363749_1_alg».proof.ReferenceIdeal
import proofs.«139401_j62989990363749_1_alg».proof.Proof.Gen.ReferenceIdeal
import Idealize.ShloMosaic.Lib.StableHlo.Run
import Idealize.ShloMosaic.Adequacy
import Idealize.ShloMosaic.Init

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The line, in six stretches -/

/-- The positives, the keys and the sorted positions: the comparison with one half, `_where`'s three operations, `argsort`'s three. -/
abbrev opsA : List (HloOp τ sig (Elt F)) :=
  [ nullary main_cst (constant S_ .f32 0x3F000000#32),
    unary main_cst main_v0 (broadcastInDim S32x262144 ![] bcast_S_S32x262144 : (⟨S_, .f32⟩ : BufTy).Contents (Elt F) → (⟨S32x262144, .f32⟩ : BufTy).Contents (Elt F)),
    binary main_arg1 main_v0 main_v1 (cmpf .ogt : (⟨S32x262144, .f32⟩ : BufTy).Contents (Elt F) → (⟨S32x262144, .f32⟩ : BufTy).Contents (Elt F) → (⟨S32x262144, .i1⟩ : BufTy).Contents (Elt F)),
    nullary main_c (constantI S_ 32 0#32),
    nullary main_c_0 (constantI S_ 32 1#32),
    TRef.unary (.of main_c : TRef sig ⟨S_, .i32⟩) main_call0.v0 (broadcastInDim S32x262144 ![] bcast_S_S32x262144),
    TRef.unary (.of main_c_0 : TRef sig ⟨S_, .i32⟩) main_call0.v1 (broadcastInDim S32x262144 ![] bcast_S_S32x262144),
    TRef.ternary (.of main_v1 : TRef sig ⟨S32x262144, .i1⟩) main_call0.v0 main_call0.v1 main_call0.v2 select,
    TRef.nullary main_call1.v0 (iotaInDim S32x262144 32 1),
    TRef.binary (.of main_v2 : TRef sig ⟨S32x262144, .i32⟩) main_call1.v0 main_call1.v1_0 (fun x y => (Host.sort2 S32x262144 1 comparator_i32_i32_d1 x y).1),
    TRef.binary (.of main_v2 : TRef sig ⟨S32x262144, .i32⟩) main_call1.v0 main_call1.v1_1 (fun x y => (Host.sort2 S32x262144 1 comparator_i32_i32_d1 x y).2) ]

/-- The counts, `max count 1` as a column, and `0 … P − 1` as a row. -/
abbrev opsB : List (HloOp τ sig (Elt F)) :=
  [ unary main_v1 main_v4 ((extui 32 · natLt_1_32) : (⟨S32x262144, .i1⟩ : BufTy).Contents (Elt F) → (⟨S32x262144, .i32⟩ : BufTy).Contents (Elt F)),
    nullary main_c_1 (constantI S_ 32 0#32),
    binary main_v4 main_c_1 main_v5 ((fun x v => Host.reduce IntOp.addi x v reducesTo_S32x262144_S32_d1 h_S_) : (⟨S32x262144, .i32⟩ : BufTy).Contents (Elt F) → (⟨S_, .i32⟩ : BufTy).Contents (Elt F) → (⟨S32, .i32⟩ : BufTy).Contents (Elt F)),
    nullary main_c_2 (constantI S_ 32 1#32),
    unary main_c_2 main_v6 (broadcastInDim S32 ![] bcast_S_S32 : (⟨S_, .i32⟩ : BufTy).Contents (Elt F) → (⟨S32, .i32⟩ : BufTy).Contents (Elt F)),
    binary main_v5 main_v6 main_v7 (maxsi : (⟨S32, .i32⟩ : BufTy).Contents (Elt F) → (⟨S32, .i32⟩ : BufTy).Contents (Elt F) → (⟨S32, .i32⟩ : BufTy).Contents (Elt F)),
    nullary main_v8 (iotaInDim S2048 32 0),
    unary main_v8 main_v9 (broadcastInDim S1x2048 ![1] bcast_S2048_S1x2048_1 : (⟨S2048, .i32⟩ : BufTy).Contents (Elt F) → (⟨S1x2048, .i32⟩ : BufTy).Contents (Elt F)),
    unary main_v7 main_v10 (broadcastInDim S32x1 ![0] bcast_S32_S32x1_0 : (⟨S32, .i32⟩ : BufTy).Contents (Elt F) → (⟨S32x1, .i32⟩ : BufTy).Contents (Elt F)) ]

/-- `remainder`'s operations (its `_where_0` one of them): the row reduced modulo the column. -/
abbrev opsC : List (HloOp τ sig (Elt F)) :=
  [ TRef.nullary main_call2.c (constantI S_ 32 0#32),
    TRef.unary main_call2.c main_call2.v0 (broadcastInDim S32x1 ![] bcast_S_S32x1),
    TRef.binary (.of main_v10 : TRef sig ⟨S32x1, .i32⟩) main_call2.v0 main_call2.v1 (cmpi .eq),
    TRef.nullary main_call2.c_0 (constantI S_ 32 1#32),
    TRef.unary main_call2.c_0 main_call2.v2 (broadcastInDim S32x1 ![] bcast_S_S32x1),
    TRef.ternary main_call2.v1 main_call2.v2 (.of main_v10 : TRef sig ⟨S32x1, .i32⟩) main_call2.call0.v0 select,
    TRef.unary (.of main_v9 : TRef sig ⟨S1x2048, .i32⟩) main_call2.v4 (broadcastInDim S32x2048 ![0, 1] bcast_S1x2048_S32x2048_0_1),
    TRef.unary main_call2.call0.v0 main_call2.v5 (broadcastInDim S32x2048 ![0, 1] bcast_S32x1_S32x2048_0_1),
    TRef.binary main_call2.v4 main_call2.v5 main_call2.v6 Host.remsi,
    TRef.nullary main_call2.c_1 (constantI S_ 32 0#32),
    TRef.unary main_call2.c_1 main_call2.v7 (broadcastInDim S32x2048 ![] bcast_S_S32x2048),
    TRef.binary main_call2.v6 main_call2.v7 main_call2.v8 (cmpi .ne),
    TRef.nullary main_call2.c_2 (constantI S_ 32 0#32),
    TRef.unary main_call2.c_2 main_call2.v9 (broadcastInDim S32x2048 ![] bcast_S_S32x2048),
    TRef.binary main_call2.v6 main_call2.v9 main_call2.v10 (cmpi .slt),
    TRef.nullary main_call2.c_3 (constantI S_ 32 0#32),
    TRef.unary main_call2.c_3 main_call2.v11 (broadcastInDim S32x1 ![] bcast_S_S32x1),
    TRef.binary main_call2.call0.v0 main_call2.v11 main_call2.v12 (cmpi .slt),
    TRef.unary main_call2.v12 main_call2.v13 (broadcastInDim S32x2048 ![0, 1] bcast_S32x1_S32x2048_0_1),
    TRef.binary main_call2.v10 main_call2.v13 main_call2.v14 (cmpi .ne),
    TRef.binary main_call2.v14 main_call2.v8 main_call2.v15 andi,
    TRef.unary main_call2.call0.v0 main_call2.v16 (broadcastInDim S32x2048 ![0, 1] bcast_S32x1_S32x2048_0_1),
    TRef.binary main_call2.v6 main_call2.v16 main_call2.v17 addi,
    TRef.ternary main_call2.v15 main_call2.v17 main_call2.v6 main_call2.v18 select ]

/-- `take_along_axis`'s operations: the sorted positions looked up at the reduced row. -/
abbrev opsD : List (HloOp τ sig (Elt F)) :=
  [ TRef.nullary main_call3.c (constantI S_ 32 0#32),
    TRef.unary main_call3.c main_call3.v0 (broadcastInDim S32x2048 ![] bcast_S_S32x2048),
    TRef.binary (.of main_v11 : TRef sig ⟨S32x2048, .i32⟩) main_call3.v0 main_call3.v1 (cmpi .slt),
    TRef.nullary main_call3.c_0 (constantI S_ 32 262144#32),
    TRef.unary main_call3.c_0 main_call3.v2 (broadcastInDim S32x2048 ![] bcast_S_S32x2048),
    TRef.binary (.of main_v11 : TRef sig ⟨S32x2048, .i32⟩) main_call3.v2 main_call3.v3 addi,
    TRef.ternary main_call3.v1 main_call3.v3 (.of main_v11 : TRef sig ⟨S32x2048, .i32⟩) main_call3.v4 select,
    TRef.reshape main_call3.v4 main_call3.v5 rfl shapeCasts_S32x2048_S32x2048x1,
    TRef.nullary main_call3.c_1 (constantI S1 32 262143#32),
    TRef.nullary main_call3.c_2 (constantI S_ 32 0#32),
    TRef.unary main_call3.c_2 main_call3.v6 (broadcastInDim S32x2048x1 ![] bcast_S_S32x2048x1),
    TRef.binary main_call3.v5 main_call3.v6 main_call3.v7 (cmpi .sge),
    TRef.unary main_call3.c_1 main_call3.v8 (broadcastInDim S1x1x1 ![2] bcast_S1_S1x1x1_2),
    TRef.unary main_call3.v8 main_call3.v9 (broadcastInDim S32x2048x1 ![0, 1, 2] bcast_S1x1x1_S32x2048x1_0_1_2),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S32x2048x1_S32x2048_d2 h_S_),
    TRef.binary (.of main_v3 : TRef sig ⟨S32x262144, .i32⟩) main_call3.v5 main_call3.v13 (fun x i => Host.gather gather_S32x262144_S32x2048x1_S32x2048_n_1_0_0_1_2_11 x i),
    TRef.nullary main_call3.c_4 (constantI S_ 32 2147483648#32),
    TRef.unary main_call3.c_4 main_call3.v14 (broadcastInDim S32x2048 ![] bcast_S_S32x2048),
    TRef.ternary main_call3.v12 main_call3.v13 main_call3.v14 main_call3.v15 select ]

/-- The test `count > 0` and `_where_1`'s operations: the index table. -/
abbrev opsE : List (HloOp τ sig (Elt F)) :=
  [ unary main_v5 main_v13 (broadcastInDim S32x1 ![0] bcast_S32_S32x1_0 : (⟨S32, .i32⟩ : BufTy).Contents (Elt F) → (⟨S32x1, .i32⟩ : BufTy).Contents (Elt F)),
    nullary main_c_3 (constantI S_ 32 0#32),
    unary main_c_3 main_v14 (broadcastInDim S32x1 ![] bcast_S_S32x1 : (⟨S_, .i32⟩ : BufTy).Contents (Elt F) → (⟨S32x1, .i32⟩ : BufTy).Contents (Elt F)),
    binary main_v13 main_v14 main_v15 (cmpi .sgt : (⟨S32x1, .i32⟩ : BufTy).Contents (Elt F) → (⟨S32x1, .i32⟩ : BufTy).Contents (Elt F) → (⟨S32x1, .i1⟩ : BufTy).Contents (Elt F)),
    nullary main_c_4 (constantI S_ 32 0#32),
    TRef.unary (.of main_c_4 : TRef sig ⟨S_, .i32⟩) main_call4.v0 id,
    TRef.unary (.of main_v15 : TRef sig ⟨S32x1, .i1⟩) main_call4.v1 (broadcastInDim S32x2048 ![0, 1] bcast_S32x1_S32x2048_0_1),
    TRef.unary main_call4.v0 main_call4.v2 (broadcastInDim S32x2048 ![] bcast_S_S32x2048),
    TRef.ternary main_call4.v1 (.of main_v12 : TRef sig ⟨S32x2048, .i32⟩) main_call4.v2 main_call4.v3 select ]

/-- The table with a unit axis, then `take_along_axis_2`'s operations: the rows looked up. -/
abbrev opsF : List (HloOp τ sig (Elt F)) :=
  [ unary main_v16 main_v17 (broadcastInDim S32x2048x1 ![0, 1] bcast_S32x2048_S32x2048x1_0_1 : (⟨S32x2048, .i32⟩ : BufTy).Contents (Elt F) → (⟨S32x2048x1, .i32⟩ : BufTy).Contents (Elt F)),
    TRef.nullary main_call5.c (constantI S_ 32 0#32),
    TRef.unary main_call5.c main_call5.v0 (broadcastInDim S32x2048x1 ![] bcast_S_S32x2048x1),
    TRef.binary (.of main_v17 : TRef sig ⟨S32x2048x1, .i32⟩) main_call5.v0 main_call5.v1 (cmpi .slt),
    TRef.nullary main_call5.c_0 (constantI S_ 32 262144#32),
    TRef.unary main_call5.c_0 main_call5.v2 (broadcastInDim S32x2048x1 ![] bcast_S_S32x2048x1),
    TRef.binary (.of main_v17 : TRef sig ⟨S32x2048x1, .i32⟩) main_call5.v2 main_call5.v3 addi,
    TRef.ternary main_call5.v1 main_call5.v3 (.of main_v17 : TRef sig ⟨S32x2048x1, .i32⟩) main_call5.v4 select,
    TRef.nullary main_call5.c_1 (constantI S1 32 262143#32),
    TRef.nullary main_call5.c_2 (constantI S_ 32 0#32),
    TRef.unary main_call5.c_2 main_call5.v5 (broadcastInDim S32x2048x1 ![] bcast_S_S32x2048x1),
    TRef.binary main_call5.v4 main_call5.v5 main_call5.v6 (cmpi .sge),
    TRef.unary main_call5.c_1 main_call5.v7 (broadcastInDim S1x1x1 ![2] bcast_S1_S1x1x1_2),
    TRef.unary main_call5.v7 main_call5.v8 (broadcastInDim S32x2048x1 ![0, 1, 2] bcast_S1x1x1_S32x2048x1_0_1_2),
    TRef.binary main_call5.v4 main_call5.v8 main_call5.v9 (cmpi .sle),
    TRef.binary main_call5.v6 main_call5.v9 main_call5.v10 andi,
    TRef.nullary main_call5.c_3 (constantI S_ 1 1#1),
    TRef.binary main_call5.v10 main_call5.c_3 main_call5.v11 (fun x v => Host.reduce IntOp.andi x v reducesTo_S32x2048x1_S32x2048_d2 h_S_),
    TRef.binary (.of main_arg0 : TRef sig ⟨S32x262144x16, .f32⟩) main_call5.v4 main_call5.v12 (fun x i => Host.gather gather_S32x262144x16_S32x2048x1_S32x2048x16_2_1_0_0_1_2_1116 x i),
    TRef.unary main_call5.v11 main_call5.v13 (broadcastInDim S32x2048x16 ![0, 1] bcast_S32x2048_S32x2048x16_0_1),
    TRef.nullary main_call5.cst (constant S_ .f32 0x7FC00000#32),
    TRef.unary main_call5.cst main_call5.v14 (broadcastInDim S32x2048x16 ![] bcast_S_S32x2048x16),
    TRef.ternary main_call5.v13 main_call5.v12 main_call5.v14 main_call5.v15 select ]

/-- @main's 98 operations, in order: the six stretches one after the other. -/
abbrev ops : List (HloOp τ sig (Elt F)) := opsA ++ (opsB ++ (opsC ++ (opsD ++ (opsE ++ opsF))))

set_option maxRecDepth 4096 in
set_option maxHeartbeats 2000000 in
/-- @main is that straight line: the functions' definitions opened at their calls and the records at their fields, both sides
    are one chain of steps once sequencing is re-associated. -/
theorem main_eq (c : Dev nD) : main (F := F) c = seq ops := by
  simp only [main, fn_where.body, fn_argsort.body, fn_where_0.body, fn_remainder.body, fn_take_along_axis.body,
    fn_where_1.body, fn_take_along_axis_2.body, ops, opsA, opsB, opsC, opsD, opsE, opsF, List.cons_append, List.nil_append,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., binary_bufs_sub .., nullary_bufs_sub .., nullary_bufs_sub .., unary_bufs_sub .., unary_bufs_sub .., ternary_bufs_sub .., nullary_bufs_sub .., binary_bufs_sub .., binary_bufs_sub ..⟩
theorem opsA_fresh : ∀ op ∈ (opsA : List (HloOp τ sig (Elt F))), op.fresh = ∅ := by
  intro _ h; (repeat (cases h with | head => rfl | tail _ h => ?_)); exact nomatch h

theorem opsB_sub : (opsB : List (HloOp τ sig (Elt F))).Forall fun op => op.bufs ⊆ tcRefs τ sig :=
  ⟨unary_bufs_sub .., nullary_bufs_sub .., binary_bufs_sub .., nullary_bufs_sub .., unary_bufs_sub .., binary_bufs_sub .., nullary_bufs_sub .., unary_bufs_sub .., unary_bufs_sub ..⟩
theorem opsB_fresh : ∀ op ∈ (opsB : List (HloOp τ sig (Elt F))), op.fresh = ∅ := by
  intro _ h; (repeat (cases h with | head => rfl | tail _ h => ?_)); exact nomatch h

theorem opsC_sub : (opsC : List (HloOp τ sig (Elt F))).Forall fun op => op.bufs ⊆ tcRefs τ sig :=
  ⟨nullary_bufs_sub .., unary_bufs_sub .., binary_bufs_sub .., nullary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., unary_bufs_sub .., binary_bufs_sub .., ternary_bufs_sub ..⟩
theorem opsC_fresh : ∀ op ∈ (opsC : List (HloOp τ sig (Elt F))), op.fresh = ∅ := by
  intro _ h; (repeat (cases h with | head => rfl | tail _ h => ?_)); exact nomatch h

theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem opsD_fresh : ∀ op ∈ (opsD : List (HloOp τ sig (Elt F))), op.fresh = ∅ := by
  intro _ h; (repeat (cases h with | head => rfl | tail _ h => ?_)); exact nomatch h

theorem opsE_sub : (opsE : List (HloOp τ sig (Elt F))).Forall fun op => op.bufs ⊆ tcRefs τ sig :=
  ⟨unary_bufs_sub .., nullary_bufs_sub .., unary_bufs_sub .., binary_bufs_sub .., nullary_bufs_sub .., unary_bufs_sub .., unary_bufs_sub .., unary_bufs_sub .., ternary_bufs_sub ..⟩
theorem opsE_fresh : ∀ op ∈ (opsE : List (HloOp τ sig (Elt F))), op.fresh = ∅ := by
  intro _ h; (repeat (cases h with | head => rfl | tail _ h => ?_)); exact nomatch h

theorem opsF_sub : (opsF : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem opsF_fresh : ∀ op ∈ (opsF : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_append.2 ⟨opsA_sub, List.forall_append.2 ⟨opsB_sub, List.forall_append.2 ⟨opsC_sub,
    List.forall_append.2 ⟨opsD_sub, List.forall_append.2 ⟨opsE_sub, opsF_sub⟩⟩⟩⟩⟩

theorem ops_fresh : ∀ op ∈ (ops : List (HloOp τ sig (Elt F))), op.fresh = ∅ := by
  intro op h
  rcases List.mem_append.1 h with h | h; · exact opsA_fresh op h
  rcases List.mem_append.1 h with h | h; · exact opsB_fresh op h
  rcases List.mem_append.1 h with h | h; · exact opsC_fresh op h
  rcases List.mem_append.1 h with h | h; · exact opsD_fresh op h
  rcases List.mem_append.1 h with h | h; · exact opsE_fresh op h
  exact opsF_fresh op h

/-- The contents after two lines run one after the other: the second's, from the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- On every device, from any memory with zero counters: every weakly fair execution of @main terminates with each buffer
    at the line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## The typed references' transports are the identity

A function's operations read and write their buffers through a transport along "the buffer's type is the value's type"; at a
literal buffer that equation holds by computation and the transport is the identity. -/

/-- Reading back through the transport what was written through it. -/
theorem ofBuf_toBuf {T : BufTy} (x : TRef sig T) (v : T.Contents (Elt F)) : x.ofBuf (x.toBuf v) = v := by
  obtain ⟨r, h, _, _⟩ := x; subst h; rfl

theorem of_v1 (v : (⟨S32x262144, .i1⟩ : BufTy).Contents (Elt F)) : ((.of main_v1 : TRef sig ⟨S32x262144, .i1⟩)).ofBuf v = v := rfl
theorem of_c (v : (⟨S_, .i32⟩ : BufTy).Contents (Elt F)) : ((.of main_c : TRef sig ⟨S_, .i32⟩)).ofBuf v = v := rfl
theorem of_c_0 (v : (⟨S_, .i32⟩ : BufTy).Contents (Elt F)) : ((.of main_c_0 : TRef sig ⟨S_, .i32⟩)).ofBuf v = v := rfl
theorem of_v2 (v : (⟨S32x262144, .i32⟩ : BufTy).Contents (Elt F)) : ((.of main_v2 : TRef sig ⟨S32x262144, .i32⟩)).ofBuf v = v := rfl
theorem of_v9 (v : (⟨S1x2048, .i32⟩ : BufTy).Contents (Elt F)) : ((.of main_v9 : TRef sig ⟨S1x2048, .i32⟩)).ofBuf v = v := rfl
theorem of_v10 (v : (⟨S32x1, .i32⟩ : BufTy).Contents (Elt F)) : ((.of main_v10 : TRef sig ⟨S32x1, .i32⟩)).ofBuf v = v := rfl
theorem of_v3 (v : (⟨S32x262144, .i32⟩ : BufTy).Contents (Elt F)) : ((.of main_v3 : TRef sig ⟨S32x262144, .i32⟩)).ofBuf v = v := rfl
theorem of_v11 (v : (⟨S32x2048, .i32⟩ : BufTy).Contents (Elt F)) : ((.of main_v11 : TRef sig ⟨S32x2048, .i32⟩)).ofBuf v = v := rfl
theorem of_v15 (v : (⟨S32x1, .i1⟩ : BufTy).Contents (Elt F)) : ((.of main_v15 : TRef sig ⟨S32x1, .i1⟩)).ofBuf v = v := rfl
theorem of_v12 (v : (⟨S32x2048, .i32⟩ : BufTy).Contents (Elt F)) : ((.of main_v12 : TRef sig ⟨S32x2048, .i32⟩)).ofBuf v = v := rfl
theorem of_c_4 (v : (⟨S_, .i32⟩ : BufTy).Contents (Elt F)) : ((.of main_c_4 : TRef sig ⟨S_, .i32⟩)).ofBuf v = v := rfl
theorem of_arg0 (v : (⟨S32x262144x16, .f32⟩ : BufTy).Contents (Elt F)) : ((.of main_arg0 : TRef sig ⟨S32x262144x16, .f32⟩)).ofBuf v = v := rfl
theorem of_v17 (v : (⟨S32x2048x1, .i32⟩ : BufTy).Contents (Elt F)) : ((.of main_v17 : TRef sig ⟨S32x2048x1, .i32⟩)).ofBuf v = v := rfl
theorem of_call3_v5 (v : (⟨S32x2048x1, .i32⟩ : BufTy).Contents (Elt F)) : ((main_call3.v5 : TRef sig ⟨S32x2048x1, .i32⟩)).ofBuf v = v := rfl
theorem to_call3_v4 (v : (⟨S32x2048, .i32⟩ : BufTy).Contents (Elt F)) : ((main_call3.v4 : TRef sig ⟨S32x2048, .i32⟩)).toBuf v = v := rfl
theorem to_call0_v2 (v : (⟨S32x262144, .i32⟩ : BufTy).Contents (Elt F)) : ((main_call0.v2 : TRef sig ⟨S32x262144, .i32⟩)).toBuf v = v := rfl
theorem to_call1_v1_1 (v : (⟨S32x262144, .i32⟩ : BufTy).Contents (Elt F)) : ((main_call1.v1_1 : TRef sig ⟨S32x262144, .i32⟩)).toBuf v = v := rfl
theorem to_call2_v18 (v : (⟨S32x2048, .i32⟩ : BufTy).Contents (Elt F)) : ((main_call2.v18 : TRef sig ⟨S32x2048, .i32⟩)).toBuf v = v := rfl
theorem to_call3_v15 (v : (⟨S32x2048, .i32⟩ : BufTy).Contents (Elt F)) : ((main_call3.v15 : TRef sig ⟨S32x2048, .i32⟩)).toBuf v = v := rfl
theorem to_call4_v3 (v : (⟨S32x2048, .i32⟩ : BufTy).Contents (Elt F)) : ((main_call4.v3 : TRef sig ⟨S32x2048, .i32⟩)).toBuf v = v := rfl
theorem to_call5_v15 (v : (⟨S32x2048x16, .f32⟩ : BufTy).Contents (Elt F)) : ((main_call5.v15 : TRef sig ⟨S32x2048x16, .f32⟩)).toBuf v = v := rfl

end Cert.ReferenceIdeal.RefValue

end
-- ==== Proof.RefSpec.lean ====
/-
  The reference's last step, as ONE function of the point cloud and the index table: the table gets a unit axis, a negative
  entry is wrapped by the number of rows N, the entry is tested against [0, N − 1], the rows are looked up (each start index
  clamped into range, as a gather clamps), and where the test fails the row is replaced by the fill value. For a table whose
  entries are below N the wrap is not taken, the test holds and the clamp is the identity: the result is the row the table
  names, channel by channel ("refTake_eq").
-/
import Idealize.ShloMosaic.Lib.ValueIdx
import Idealize.ShloMosaic.Lib.IdealHost
import Idealize.ShloMosaic.Lib.ReduceAll
import Idealize.ShloMosaic.Lib.Pipeline.Value
import proofs.«139401_j62989990363749_1_alg».proof.Proof.IdxSpec
import proofs.«139401_j62989990363749_1_alg».proof.Proof.GatherSpec

noncomputable section

namespace Cert.Spec

open Idealize.ShloMosaic Idealize.ShloMosaic.ValueIdx

/-- The row lookup's dimension numbers: operand [B, N, C], start indices [B, P, 1], result [B, P, C]; batched along axis 0,
    the start index on axis 1, the whole channel axis taken. -/
def rowsTake : GatherDims SBxNxC SBxPx1 SBxPxC where
  offsetDims := [2]
  collapsedSliceDims := [1]
  operandBatchingDims := [0]
  startIndicesBatchingDims := [0]
  startIndexMap := [1]
  indexVectorDim := 2
  sliceSizes := ![1, 1, 16]
  wf := by decide

variable {F : FTy → Type} [FloatOps F]

/-- The table with a unit axis, a negative entry wrapped by N. -/
def refIx (idx : (⟨SBxP, .i32⟩ : BufTy).Contents (Elt F)) : (⟨SBxPx1, .i32⟩ : BufTy).Contents (Elt F) :=
  select
    (cmpi .slt (broadcastInDim SBxPx1 ![0, 1] (by decide) idx) (broadcastInDim SBxPx1 ![] (by decide) (constantI S0 32 0#32)))
    (addi (broadcastInDim SBxPx1 ![0, 1] (by decide) idx) (broadcastInDim SBxPx1 ![] (by decide) (constantI S0 32 262144#32)))
    (broadcastInDim SBxPx1 ![0, 1] (by decide) idx)

/-- Whether the wrapped entry lies in [0, N − 1]. -/
def refOk (idx : (⟨SBxP, .i32⟩ : BufTy).Contents (Elt F)) : (⟨SBxP, .i1⟩ : BufTy).Contents (Elt F) :=
  Host.reduce IntOp.andi
    (andi (cmpi .sge (refIx (F := F) idx) (broadcastInDim SBxPx1 ![] (by decide) (constantI S0 32 0#32)))
      (cmpi .sle (refIx (F := F) idx)
        (broadcastInDim SBxPx1 ![0, 1, 2] (by decide) (broadcastInDim S1x1x1 ![2] (by decide) (constantI S1 32 262143#32)))))
    (constantI S0 1 1#1) (by decide : SBxPx1.ReducesTo [2] SBxP) (by decide)

/-- THE REFERENCE'S LAST STEP: the rows looked up at the wrapped entries, the fill value where the entry is out of range. -/
def refTake (pc : (⟨SBxNxC, .f32⟩ : BufTy).Contents (Elt F)) (idx : (⟨SBxP, .i32⟩ : BufTy).Contents (Elt F)) :
    (⟨SBxPxC, .f32⟩ : BufTy).Contents (Elt F) :=
  select (broadcastInDim SBxPxC ![0, 1] (by decide) (refOk (F := F) idx))
    (Host.gather rowsTake pc (refIx (F := F) idx))
    (broadcastInDim SBxPxC ![] (by decide) (constant S0 .f32 0x7FC00000#32))

/-! ## Words below N -/

/-- A 32-bit word below N = 2¹⁸ reads the same signed and unsigned. -/
theorem toInt_of_lt {x : BitVec 32} (h : x.toNat < 262144) : x.toInt = (x.toNat : Int) := by
  rw [BitVec.toInt_eq_toNat_cond, if_pos (by omega)]

/-- Such a word is not negative … -/
theorem slt_zero_of_lt {x : BitVec 32} (h : x.toNat < 262144) : IntOp.cmpi .slt x 0#32 = 0#1 := by
  refine eq_zero_of_ne_one fun e => ?_
  have e' := IntOp.cmpi_slt.1 e
  rw [toInt_of_lt h] at e'
  have : (0#32 : BitVec 32).toInt = 0 := by decide
  omega

/-- … it is at least zero … -/
theorem sge_zero_of_lt {x : BitVec 32} (h : x.toNat < 262144) : IntOp.cmpi .sge x 0#32 = 1#1 := by
  refine IntOp.cmpi_sge.2 ?_
  rw [toInt_of_lt h]
  have : (0#32 : BitVec 32).toInt = 0 := by decide
  omega

/-- … and at most N − 1. -/
theorem sle_top_of_lt {x : BitVec 32} (h : x.toNat < 262144) : IntOp.cmpi .sle x 262143#32 = 1#1 := by
  refine IntOp.cmpi_sle.2 ?_
  rw [toInt_of_lt h]
  have : (262143#32 : BitVec 32).toInt = 262143 := by decide
  omega

/-! ## The steps read at an index -/

/-- A 1-bit "and" of ones is one. -/
theorem andi_one_one : IntOp.andi 1#1 1#1 = 1#1 := by decide

/-- A reduction by "and" of an array of ones, from one, is one everywhere. -/
theorem reduce_andi_ones {s t u : Shape} {axes : List (Fin s.rank)} (x : s.Idx → BitVec 1) (init : u.Idx → BitVec 1)
    (hr : s.ReducesTo axes t) (hu : 0 < u.numel) (hx : ∀ i, x i = 1#1) (hi : ∀ i, init i = 1#1) (j : t.Idx) :
    Host.reduce IntOp.andi x init hr hu j = 1#1 := by
  rw [Host.reduce_eq_foldl, hi]
  generalize (((List.finRange s.numel).map s.rowMajor.symm).filter fun i => hr.drop i = j) = l
  induction l with
  | nil => rfl
  | cons a l ih => rw [List.foldl_cons, hx a, andi_one_one]; exact ih

/-- The table with its unit axis reads the table. -/
theorem bcastIx_apply (idx : (⟨SBxP, .i32⟩ : BufTy).Contents (Elt F)) (b : Fin 32) (p : Fin 2048) (u : Fin 1) :
    broadcastInDim SBxPx1 ![0, 1] (by decide) idx (ix3 b p u) = idx (ix2 b p) := by
  refine broadcastInDim_apply _ _ _ _ (ix2 b p) fun a => ?_
  match a with
  | ⟨0, _⟩ => rfl
  | ⟨1, _⟩ => rfl

/-- For a table with entries below N the wrap is not taken: the wrapped entry is the entry. -/
theorem refIx_apply (idx : (⟨SBxP, .i32⟩ : BufTy).Contents (Elt F)) (h : ∀ j, (idx j).toNat < 262144)
    (b : Fin 32) (p : Fin 2048) (u : Fin 1) : refIx (F := F) idx (ix3 b p u) = idx (ix2 b p) := by
  unfold refIx
  rw [select_apply]
  show Scalar.select (IntOp.cmpi .slt (broadcastInDim SBxPx1 ![0, 1] _ idx (ix3 b p u)) 0#32) _ _ = _
  rw [bcastIx_apply, slt_zero_of_lt (h _), select_zero]

/-- … and it passes the range test. -/
theorem refOk_apply (idx : (⟨SBxP, .i32⟩ : BufTy).Contents (Elt F)) (h : ∀ j, (idx j).toNat < 262144) (j : SBxP.Idx) :
    refOk (F := F) idx j = 1#1 := by
  unfold refOk
  refine reduce_andi_ones _ _ _ _ (fun i => ?_) (fun _ => rfl) j
  obtain ⟨b, p, u, rfl⟩ : ∃ (b : Fin 32) (p : Fin 2048) (u : Fin 1), i = ix3 b p u := ⟨i 0, i 1, i 2, eq_ix3 i⟩
  show IntOp.andi (IntOp.cmpi .sge (refIx (F := F) idx (ix3 b p u)) 0#32) (IntOp.cmpi .sle (refIx (F := F) idx (ix3 b p u)) 262143#32) = 1#1
  rw [refIx_apply idx h, sge_zero_of_lt (h _), sle_top_of_lt (h _), andi_one_one]

/-- THE ROW LOOKUP READ AT (b, p, ch): the operand at batch b, at the start index [b, p, 0] read signed and clamped into
    [0, N − 1], at channel ch. -/
theorem rowsTake_apply {α : Type} {w : Nat} (pc : SBxNxC.Idx → α) (iv : IVec SBxPx1 w) (b : Fin 32) (p : Fin 2048) (ch : Fin 16) :
    Host.gather rowsTake pc iv (ix3 b p ch)
      = pc (ix3 b ⟨min (iv (ix3 b p (0 : Fin 1))).toInt.toNat 262143, by omega⟩ ch) := by
  unfold Host.gather
  refine congrArg pc (funext fun a => Fin.ext ?_)
  match a with
  | ⟨0, _⟩ =>
    show rowsTake.start (ix3 b p ch) iv 0 + rowsTake.batchCoord (ix3 b p ch) 0 + rowsTake.offCoord (ix3 b p ch) 0 = b.val
    rw [GatherDims.start_batching _ _ _ _ (show (0 : Fin 3) ∈ rowsTake.operandBatchingDims from List.mem_singleton.mpr rfl),
      GatherDims.offCoord_eq_zero _ _ _ (fun hm => ((GatherDims.mem_sKept _ _).mp hm).2 (List.mem_singleton.mpr rfl))]
    unfold GatherDims.batchCoord
    rw [dif_pos (show (0 : Fin 3) ∈ rowsTake.operandBatchingDims from List.mem_singleton.mpr rfl), Nat.zero_add, Nat.add_zero]
    rfl
  | ⟨1, _⟩ =>
    show rowsTake.start (ix3 b p ch) iv 1 + rowsTake.batchCoord (ix3 b p ch) 1 + rowsTake.offCoord (ix3 b p ch) 1 = _
    rw [GatherDims.batchCoord_eq_zero _ _ _ (show (1 : Fin 3) ∉ rowsTake.operandBatchingDims by decide),
      GatherDims.offCoord_eq_zero _ _ _ (fun hm => ((GatherDims.mem_sKept _ _).mp hm).1 (List.mem_singleton.mpr rfl))]
    simp only [Nat.add_zero]
    unfold GatherDims.start
    rw [dif_pos (show (1 : Fin 3) ∈ rowsTake.startIndexMap from List.mem_singleton.mpr rfl)]
    have hsi : rowsTake.siIdx (ix3 b p ch) ⟨List.idxOf (1 : Fin 3) rowsTake.startIndexMap,
        List.idxOf_lt_length_iff.2 (List.mem_singleton.mpr rfl)⟩ = ix3 b p (0 : Fin 1) := by
      funext c; refine Fin.ext ?_
      match c with
      | ⟨0, _⟩ => rfl
      | ⟨1, _⟩ => rfl
      | ⟨2, _⟩ => rfl
    rw [hsi]
    rfl
  | ⟨2, _⟩ =>
    show rowsTake.start (ix3 b p ch) iv 2 + rowsTake.batchCoord (ix3 b p ch) 2 + rowsTake.offCoord (ix3 b p ch) 2 = ch.val
    rw [GatherDims.batchCoord_eq_zero _ _ _ (show (2 : Fin 3) ∉ rowsTake.operandBatchingDims by decide)]
    unfold GatherDims.start
    rw [dif_neg (show (2 : Fin 3) ∉ rowsTake.startIndexMap by decide)]
    unfold GatherDims.offCoord
    rw [dif_pos (show (2 : Fin 3) ∈ rowsTake.sKept from (GatherDims.mem_sKept _ _).mpr ⟨by decide, by decide⟩)]
    simp only [Nat.zero_add]
    rfl

/-! ## The reference's last step is the row lookup -/

/-- For a table whose entries are below N, the reference's last step gives row idx[b, p] of batch b, channel by channel. -/
theorem refTake_eq (pc : (⟨SBxNxC, .f32⟩ : BufTy).Contents (Elt F)) (idx : (⟨SBxP, .i32⟩ : BufTy).Contents (Elt F))
    (h : ∀ j, (idx j).toNat < 262144) : refTake (F := F) pc idx = rowsAt pc idx h := by
  funext j
  obtain ⟨b, p, ch, rfl⟩ : ∃ (b : Fin 32) (p : Fin 2048) (ch : Fin 16), j = ix3 b p ch := ⟨j 0, j 1, j 2, eq_ix3 j⟩
  rw [rowsAt_ix3]
  unfold refTake
  rw [select_apply]
  have hok : broadcastInDim SBxPxC ![0, 1] (by decide) (refOk (F := F) idx) (ix3 b p ch) = 1#1 := by
    rw [broadcastInDim_apply _ _ _ _ (ix2 b p) (fun a => by match a with | ⟨0, _⟩ => rfl | ⟨1, _⟩ => rfl)]
    exact refOk_apply idx h _
  rw [hok, select_one, rowsTake_apply]
  refine congrArg pc ?_
  have hv : min (refIx (F := F) idx (ix3 b p (0 : Fin 1))).toInt.toNat 262143 = (idx (ix2 b p)).toNat := by
    rw [refIx_apply idx h]
    have hlt := h (ix2 b p)
    have e := toInt_of_lt hlt
    omega
  funext a; refine Fin.ext ?_
  match a with
  | ⟨0, _⟩ => rfl
  | ⟨1, _⟩ => exact hv
  | ⟨2, _⟩ => rfl

end Cert.Spec

end
-- ==== Proof.RefRun.lean ====
/-
  The reference program's run. The line of 98 operations is cut into six stretches (the module of the operations). Each
  stretch is read back on its own, from ANY contents of the buffers, as one named stage of the index table — or, the last,
  the row lookup — applied to the values it reads; the stretches' equations composed give the whole line: the result buffer
  ends at "Cert.Spec.refTake" of the point cloud and "Cert.Spec.idxOf" of the mask, the two arguments unchanged.
-/
import proofs.«139401_j62989990363749_1_alg».proof.Proof.RefOps
import proofs.«139401_j62989990363749_1_alg».proof.Proof.RefSpec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## Each stretch read back, from any contents of the buffers

A stretch's result buffer ends at the stage's term of what the stretch reads; a buffer it does not write keeps its contents.
The transports of the typed references are removed first (each is the identity), so that the two spellings of a stage are
compared operation by operation; the sort, the reductions, the lookups and the remainder stay folded meanwhile. -/

section Stages

variable (W : Valuation τ sig (Elt F))

attribute [local irreducible] Host.sort2 Host.reduce Host.gather Host.remsi

/-- Where the mask exceeds one half. -/
theorem A_v1 : after opsA W (Proc.devRef .tc main_v1) = Cert.Spec.pos (F := F) (W (Proc.devRef .tc main_arg1)) := by
  unfold opsA; after_results_simp <;> rfl

/-- Each row's positions, the positives first. -/
theorem A_v3 : after opsA W (Proc.devRef .tc main_v3) = Cert.Spec.order (F := F) (W (Proc.devRef .tc main_arg1)) := by
  unfold opsA; after_results_simp
  simp only [ofBuf_toBuf, of_v1, of_c, of_c_0, of_v2, of_v9, of_v10, of_v3, of_v11, of_v15, of_v12, of_c_4, of_arg0, of_v17, of_call3_v5, to_call3_v4, to_call0_v2, to_call1_v1_1, to_call2_v18, to_call3_v15, to_call4_v3, to_call5_v15]
  rfl

/-- Each row's number of positives. -/
theorem B_v5 (mask : (⟨Cert.Spec.SBxN, .f32⟩ : BufTy).Contents (Elt F)) (h1 : W (Proc.devRef .tc main_v1) = Cert.Spec.pos (F := F) mask) :
    after opsB W (Proc.devRef .tc main_v5) = Cert.Spec.count (F := F) mask := by
  unfold opsB; after_results_simp; rw [h1]; rfl

/-- "max count 1" as a column. -/
theorem B_v10 (mask : (⟨Cert.Spec.SBxN, .f32⟩ : BufTy).Contents (Elt F)) (h1 : W (Proc.devRef .tc main_v1) = Cert.Spec.pos (F := F) mask) :
    after opsB W (Proc.devRef .tc main_v10) = Cert.Spec.safe (F := F) mask := by
  unfold opsB; after_results_simp; rw [h1]; rfl

/-- "0 … P − 1" as a row. -/
theorem B_v9 : after opsB W (Proc.devRef .tc main_v9) = Cert.Spec.js (F := F) := by
  unfold opsB; after_results_simp <;> rfl

/-- The row reduced modulo the column. -/
theorem C_v11 (mask : (⟨Cert.Spec.SBxN, .f32⟩ : BufTy).Contents (Elt F)) (h9 : W (Proc.devRef .tc main_v9) = Cert.Spec.js (F := F))
    (h10 : W (Proc.devRef .tc main_v10) = Cert.Spec.safe (F := F) mask) :
    after opsC W (Proc.devRef .tc main_v11) = Cert.Spec.col (F := F) mask := by
  unfold opsC; after_results_simp; rw [h9, h10]
  simp only [ofBuf_toBuf, of_v1, of_c, of_c_0, of_v2, of_v9, of_v10, of_v3, of_v11, of_v15, of_v12, of_c_4, of_arg0, of_v17, of_call3_v5, to_call3_v4, to_call0_v2, to_call1_v1_1, to_call2_v18, to_call3_v15, to_call4_v3, to_call5_v15]
  rfl

/-- The sorted positions looked up at the reduced row. -/
theorem D_v12 (mask : (⟨Cert.Spec.SBxN, .f32⟩ : BufTy).Contents (Elt F)) (h3 : W (Proc.devRef .tc main_v3) = Cert.Spec.order (F := F) mask)
    (h11 : W (Proc.devRef .tc main_v11) = Cert.Spec.col (F := F) mask) :
    after opsD W (Proc.devRef .tc main_v12) = Cert.Spec.taken (F := F) mask := by
  unfold opsD; after_results_simp; rw [h3, h11]
  simp only [ofBuf_toBuf, of_v1, of_c, of_c_0, of_v2, of_v9, of_v10, of_v3, of_v11, of_v15, of_v12, of_c_4, of_arg0, of_v17, of_call3_v5, to_call3_v4, to_call0_v2, to_call1_v1_1, to_call2_v18, to_call3_v15, to_call4_v3, to_call5_v15]
  rfl

/-- The index table. -/
theorem E_v16 (mask : (⟨Cert.Spec.SBxN, .f32⟩ : BufTy).Contents (Elt F)) (h5 : W (Proc.devRef .tc main_v5) = Cert.Spec.count (F := F) mask)
    (h12 : W (Proc.devRef .tc main_v12) = Cert.Spec.taken (F := F) mask) :
    after opsE W (Proc.devRef .tc main_v16) = Cert.Spec.idxOf (F := F) mask := by
  unfold opsE; after_results_simp; rw [h5, h12]
  simp only [ofBuf_toBuf, of_v1, of_c, of_c_0, of_v2, of_v9, of_v10, of_v3, of_v11, of_v15, of_v12, of_c_4, of_arg0, of_v17, of_call3_v5, to_call3_v4, to_call0_v2, to_call1_v1_1, to_call2_v18, to_call3_v15, to_call4_v3, to_call5_v15]
  rfl

/-- The rows looked up at the table. -/
theorem F_v18 : after opsF W (Proc.devRef .tc main_v18) = Cert.Spec.refTake (F := F) (W (Proc.devRef .tc main_arg0)) (W (Proc.devRef .tc main_v16)) := by
  unfold opsF; after_results_simp
  simp only [ofBuf_toBuf, of_v1, of_c, of_c_0, of_v2, of_v9, of_v10, of_v3, of_v11, of_v15, of_v12, of_c_4, of_arg0, of_v17, of_call3_v5, to_call3_v4, to_call0_v2, to_call1_v1_1, to_call2_v18, to_call3_v15, to_call4_v3, to_call5_v15]
  rfl

/-! ### What a stretch does not write -/

theorem A_arg0 : after opsA W (Proc.devRef .tc main_arg0) = W (Proc.devRef .tc main_arg0) := by
  unfold opsA; after_results_simp
theorem A_arg1 : after opsA W (Proc.devRef .tc main_arg1) = W (Proc.devRef .tc main_arg1) := by
  unfold opsA; after_results_simp
theorem B_arg0 : after opsB W (Proc.devRef .tc main_arg0) = W (Proc.devRef .tc main_arg0) := by
  unfold opsB; after_results_simp
theorem B_arg1 : after opsB W (Proc.devRef .tc main_arg1) = W (Proc.devRef .tc main_arg1) := by
  unfold opsB; after_results_simp
theorem C_arg0 : after opsC W (Proc.devRef .tc main_arg0) = W (Proc.devRef .tc main_arg0) := by
  unfold opsC; after_results_simp
theorem C_arg1 : after opsC W (Proc.devRef .tc main_arg1) = W (Proc.devRef .tc main_arg1) := by
  unfold opsC; after_results_simp
theorem D_arg0 : after opsD W (Proc.devRef .tc main_arg0) = W (Proc.devRef .tc main_arg0) := by
  unfold opsD; after_results_simp
theorem D_arg1 : after opsD W (Proc.devRef .tc main_arg1) = W (Proc.devRef .tc main_arg1) := by
  unfold opsD; after_results_simp
theorem E_arg0 : after opsE W (Proc.devRef .tc main_arg0) = W (Proc.devRef .tc main_arg0) := by
  unfold opsE; after_results_simp
theorem E_arg1 : after opsE W (Proc.devRef .tc main_arg1) = W (Proc.devRef .tc main_arg1) := by
  unfold opsE; after_results_simp
theorem F_arg0 : after opsF W (Proc.devRef .tc main_arg0) = W (Proc.devRef .tc main_arg0) := by
  unfold opsF; after_results_simp
theorem F_arg1 : after opsF W (Proc.devRef .tc main_arg1) = W (Proc.devRef .tc main_arg1) := by
  unfold opsF; after_results_simp
theorem B_v3 : after opsB W (Proc.devRef .tc main_v3) = W (Proc.devRef .tc main_v3) := by
  unfold opsB; after_results_simp
theorem C_v3 : after opsC W (Proc.devRef .tc main_v3) = W (Proc.devRef .tc main_v3) := by
  unfold opsC; after_results_simp
theorem C_v5 : after opsC W (Proc.devRef .tc main_v5) = W (Proc.devRef .tc main_v5) := by
  unfold opsC; after_results_simp
theorem D_v5 : after opsD W (Proc.devRef .tc main_v5) = W (Proc.devRef .tc main_v5) := by
  unfold opsD; after_results_simp

end Stages

/-! ## The whole line -/

/-- The result buffer after the whole line: the rows of the point cloud looked up at the index table of the mask. -/
theorem out_eq (V : Valuation τ sig (Elt F)) :
    after ops V (Proc.devRef .tc main_v18) = Cert.Spec.refTake (F := F) (V (Proc.devRef .tc main_arg0)) (Cert.Spec.idxOf (F := F) (V (Proc.devRef .tc main_arg1))) := by
  unfold ops
  rw [after_app, after_app, after_app, after_app, after_app]
  have a1 := A_v1 V; have a3 := A_v3 V; have a0 := A_arg0 V
  generalize after opsA V = VA at a1 a3 a0 ⊢
  have b5 := B_v5 VA _ a1; have b10 := B_v10 VA _ a1; have b9 := B_v9 VA
  have b3 := (B_v3 VA).trans a3; have b0 := (B_arg0 VA).trans a0
  clear a1 a3 a0
  generalize after opsB VA = VB at b5 b10 b9 b3 b0 ⊢
  have c11 := C_v11 VB _ b9 b10
  have c3 := (C_v3 VB).trans b3; have c5 := (C_v5 VB).trans b5; have c0 := (C_arg0 VB).trans b0
  clear b5 b10 b9 b3 b0
  generalize after opsC VB = VC at c11 c3 c5 c0 ⊢
  have d12 := D_v12 VC _ c3 c11
  have d5 := (D_v5 VC).trans c5; have d0 := (D_arg0 VC).trans c0
  clear c11 c3 c5 c0
  generalize after opsD VC = VD at d12 d5 d0 ⊢
  have e16 := E_v16 VD _ d5 d12
  have e0 := (E_arg0 VD).trans d0
  clear d12 d5 d0
  generalize after opsE VD = VE at e16 e0 ⊢
  rw [F_v18 VE, e0, e16]

/-- The first argument is not written. -/
theorem arg0_eq (V : Valuation τ sig (Elt F)) : after ops V (Proc.devRef .tc main_arg0) = V (Proc.devRef .tc main_arg0) := by
  unfold ops
  rw [after_app, after_app, after_app, after_app, after_app, F_arg0, E_arg0, D_arg0, C_arg0, B_arg0, A_arg0]

/-- The second argument is not written. -/
theorem arg1_eq (V : Valuation τ sig (Elt F)) : after ops V (Proc.devRef .tc main_arg1) = V (Proc.devRef .tc main_arg1) := by
  unfold ops
  rw [after_app, after_app, after_app, after_app, after_app, F_arg1, E_arg1, D_arg1, C_arg1, B_arg1, A_arg1]

/-- At the ideal instance, on every device, from any memory with zero counters: every weakly fair execution of @main
    terminates with the result at the rows of the point cloud looked up at the index table of the mask, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v18) = Cert.Spec.refTake (F := Ideal) (m ((c.tc : Thread nD τ).loc main_arg0)) (Cert.Spec.idxOf (F := Ideal) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun _ h c => ⟨(h c main_v18).trans (out_eq _), (h c main_arg0).trans (arg0_eq _),
      (h c main_arg1).trans (arg1_eq _)⟩)
    (run_main m ρ)

end Cert.ReferenceIdeal.RefValue

end
-- ==== Proof.lean ====
/-
  The certificate's claim, assembled.

  Frames. The two kernels' frame theorems hold under the side conditions the body assumes of the words it loads from the
  index table (each addresses an existing row of the point cloud); those hold of the table the program computes, whatever
  the inputs, because every entry is a sorted position of a row of the mask or zero. The reference's frame is read off its run.

  Values. The kernel's result and the reference's result are the same function of the point cloud and the index table:
  result row (b, p) is row idx[b, p] of batch b of the point cloud. The reference's last step guards the lookup by a range
  test that every entry of the table passes, so it is that function too.
-/
import proofs.«139401_j62989990363749_1_alg».proof.Defs
import proofs.«139401_j62989990363749_1_alg».proof.Proof.Gen.Kernel
import proofs.«139401_j62989990363749_1_alg».proof.Proof.Gen.KernelIdeal
import proofs.«139401_j62989990363749_1_alg».proof.Proof.Gen.ReferenceIdeal
import proofs.«139401_j62989990363749_1_alg».proof.Proof.Gen.Pre_finite_inputs
import proofs.«139401_j62989990363749_1_alg».proof.Proof.KernelFrame
import proofs.«139401_j62989990363749_1_alg».proof.Proof.KernelIdealFrame
import proofs.«139401_j62989990363749_1_alg».proof.Proof.KernelHyps
import proofs.«139401_j62989990363749_1_alg».proof.Proof.KernelIdealHyps
import proofs.«139401_j62989990363749_1_alg».proof.Proof.KernelIdealValue
import proofs.«139401_j62989990363749_1_alg».proof.Proof.RefRun
import proofs.«139401_j62989990363749_1_alg».proof.Proof.RefSpec
import proofs.«139401_j62989990363749_1_alg».proof.Proof.IdxRange
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ (Cert.Kernel.HypsProof.ok m) (Cert.Kernel.HypsProof.hyps m),
  fun m ρ _ => Cert.KernelIdeal.GenP.frame m ρ (Cert.KernelIdeal.HypsProof.ok m) (Cert.KernelIdeal.HypsProof.hyps m),
  fun m ρ _ => (θ_run (Cert.ReferenceIdeal.defs (F := Ideal)) _ _).mono (fun _ h c => (h c).2) (Cert.ReferenceIdeal.RefValue.run m ρ),
  trivial,
  fun m g m' g' _ hag =>
    ⟨fun c => Cert.Spec.rowsAt (m ((c.tc : Thread Cert.KernelIdeal.nD Cert.KernelIdeal.τ).loc Cert.KernelIdeal.main_arg0))
        (Cert.Spec.idxOf (F := Ideal) (m ((c.tc : Thread Cert.KernelIdeal.nD Cert.KernelIdeal.τ).loc Cert.KernelIdeal.main_arg1)))
        (Cert.Spec.idxOf_lt _),
      Cert.KernelIdeal.KValue.run m g,
      (θ_run (Cert.ReferenceIdeal.defs (F := Ideal)) _ _).mono (fun _ h c => by
        obtain ⟨h1, h2, h3⟩ := h c
        refine ⟨?_, h2, h3⟩
        rw [h1, (hag c).1, (hag c).2]
        exact Cert.Spec.refTake_eq _ _ (Cert.Spec.idxOf_lt _)) (Cert.ReferenceIdeal.RefValue.run m' g')⟩⟩

end Cert.Proof

end
